-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2048 : Shape := ⟨1, ![2048]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S2x2048x1024 .f32) (main_arg1 : IVec S2048 32) (main_arg2 : FVec F S1024x1024 .f32) (main_arg3 : FVec F S1024x1024 .f32) (main_arg4 : FVec F S1024x1024 .f32) (main_arg5 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S2x2048x1024 : Shape := ⟨3, ![2, 2048, 1024]⟩
abbrev S2048 : Shape := ⟨1, ![2048]⟩
abbrev S1024x1024 : Shape := ⟨2, ![1024, 1024]⟩
abbrev S64 : Shape := ⟨1, ![64]⟩
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x2048x64 : Shape := ⟨3, ![1, 2048, 64]⟩
abbrev S64x1 : Shape := ⟨2, ![64, 1]⟩
abbrev S32x64x2048 : Shape := ⟨3, ![32, 64, 2048]⟩
abbrev S1x1024x64 : Shape := ⟨3, ![1, 1024, 64]⟩
abbrev S1x64x512 : Shape := ⟨3, ![1, 64, 512]⟩
abbrev S1x512x64 : Shape := ⟨3, ![1, 512, 64]⟩
abbrev S1024x1 : Shape := ⟨2, ![1024, 1]⟩
abbrev S1024x64 : Shape := ⟨2, ![1024, 64]⟩
abbrev S64x512 : Shape := ⟨2, ![64, 512]⟩
abbrev S1024x512 : Shape := ⟨2, ![1024, 512]⟩
abbrev S1024 : Shape := ⟨1, ![1024]⟩
abbrev S512x64 : Shape := ⟨2, ![512, 64]⟩

abbrev nBuf : Space → Nat
  | .hbm => 139
  | .vmem => 22
  | .smem => 0
  | _ => 0

abbrev hbmTy0_0 (i : Nat) : BufTy := match i % 128 with
  | 0 => ⟨S2x2048x1024, .f32⟩
  | 1 => ⟨S2048, .i32⟩
  | 2 => ⟨S1024x1024, .f32⟩
  | 3 => ⟨S1024x1024, .f32⟩
  | 4 => ⟨S1024x1024, .f32⟩
  | 5 => ⟨S1024x1024, .f32⟩
  | 6 => ⟨S64, .i32⟩
  | 7 => ⟨S64, .i1⟩
  | 8 => ⟨S64, .i1⟩
  | 9 => ⟨S4096x1024, .f32⟩
  | 10 => ⟨S1024x1024, .f32⟩
  | 11 => ⟨S1024x1024, .f32⟩
  | 12 => ⟨S1024x1024, .f32⟩
  | 13 => ⟨S1024x3072, .f32⟩
  | 14 => ⟨S4096x1024, .bf16⟩
  | 15 => ⟨S1024x3072, .bf16⟩
  | 16 => ⟨S4096x3072, .bf16⟩
  | 17 => ⟨S4096x1024, .bf16⟩
  | 18 => ⟨S4096x1024, .bf16⟩
  | 19 => ⟨S4096x1024, .bf16⟩
  | 20 => ⟨S2x2048x16x64, .bf16⟩
  | 21 => ⟨S2x16x2048x64, .bf16⟩
  | 22 => ⟨S32x2048x64, .bf16⟩
  | 23 => ⟨S2x2048x16x64, .bf16⟩
  | 24 => ⟨S2x16x2048x64, .bf16⟩
  | 25 => ⟨S32x2048x64, .bf16⟩
  | 26 => ⟨S2x2048x16x64, .bf16⟩
  | 27 => ⟨S2x16x2048x64, .bf16⟩
  | 28 => ⟨S32x2048x64, .bf16⟩
  | 29 => ⟨S64, .i32⟩
  | 30 => ⟨S_, .i32⟩
  | 31 => ⟨S_, .i32⟩
  | 32 => ⟨S64, .i32⟩
  | 33 => ⟨S64, .i32⟩
  | 34 => ⟨S64, .i32⟩
  | 35 => ⟨S_, .i32⟩
  | 36 => ⟨S64, .i32⟩
  | 37 => ⟨S64, .i1⟩
  | 38 => ⟨S64, .i32⟩
  | 39 => ⟨S64, .i32⟩
  | 40 => ⟨S_, .i32⟩
  | 41 => ⟨S64, .i32⟩
  | 42 => ⟨S64, .i1⟩
  | 43 => ⟨S64, .i1⟩
  | 44 => ⟨S_, .i32⟩
  | 45 => ⟨S64, .i32⟩
  | 46 => ⟨S64, .i32⟩
  | 47 => ⟨S64, .i32⟩
  | 48 => ⟨S2048x1, .i32⟩
  | 49 => ⟨S2048x1, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S1x64, .f32⟩
  | 61 => ⟨S2048x64, .f32⟩
  | 62 => ⟨S2048x64, .f32⟩
  | 63 => ⟨S2048x64, .f32⟩
  | 64 => ⟨S2048x64, .f32⟩
  | 65 => ⟨S2048x64, .f32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S64, .i32⟩
  | 73 => ⟨S64, .i32⟩
  | 74 => ⟨S_, .i32⟩
  | 75 => ⟨S64, .i32⟩
  | 76 => ⟨S64, .i1⟩
  | 77 => ⟨S_, .i32⟩
  | 78 => ⟨S64, .i32⟩
  | 79 => ⟨S64, .i1⟩
  | 80 => ⟨S_, .i32⟩
  | 81 => ⟨S_, .i1⟩
  | 82 => ⟨S64, .i1⟩
  | 83 => ⟨S64, .i1⟩
  | 84 => ⟨S64, .i1⟩
  | 85 => ⟨S64, .i32⟩
  | 86 => ⟨S64, .i32⟩
  | 87 => ⟨S64, .i32⟩
  | 88 => ⟨S_, .i32⟩
  | 89 => ⟨S64, .i32⟩
  | 90 => ⟨S64, .i1⟩
  | 91 => ⟨S_, .f32⟩
  | 92 => ⟨S_, .f32⟩
  | 93 => ⟨S64, .f32⟩
  | 94 => ⟨S64, .f32⟩
  | 95 => ⟨S64, .f32⟩
  | 96 => ⟨S64, .f32⟩
  | 97 => ⟨S1x64, .f32⟩
  | 98 => ⟨S2048x64, .f32⟩
  | 99 => ⟨S2048x64, .f32⟩
  | 100 => ⟨S32x2048x64, .f32⟩
  | 101 => ⟨S32x2048x64, .f32⟩
  | 102 => ⟨S1x2048x64, .f32⟩
  | 103 => ⟨S32x2048x64, .f32⟩
  | 104 => ⟨S32x2048x64, .f32⟩
  | 105 => ⟨S_, .i32⟩
  | 106 => ⟨S64, .i32⟩
  | 107 => ⟨S64, .i32⟩
  | 108 => ⟨S64, .i32⟩
  | 109 => ⟨S64x1, .i32⟩
  | 110 => ⟨S32x2048x64, .f32⟩
  | 111 => ⟨S1x2048x64, .f32⟩
  | 112 => ⟨S32x2048x64, .f32⟩
  | 113 => ⟨S32x2048x64, .f32⟩
  | 114 => ⟨S32x2048x64, .f32⟩
  | 115 => ⟨S32x2048x64, .bf16⟩
  | 116 => ⟨S1x2048x64, .f32⟩
  | 117 => ⟨S32x2048x64, .f32⟩
  | 118 => ⟨S32x2048x64, .f32⟩
  | 119 => ⟨S_, .i32⟩
  | 120 => ⟨S64, .i32⟩
  | 121 => ⟨S64, .i32⟩
  | 122 => ⟨S64, .i32⟩
  | 123 => ⟨S64x1, .i32⟩
  | 124 => ⟨S32x2048x64, .f32⟩
  | 125 => ⟨S1x2048x64, .f32⟩
  | 126 => ⟨S32x2048x64, .f32⟩
  | 127 => ⟨S32x2048x64, .f32⟩
  | _ => ⟨S2x2048x1024, .f32⟩

abbrev hbmTy0_1 (i : Nat) : BufTy := match i % 128 with
  | 0 => ⟨S32x2048x64, .f32⟩
  | 1 => ⟨S32x2048x64, .bf16⟩
  | 2 => ⟨S32x64x2048, .bf16⟩
  | 3 => ⟨S32x2048x64, .bf16⟩
  | 4 => ⟨S2x16x2048x64, .bf16⟩
  | 5 => ⟨S2x2048x16x64, .bf16⟩
  | 6 => ⟨S4096x1024, .bf16⟩
  | 7 => ⟨S1024x1024, .f32⟩
  | 8 => ⟨S1024x1024, .bf16⟩
  | 9 => ⟨S4096x1024, .f32⟩
  | 10 => ⟨S2x2048x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x64x512, .bf16⟩
  | .local _ .vmem, ⟨9, _⟩ => ⟨S1x64x512, .bf16⟩
  | .local _ .vmem, ⟨10, _⟩ => ⟨S1x512x64, .bf16⟩
  | .local _ .vmem, ⟨11, _⟩ => ⟨S1x512x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1024x1, .f32⟩
  | .local _ .vmem, ⟨15, _⟩ => ⟨S1024x1, .f32⟩
  | .local _ .vmem, ⟨16, _⟩ => ⟨S1024x64, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_cst_4 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_5 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_1 : Ref sig .tc := ⟨.hbm, 74, rfl⟩
abbrev main_call1_v5 : Ref sig .tc := ⟨.hbm, 75, rfl⟩
abbrev main_call1_v6 : Ref sig .tc := ⟨.hbm, 76, rfl⟩
abbrev main_call1_c_2 : Ref sig .tc := ⟨.hbm, 77, rfl⟩
abbrev main_call1_v7 : Ref sig .tc := ⟨.hbm, 78, rfl⟩
abbrev main_call1_v8 : Ref sig .tc := ⟨.hbm, 79, rfl⟩
abbrev main_call1_c_3 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_v37 : Ref sig .tc := ⟨.hbm, 87, rfl⟩
abbrev main_c_6 : Ref sig .tc := ⟨.hbm, 88, rfl⟩
abbrev main_v38 : Ref sig .tc := ⟨.hbm, 89, rfl⟩
abbrev main_v39 : Ref sig .tc := ⟨.hbm, 90, rfl⟩
abbrev main_cst_7 : Ref sig .tc := ⟨.hbm, 91, rfl⟩
abbrev main_cst_8 : Ref sig .tc := ⟨.hbm, 92, rfl⟩
abbrev main_call2_v0 : Ref sig .tc := ⟨.hbm, 93, rfl⟩
abbrev main_call2_v1 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_c_9 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_10 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![32, 2, 4], ![false, false, false]⟩

def k1_cond3 (i : grid1.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_3 : BitVec 32 := 0#32
  let v12 : BitVec 1 := Scalar.cmpi .ne v11 c0_i32_3
  v12

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.addi v0 c1024_i32_0
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, c0_i32_6.toNat, v20.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let c1024_i32_0 : BitVec 32 := 1024#32
  let v1 : BitVec 32 := Scalar.addi v0 c1024_i32_0
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c512_i32 c0_i32_2
  let v10 : BitVec 32 := Scalar.extui v9
  let c0_i32_3 : BitVec 32 := 0#32
  let v11 : BitVec 1 := Scalar.cmpi .slt c512_i32 c0_i32_3
  let v12 : BitVec 32 := Scalar.extui v11
  let v13 : BitVec 32 := Scalar.subi v10 v12
  let v14 : BitVec 1 := Scalar.cmpi .ne v8 v13
  let v15 : BitVec 32 := Scalar.remsi v2 c512_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let v20 : BitVec 32 := Scalar.minsi arg2 v19
  let c0_i32_6 : BitVec 32 := 0#32
  let c0_i32_7 : BitVec 32 := 0#32
  ![arg0.toNat, v20.toNat, c0_i32_6.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x64x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S2x2048x1024_S4096x1024 : S2x2048x1024.ShapeCasts S4096x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  slices_S4096x3072_S4096x1024_0_0 : S4096x3072.Slices ![0, 0] S4096x1024
  slices_S4096x3072_S4096x1024_0_1024 : S4096x3072.Slices ![0, 1024] S4096x1024
  slices_S4096x3072_S4096x1024_0_2048 : S4096x3072.Slices ![0, 2048] S4096x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  bcast_S_S64 : S_.BroadcastsInDim S64 (![] : Fin 0 → Fin S64.rank)
  bcast_S2048_S2048x1_0 : S2048.BroadcastsInDim S2048x1 (![0] : Fin 1 → Fin S2048x1.rank)
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  bcast_S2048x64_S1x2048x64_1_2 : S2048x64.BroadcastsInDim S1x2048x64 (![1, 2] : Fin 2 → Fin S1x2048x64.rank)
  bcast_S1x2048x64_S32x2048x64_0_1_2 : S1x2048x64.BroadcastsInDim S32x2048x64 (![0, 1, 2] : Fin 3 → Fin S32x2048x64.rank)
  bcast_S64_S64x1_0 : S64.BroadcastsInDim S64x1 (![0] : Fin 1 → Fin S64x1.rank)
  transposes_S32x2048x64_S32x64x2048_0_2_1 : S32x2048x64.Transposes [0, 2, 1] S32x64x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x64 : S1024x1.Broadcasts S1024x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  gather_S32x2048x64_S64x1_S32x2048x64_01_2_n_n_2_1_3220481_wf : GatherDims.WF S32x2048x64 S64x1 S32x2048x64 [0, 1] [2] [] [2] [] 1 ![32, 2048, 1]
  dot_S1024x64_S64x512_S1024x512_1_0_0_1_n_n_wf : DotDims.WF S1024x64 S64x512 S1024x512 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .bf16 = 32 ∨ (Rect.block (s := S4096x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S32x2048x64.size a
  hwx1_0 : ∀ i : grid1.Coords, EltTy.bits .bf16 = 32 ∨ (Rect.block (s := S32x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x512.size a ≤ S32x64x2048.size a
  hwx1_1 : ∀ i : grid1.Coords, EltTy.bits .bf16 = 32 ∨ (Rect.block (s := S32x64x2048) S1x64x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S32x2048x64.size a
  hwx1_2 : ∀ i : grid1.Coords, EltTy.bits .bf16 = 32 ∨ (Rect.block (s := S32x2048x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S32x2048x64.size a
  hwx1_3 : ∀ i : grid1.Coords, EltTy.bits .bf16 = 32 ∨ (Rect.block (s := S32x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def gather_S32x2048x64_S64x1_S32x2048x64_01_2_n_n_2_1_3220481 : GatherDims S32x2048x64 S64x1 S32x2048x64 where
  offsetDims := [0, 1]
  collapsedSliceDims := [2]
  operandBatchingDims := []
  startIndicesBatchingDims := []
  startIndexMap := [2]
  indexVectorDim := 1
  sliceSizes := ![32, 2048, 1]
  wf := gather_S32x2048x64_S64x1_S32x2048x64_01_2_n_n_2_1_3220481_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S1x64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v74) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v77) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S2048 : Shape := ⟨1, ![2048]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S1x1x2048x64 : Shape := ⟨4, ![1, 1, 2048, 64]⟩
abbrev S64x1 : Shape := ⟨2, ![64, 1]⟩
abbrev S2x16x2048x2048 : Shape := ⟨4, ![2, 16, 2048, 2048]⟩
abbrev S2048x2048 : Shape := ⟨2, ![2048, 2048]⟩
abbrev S2x16x2048 : Shape := ⟨3, ![2, 16, 2048]⟩
abbrev S2x16x2048x1 : Shape := ⟨4, ![2, 16, 2048, 1]⟩

abbrev nBuf : Space → Nat
  | .hbm => 292
  | .vmem => 0
  | .smem => 0
  | _ => 0

abbrev hbmTy0_0 (i : Nat) : BufTy := match i % 128 with
  | 0 => ⟨S2x2048x1024, .f32⟩
  | 1 => ⟨S2048, .i32⟩
  | 2 => ⟨S1024x1024, .f32⟩
  | 3 => ⟨S1024x1024, .f32⟩
  | 4 => ⟨S1024x1024, .f32⟩
  | 5 => ⟨S1024x1024, .f32⟩
  | 6 => ⟨S2x2048x1024, .f32⟩
  | 7 => ⟨S2x2048x1024, .f32⟩
  | 8 => ⟨S2x2048x1024, .f32⟩
  | 9 => ⟨S2x2048x16x64, .f32⟩
  | 10 => ⟨S2x16x2048x64, .f32⟩
  | 11 => ⟨S2x2048x16x64, .f32⟩
  | 12 => ⟨S2x16x2048x64, .f32⟩
  | 13 => ⟨S2x2048x16x64, .f32⟩
  | 14 => ⟨S2x16x2048x64, .f32⟩
  | 15 => ⟨S64, .i32⟩
  | 16 => ⟨S_, .i32⟩
  | 17 => ⟨S_, .i32⟩
  | 18 => ⟨S64, .i32⟩
  | 19 => ⟨S64, .i32⟩
  | 20 => ⟨S64, .i32⟩
  | 21 => ⟨S_, .i32⟩
  | 22 => ⟨S64, .i32⟩
  | 23 => ⟨S64, .i1⟩
  | 24 => ⟨S64, .i32⟩
  | 25 => ⟨S64, .i32⟩
  | 26 => ⟨S_, .i32⟩
  | 27 => ⟨S64, .i32⟩
  | 28 => ⟨S64, .i1⟩
  | 29 => ⟨S64, .i1⟩
  | 30 => ⟨S_, .i32⟩
  | 31 => ⟨S64, .i32⟩
  | 32 => ⟨S64, .i32⟩
  | 33 => ⟨S64, .i32⟩
  | 34 => ⟨S2048x1, .i32⟩
  | 35 => ⟨S2048x1, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S1x64, .f32⟩
  | 47 => ⟨S2048x64, .f32⟩
  | 48 => ⟨S2048x64, .f32⟩
  | 49 => ⟨S2048x64, .f32⟩
  | 50 => ⟨S2048x64, .f32⟩
  | 51 => ⟨S2048x64, .f32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S64, .i32⟩
  | 59 => ⟨S64, .i32⟩
  | 60 => ⟨S_, .i32⟩
  | 61 => ⟨S64, .i32⟩
  | 62 => ⟨S64, .i1⟩
  | 63 => ⟨S_, .i32⟩
  | 64 => ⟨S64, .i32⟩
  | 65 => ⟨S64, .i1⟩
  | 66 => ⟨S_, .i32⟩
  | 67 => ⟨S_, .i1⟩
  | 68 => ⟨S64, .i1⟩
  | 69 => ⟨S64, .i1⟩
  | 70 => ⟨S64, .i1⟩
  | 71 => ⟨S64, .i32⟩
  | 72 => ⟨S64, .i32⟩
  | 73 => ⟨S64, .i32⟩
  | 74 => ⟨S_, .i32⟩
  | 75 => ⟨S64, .i32⟩
  | 76 => ⟨S64, .i1⟩
  | 77 => ⟨S_, .f32⟩
  | 78 => ⟨S_, .f32⟩
  | 79 => ⟨S64, .f32⟩
  | 80 => ⟨S64, .f32⟩
  | 81 => ⟨S64, .f32⟩
  | 82 => ⟨S64, .f32⟩
  | 83 => ⟨S1x64, .f32⟩
  | 84 => ⟨S2048x64, .f32⟩
  | 85 => ⟨S2048x64, .f32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S64, .i32⟩
  | 93 => ⟨S64, .i32⟩
  | 94 => ⟨S_, .i32⟩
  | 95 => ⟨S64, .i32⟩
  | 96 => ⟨S64, .i1⟩
  | 97 => ⟨S_, .i32⟩
  | 98 => ⟨S64, .i32⟩
  | 99 => ⟨S64, .i1⟩
  | 100 => ⟨S_, .i32⟩
  | 101 => ⟨S_, .i1⟩
  | 102 => ⟨S64, .i1⟩
  | 103 => ⟨S64, .i1⟩
  | 104 => ⟨S64, .i1⟩
  | 105 => ⟨S64, .i32⟩
  | 106 => ⟨S64, .i32⟩
  | 107 => ⟨S64, .i32⟩
  | 108 => ⟨S_, .i32⟩
  | 109 => ⟨S64, .i32⟩
  | 110 => ⟨S64, .i1⟩
  | 111 => ⟨S_, .i32⟩
  | 112 => ⟨S_, .i32⟩
  | 113 => ⟨S64, .i32⟩
  | 114 => ⟨S64, .i32⟩
  | 115 => ⟨S64, .i32⟩
  | 116 => ⟨S64, .i32⟩
  | 117 => ⟨S64, .i32⟩
  | 118 => ⟨S1x1x2048x64, .f32⟩
  | 119 => ⟨S2x16x2048x64, .f32⟩
  | 120 => ⟨S2x16x2048x64, .f32⟩
  | 121 => ⟨S_, .i32⟩
  | 122 => ⟨S64, .i32⟩
  | 123 => ⟨S64, .i1⟩
  | 124 => ⟨S_, .i32⟩
  | 125 => ⟨S64, .i32⟩
  | 126 => ⟨S64, .i32⟩
  | 127 => ⟨S64, .i32⟩
  | _ => ⟨S2x2048x1024, .f32⟩

abbrev hbmTy0_1 (i : Nat) : BufTy := match i % 128 with
  | 0 => ⟨S64x1, .i32⟩
  | 1 => ⟨S2x16x2048x64, .f32⟩
  | 2 => ⟨S1x1x2048x64, .f32⟩
  | 3 => ⟨S2x16x2048x64, .f32⟩
  | 4 => ⟨S2x16x2048x64, .f32⟩
  | 5 => ⟨S2x16x2048x64, .f32⟩
  | 6 => ⟨S64, .i32⟩
  | 7 => ⟨S_, .i32⟩
  | 8 => ⟨S_, .i32⟩
  | 9 => ⟨S64, .i32⟩
  | 10 => ⟨S64, .i32⟩
  | 11 => ⟨S64, .i32⟩
  | 12 => ⟨S_, .i32⟩
  | 13 => ⟨S64, .i32⟩
  | 14 => ⟨S64, .i1⟩
  | 15 => ⟨S64, .i32⟩
  | 16 => ⟨S64, .i32⟩
  | 17 => ⟨S_, .i32⟩
  | 18 => ⟨S64, .i32⟩
  | 19 => ⟨S64, .i1⟩
  | 20 => ⟨S64, .i1⟩
  | 21 => ⟨S_, .i32⟩
  | 22 => ⟨S64, .i32⟩
  | 23 => ⟨S64, .i32⟩
  | 24 => ⟨S64, .i32⟩
  | 25 => ⟨S2048x1, .i32⟩
  | 26 => ⟨S2048x1, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S1x64, .f32⟩
  | 38 => ⟨S2048x64, .f32⟩
  | 39 => ⟨S2048x64, .f32⟩
  | 40 => ⟨S2048x64, .f32⟩
  | 41 => ⟨S2048x64, .f32⟩
  | 42 => ⟨S2048x64, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S64, .i32⟩
  | 50 => ⟨S64, .i32⟩
  | 51 => ⟨S_, .i32⟩
  | 52 => ⟨S64, .i32⟩
  | 53 => ⟨S64, .i1⟩
  | 54 => ⟨S_, .i32⟩
  | 55 => ⟨S64, .i32⟩
  | 56 => ⟨S64, .i1⟩
  | 57 => ⟨S_, .i32⟩
  | 58 => ⟨S_, .i1⟩
  | 59 => ⟨S64, .i1⟩
  | 60 => ⟨S64, .i1⟩
  | 61 => ⟨S64, .i1⟩
  | 62 => ⟨S64, .i32⟩
  | 63 => ⟨S64, .i32⟩
  | 64 => ⟨S64, .i32⟩
  | 65 => ⟨S_, .i32⟩
  | 66 => ⟨S64, .i32⟩
  | 67 => ⟨S64, .i1⟩
  | 68 => ⟨S_, .f32⟩
  | 69 => ⟨S_, .f32⟩
  | 70 => ⟨S64, .f32⟩
  | 71 => ⟨S64, .f32⟩
  | 72 => ⟨S64, .f32⟩
  | 73 => ⟨S64, .f32⟩
  | 74 => ⟨S1x64, .f32⟩
  | 75 => ⟨S2048x64, .f32⟩
  | 76 => ⟨S2048x64, .f32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S64, .i32⟩
  | 84 => ⟨S64, .i32⟩
  | 85 => ⟨S_, .i32⟩
  | 86 => ⟨S64, .i32⟩
  | 87 => ⟨S64, .i1⟩
  | 88 => ⟨S_, .i32⟩
  | 89 => ⟨S64, .i32⟩
  | 90 => ⟨S64, .i1⟩
  | 91 => ⟨S_, .i32⟩
  | 92 => ⟨S_, .i1⟩
  | 93 => ⟨S64, .i1⟩
  | 94 => ⟨S64, .i1⟩
  | 95 => ⟨S64, .i1⟩
  | 96 => ⟨S64, .i32⟩
  | 97 => ⟨S64, .i32⟩
  | 98 => ⟨S64, .i32⟩
  | 99 => ⟨S_, .i32⟩
  | 100 => ⟨S64, .i32⟩
  | 101 => ⟨S64, .i1⟩
  | 102 => ⟨S_, .i32⟩
  | 103 => ⟨S_, .i32⟩
  | 104 => ⟨S64, .i32⟩
  | 105 => ⟨S64, .i32⟩
  | 106 => ⟨S64, .i32⟩
  | 107 => ⟨S64, .i32⟩
  | 108 => ⟨S64, .i32⟩
  | 109 => ⟨S1x1x2048x64, .f32⟩
  | 110 => ⟨S2x16x2048x64, .f32⟩
  | 111 => ⟨S2x16x2048x64, .f32⟩
  | 112 => ⟨S_, .i32⟩
  | 113 => ⟨S64, .i32⟩
  | 114 => ⟨S64, .i1⟩
  | 115 => ⟨S_, .i32⟩
  | 116 => ⟨S64, .i32⟩
  | 117 => ⟨S64, .i32⟩
  | 118 => ⟨S64, .i32⟩
  | 119 => ⟨S64x1, .i32⟩
  | 120 => ⟨S2x16x2048x64, .f32⟩
  | 121 => ⟨S1x1x2048x64, .f32⟩
  | 122 => ⟨S2x16x2048x64, .f32⟩
  | 123 => ⟨S2x16x2048x64, .f32⟩
  | 124 => ⟨S2x16x2048x64, .f32⟩
  | 125 => ⟨S2x16x2048x2048, .f32⟩
  | 126 => ⟨S_, .f32⟩
  | 127 => ⟨S_, .f32⟩
  | _ => ⟨S2x2048x1024, .f32⟩

abbrev hbmTy0_2 (i : Nat) : BufTy := match i % 128 with
  | 0 => ⟨S2x16x2048x2048, .f32⟩
  | 1 => ⟨S2x16x2048x2048, .f32⟩
  | 2 => ⟨S_, .i1⟩
  | 3 => ⟨S2048x2048, .i1⟩
  | 4 => ⟨S2048x2048, .i32⟩
  | 5 => ⟨S_, .i32⟩
  | 6 => ⟨S2048x2048, .i32⟩
  | 7 => ⟨S2048x2048, .i32⟩
  | 8 => ⟨S2048x2048, .i32⟩
  | 9 => ⟨S2048x2048, .i1⟩
  | 10 => ⟨S_, .i1⟩
  | 11 => ⟨S2048x2048, .i1⟩
  | 12 => ⟨S2048x2048, .i1⟩
  | 13 => ⟨S_, .f32⟩
  | 14 => ⟨S_, .f32⟩
  | 15 => ⟨S2x16x2048x2048, .i1⟩
  | 16 => ⟨S2x16x2048x2048, .f32⟩
  | 17 => ⟨S2x16x2048x2048, .f32⟩
  | 18 => ⟨S_, .f32⟩
  | 19 => ⟨S2x16x2048, .f32⟩
  | 20 => ⟨S_, .f32⟩
  | 21 => ⟨S2x16x2048, .f32⟩
  | 22 => ⟨S2x16x2048, .f32⟩
  | 23 => ⟨S2x16x2048x1, .f32⟩
  | 24 => ⟨S2x16x2048x2048, .f32⟩
  | 25 => ⟨S2x16x2048x2048, .f32⟩
  | 26 => ⟨S2x16x2048x2048, .f32⟩
  | 27 => ⟨S_, .f32⟩
  | 28 => ⟨S2x16x2048, .f32⟩
  | 29 => ⟨S2x16x2048x1, .f32⟩
  | 30 => ⟨S2x16x2048x2048, .f32⟩
  | 31 => ⟨S2x16x2048x2048, .f32⟩
  | 32 => ⟨S2x16x2048x64, .f32⟩
  | 33 => ⟨S2x2048x16x64, .f32⟩
  | 34 => ⟨S2x2048x1024, .f32⟩
  | 35 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_cst_0 : Ref sig .tc := ⟨.hbm, 40, rfl⟩
abbrev main_v16 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_2 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v26 : Ref sig .tc := ⟨.hbm, 73, rfl⟩
abbrev main_c_3 : Ref sig .tc := ⟨.hbm, 74, rfl⟩
abbrev main_v27 : Ref sig .tc := ⟨.hbm, 75, rfl⟩
abbrev main_v28 : Ref sig .tc := ⟨.hbm, 76, rfl⟩
abbrev main_cst_4 : Ref sig .tc := ⟨.hbm, 77, rfl⟩
abbrev main_cst_5 : Ref sig .tc := ⟨.hbm, 78, rfl⟩
abbrev main_call2_v0 : Ref sig .tc := ⟨.hbm, 79, rfl⟩
abbrev main_call2_v1 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_c_6 : Ref sig .tc := ⟨.hbm, 86, rfl⟩
abbrev main_call3_v0 : Ref sig .tc := ⟨.hbm, 87, rfl⟩
abbrev main_call3_c : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_c_1 : Ref sig .tc := ⟨.hbm, 94, rfl⟩
abbrev main_call3_v5 : Ref sig .tc := ⟨.hbm, 95, rfl⟩
abbrev main_call3_v6 : Ref sig .tc := ⟨.hbm, 96, rfl⟩
abbrev main_call3_c_2 : Ref sig .tc := ⟨.hbm, 97, rfl⟩
abbrev main_call3_v7 : Ref sig .tc := ⟨.hbm, 98, rfl⟩
abbrev main_call3_v8 : Ref sig .tc := ⟨.hbm, 99, rfl⟩
abbrev main_call3_c_3 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_v34 : Ref sig .tc := ⟨.hbm, 107, rfl⟩
abbrev main_c_7 : Ref sig .tc := ⟨.hbm, 108, rfl⟩
abbrev main_v35 : Ref sig .tc := ⟨.hbm, 109, rfl⟩
abbrev main_v36 : Ref sig .tc := ⟨.hbm, 110, rfl⟩
abbrev main_c_8 : Ref sig .tc := ⟨.hbm, 111, rfl⟩
abbrev main_c_9 : Ref sig .tc := ⟨.hbm, 112, rfl⟩
abbrev main_call4_v0 : Ref sig .tc := ⟨.hbm, 113, rfl⟩
abbrev main_call4_v1 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_c_10 : Ref sig .tc := ⟨.hbm, 121, rfl⟩
abbrev main_v43 : Ref sig .tc := ⟨.hbm, 122, rfl⟩
abbrev main_v44 : Ref sig .tc := ⟨.hbm, 123, rfl⟩
abbrev main_c_11 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_c_12 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_call5_v5 : Ref sig .tc := ⟨.hbm, 141, rfl⟩
abbrev main_call5_v6 : Ref sig .tc := ⟨.hbm, 142, rfl⟩
abbrev main_call5_v7 : Ref sig .tc := ⟨.hbm, 143, rfl⟩
abbrev main_call5_v8 : Ref sig .tc := ⟨.hbm, 144, rfl⟩
abbrev main_call5_c : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_c_0 : Ref sig .tc := ⟨.hbm, 149, rfl⟩
abbrev main_call5_v12 : Ref sig .tc := ⟨.hbm, 150, rfl⟩
abbrev main_call5_v13 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_cst_13 : Ref sig .tc := ⟨.hbm, 156, rfl⟩
abbrev main_v59 : Ref sig .tc := ⟨.hbm, 157, rfl⟩
abbrev main_v60 : Ref sig .tc := ⟨.hbm, 158, rfl⟩
abbrev main_cst_14 : Ref sig .tc := ⟨.hbm, 159, rfl⟩
abbrev main_v61 : Ref sig .tc := ⟨.hbm, 160, rfl⟩
abbrev main_v62 : Ref sig .tc := ⟨.hbm, 161, rfl⟩
abbrev main_cst_15 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_c_16 : Ref sig .tc := ⟨.hbm, 171, rfl⟩
abbrev main_call6_v0 : Ref sig .tc := ⟨.hbm, 172, rfl⟩
abbrev main_call6_c : Ref sig .tc := ⟨.hbm, 173, rfl⟩
abbrev main_call6_v1 : Ref sig .tc := ⟨.hbm, 174, rfl⟩
abbrev main_call6_c_0 : Ref sig .tc := ⟨.hbm, 175, rfl⟩
abbrev main_call6_v2 : Ref sig .tc := ⟨.hbm, 176, rfl⟩
abbrev main_call6_v3 : Ref sig .tc := ⟨.hbm, 177, rfl⟩
abbrev main_call6_v4 : Ref sig .tc := ⟨.hbm, 178, rfl⟩
abbrev main_call6_c_1 : Ref sig .tc := ⟨.hbm, 179, rfl⟩
abbrev main_call6_v5 : Ref sig .tc := ⟨.hbm, 180, rfl⟩
abbrev main_call6_v6 : Ref sig .tc := ⟨.hbm, 181, rfl⟩
abbrev main_call6_c_2 : Ref sig .tc := ⟨.hbm, 182, rfl⟩
abbrev main_call6_v7 : Ref sig .tc := ⟨.hbm, 183, rfl⟩
abbrev main_call6_v8 : Ref sig .tc := ⟨.hbm, 184, rfl⟩
abbrev main_call6_c_3 : Ref sig .tc := ⟨.hbm, 185, rfl⟩
abbrev main_call6_v9 : Ref sig .tc := ⟨.hbm, 186, rfl⟩
abbrev main_call6_v10 : Ref sig .tc := ⟨.hbm, 187, rfl⟩
abbrev main_call6_v11 : Ref sig .tc := ⟨.hbm, 188, rfl⟩
abbrev main_call6_v12 : Ref sig .tc := ⟨.hbm, 189, rfl⟩
abbrev main_call6_v13 : Ref sig .tc := ⟨.hbm, 190, rfl⟩
abbrev main_call6_v14 : Ref sig .tc := ⟨.hbm, 191, rfl⟩
abbrev main_v71 : Ref sig .tc := ⟨.hbm, 192, rfl⟩
abbrev main_c_17 : Ref sig .tc := ⟨.hbm, 193, rfl⟩
abbrev main_v72 : Ref sig .tc := ⟨.hbm, 194, rfl⟩
abbrev main_v73 : Ref sig .tc := ⟨.hbm, 195, rfl⟩
abbrev main_cst_18 : Ref sig .tc := ⟨.hbm, 196, rfl⟩
abbrev main_cst_19 : Ref sig .tc := ⟨.hbm, 197, rfl⟩
abbrev main_call7_v0 : Ref sig .tc := ⟨.hbm, 198, rfl⟩
abbrev main_call7_v1 : Ref sig .tc := ⟨.hbm, 199, rfl⟩
abbrev main_v74 : Ref sig .tc := ⟨.hbm, 200, rfl⟩
abbrev main_v75 : Ref sig .tc := ⟨.hbm, 201, rfl⟩
abbrev main_v76 : Ref sig .tc := ⟨.hbm, 202, rfl⟩
abbrev main_v77 : Ref sig .tc := ⟨.hbm, 203, rfl⟩
abbrev main_v78 : Ref sig .tc := ⟨.hbm, 204, rfl⟩
abbrev main_c_20 : Ref sig .tc := ⟨.hbm, 205, rfl⟩
abbrev main_call8_v0 : Ref sig .tc := ⟨.hbm, 206, rfl⟩
abbrev main_call8_c : Ref sig .tc := ⟨.hbm, 207, rfl⟩
abbrev main_call8_v1 : Ref sig .tc := ⟨.hbm, 208, rfl⟩
abbrev main_call8_c_0 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_call8_c_1 : Ref sig .tc := ⟨.hbm, 213, rfl⟩
abbrev main_call8_v5 : Ref sig .tc := ⟨.hbm, 214, rfl⟩
abbrev main_call8_v6 : Ref sig .tc := ⟨.hbm, 215, rfl⟩
abbrev main_call8_c_2 : Ref sig .tc := ⟨.hbm, 216, rfl⟩
abbrev main_call8_v7 : Ref sig .tc := ⟨.hbm, 217, rfl⟩
abbrev main_call8_v8 : Ref sig .tc := ⟨.hbm, 218, rfl⟩
abbrev main_call8_c_3 : Ref sig .tc := ⟨.hbm, 219, rfl⟩
abbrev main_call8_v9 : Ref sig .tc := ⟨.hbm, 220, rfl⟩
abbrev main_call8_v10 : Ref sig .tc := ⟨.hbm, 221, rfl⟩
abbrev main_call8_v11 : Ref sig .tc := ⟨.hbm, 222, rfl⟩
abbrev main_call8_v12 : Ref sig .tc := ⟨.hbm, 223, rfl⟩
abbrev main_call8_v13 : Ref sig .tc := ⟨.hbm, 224, rfl⟩
abbrev main_call8_v14 : Ref sig .tc := ⟨.hbm, 225, rfl⟩
abbrev main_v79 : Ref sig .tc := ⟨.hbm, 226, rfl⟩
abbrev main_c_21 : Ref sig .tc := ⟨.hbm, 227, rfl⟩
abbrev main_v80 : Ref sig .tc := ⟨.hbm, 228, rfl⟩
abbrev main_v81 : Ref sig .tc := ⟨.hbm, 229, rfl⟩
abbrev main_c_22 : Ref sig .tc := ⟨.hbm, 230, rfl⟩
abbrev main_c_23 : Ref sig .tc := ⟨.hbm, 231, rfl⟩
abbrev main_call9_v0 : Ref sig .tc := ⟨.hbm, 232, rfl⟩
abbrev main_call9_v1 : Ref sig .tc := ⟨.hbm, 233, rfl⟩
abbrev main_v82 : Ref sig .tc := ⟨.hbm, 234, rfl⟩
abbrev main_v83 : Ref sig .tc := ⟨.hbm, 235, rfl⟩
abbrev main_v84 : Ref sig .tc := ⟨.hbm, 236, rfl⟩
abbrev main_v85 : Ref sig .tc := ⟨.hbm, 237, rfl⟩
abbrev main_v86 : Ref sig .tc := ⟨.hbm, 238, rfl⟩
abbrev main_v87 : Ref sig .tc := ⟨.hbm, 239, rfl⟩
abbrev main_c_24 : Ref sig .tc := ⟨.hbm, 240, rfl⟩
abbrev main_v88 : Ref sig .tc := ⟨.hbm, 241, rfl⟩
abbrev main_v89 : Ref sig .tc := ⟨.hbm, 242, rfl⟩
abbrev main_c_25 : Ref sig .tc := ⟨.hbm, 243, rfl⟩
abbrev main_v90 : Ref sig .tc := ⟨.hbm, 244, rfl⟩
abbrev main_v91 : Ref sig .tc := ⟨.hbm, 245, rfl⟩
abbrev main_v92 : Ref sig .tc := ⟨.hbm, 246, rfl⟩
abbrev main_v93 : Ref sig .tc := ⟨.hbm, 247, rfl⟩
abbrev main_v94 : Ref sig .tc := ⟨.hbm, 248, rfl⟩
abbrev main_v95 : Ref sig .tc := ⟨.hbm, 249, rfl⟩
abbrev main_v96 : Ref sig .tc := ⟨.hbm, 250, rfl⟩
abbrev main_v97 : Ref sig .tc := ⟨.hbm, 251, rfl⟩
abbrev main_v98 : Ref sig .tc := ⟨.hbm, 252, rfl⟩
abbrev main_v99 : Ref sig .tc := ⟨.hbm, 253, rfl⟩
abbrev main_cst_26 : Ref sig .tc := ⟨.hbm, 254, rfl⟩
abbrev main_v100 : Ref sig .tc := ⟨.hbm, 255, rfl⟩
abbrev main_v101 : Ref sig .tc := ⟨.hbm, 256, rfl⟩
abbrev main_v102 : Ref sig .tc := ⟨.hbm, 257, rfl⟩
abbrev main_c_27 : Ref sig .tc := ⟨.hbm, 258, rfl⟩
abbrev main_v103 : Ref sig .tc := ⟨.hbm, 259, rfl⟩
abbrev main_call10_v0 : Ref sig .tc := ⟨.hbm, 260, rfl⟩
abbrev main_call10_c : Ref sig .tc := ⟨.hbm, 261, rfl⟩
abbrev main_call10_v1 : Ref sig .tc := ⟨.hbm, 262, rfl⟩
abbrev main_call10_v2 : Ref sig .tc := ⟨.hbm, 263, rfl⟩
abbrev main_call10_v3 : Ref sig .tc := ⟨.hbm, 264, rfl⟩
abbrev main_call10_v4 : Ref sig .tc := ⟨.hbm, 265, rfl⟩
abbrev main_call10_c_0 : Ref sig .tc := ⟨.hbm, 266, rfl⟩
abbrev main_call10_v5 : Ref sig .tc := ⟨.hbm, 267, rfl⟩
abbrev main_v104 : Ref sig .tc := ⟨.hbm, 268, rfl⟩
abbrev main_cst_28 : Ref sig .tc := ⟨.hbm, 269, rfl⟩
abbrev main_call11_v0 : Ref sig .tc := ⟨.hbm, 270, rfl⟩
abbrev main_call11_v1 : Ref sig .tc := ⟨.hbm, 271, rfl⟩
abbrev main_call11_v2 : Ref sig .tc := ⟨.hbm, 272, rfl⟩
abbrev main_v105 : Ref sig .tc := ⟨.hbm, 273, rfl⟩
abbrev main_cst_29 : Ref sig .tc := ⟨.hbm, 274, rfl⟩
abbrev main_v106 : Ref sig .tc := ⟨.hbm, 275, rfl⟩
abbrev main_cst_30 : Ref sig .tc := ⟨.hbm, 276, rfl⟩
abbrev main_v107 : Ref sig .tc := ⟨.hbm, 277, rfl⟩
abbrev main_v108 : Ref sig .tc := ⟨.hbm, 278, rfl⟩
abbrev main_v109 : Ref sig .tc := ⟨.hbm, 279, rfl⟩
abbrev main_v110 : Ref sig .tc := ⟨.hbm, 280, rfl⟩
abbrev main_v111 : Ref sig .tc := ⟨.hbm, 281, rfl⟩
abbrev main_v112 : Ref sig .tc := ⟨.hbm, 282, rfl⟩
abbrev main_cst_31 : Ref sig .tc := ⟨.hbm, 283, rfl⟩
abbrev main_v113 : Ref sig .tc := ⟨.hbm, 284, rfl⟩
abbrev main_v114 : Ref sig .tc := ⟨.hbm, 285, rfl⟩
abbrev main_v115 : Ref sig .tc := ⟨.hbm, 286, rfl⟩
abbrev main_v116 : Ref sig .tc := ⟨.hbm, 287, rfl⟩
abbrev main_v117 : Ref sig .tc := ⟨.hbm, 288, rfl⟩
abbrev main_v118 : Ref sig .tc := ⟨.hbm, 289, rfl⟩
abbrev main_v119 : Ref sig .tc := ⟨.hbm, 290, rfl⟩
abbrev main_v120 : Ref sig .tc := ⟨.hbm, 291, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S64 : S_.BroadcastsInDim S64 (![] : Fin 0 → Fin S64.rank)
  bcast_S2048_S2048x1_0 : S2048.BroadcastsInDim S2048x1 (![0] : Fin 1 → Fin S2048x1.rank)
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  bcast_S2048x64_S1x1x2048x64_2_3 : S2048x64.BroadcastsInDim S1x1x2048x64 (![2, 3] : Fin 2 → Fin S1x1x2048x64.rank)
  bcast_S1x1x2048x64_S2x16x2048x64_0_1_2_3 : S1x1x2048x64.BroadcastsInDim S2x16x2048x64 (![0, 1, 2, 3] : Fin 4 → Fin S2x16x2048x64.rank)
  bcast_S64_S64x1_0 : S64.BroadcastsInDim S64x1 (![0] : Fin 1 → Fin S64x1.rank)
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  gather_S2x16x2048x64_S64x1_S2x16x2048x64_012_3_n_n_3_1_21620481_wf : GatherDims.WF S2x16x2048x64 S64x1 S2x16x2048x64 [0, 1, 2] [3] [] [3] [] 1 ![2, 16, 2048, 1]
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def gather_S2x16x2048x64_S64x1_S2x16x2048x64_012_3_n_n_3_1_21620481 : GatherDims S2x16x2048x64 S64x1 S2x16x2048x64 where
  offsetDims := [0, 1, 2]
  collapsedSliceDims := [3]
  operandBatchingDims := []
  startIndicesBatchingDims := []
  startIndexMap := [3]
  indexVectorDim := 1
  sliceSizes := ![2, 16, 2048, 1]
  wf := gather_S2x16x2048x64_S64x1_S2x16x2048x64_012_3_n_n_3_1_21620481_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KMatmulRegion0.lean ====
/- Region 0 of the program: the pallas_call of a matrix product on whole blocks. The body reads the
   left block (512x1024) and the right block (1024x1024) through their whole rectangles, forms one
   value from the two and stores it over the whole output block. This file gives, at any contents `V`
   of the TensorCore's buffers when the region is entered: each window's block at a grid point, the
   contents the single store leaves in the output buffer as a function of the two input blocks, the
   triple of the body, the proof data of the pipeline and its body obligation. -/
import proofs.«155122_j66666482368602_2_alg».proof.Proof.Gen.Kernel.Launch
import proofs.«155122_j66666482368602_2_alg».proof.Proof.Gen.Kernel.Skeleton
import proofs.«155122_j66666482368602_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the whole rectangle of a 512x1024 block is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what the TensorCore's buffers hold when the region is entered
variable (V : (c : Dev nD) → (b : Ref sig .tc) → Buf (Elt F) ((c : Thread nD τ).loc b))

/-! ## The blocks of the three windows -/

/-- The block of window `w` at grid point `t`: the part of the window's array, as the region finds it,
    that the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the left block of the point at every point. The body never
    writes it, so where the pipeline does not fetch it the block index is the one of the point before
    and the buffer still holds the right block. Stated for any proof data with array `V`'s and with
    the block left in place by the body. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand, whose block changes only with the outer grid coordinate: between two
    fetches the index map is constant, so the buffer keeps holding the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each block whole -/

abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-! ## What the store leaves in the output buffer -/

/-- The output buffer after the body, from the two input blocks: one store over the whole block, of the
    product of the two blocks as the body computes it. -/
def out0_2 (x0 : Vec F S512x1024 .bf16) (x1 : Vec F S1024x1024 .bf16) : Vec F S512x1024 .bf16 :=
  View.canon [⟨rX0, k0_pay1 (View.ld x0 rX0) (View.ld x1 rW0)⟩]

/-- The single store's rectangle is the whole block, so every index of the buffer lies under it. -/
theorem cover0_2 (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

/-! ## The triple of the body -/

set_option maxHeartbeats 1000000 in
/-- The body, called on whole staging memrefs that hold `x0` and `x1` (as read contents) and an output
    memref holding anything, ends with the two inputs as they were and the output at `out0_2 x0 x1`.
    The grid coordinates it is passed are not used. -/
theorem sound_kernel0 (c : Dev nD) (E : Set ℕ) (i : grid0.Coords)
    (arg0 : Memref sig .tc .vmem S512x1024 .bf16) (harg0 : arg0.IsWhole)
    (arg1 : Memref sig .tc .vmem S1024x1024 .bf16) (harg1 : arg1.IsWhole)
    (arg2 : Memref sig .tc .vmem S512x1024 .bf16) (harg2 : arg2.IsWhole)
    (x0 : Vec F S512x1024 .bf16) (x1 : Vec F S1024x1024 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data of the pipeline on core `c`: the arrays as the region finds them; after the body at
    point `t` each input buffer still at its block and the output buffer at `out0_2` of the two blocks;
    the invariant that the rest of the core's state is untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`: the invariant, what is owed, and the three current staging
    buffers at what the pipeline left in them, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it has to return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold their blocks, so the body's triple applies; the invariant and
    what is owed are not touched by the body and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KMatmulRegion2.lean ====
/- Region 2 of the program: the pallas_call of a matrix product on whole blocks. The body reads the
   left block (512x1024) and the right block (1024x1024) through their whole rectangles, forms one
   value from the two and stores it over the whole output block. This file gives, at any contents `V`
   of the TensorCore's buffers when the region is entered: each window's block at a grid point, the
   contents the single store leaves in the output buffer as a function of the two input blocks, the
   triple of the body, the proof data of the pipeline and its body obligation. -/
import proofs.«155122_j66666482368602_2_alg».proof.Proof.Gen.Kernel.Launch
import proofs.«155122_j66666482368602_2_alg».proof.Proof.Gen.Kernel.Skeleton
import proofs.«155122_j66666482368602_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the whole rectangle of a 512x1024 block is looked at coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- what the TensorCore's buffers hold when the region is entered
variable (V : (c : Dev nD) → (b : Ref sig .tc) → Buf (Elt F) ((c : Thread nD τ).loc b))

/-! ## The blocks of the three windows -/

/-- The block of window `w` at grid point `t`: the part of the window's array, as the region finds it,
    that the window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the left block of the point at every point. The body never
    writes it, so where the pipeline does not fetch it the block index is the one of the point before
    and the buffer still holds the right block. Stated for any proof data with array `V`'s and with
    the block left in place by the body. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the right operand, whose block changes only with the outer grid coordinate: between two
    fetches the index map is constant, so the buffer keeps holding the block of the point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each block whole -/

abbrev rX2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0

/-! ## What the store leaves in the output buffer -/

/-- The output buffer after the body, from the two input blocks: one store over the whole block, of the
    product of the two blocks as the body computes it. -/
def out2_2 (x0 : Vec F S512x1024 .bf16) (x1 : Vec F S1024x1024 .bf16) : Vec F S512x1024 .f32 :=
  View.canon [⟨rX2, k2_pay1 (View.ld x0 rX2) (View.ld x1 rW2)⟩]

/-- The single store's rectangle is the whole block, so every index of the buffer lies under it. -/
theorem cover2_2 (p0 : Vec F S512x1024 .f32) (y : S512x1024.Idx) :
    ∃ pc ∈ ([⟨rX2, p0⟩] : List (View.Piece (Elt F) S512x1024 .f32)), y ∈ pc.1.set :=
  View.cover_of_tiled [⟨rX2, p0⟩] S512x1024.size (by rfl) y

/-! ## The triple of the body -/

set_option maxHeartbeats 1000000 in
/-- The body, called on whole staging memrefs that hold `x0` and `x1` (as read contents) and an output
    memref holding anything, ends with the two inputs as they were and the output at `out2_2 x0 x1`.
    The grid coordinates it is passed are not used. -/
theorem sound_kernel2 (c : Dev nD) (E : Set ℕ) (i : grid2.Coords)
    (arg0 : Memref sig .tc .vmem S512x1024 .bf16) (harg0 : arg0.IsWhole)
    (arg1 : Memref sig .tc .vmem S1024x1024 .bf16) (harg1 : arg1.IsWhole)
    (arg2 : Memref sig .tc .vmem S512x1024 .f32) (harg2 : arg2.IsWhole)
    (x0 : Vec F S512x1024 .bf16) (x1 : Vec F S1024x1024 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- The proof data of the pipeline on core `c`: the arrays as the region finds them; after the body at
    point `t` each input buffer still at its block and the output buffer at `out2_2` of the two blocks;
    the invariant that the rest of the core's state is untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`: the invariant, what is owed, and the three current staging
    buffers at what the pipeline left in them, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it has to return. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point the two input buffers hold their blocks, so the body's triple applies; the invariant and
    what is owed are not touched by the body and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of the pipeline, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KAttnShared.lean ====
/-
  The attention region (the second pallas_call): what its body's runs share.

  The grid is (head-batch 32) × (query block 2) × (key block 4), the last axis innermost, so point `t` has key
  block `t % 4` and query block `t / 4 % 2`. The body has three conditionals: the running maximum, normaliser and
  weighted sum (three scratch buffers carried from point to point) are reset at key block 0; the block's scores
  are folded into them when the key block starts at or before the query block's last row
  (`512 · ki ≤ 1024 · qi + 1023`, that is `ki ≤ 2 · qi + 1`); the quotient is stored into the output block at key
  block 3. Five combinations occur on the grid: reset and fold (key block 0); fold only; nothing (a key block
  wholly above the diagonal); store only; fold and store.
-/
import proofs.«155122_j66666482368602_2_alg».proof.Proof.Gen.Kernel.Launch
import proofs.«155122_j66666482368602_2_alg».proof.Proof.Gen.Kernel.Skeleton
import proofs.«155122_j66666482368602_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block at every point (it is fetched when the query block
    changes; in between its index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds its block (at the clamped key index) at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds its block (at the clamped key index) at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions, in closed form over the grid -/

/-- "This is key block 0": the running state is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The key block starts at or before the query block's last row": the block is folded in. -/
abbrev cond1_1 (i : grid1.Coords) : Prop := (Scalar.cmpi .ne (Scalar.extui (Scalar.cmpi .sle (Scalar.muli (BitVec.ofNat 32 (i 2).val) 512#32) (Scalar.subi (Scalar.addi (Scalar.muli (BitVec.ofNat 32 (i 1).val) 1024#32) 1024#32) 1#32))) 0#32) = 1#1
theorem hcond1_1 : ∀ t : Fin cfg1.N, cond1_1 (grid1.coords t) ↔ t.val % 4 ≤ 2 * (t.val / 4 % 2) + 1 :=
  (by decide +kernel : ∀ t : Fin grid1.N, cond1_1 (grid1.coords t) ↔ t.val % 4 ≤ 2 * (t.val / 4 % 2) + 1)

/-- "This is key block 3": the quotient is stored. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off key block 3 nothing is stored into the output block: the window is idle there and not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At key block 3 the output block is stored whole: the window is live. -/
theorem liveAt1_3 : ∀ t : Fin cfg1.N, cond1_2 (grid1.coords t) → cfg1.idle 3 (grid1.coords t) = false := by decide +kernel

/-! ## The memrefs the body is called with -/

/-- One staging buffer of the output window, through which its contents are stated. -/
abbrev VO1_3 : View sig .tc .vmem S1x1024x64 .bf16 := (Memref.whole cc1_stg3_0 : Memref sig .tc .vmem S1x1024x64 .bf16).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .bf16 := win1_3.stage (cfg1.slots t 3)
abbrev hs1_3 (t : Fin cfg1.N) : (ms1_3 t).IsWhole := hstage1_3 ((cfg1.slots t 3).cast nbuf1_3)
/-- The three scratch buffers: the running maximum, the running normaliser, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-- A scoped buffer of another region's, whole at some contents: it rides through this region untouched. -/
abbrev heldAny (c : Dev nD) (X : Ref sig .tc) : sProp 𝕄 :=
  iprop(∃ f : Buf (Elt F) ((c : Thread nD τ).loc X), ((c : Thread nD τ).loc X) ↦{fullShare} f)

/-- The region's resting invariant: the other regions' staging buffers at anything, the three scratch buffers as
    owned memrefs at some contents, and the generator register. -/
theorem PhiA1_eq (c : Dev nD) :
    (Pipeline.ΦA spec1 c : sProp 𝕄)
      = iprop(iprop(heldAny c cc0_stg0_0 ∗ heldAny c cc0_stg0_1 ∗ heldAny c cc0_stg1_0 ∗ heldAny c cc0_stg1_1
          ∗ heldAny c cc0_stg2_0 ∗ heldAny c cc0_stg2_1
          ∗ (∃ d, owns (c : Thread nD τ) scM1_0 fullShare d) ∗ (∃ d, owns (c : Thread nD τ) scM1_1 fullShare d)
          ∗ (∃ d, owns (c : Thread nD τ) scM1_2 fullShare d)
          ∗ heldAny c cc2_stg0_0 ∗ heldAny c cc2_stg0_1 ∗ heldAny c cc2_stg1_0 ∗ heldAny c cc2_stg2_0 ∗ heldAny c cc2_stg2_1)
        ∗ (∃ r, prngReg c r)) := by
  unfold Pipeline.ΦA; rw [scopedRest1_eq]; simp only [scM1_0, scM1_1, scM1_2, owns_whole, heldAny]; try rfl

end Cert.Kernel.Hand

end
-- ==== Proof.KAttnRunA.lean ====
/-
  The attention body at key block 0: the three scratch buffers are reset (maximum −∞, normaliser 0, weighted sum
  0) and the block's scores folded in. Each scratch buffer is stored twice, the output block is not touched.
-/
import proofs.«155122_j66666482368602_2_alg».proof.Proof.KAttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in each scratch buffer at key block 0 (last store first), with the proof that on whole
    memrefs — the three inputs at their contents, the output block handed back untouched, the scratch at anything —
    the body runs to a continuation that holds the inputs as they were and each scratch with its pieces written. -/
noncomputable def kernelRun1_A (c : Dev nD) (i : grid1.Coords) (arg3 : Memref sig .tc .vmem S1x1024x64 .bf16) (harg3 : arg3.IsWhole) (arg4 : Memref sig .tc .vmem S1x64x512 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i)
    (x0 : Vec F S1x1024x64 .bf16) (x1 : Vec F S1x64x512 .bf16) (x2 : Vec F S1x512x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KAttnRunB.lean ====
/-
  The attention body at a later key block that is folded in and is not the last: each scratch buffer is read at
  what the point before left and stored once; the output block is not touched.
-/
import proofs.«155122_j66666482368602_2_alg».proof.Proof.KAttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x64 .bf16) (harg3 : arg3.IsWhole) (arg4 : Memref sig .tc .vmem S1x64x512 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i)
    (x0 : Vec F S1x1024x64 .bf16) (x1 : Vec F S1x64x512 .bf16) (x2 : Vec F S1x512x64 .bf16) (xs0 : Vec F S1024x1 .f32) (xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.KAttnRunC.lean ====
/-
  The attention body at a key block wholly above the diagonal that is not the last: nothing is read or stored.
-/
import proofs.«155122_j66666482368602_2_alg».proof.Proof.KAttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x64 .bf16) (harg3 : arg3.IsWhole) (arg4 : Memref sig .tc .vmem S1x64x512 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i)
    (x0 : Vec F S1x1024x64 .bf16) (x1 : Vec F S1x64x512 .bf16) (x2 : Vec F S1x512x64 .bf16) (xs0 : Vec F S1024x1 .f32) (xs1 : Vec F S1024x1 .f32) (xs2 : Vec F S1024x64 .f32) :
    PLift (
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K ) := by
  refine ⟨fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.KAttnRunD.lean ====
/-
  The attention body at the last key block when that block is wholly above the diagonal: the running weighted sum
  over the running normaliser is stored into the output block; the scratch buffers are read, not stored.
-/
import proofs.«155122_j66666482368602_2_alg».proof.Proof.KAttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_D (c : Dev nD) (i : grid1.Coords) (arg3 : Memref sig .tc .vmem S1x1024x64 .bf16) (harg3 : arg3.IsWhole) (arg4 : Memref sig .tc .vmem S1x64x512 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i)
    (x0 : Vec F S1x1024x64 .bf16) (x1 : Vec F S1x64x512 .bf16) (x2 : Vec F S1x512x64 .bf16) (xs0 : Vec F S1024x1 .f32) (xs1 : Vec F S1024x1 .f32) (xs2 : Vec F S1024x64 .f32) :
    { L3 : List (View.Piece (Elt F) S1x1024x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.KAttnRunE.lean ====
/-
  The attention body at the last key block when it is folded in: each scratch buffer is stored once, then the
  running weighted sum over the running normaliser is stored into the output block.
-/
import proofs.«155122_j66666482368602_2_alg».proof.Proof.KAttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_E (c : Dev nD) (i : grid1.Coords) (arg3 : Memref sig .tc .vmem S1x1024x64 .bf16) (harg3 : arg3.IsWhole) (arg4 : Memref sig .tc .vmem S1x64x512 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i)
    (x0 : Vec F S1x1024x64 .bf16) (x1 : Vec F S1x64x512 .bf16) (x2 : Vec F S1x512x64 .bf16) (xs0 : Vec F S1024x1 .f32) (xs1 : Vec F S1024x1 .f32) (xs2 : Vec F S1024x64 .f32) :
    Σ' (L3 : List (View.Piece (Elt F) S1x1024x64 .bf16)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.KAttnRegion.lean ====
/-
  The attention region: what the output block and the three scratch buffers hold after every grid point, the
  region's proof data, and the body obligation.

  After the body at point `t` the scratch buffers hold: at key block 0, what a reset followed by one fold leaves; at
  a later folded key block, one fold over what the point before left; at a key block wholly above the diagonal,
  what the point before left. The output block is stored at key block 3 only, from the scratch as it then stands.
-/
import proofs.«155122_j66666482368602_2_alg».proof.Proof.KAttnRunA
import proofs.«155122_j66666482368602_2_alg».proof.Proof.KAttnRunB
import proofs.«155122_j66666482368602_2_alg».proof.Proof.KAttnRunC
import proofs.«155122_j66666482368602_2_alg».proof.Proof.KAttnRunD
import proofs.«155122_j66666482368602_2_alg».proof.Proof.KAttnRunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output block's staging buffer and the three scratch buffers after a point. -/
structure AttnSt (F : FTy → Type) [FloatOps F] where
  out : Vec F S1x1024x64 .bf16
  s0 : Vec F S1024x1 .f32
  s1 : Vec F S1024x1 .f32
  s2 : Vec F S1024x64 .f32

/-- The output staging buffer where nothing was stored into it: a placeholder nothing consults (the window is idle
    and not written back there). -/
def outIdle : Vec F S1x1024x64 .bf16 := VO1_3.read (Elt F) (VO1_3.writes (Elt F) VO1_3.junk [])

/-! ## What each case leaves -/

def stepA (c : Dev nD) (t : Fin cfg1.N) (h0 : t.val % 4 = 0) : AttnSt F :=
  ⟨outIdle, VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).1),
    VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.1),
    VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.2.1)⟩

def stepB (c : Dev nD) (t : Fin cfg1.N) (h0 : ¬t.val % 4 = 0) (h1 : t.val % 4 ≤ 2 * (t.val / 4 % 2) + 1) (h2 : ¬t.val % 4 = 3) (p : AttnSt F) : AttnSt F :=
  ⟨outIdle, VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).1),
    VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).2.1),
    VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).2.2.1)⟩

def stepC (c : Dev nD) (t : Fin cfg1.N) (h0 : ¬t.val % 4 = 0) (h1 : ¬t.val % 4 ≤ 2 * (t.val / 4 % 2) + 1) (h2 : ¬t.val % 4 = 3) (p : AttnSt F) : AttnSt F :=
  ⟨outIdle, p.s0, p.s1, p.s2⟩

def stepD (c : Dev nD) (t : Fin cfg1.N) (h0 : ¬t.val % 4 = 0) (h1 : ¬t.val % 4 ≤ 2 * (t.val / 4 % 2) + 1) (h2 : t.val % 4 = 3) (p : AttnSt F) : AttnSt F :=
  ⟨VO1_3.read (Elt F) (VO1_3.writes (Elt F) VO1_3.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) p.s0 p.s1 p.s2).1), p.s0, p.s1, p.s2⟩

def stepE (c : Dev nD) (t : Fin cfg1.N) (h0 : ¬t.val % 4 = 0) (h1 : t.val % 4 ≤ 2 * (t.val / 4 % 2) + 1) (h2 : t.val % 4 = 3) (p : AttnSt F) : AttnSt F :=
  ⟨VO1_3.read (Elt F) (VO1_3.writes (Elt F) VO1_3.junk (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).1),
    VS1_0.read (Elt F) (VS1_0.writes (Elt F) VS1_0.junk (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.1),
    VS1_1.read (Elt F) (VS1_1.writes (Elt F) VS1_1.junk (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.2.1),
    VS1_2.read (Elt F) (VS1_2.writes (Elt F) VS1_2.junk (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.2.2.1)⟩

/-! ## The stores of each case cover the buffers they write -/

theorem scoverA_0 (c : Dev nD) (t : Fin cfg1.N) (h0 : t.val % 4 = 0) (y : S1024x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).1, y ∈ pc.1.set :=
  View.cover_of_tiledL _ S1024x1.size (by sl_kernel_rfl) y
theorem scoverA_1 (c : Dev nD) (t : Fin cfg1.N) (h0 : t.val % 4 = 0) (y : S1024x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.1, y ∈ pc.1.set :=
  View.cover_of_tiledL _ S1024x1.size (by sl_kernel_rfl) y
theorem scoverA_2 (c : Dev nD) (t : Fin cfg1.N) (h0 : t.val % 4 = 0) (y : S1024x64.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.2.1, y ∈ pc.1.set :=
  View.cover_of_tiledL _ S1024x64.size (by sl_kernel_rfl) y
theorem scoverB_0 (c : Dev nD) (t : Fin cfg1.N) (h0 : ¬t.val % 4 = 0) (h1 : t.val % 4 ≤ 2 * (t.val / 4 % 2) + 1) (h2 : ¬t.val % 4 = 3) (p : AttnSt F) (y : S1024x1.Idx) : ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).1, y ∈ pc.1.set :=
  View.cover_of_tiledL _ S1024x1.size (by sl_kernel_rfl) y
theorem scoverB_1 (c : Dev nD) (t : Fin cfg1.N) (h0 : ¬t.val % 4 = 0) (h1 : t.val % 4 ≤ 2 * (t.val / 4 % 2) + 1) (h2 : ¬t.val % 4 = 3) (p : AttnSt F) (y : S1024x1.Idx) : ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).2.1, y ∈ pc.1.set :=
  View.cover_of_tiledL _ S1024x1.size (by sl_kernel_rfl) y
theorem scoverB_2 (c : Dev nD) (t : Fin cfg1.N) (h0 : ¬t.val % 4 = 0) (h1 : t.val % 4 ≤ 2 * (t.val / 4 % 2) + 1) (h2 : ¬t.val % 4 = 3) (p : AttnSt F) (y : S1024x64.Idx) : ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).2.2.1, y ∈ pc.1.set :=
  View.cover_of_tiledL _ S1024x64.size (by sl_kernel_rfl) y
theorem coverD_3 (c : Dev nD) (t : Fin cfg1.N) (h0 : ¬t.val % 4 = 0) (h1 : ¬t.val % 4 ≤ 2 * (t.val / 4 % 2) + 1) (h2 : t.val % 4 = 3) (p : AttnSt F) (y : S1x1024x64.Idx) : ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) p.s0 p.s1 p.s2).1, y ∈ pc.1.set :=
  View.cover_of_tiledL _ S1x1024x64.size (by sl_kernel_rfl) y
theorem coverE_3 (c : Dev nD) (t : Fin cfg1.N) (h0 : ¬t.val % 4 = 0) (h1 : t.val % 4 ≤ 2 * (t.val / 4 % 2) + 1) (h2 : t.val % 4 = 3) (p : AttnSt F) (y : S1x1024x64.Idx) : ∃ pc ∈ (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).1, y ∈ pc.1.set :=
  View.cover_of_tiledL _ S1x1024x64.size (by sl_kernel_rfl) y
theorem scoverE_0 (c : Dev nD) (t : Fin cfg1.N) (h0 : ¬t.val % 4 = 0) (h1 : t.val % 4 ≤ 2 * (t.val / 4 % 2) + 1) (h2 : t.val % 4 = 3) (p : AttnSt F) (y : S1024x1.Idx) : ∃ pc ∈ (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.1, y ∈ pc.1.set :=
  View.cover_of_tiledL _ S1024x1.size (by sl_kernel_rfl) y
theorem scoverE_1 (c : Dev nD) (t : Fin cfg1.N) (h0 : ¬t.val % 4 = 0) (h1 : t.val % 4 ≤ 2 * (t.val / 4 % 2) + 1) (h2 : t.val % 4 = 3) (p : AttnSt F) (y : S1024x1.Idx) : ∃ pc ∈ (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.2.1, y ∈ pc.1.set :=
  View.cover_of_tiledL _ S1024x1.size (by sl_kernel_rfl) y
theorem scoverE_2 (c : Dev nD) (t : Fin cfg1.N) (h0 : ¬t.val % 4 = 0) (h1 : t.val % 4 ≤ 2 * (t.val / 4 % 2) + 1) (h2 : t.val % 4 = 3) (p : AttnSt F) (y : S1024x64.Idx) : ∃ pc ∈ (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.2.2.1, y ∈ pc.1.set :=
  View.cover_of_tiledL _ S1024x64.size (by sl_kernel_rfl) y

/-! ## What the buffers hold after each point -/

/-- The state after the body at position `n`: the case the closed forms select there, over the state the point before left. -/
def outsAt1 (c : Dev nD) : (n : ℕ) → n < cfg1.N → AttnSt F
  | 0, hn => stepA V c ⟨0, hn⟩ (Nat.zero_mod _)
  | n + 1, hn =>
    if h0 : (n + 1) % 4 = 0 then stepA V c ⟨n + 1, hn⟩ h0
    else if h1 : (n + 1) % 4 ≤ 2 * ((n + 1) / 4 % 2) + 1 then
      if h2 : (n + 1) % 4 = 3 then stepE V c ⟨n + 1, hn⟩ h0 h1 h2 (outsAt1 c n (Nat.lt_of_succ_lt hn))
      else stepB V c ⟨n + 1, hn⟩ h0 h1 h2 (outsAt1 c n (Nat.lt_of_succ_lt hn))
    else
      if h2 : (n + 1) % 4 = 3 then stepD V c ⟨n + 1, hn⟩ h0 h1 h2 (outsAt1 c n (Nat.lt_of_succ_lt hn))
      else stepC c ⟨n + 1, hn⟩ h0 h1 h2 (outsAt1 c n (Nat.lt_of_succ_lt hn))

/-- The state the point before `t` left (any state at the first point, where no case reads it). -/
abbrev prevAt (c : Dev nD) (t : Fin cfg1.N) : AttnSt F := outsAt1 V c (t.val - 1) (Nat.lt_of_le_of_lt (Nat.sub_le _ _) t.isLt)

theorem outsAt1_A (c : Dev nD) (t : Fin cfg1.N) (h0 : t.val % 4 = 0) : outsAt1 V c t.val t.isLt = stepA V c t h0 := by
  obtain ⟨n, hn⟩ := t
  cases n with
  | zero => rfl
  | succ n => exact (dif_pos h0)
theorem outsAt1_B (c : Dev nD) (t : Fin cfg1.N) (h0 : ¬t.val % 4 = 0) (h1 : t.val % 4 ≤ 2 * (t.val / 4 % 2) + 1) (h2 : ¬t.val % 4 = 3) : outsAt1 V c t.val t.isLt = stepB V c t h0 h1 h2 (prevAt V c t) := by
  obtain ⟨n, hn⟩ := t
  cases n with
  | zero => exact absurd (Nat.zero_mod _) h0
  | succ n => exact (dif_neg h0).trans ((dif_pos h1).trans (dif_neg h2))
theorem outsAt1_C (c : Dev nD) (t : Fin cfg1.N) (h0 : ¬t.val % 4 = 0) (h1 : ¬t.val % 4 ≤ 2 * (t.val / 4 % 2) + 1) (h2 : ¬t.val % 4 = 3) : outsAt1 V c t.val t.isLt = stepC c t h0 h1 h2 (prevAt V c t) := by
  obtain ⟨n, hn⟩ := t
  cases n with
  | zero => exact absurd (Nat.zero_mod _) h0
  | succ n => exact (dif_neg h0).trans ((dif_neg h1).trans (dif_neg h2))
theorem outsAt1_D (c : Dev nD) (t : Fin cfg1.N) (h0 : ¬t.val % 4 = 0) (h1 : ¬t.val % 4 ≤ 2 * (t.val / 4 % 2) + 1) (h2 : t.val % 4 = 3) : outsAt1 V c t.val t.isLt = stepD V c t h0 h1 h2 (prevAt V c t) := by
  obtain ⟨n, hn⟩ := t
  cases n with
  | zero => exact absurd (Nat.zero_mod _) h0
  | succ n => exact (dif_neg h0).trans ((dif_neg h1).trans (dif_pos h2))
theorem outsAt1_E (c : Dev nD) (t : Fin cfg1.N) (h0 : ¬t.val % 4 = 0) (h1 : t.val % 4 ≤ 2 * (t.val / 4 % 2) + 1) (h2 : t.val % 4 = 3) : outsAt1 V c t.val t.isLt = stepE V c t h0 h1 h2 (prevAt V c t) := by
  obtain ⟨n, hn⟩ := t
  cases n with
  | zero => exact absurd (Nat.zero_mod _) h0
  | succ n => exact (dif_neg h0).trans ((dif_pos h1).trans (dif_pos h2))

/-! ## The region's invariant, point by point -/

/-- Before the first point the region's resting invariant (every scratch buffer at anything); afterwards the same
    with the three scratch buffers at what the point before left in them. -/
def PhiS (c : Dev nD) : (n : ℕ) → n ≤ cfg1.N → sProp 𝕄
  | 0, _ => Pipeline.ΦA spec1 c
  | n + 1, hn => iprop(iprop(heldAny c cc0_stg0_0 ∗ heldAny c cc0_stg0_1 ∗ heldAny c cc0_stg1_0 ∗ heldAny c cc0_stg1_1 ∗ heldAny c cc0_stg2_0 ∗ heldAny c cc0_stg2_1 ∗ owns (c : Thread nD τ) scM1_0 fullShare (outsAt1 V c n hn).s0 ∗ owns (c : Thread nD τ) scM1_1 fullShare (outsAt1 V c n hn).s1 ∗ owns (c : Thread nD τ) scM1_2 fullShare (outsAt1 V c n hn).s2 ∗ heldAny c cc2_stg0_0 ∗ heldAny c cc2_stg0_1 ∗ heldAny c cc2_stg1_0 ∗ heldAny c cc2_stg2_0 ∗ heldAny c cc2_stg2_1) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(heldAny c cc0_stg0_0 ∗ heldAny c cc0_stg0_1 ∗ heldAny c cc0_stg1_0 ∗ heldAny c cc0_stg1_1 ∗ heldAny c cc0_stg2_0 ∗ heldAny c cc0_stg2_1 ∗ owns (c : Thread nD τ) scM1_0 fullShare (outsAt1 V c n hn).s0 ∗ owns (c : Thread nD τ) scM1_1 fullShare (outsAt1 V c n hn).s1 ∗ owns (c : Thread nD τ) scM1_2 fullShare (outsAt1 V c n hn).s2 ∗ heldAny c cc2_stg0_0 ∗ heldAny c cc2_stg0_1 ∗ heldAny c cc2_stg1_0 ∗ heldAny c cc2_stg2_0 ∗ heldAny c cc2_stg2_1) ∗ (∃ r, prngReg c r)) := rfl

theorem PhiS_pos (c : Dev nD) (n : ℕ) (h : n ≤ cfg1.N) (hz : n ≠ 0) :
    PhiS V c n h = iprop(iprop(heldAny c cc0_stg0_0 ∗ heldAny c cc0_stg0_1 ∗ heldAny c cc0_stg1_0 ∗ heldAny c cc0_stg1_1 ∗ heldAny c cc0_stg2_0 ∗ heldAny c cc0_stg2_1 ∗ owns (c : Thread nD τ) scM1_0 fullShare (outsAt1 V c (n - 1) (by omega)).s0 ∗ owns (c : Thread nD τ) scM1_1 fullShare (outsAt1 V c (n - 1) (by omega)).s1 ∗ owns (c : Thread nD τ) scM1_2 fullShare (outsAt1 V c (n - 1) (by omega)).s2 ∗ heldAny c cc2_stg0_0 ∗ heldAny c cc2_stg0_1 ∗ heldAny c cc2_stg1_0 ∗ heldAny c cc2_stg2_0 ∗ heldAny c cc2_stg2_1) ∗ (∃ r, prngReg c r)) := by
  cases n with
  | zero => exact absurd rfl hz
  | succ n => rfl

/-! ## The proof data -/

/-- The arrays as the region finds them; after the body at a point each input's buffer at its block and the
    output's at the state's output component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).out
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).out := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the closed forms say which of the five cases the
    point is in; the invariant hands the body the scratch at what the point before left (at anything at the very
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · -- key block 0: reset and fold
      rw [Dat.leavesExact_idle (dat1 V c) 3 t (idleAt1_3 t (fun h => by have := (hcond1_2 t).mp h; omega)) (noFlush1_3 t (fun h => by have := (hcond1_2 t).mp h; omega))]
      rw [outsAt1_A V c t h0]
      unfold stepA; (try dsimp only)
      by_cases hz : t.val = 0
      · rw [PhiS_castSucc V c t, PhiS_zero V c _ _ hz, PhiA1_eq]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) ((hcond1_1 t).mpr (by omega)) (fun h => by have := (hcond1_2 t).mp h; omega) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · (unfold owns; iexists _; isplitr; swap; (· iexact HS0); ipureintro; exact View.read_writes_of_cover _ _ _ _ _ (scoverA_0 V c t h0))
            isplitl [HS1]; · (unfold owns; iexists _; isplitr; swap; (· iexact HS1); ipureintro; exact View.read_writes_of_cover _ _ _ _ _ (scoverA_1 V c t h0))
            isplitl [HS2]; · (unfold owns; iexists _; isplitr; swap; (· iexact HS2); ipureintro; exact View.read_writes_of_cover _ _ _ _ _ (scoverA_2 V c t h0))
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) ((hcond1_1 t).mpr (by omega)) (fun h => by have := (hcond1_2 t).mp h; omega) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%e0, HS0⟩, ⟨%e1, HS1⟩, ⟨%e2, HS2⟩⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · (unfold owns; iexists _; isplitr; swap; (· iexact HS0); ipureintro; exact View.read_writes_of_cover _ _ _ _ _ (scoverA_0 V c t h0))
            isplitl [HS1]; · (unfold owns; iexists _; isplitr; swap; (· iexact HS1); ipureintro; exact View.read_writes_of_cover _ _ _ _ _ (scoverA_1 V c t h0))
            isplitl [HS2]; · (unfold owns; iexists _; isplitr; swap; (· iexact HS2); ipureintro; exact View.read_writes_of_cover _ _ _ _ _ (scoverA_2 V c t h0))
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        iexists _; iexact H3
  · by_cases h1 : t.val % 4 ≤ 2 * (t.val / 4 % 2) + 1
    · by_cases h2 : t.val % 4 = 3
      · -- the last key block, folded in, then the quotient stored
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_E V c t h0 h1 h2]
        unfold stepE; (try dsimp only)
        have hz : t.val ≠ 0 := by omega
        rw [PhiS_castSucc V c t, PhiS_pos V c _ _ hz]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_E c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%e0, HS0⟩, ⟨%e1, HS1⟩, ⟨%e2, HS2⟩⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · (unfold owns; iexists _; isplitr; swap; (· iexact HS0); ipureintro; exact View.read_writes_of_cover _ _ _ _ _ (scoverE_0 V c t h0 h1 h2 _))
            isplitl [HS1]; · (unfold owns; iexists _; isplitr; swap; (· iexact HS1); ipureintro; exact View.read_writes_of_cover _ _ _ _ _ (scoverE_1 V c t h0 h1 h2 _))
            isplitl [HS2]; · (unfold owns; iexists _; isplitr; swap; (· iexact HS2); ipureintro; exact View.read_writes_of_cover _ _ _ _ _ (scoverE_2 V c t h0 h1 h2 _))
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverE_3 V c t h0 h1 h2 _)
      · -- a later key block folded in
        rw [Dat.leavesExact_idle (dat1 V c) 3 t (idleAt1_3 t (fun h => h2 ((hcond1_2 t).mp h))) (noFlush1_3 t (fun h => h2 ((hcond1_2 t).mp h)))]
        rw [outsAt1_B V c t h0 h1 h2]
        unfold stepB; (try dsimp only)
        have hz : t.val ≠ 0 := by omega
        rw [PhiS_castSucc V c t, PhiS_pos V c _ _ hz]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · (unfold owns; iexists _; isplitr; swap; (· iexact HS0); ipureintro; exact View.read_writes_of_cover _ _ _ _ _ (scoverB_0 V c t h0 h1 h2 _))
            isplitl [HS1]; · (unfold owns; iexists _; isplitr; swap; (· iexact HS1); ipureintro; exact View.read_writes_of_cover _ _ _ _ _ (scoverB_1 V c t h0 h1 h2 _))
            isplitl [HS2]; · (unfold owns; iexists _; isplitr; swap; (· iexact HS2); ipureintro; exact View.read_writes_of_cover _ _ _ _ _ (scoverB_2 V c t h0 h1 h2 _))
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        iexists _; iexact H3
    · by_cases h2 : t.val % 4 = 3
      · -- the last key block, wholly above the diagonal: only the quotient is stored
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_D V c t h0 h1 h2]
        unfold stepD; (try dsimp only)
        have hz : t.val ≠ 0 := by omega
        rw [PhiS_castSucc V c t, PhiS_pos V c _ _ hz]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_D c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · iexact HS0
            isplitl [HS1]; · iexact HS1
            isplitl [HS2]; · iexact HS2
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverD_3 V c t h0 h1 h2 _)
      · -- a key block wholly above the diagonal: nothing happens
        rw [Dat.leavesExact_idle (dat1 V c) 3 t (idleAt1_3 t (fun h => h2 ((hcond1_2 t).mp h))) (noFlush1_3 t (fun h => h2 ((hcond1_2 t).mp h)))]
        rw [outsAt1_C V c t h0 h1 h2]
        unfold stepC; (try dsimp only)
        have hz : t.val ≠ 0 := by omega
        rw [PhiS_castSucc V c t, PhiS_pos V c _ _ hz]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _ _ _).down _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · iexact HS0
            isplitl [HS1]; · iexact HS1
            isplitl [HS2]; · iexact HS2
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the resting invariant back: the scratch contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS V c (Fin.last cfg1.N).val (Nat.le_of_lt_succ (Fin.last cfg1.N).isLt) from rfl,
    PhiS_pos V c _ _ ht, PhiA1_eq]
  iintro ⟨⟨O1, O2, O3, O4, O5, O6, HS0, HS1, HS2, P1, P2, P3, P4, P5⟩, Hg⟩
  isplitl [O1 O2 O3 O4 O5 O6 HS0 HS1 HS2 P1 P2 P3 P4 P5]
  · isplitl [O1]; · iexact O1
    isplitl [O2]; · iexact O2
    isplitl [O3]; · iexact O3
    isplitl [O4]; · iexact O4
    isplitl [O5]; · iexact O5
    isplitl [O6]; · iexact O6
    isplitl [HS0]; · (iexists _; iexact HS0)
    isplitl [HS1]; · (iexists _; iexact HS1)
    isplitl [HS2]; · (iexists _; iexact HS2)
    isplitl [P1]; · iexact P1
    isplitl [P2]; · iexact P2
    isplitl [P3]; · iexact P3
    isplitl [P4]; · iexact P4
    iexact P5
  iexact Hg

end Cert.Kernel.Hand

end
-- ==== Proof.KernelRun.lean ====
/-
  The whole program as a run of thirteen segments: eight stretches of host operations and the three kernel
  regions (the fused projection, the attention kernel, the output projection), each entered from the buffer
  contents the segment before left. The contents at each boundary are a fold from the launch memory: a host stretch
  applies its operations; a region leaves its windows' arrays at what its write-backs make of them and every other
  buffer as it found it. Nothing writes an argument array, so each argument is read back at its launch contents;
  every unscoped buffer, the result among them, is read at the last boundary's contents.
-/
import proofs.«155122_j66666482368602_2_alg».proof.Proof.KMatmulRegion0
import proofs.«155122_j66666482368602_2_alg».proof.Proof.KMatmulRegion2
import proofs.«155122_j66666482368602_2_alg».proof.Proof.KAttnRegion
import proofs.«155122_j66666482368602_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references: what region 0 is entered from. -/
abbrev En1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (En1 m ρ) c).arrAt w cfg0.N
theorem W2_arr (c : Dev nD) (w : Fin cfg0.W) :
    W2 m ρ c (Proc.devRef .tc (Pipeline.arrRef spec0 w)) = (dat0 (En1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev En2 : (c : Dev nD) → (b : Ref sig .tc) → Buf (Elt F) ((c : Thread nD τ).loc b) := fun c b => W2 m ρ c b
theorem hF0 (c : Dev nD) (w : Fin cfg0.W) : (dat0 (En1 m ρ) c).arrAt w cfg0.N = En2 m ρ c (Pipeline.arrRef spec0 w) :=
  (W2_arr m ρ c w).symm
theorem hrest0 (c : Dev nD) : ∀ b, b ∉ Finset.univ.image (Pipeline.arrRef spec0) → En2 m ρ c b = En1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- After the host stretch `hostOps1_1`. -/
abbrev W4 : Dev nD → Valuation τ sig (Elt F) := fun c => StableHlo.after hostOps1_1 (W3 m ρ c)
/-- After the host stretch `hostOps1_2`. -/
abbrev W5 : Dev nD → Valuation τ sig (Elt F) := fun c => StableHlo.after hostOps1_2 (W4 m ρ c)
/-- After the host stretch `hostOps1_3`. -/
abbrev W6 : Dev nD → Valuation τ sig (Elt F) := fun c => StableHlo.after hostOps1_3 (W5 m ρ c)
/-- After the host stretch `hostOps1_4`. -/
abbrev W7 : Dev nD → Valuation τ sig (Elt F) := fun c => StableHlo.after hostOps1_4 (W6 m ρ c)
/-- After the host stretch `hostOps1_5`. -/
abbrev W8 : Dev nD → Valuation τ sig (Elt F) := fun c => StableHlo.after hostOps1_5 (W7 m ρ c)
/-- After the host stretch `hostOps1_6`. -/
abbrev W9 : Dev nD → Valuation τ sig (Elt F) := fun c => StableHlo.after hostOps1_6 (W8 m ρ c)
/-- The same read at the TensorCore's references: what region 1 is entered from. -/
abbrev En9 : (c : Dev nD) → (b : Ref sig .tc) → Buf (Elt F) ((c : Thread nD τ).loc b) := fun c b => W9 m ρ c b
/-- At region 1's exit: its windows' arrays at what the pipeline leaves, every other buffer as entered. -/
def W10 (c : Dev nD) : Valuation τ sig (Elt F) :=
  Pipeline.withArrays spec1 c (W9 m ρ c) fun w => (dat1 (En9 m ρ) c).arrAt w cfg1.N
theorem W10_arr (c : Dev nD) (w : Fin cfg1.W) :
    W10 m ρ c (Proc.devRef .tc (Pipeline.arrRef spec1 w)) = (dat1 (En9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev En10 : (c : Dev nD) → (b : Ref sig .tc) → Buf (Elt F) ((c : Thread nD τ).loc b) := fun c b => W10 m ρ c b
theorem hF1 (c : Dev nD) (w : Fin cfg1.W) : (dat1 (En9 m ρ) c).arrAt w cfg1.N = En10 m ρ c (Pipeline.arrRef spec1 w) :=
  (W10_arr m ρ c w).symm
theorem hrest1 (c : Dev nD) : ∀ b, b ∉ Finset.univ.image (Pipeline.arrRef spec1) → En10 m ρ c b = En9 m ρ c b :=
  fun b hb => W10_of_ne m ρ c b fun w e => hb (Finset.mem_image.mpr ⟨w, Finset.mem_univ _, e⟩)
/-- After the host stretch `hostOps2`. -/
abbrev W11 : Dev nD → Valuation τ sig (Elt F) := fun c => StableHlo.after hostOps2 (W10 m ρ c)
/-- The same read at the TensorCore's references: what region 2 is entered from. -/
abbrev En11 : (c : Dev nD) → (b : Ref sig .tc) → Buf (Elt F) ((c : Thread nD τ).loc b) := fun c b => W11 m ρ c b
/-- At region 2's exit: its windows' arrays at what the pipeline leaves, every other buffer as entered. -/
def W12 (c : Dev nD) : Valuation τ sig (Elt F) :=
  Pipeline.withArrays spec2 c (W11 m ρ c) fun w => (dat2 (En11 m ρ) c).arrAt w cfg2.N
theorem W12_arr (c : Dev nD) (w : Fin cfg2.W) :
    W12 m ρ c (Proc.devRef .tc (Pipeline.arrRef spec2 w)) = (dat2 (En11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev En12 : (c : Dev nD) → (b : Ref sig .tc) → Buf (Elt F) ((c : Thread nD τ).loc b) := fun c b => W12 m ρ c b
theorem hF2 (c : Dev nD) (w : Fin cfg2.W) : (dat2 (En11 m ρ) c).arrAt w cfg2.N = En12 m ρ c (Pipeline.arrRef spec2 w) :=
  (W12_arr m ρ c w).symm
theorem hrest2 (c : Dev nD) : ∀ b, b ∉ Finset.univ.image (Pipeline.arrRef spec2) → En12 m ρ c b = En11 m ρ c b :=
  fun b hb => W12_of_ne m ρ c b fun w e => hb (Finset.mem_image.mpr ⟨w, Finset.mem_univ _, e⟩)
/-- After the host stretch `hostOps3`. -/
abbrev W13 : Dev nD → Valuation τ sig (Elt F) := fun c => StableHlo.after hostOps3 (W12 m ρ c)

/-! ## No segment writes an argument -/
theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_writes_sub hostOps3 _ hostOps3_writes (by decide)
    _ = W11 m ρ c (Proc.devRef .tc main_arg0) := W12_of_ne m ρ c main_arg0 (by decide)
    _ = W10 m ρ c (Proc.devRef .tc main_arg0) := StableHlo.after_of_writes_sub hostOps2 _ hostOps2_writes (by decide)
    _ = W9 m ρ c (Proc.devRef .tc main_arg0) := W10_of_ne m ρ c main_arg0 (by decide)
    _ = W8 m ρ c (Proc.devRef .tc main_arg0) := StableHlo.after_of_writes_sub hostOps1_6 _ hostOps1_6_writes (by decide)
    _ = W7 m ρ c (Proc.devRef .tc main_arg0) := StableHlo.after_of_writes_sub hostOps1_5 _ hostOps1_5_writes (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_writes_sub hostOps3 _ hostOps3_writes (by decide)
    _ = W11 m ρ c (Proc.devRef .tc main_arg1) := W12_of_ne m ρ c main_arg1 (by decide)
    _ = W10 m ρ c (Proc.devRef .tc main_arg1) := StableHlo.after_of_writes_sub hostOps2 _ hostOps2_writes (by decide)
    _ = W9 m ρ c (Proc.devRef .tc main_arg1) := W10_of_ne m ρ c main_arg1 (by decide)
    _ = W8 m ρ c (Proc.devRef .tc main_arg1) := StableHlo.after_of_writes_sub hostOps1_6 _ hostOps1_6_writes (by decide)
    _ = W7 m ρ c (Proc.devRef .tc main_arg1) := StableHlo.after_of_writes_sub hostOps1_5 _ hostOps1_5_writes (by decide)
    _ = W6 m ρ c (Proc.devRef .tc main_arg1) := StableHlo.after_of_writes_sub hostOps1_4 _ hostOps1_4_writes (by decide)
    _ = W5 m ρ c (Proc.devRef .tc main_arg1) := StableHlo.after_of_writes_sub hostOps1_3 _ hostOps1_3_writes (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := StableHlo.after_of_writes_sub hostOps3 _ hostOps3_writes (by decide)
    _ = W11 m ρ c (Proc.devRef .tc main_arg2) := W12_of_ne m ρ c main_arg2 (by decide)
    _ = W10 m ρ c (Proc.devRef .tc main_arg2) := StableHlo.after_of_writes_sub hostOps2 _ hostOps2_writes (by decide)
    _ = W9 m ρ c (Proc.devRef .tc main_arg2) := W10_of_ne m ρ c main_arg2 (by decide)
    _ = W8 m ρ c (Proc.devRef .tc main_arg2) := StableHlo.after_of_writes_sub hostOps1_6 _ hostOps1_6_writes (by decide)
    _ = W7 m ρ c (Proc.devRef .tc main_arg2) := StableHlo.after_of_writes_sub hostOps1_5 _ hostOps1_5_writes (by decide)
    _ = W6 m ρ c (Proc.devRef .tc main_arg2) := StableHlo.after_of_writes_sub hostOps1_4 _ hostOps1_4_writes (by decide)
    _ = W5 m ρ c (Proc.devRef .tc main_arg2) := StableHlo.after_of_writes_sub hostOps1_3 _ hostOps1_3_writes (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := StableHlo.after_of_writes_sub hostOps3 _ hostOps3_writes (by decide)
    _ = W11 m ρ c (Proc.devRef .tc main_arg3) := W12_of_ne m ρ c main_arg3 (by decide)
    _ = W10 m ρ c (Proc.devRef .tc main_arg3) := StableHlo.after_of_writes_sub hostOps2 _ hostOps2_writes (by decide)
    _ = W9 m ρ c (Proc.devRef .tc main_arg3) := W10_of_ne m ρ c main_arg3 (by decide)
    _ = W8 m ρ c (Proc.devRef .tc main_arg3) := StableHlo.after_of_writes_sub hostOps1_6 _ hostOps1_6_writes (by decide)
    _ = W7 m ρ c (Proc.devRef .tc main_arg3) := StableHlo.after_of_writes_sub hostOps1_5 _ hostOps1_5_writes (by decide)
    _ = W6 m ρ c (Proc.devRef .tc main_arg3) := StableHlo.after_of_writes_sub hostOps1_4 _ hostOps1_4_writes (by decide)
    _ = W5 m ρ c (Proc.devRef .tc main_arg3) := StableHlo.after_of_writes_sub hostOps1_3 _ hostOps1_3_writes (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := StableHlo.after_of_writes_sub hostOps3 _ hostOps3_writes (by decide)
    _ = W11 m ρ c (Proc.devRef .tc main_arg4) := W12_of_ne m ρ c main_arg4 (by decide)
    _ = W10 m ρ c (Proc.devRef .tc main_arg4) := StableHlo.after_of_writes_sub hostOps2 _ hostOps2_writes (by decide)
    _ = W9 m ρ c (Proc.devRef .tc main_arg4) := W10_of_ne m ρ c main_arg4 (by decide)
    _ = W8 m ρ c (Proc.devRef .tc main_arg4) := StableHlo.after_of_writes_sub hostOps1_6 _ hostOps1_6_writes (by decide)
    _ = W7 m ρ c (Proc.devRef .tc main_arg4) := StableHlo.after_of_writes_sub hostOps1_5 _ hostOps1_5_writes (by decide)
    _ = W6 m ρ c (Proc.devRef .tc main_arg4) := StableHlo.after_of_writes_sub hostOps1_4 _ hostOps1_4_writes (by decide)
    _ = W5 m ρ c (Proc.devRef .tc main_arg4) := StableHlo.after_of_writes_sub hostOps1_3 _ hostOps1_3_writes (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := StableHlo.after_of_writes_sub hostOps3 _ hostOps3_writes (by decide)
    _ = W11 m ρ c (Proc.devRef .tc main_arg5) := W12_of_ne m ρ c main_arg5 (by decide)
    _ = W10 m ρ c (Proc.devRef .tc main_arg5) := StableHlo.after_of_writes_sub hostOps2 _ hostOps2_writes (by decide)
    _ = W9 m ρ c (Proc.devRef .tc main_arg5) := W10_of_ne m ρ c main_arg5 (by decide)
    _ = W8 m ρ c (Proc.devRef .tc main_arg5) := StableHlo.after_of_writes_sub hostOps1_6 _ hostOps1_6_writes (by decide)
    _ = W7 m ρ c (Proc.devRef .tc main_arg5) := StableHlo.after_of_writes_sub hostOps1_5 _ hostOps1_5_writes (by decide)
    _ = W6 m ρ c (Proc.devRef .tc main_arg5) := StableHlo.after_of_writes_sub hostOps1_4 _ hostOps1_4_writes (by decide)
    _ = W5 m ρ c (Proc.devRef .tc main_arg5) := StableHlo.after_of_writes_sub hostOps1_3 _ hostOps1_3_writes (by decide)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (En1 m ρ) c
  | ⟨1, _⟩ => fun c => dat1 (En9 m ρ) c
  | ⟨2, _⟩ => fun c => dat2 (En11 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's
    debts, which are none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0: entered from every unscoped buffer at the boundary before it, left at the boundary after it. Its arrays
    are split out of the unscoped buffers and put back at the exit contents; the generator register goes into the
    region's invariant and comes back; nothing is owed; the kernel has no semaphore of its own. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (En1 m ρ c) (En2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the boundary before it, left at the boundary after it. Its arrays
    are split out of the unscoped buffers and put back at the exit contents; the generator register goes into the
    region's invariant and comes back; nothing is owed; the kernel has no semaphore of its own. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (En9 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (En9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (En9 m ρ) c); unfold Pipeline.ΦA
    iintro ⟨Hp, -, Hr⟩
    isplitl [Hr]; · iexact Hr
    iexact Hp
  hout c := by
    rw [Pipeline.ownSems0_none]
    refine BIBase.Entails.trans (hout1 (En9 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (En9 m ρ c) (En10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the boundary before it, left at the boundary after it. Its arrays
    are split out of the unscoped buffers and put back at the exit contents; the generator register goes into the
    region's invariant and comes back; nothing is owed; the kernel has no semaphore of its own. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (En11 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (En11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (En11 m ρ c) (En12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .region (reg1 m ρ),
    .host (hseg hostOps2 hostOps2_sub hostOps2_fresh (W10 m ρ)),
    .region (reg2 m ρ),
    .host (hseg hostOps3 hostOps3_sub hostOps3_fresh (W12 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program on the TensorCores
    terminates, nothing faulting, and every final state has every unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W13 m ρ c (Proc.devRef .tc b)) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c b hb => h c _ (mem_uc b hb))

/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_arg0 (by decide)).trans (W13_main_arg0 m ρ c),
      (h c main_arg1 (by decide)).trans (W13_main_arg1 m ρ c), (h c main_arg2 (by decide)).trans (W13_main_arg2 m ρ c),
      (h c main_arg3 (by decide)).trans (W13_main_arg3 m ρ c), (h c main_arg4 (by decide)).trans (W13_main_arg4 m ρ c),
      (h c main_arg5 (by decide)).trans (W13_main_arg5 m ρ c)⟩) (run_all m ρ)

end Cert.Kernel.Hand

end
-- ==== Proof.MatmulRegion0.lean ====
/- Region 0 of the program: the pallas_call of a matrix product on whole blocks. The body reads the
   left block (512x1024) and the right block (1024x1024) through their whole rectangles, forms one
   value from the two and stores it over the whole output block. This file gives, at any contents `V`
   of the TensorCore's buffers when the region is entered: each window's block at a grid point, the
   contents the single store leaves in the output buffer as a function of the two input blocks, the
   triple of the body, the proof data of the pipeline and its body obligation. -/
import proofs.«155122_j66666482368602_2_alg».proof.Proof.Gen.KernelIdeal.Launch
import proofs.«155122_j66666482368602_2_alg».proof.Proof.Gen.KernelIdeal.Skeleton
import proofs.«155122_j66666482368602_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the whole rectangle of a 512x1024 block is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- what the TensorCore's buffers hold when the region is entered
variable (V : (c : Dev nD) → (b : Ref sig .tc) → Buf (Elt F) ((c : Thread nD τ).loc b))

/-! ## The blocks of the three windows -/

/-- The block of window `w` at grid point `t`: the part of the window's array, as the region finds it,
    that the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the left block of the point at every point. The body never
    writes it, so where the pipeline does not fetch it the block index is the one of the point before
    and the buffer still holds the right block. Stated for any proof data with array `V`'s and with
    the block left in place by the body. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the right operand, whose block changes only with the outer grid coordinate: between two
    fetches the index map is constant, so the buffer keeps holding the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each block whole -/

abbrev rX0 : Rect S512x1024 := Rect.unit (s := S512x1024) ![0, 0] S512x1024.size inb_S512x1024_S512x1024_0_0
abbrev rW0 : Rect S1024x1024 := Rect.unit (s := S1024x1024) ![0, 0] S1024x1024.size inb_S1024x1024_S1024x1024_0_0

/-! ## What the store leaves in the output buffer -/

/-- The output buffer after the body, from the two input blocks: one store over the whole block, of the
    product of the two blocks as the body computes it. -/
def out0_2 (x0 : Vec F S512x1024 .bf16) (x1 : Vec F S1024x1024 .bf16) : Vec F S512x1024 .bf16 :=
  View.canon [⟨rX0, k0_pay1 (View.ld x0 rX0) (View.ld x1 rW0)⟩]

/-- The single store's rectangle is the whole block, so every index of the buffer lies under it. -/
theorem cover0_2 (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

/-! ## The triple of the body -/

set_option maxHeartbeats 1000000 in
/-- The body, called on whole staging memrefs that hold `x0` and `x1` (as read contents) and an output
    memref holding anything, ends with the two inputs as they were and the output at `out0_2 x0 x1`.
    The grid coordinates it is passed are not used. -/
theorem sound_kernel0 (c : Dev nD) (E : Set ℕ) (i : grid0.Coords)
    (arg0 : Memref sig .tc .vmem S512x1024 .bf16) (harg0 : arg0.IsWhole)
    (arg1 : Memref sig .tc .vmem S1024x1024 .bf16) (harg1 : arg1.IsWhole)
    (arg2 : Memref sig .tc .vmem S512x1024 .bf16) (harg2 : arg2.IsWhole)
    (x0 : Vec F S512x1024 .bf16) (x1 : Vec F S1024x1024 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- The proof data of the pipeline on core `c`: the arrays as the region finds them; after the body at
    point `t` each input buffer still at its block and the output buffer at `out0_2` of the two blocks;
    the invariant that the rest of the core's state is untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`: the invariant, what is owed, and the three current staging
    buffers at what the pipeline left in them, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it has to return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold their blocks, so the body's triple applies; the invariant and
    what is owed are not touched by the body and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.MatmulRegion2.lean ====
/- Region 2 of the program: the pallas_call of a matrix product on whole blocks. The body reads the
   left block (512x1024) and the right block (1024x1024) through their whole rectangles, forms one
   value from the two and stores it over the whole output block. This file gives, at any contents `V`
   of the TensorCore's buffers when the region is entered: each window's block at a grid point, the
   contents the single store leaves in the output buffer as a function of the two input blocks, the
   triple of the body, the proof data of the pipeline and its body obligation. -/
import proofs.«155122_j66666482368602_2_alg».proof.Proof.Gen.KernelIdeal.Launch
import proofs.«155122_j66666482368602_2_alg».proof.Proof.Gen.KernelIdeal.Skeleton
import proofs.«155122_j66666482368602_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in the whole rectangle of a 512x1024 block is looked at coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region2
-- what the TensorCore's buffers hold when the region is entered
variable (V : (c : Dev nD) → (b : Ref sig .tc) → Buf (Elt F) ((c : Thread nD τ).loc b))

/-! ## The blocks of the three windows -/

/-- The block of window `w` at grid point `t`: the part of the window's array, as the region finds it,
    that the window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the left block of the point at every point. The body never
    writes it, so where the pipeline does not fetch it the block index is the one of the point before
    and the buffer still holds the right block. Stated for any proof data with array `V`'s and with
    the block left in place by the body. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the right operand, whose block changes only with the outer grid coordinate: between two
    fetches the index map is constant, so the buffer keeps holding the block of the point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each block whole -/

abbrev rX2 : Rect S512x1024 := Rect.unit (s := S512x1024) ![0, 0] S512x1024.size inb_S512x1024_S512x1024_0_0
abbrev rW2 : Rect S1024x1024 := Rect.unit (s := S1024x1024) ![0, 0] S1024x1024.size inb_S1024x1024_S1024x1024_0_0

/-! ## What the store leaves in the output buffer -/

/-- The output buffer after the body, from the two input blocks: one store over the whole block, of the
    product of the two blocks as the body computes it. -/
def out2_2 (x0 : Vec F S512x1024 .bf16) (x1 : Vec F S1024x1024 .bf16) : Vec F S512x1024 .f32 :=
  View.canon [⟨rX2, k2_pay1 (View.ld x0 rX2) (View.ld x1 rW2)⟩]

/-- The single store's rectangle is the whole block, so every index of the buffer lies under it. -/
theorem cover2_2 (p0 : Vec F S512x1024 .f32) (y : S512x1024.Idx) :
    ∃ pc ∈ ([⟨rX2, p0⟩] : List (View.Piece (Elt F) S512x1024 .f32)), y ∈ pc.1.set :=
  View.cover_of_tiled [⟨rX2, p0⟩] S512x1024.size (by rfl) y

/-! ## The triple of the body -/

set_option maxHeartbeats 1000000 in
/-- The body, called on whole staging memrefs that hold `x0` and `x1` (as read contents) and an output
    memref holding anything, ends with the two inputs as they were and the output at `out2_2 x0 x1`.
    The grid coordinates it is passed are not used. -/
theorem sound_kernel2 (c : Dev nD) (E : Set ℕ) (i : grid2.Coords)
    (arg0 : Memref sig .tc .vmem S512x1024 .bf16) (harg0 : arg0.IsWhole)
    (arg1 : Memref sig .tc .vmem S1024x1024 .bf16) (harg1 : arg1.IsWhole)
    (arg2 : Memref sig .tc .vmem S512x1024 .f32) (harg2 : arg2.IsWhole)
    (x0 : Vec F S512x1024 .bf16) (x1 : Vec F S1024x1024 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The proof data of the pipeline -/

/-- The proof data of the pipeline on core `c`: the arrays as the region finds them; after the body at
    point `t` each input buffer still at its block and the output buffer at `out2_2` of the two blocks;
    the invariant that the rest of the core's state is untouched; full shares; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`: the invariant, what is owed, and the three current staging
    buffers at what the pipeline left in them, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it has to return. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- At any point the two input buffers hold their blocks, so the body's triple applies; the invariant and
    what is owed are not touched by the body and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation of the pipeline, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.AttnShared.lean ====
/-
  The attention region (the second pallas_call): what its body's runs share.

  The grid is (head-batch 32) × (query block 2) × (key block 4), the last axis innermost, so point `t` has key
  block `t % 4` and query block `t / 4 % 2`. The body has three conditionals: the running maximum, normaliser and
  weighted sum (three scratch buffers carried from point to point) are reset at key block 0; the block's scores
  are folded into them when the key block starts at or before the query block's last row
  (`512 · ki ≤ 1024 · qi + 1023`, that is `ki ≤ 2 · qi + 1`); the quotient is stored into the output block at key
  block 3. Five combinations occur on the grid: reset and fold (key block 0); fold only; nothing (a key block
  wholly above the diagonal); store only; fold and store.
-/
import proofs.«155122_j66666482368602_2_alg».proof.Proof.Gen.KernelIdeal.Launch
import proofs.«155122_j66666482368602_2_alg».proof.Proof.Gen.KernelIdeal.Skeleton
import proofs.«155122_j66666482368602_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block at every point (it is fetched when the query block
    changes; in between its index does not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's staging buffer holds its block (at the clamped key index) at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's staging buffer holds its block (at the clamped key index) at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions, in closed form over the grid -/

/-- "This is key block 0": the running state is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "The key block starts at or before the query block's last row": the block is folded in. -/
abbrev cond1_1 (i : grid1.Coords) : Prop := (Scalar.cmpi .ne (Scalar.extui (Scalar.cmpi .sle (Scalar.muli (BitVec.ofNat 32 (i 2).val) 512#32) (Scalar.subi (Scalar.addi (Scalar.muli (BitVec.ofNat 32 (i 1).val) 1024#32) 1024#32) 1#32))) 0#32) = 1#1
theorem hcond1_1 : ∀ t : Fin cfg1.N, cond1_1 (grid1.coords t) ↔ t.val % 4 ≤ 2 * (t.val / 4 % 2) + 1 :=
  (by decide +kernel : ∀ t : Fin grid1.N, cond1_1 (grid1.coords t) ↔ t.val % 4 ≤ 2 * (t.val / 4 % 2) + 1)

/-- "This is key block 3": the quotient is stored. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off key block 3 nothing is stored into the output block: the window is idle there and not written back. -/
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
/-- At key block 3 the output block is stored whole: the window is live. -/
theorem liveAt1_3 : ∀ t : Fin cfg1.N, cond1_2 (grid1.coords t) → cfg1.idle 3 (grid1.coords t) = false := by decide +kernel

/-! ## The memrefs the body is called with -/

/-- One staging buffer of the output window, through which its contents are stated. -/
abbrev VO1_3 : View sig .tc .vmem S1x1024x64 .bf16 := (Memref.whole cc1_stg3_0 : Memref sig .tc .vmem S1x1024x64 .bf16).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .bf16 := win1_3.stage (cfg1.slots t 3)
abbrev hs1_3 (t : Fin cfg1.N) : (ms1_3 t).IsWhole := hstage1_3 ((cfg1.slots t 3).cast nbuf1_3)
/-- The three scratch buffers: the running maximum, the running normaliser, the running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

/-- A scoped buffer of another region's, whole at some contents: it rides through this region untouched. -/
abbrev heldAny (c : Dev nD) (X : Ref sig .tc) : sProp 𝕄 :=
  iprop(∃ f : Buf (Elt F) ((c : Thread nD τ).loc X), ((c : Thread nD τ).loc X) ↦{fullShare} f)

/-- The region's resting invariant: the other regions' staging buffers at anything, the three scratch buffers as
    owned memrefs at some contents, and the generator register. -/
theorem PhiA1_eq (c : Dev nD) :
    (Pipeline.ΦA spec1 c : sProp 𝕄)
      = iprop(iprop(heldAny c cc0_stg0_0 ∗ heldAny c cc0_stg0_1 ∗ heldAny c cc0_stg1_0 ∗ heldAny c cc0_stg1_1
          ∗ heldAny c cc0_stg2_0 ∗ heldAny c cc0_stg2_1
          ∗ (∃ d, owns (c : Thread nD τ) scM1_0 fullShare d) ∗ (∃ d, owns (c : Thread nD τ) scM1_1 fullShare d)
          ∗ (∃ d, owns (c : Thread nD τ) scM1_2 fullShare d)
          ∗ heldAny c cc2_stg0_0 ∗ heldAny c cc2_stg0_1 ∗ heldAny c cc2_stg1_0 ∗ heldAny c cc2_stg2_0 ∗ heldAny c cc2_stg2_1)
        ∗ (∃ r, prngReg c r)) := by
  unfold Pipeline.ΦA; rw [scopedRest1_eq]; simp only [scM1_0, scM1_1, scM1_2, owns_whole, heldAny]; try rfl

end Cert.KernelIdeal.Hand

end
-- ==== Proof.AttnRunA.lean ====
/-
  The attention body at key block 0: the three scratch buffers are reset (maximum −∞, normaliser 0, weighted sum
  0) and the block's scores folded in. Each scratch buffer is stored twice, the output block is not touched.
-/
import proofs.«155122_j66666482368602_2_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body leaves in each scratch buffer at key block 0 (last store first), with the proof that on whole
    memrefs — the three inputs at their contents, the output block handed back untouched, the scratch at anything —
    the body runs to a continuation that holds the inputs as they were and each scratch with its pieces written. -/
noncomputable def kernelRun1_A (c : Dev nD) (i : grid1.Coords) (arg3 : Memref sig .tc .vmem S1x1024x64 .bf16) (harg3 : arg3.IsWhole) (arg4 : Memref sig .tc .vmem S1x64x512 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond1_0 i) (hc1 : cond1_1 i) (hc2 : ¬cond1_2 i)
    (x0 : Vec F S1x1024x64 .bf16) (x1 : Vec F S1x64x512 .bf16) (x2 : Vec F S1x512x64 .bf16) :
    Σ' (LS0 : List (View.Piece (Elt F) S1024x1 .f32)) (LS1 : List (View.Piece (Elt F) S1024x1 .f32)), { LS2 : List (View.Piece (Elt F) S1024x64 .f32) //
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.AttnRunB.lean ====
/-
  The attention body at a later key block that is folded in and is not the last: each scratch buffer is read at
  what the point before left and stored once; the output block is not touched.
-/
import proofs.«155122_j66666482368602_2_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x64 .bf16) (harg3 : arg3.IsWhole) (arg4 : Memref sig .tc .vmem S1x64x512 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : ¬cond1_2 i)
    (x0 : Vec F S1x1024x64 .bf16) (x1 : Vec F S1x64x512 .bf16) (x2 : Vec F S1x512x64 .bf16) (xs0 : Vec F S1024x1 .f32) (xs1 : Vec F S1024x1 .f32) (xs2 : Vec F S1024x64 .f32) :
    Σ' (LS0 : List (View.Piece (Elt F) S1024x1 .f32)) (LS1 : List (View.Piece (Elt F) S1024x1 .f32)), { LS2 : List (View.Piece (Elt F) S1024x64 .f32) //
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.AttnRunC.lean ====
/-
  The attention body at a key block wholly above the diagonal that is not the last: nothing is read or stored.
-/
import proofs.«155122_j66666482368602_2_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x64 .bf16) (harg3 : arg3.IsWhole) (arg4 : Memref sig .tc .vmem S1x64x512 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : ¬cond1_2 i)
    (x0 : Vec F S1x1024x64 .bf16) (x1 : Vec F S1x64x512 .bf16) (x2 : Vec F S1x512x64 .bf16) (xs0 : Vec F S1024x1 .f32) (xs1 : Vec F S1024x1 .f32) (xs2 : Vec F S1024x64 .f32) :
    PLift (
      ∀ (xi3 : Vec F S1x1024x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K ) := by
  refine ⟨fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.AttnRunD.lean ====
/-
  The attention body at the last key block when that block is wholly above the diagonal: the running weighted sum
  over the running normaliser is stored into the output block; the scratch buffers are read, not stored.
-/
import proofs.«155122_j66666482368602_2_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_D (c : Dev nD) (i : grid1.Coords) (arg3 : Memref sig .tc .vmem S1x1024x64 .bf16) (harg3 : arg3.IsWhole) (arg4 : Memref sig .tc .vmem S1x64x512 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : ¬cond1_1 i) (hc2 : cond1_2 i)
    (x0 : Vec F S1x1024x64 .bf16) (x1 : Vec F S1x64x512 .bf16) (x2 : Vec F S1x512x64 .bf16) (xs0 : Vec F S1024x1 .f32) (xs1 : Vec F S1024x1 .f32) (xs2 : Vec F S1024x64 .f32) :
    { L3 : List (View.Piece (Elt F) S1x1024x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.AttnRunE.lean ====
/-
  The attention body at the last key block when it is folded in: each scratch buffer is stored once, then the
  running weighted sum over the running normaliser is stored into the output block.
-/
import proofs.«155122_j66666482368602_2_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_E (c : Dev nD) (i : grid1.Coords) (arg3 : Memref sig .tc .vmem S1x1024x64 .bf16) (harg3 : arg3.IsWhole) (arg4 : Memref sig .tc .vmem S1x64x512 .bf16) (harg4 : arg4.IsWhole) (arg5 : Memref sig .tc .vmem S1x512x64 .bf16) (harg5 : arg5.IsWhole) (arg6 : Memref sig .tc .vmem S1x1024x64 .bf16) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond1_0 i) (hc1 : cond1_1 i) (hc2 : cond1_2 i)
    (x0 : Vec F S1x1024x64 .bf16) (x1 : Vec F S1x64x512 .bf16) (x2 : Vec F S1x512x64 .bf16) (xs0 : Vec F S1024x1 .f32) (xs1 : Vec F S1024x1 .f32) (xs2 : Vec F S1024x64 .f32) :
    Σ' (L3 : List (View.Piece (Elt F) S1x1024x64 .bf16)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.AttnRegion.lean ====
/-
  The attention region: what the output block and the three scratch buffers hold after every grid point, the
  region's proof data, and the body obligation.

  After the body at point `t` the scratch buffers hold: at key block 0, what a reset followed by one fold leaves; at
  a later folded key block, one fold over what the point before left; at a key block wholly above the diagonal,
  what the point before left. The output block is stored at key block 3 only, from the scratch as it then stands.
-/
import proofs.«155122_j66666482368602_2_alg».proof.Proof.AttnRunA
import proofs.«155122_j66666482368602_2_alg».proof.Proof.AttnRunB
import proofs.«155122_j66666482368602_2_alg».proof.Proof.AttnRunC
import proofs.«155122_j66666482368602_2_alg».proof.Proof.AttnRunD
import proofs.«155122_j66666482368602_2_alg».proof.Proof.AttnRunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The output block's staging buffer and the three scratch buffers after a point. -/
structure AttnSt (F : FTy → Type) [FloatOps F] where
  out : Vec F S1x1024x64 .bf16
  s0 : Vec F S1024x1 .f32
  s1 : Vec F S1024x1 .f32
  s2 : Vec F S1024x64 .f32

/-- The output staging buffer where nothing was stored into it: a placeholder nothing consults (the window is idle
    and not written back there). -/
def outIdle : Vec F S1x1024x64 .bf16 := VO1_3.read (Elt F) (VO1_3.writes (Elt F) VO1_3.junk [])

/-! ## What each case leaves -/

def stepA (c : Dev nD) (t : Fin cfg1.N) (h0 : t.val % 4 = 0) : AttnSt F :=
  ⟨outIdle, VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).1),
    VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.1),
    VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.2.1)⟩

def stepB (c : Dev nD) (t : Fin cfg1.N) (h0 : ¬t.val % 4 = 0) (h1 : t.val % 4 ≤ 2 * (t.val / 4 % 2) + 1) (h2 : ¬t.val % 4 = 3) (p : AttnSt F) : AttnSt F :=
  ⟨outIdle, VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).1),
    VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).2.1),
    VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).2.2.1)⟩

def stepC (c : Dev nD) (t : Fin cfg1.N) (h0 : ¬t.val % 4 = 0) (h1 : ¬t.val % 4 ≤ 2 * (t.val / 4 % 2) + 1) (h2 : ¬t.val % 4 = 3) (p : AttnSt F) : AttnSt F :=
  ⟨outIdle, p.s0, p.s1, p.s2⟩

def stepD (c : Dev nD) (t : Fin cfg1.N) (h0 : ¬t.val % 4 = 0) (h1 : ¬t.val % 4 ≤ 2 * (t.val / 4 % 2) + 1) (h2 : t.val % 4 = 3) (p : AttnSt F) : AttnSt F :=
  ⟨VO1_3.read (Elt F) (VO1_3.writes (Elt F) VO1_3.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) p.s0 p.s1 p.s2).1), p.s0, p.s1, p.s2⟩

def stepE (c : Dev nD) (t : Fin cfg1.N) (h0 : ¬t.val % 4 = 0) (h1 : t.val % 4 ≤ 2 * (t.val / 4 % 2) + 1) (h2 : t.val % 4 = 3) (p : AttnSt F) : AttnSt F :=
  ⟨VO1_3.read (Elt F) (VO1_3.writes (Elt F) VO1_3.junk (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).1),
    VS1_0.read (Elt F) (VS1_0.writes (Elt F) VS1_0.junk (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.1),
    VS1_1.read (Elt F) (VS1_1.writes (Elt F) VS1_1.junk (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.2.1),
    VS1_2.read (Elt F) (VS1_2.writes (Elt F) VS1_2.junk (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.2.2.1)⟩

/-! ## The stores of each case cover the buffers they write -/

theorem scoverA_0 (c : Dev nD) (t : Fin cfg1.N) (h0 : t.val % 4 = 0) (y : S1024x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).1, y ∈ pc.1.set :=
  View.cover_of_tiledL _ S1024x1.size (by sl_kernel_rfl) y
theorem scoverA_1 (c : Dev nD) (t : Fin cfg1.N) (h0 : t.val % 4 = 0) (y : S1024x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.1, y ∈ pc.1.set :=
  View.cover_of_tiledL _ S1024x1.size (by sl_kernel_rfl) y
theorem scoverA_2 (c : Dev nD) (t : Fin cfg1.N) (h0 : t.val % 4 = 0) (y : S1024x64.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => by have := (hcond1_2 t).mp h; omega) (iblk1 V c 0 t) (iblk1 V c 1 t) (iblk1 V c 2 t)).2.2.1, y ∈ pc.1.set :=
  View.cover_of_tiledL _ S1024x64.size (by sl_kernel_rfl) y
theorem scoverB_0 (c : Dev nD) (t : Fin cfg1.N) (h0 : ¬t.val % 4 = 0) (h1 : t.val % 4 ≤ 2 * (t.val / 4 % 2) + 1) (h2 : ¬t.val % 4 = 3) (p : AttnSt F) (y : S1024x1.Idx) : ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).1, y ∈ pc.1.set :=
  View.cover_of_tiledL _ S1024x1.size (by sl_kernel_rfl) y
theorem scoverB_1 (c : Dev nD) (t : Fin cfg1.N) (h0 : ¬t.val % 4 = 0) (h1 : t.val % 4 ≤ 2 * (t.val / 4 % 2) + 1) (h2 : ¬t.val % 4 = 3) (p : AttnSt F) (y : S1024x1.Idx) : ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).2.1, y ∈ pc.1.set :=
  View.cover_of_tiledL _ S1024x1.size (by sl_kernel_rfl) y
theorem scoverB_2 (c : Dev nD) (t : Fin cfg1.N) (h0 : ¬t.val % 4 = 0) (h1 : t.val % 4 ≤ 2 * (t.val / 4 % 2) + 1) (h2 : ¬t.val % 4 = 3) (p : AttnSt F) (y : S1024x64.Idx) : ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) p.s0 p.s1 p.s2).2.2.1, y ∈ pc.1.set :=
  View.cover_of_tiledL _ S1024x64.size (by sl_kernel_rfl) y
theorem coverD_3 (c : Dev nD) (t : Fin cfg1.N) (h0 : ¬t.val % 4 = 0) (h1 : ¬t.val % 4 ≤ 2 * (t.val / 4 % 2) + 1) (h2 : t.val % 4 = 3) (p : AttnSt F) (y : S1x1024x64.Idx) : ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (iblk1 V c 0 t) (iblk1 V c 1 t) (iblk1 V c 2 t) p.s0 p.s1 p.s2).1, y ∈ pc.1.set :=
  View.cover_of_tiledL _ S1x1024x64.size (by sl_kernel_rfl) y
theorem coverE_3 (c : Dev nD) (t : Fin cfg1.N) (h0 : ¬t.val % 4 = 0) (h1 : t.val % 4 ≤ 2 * (t.val / 4 % 2) + 1) (h2 : t.val % 4 = 3) (p : AttnSt F) (y : S1x1024x64.Idx) : ∃ pc ∈ (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).1, y ∈ pc.1.set :=
  View.cover_of_tiledL _ S1x1024x64.size (by sl_kernel_rfl) y
theorem scoverE_0 (c : Dev nD) (t : Fin cfg1.N) (h0 : ¬t.val % 4 = 0) (h1 : t.val % 4 ≤ 2 * (t.val / 4 % 2) + 1) (h2 : t.val % 4 = 3) (p : AttnSt F) (y : S1024x1.Idx) : ∃ pc ∈ (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.1, y ∈ pc.1.set :=
  View.cover_of_tiledL _ S1024x1.size (by sl_kernel_rfl) y
theorem scoverE_1 (c : Dev nD) (t : Fin cfg1.N) (h0 : ¬t.val % 4 = 0) (h1 : t.val % 4 ≤ 2 * (t.val / 4 % 2) + 1) (h2 : t.val % 4 = 3) (p : AttnSt F) (y : S1024x1.Idx) : ∃ pc ∈ (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.2.1, y ∈ pc.1.set :=
  View.cover_of_tiledL _ S1024x1.size (by sl_kernel_rfl) y
theorem scoverE_2 (c : Dev nD) (t : Fin cfg1.N) (h0 : ¬t.val % 4 = 0) (h1 : t.val % 4 ≤ 2 * (t.val / 4 % 2) + 1) (h2 : t.val % 4 = 3) (p : AttnSt F) (y : S1024x64.Idx) : ∃ pc ∈ (kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) p.s0 p.s1 p.s2).2.2.2.1, y ∈ pc.1.set :=
  View.cover_of_tiledL _ S1024x64.size (by sl_kernel_rfl) y

/-! ## What the buffers hold after each point -/

/-- The state after the body at position `n`: the case the closed forms select there, over the state the point before left. -/
def outsAt1 (c : Dev nD) : (n : ℕ) → n < cfg1.N → AttnSt F
  | 0, hn => stepA V c ⟨0, hn⟩ (Nat.zero_mod _)
  | n + 1, hn =>
    if h0 : (n + 1) % 4 = 0 then stepA V c ⟨n + 1, hn⟩ h0
    else if h1 : (n + 1) % 4 ≤ 2 * ((n + 1) / 4 % 2) + 1 then
      if h2 : (n + 1) % 4 = 3 then stepE V c ⟨n + 1, hn⟩ h0 h1 h2 (outsAt1 c n (Nat.lt_of_succ_lt hn))
      else stepB V c ⟨n + 1, hn⟩ h0 h1 h2 (outsAt1 c n (Nat.lt_of_succ_lt hn))
    else
      if h2 : (n + 1) % 4 = 3 then stepD V c ⟨n + 1, hn⟩ h0 h1 h2 (outsAt1 c n (Nat.lt_of_succ_lt hn))
      else stepC c ⟨n + 1, hn⟩ h0 h1 h2 (outsAt1 c n (Nat.lt_of_succ_lt hn))

/-- The state the point before `t` left (any state at the first point, where no case reads it). -/
abbrev prevAt (c : Dev nD) (t : Fin cfg1.N) : AttnSt F := outsAt1 V c (t.val - 1) (Nat.lt_of_le_of_lt (Nat.sub_le _ _) t.isLt)

theorem outsAt1_A (c : Dev nD) (t : Fin cfg1.N) (h0 : t.val % 4 = 0) : outsAt1 V c t.val t.isLt = stepA V c t h0 := by
  obtain ⟨n, hn⟩ := t
  cases n with
  | zero => rfl
  | succ n => exact (dif_pos h0)
theorem outsAt1_B (c : Dev nD) (t : Fin cfg1.N) (h0 : ¬t.val % 4 = 0) (h1 : t.val % 4 ≤ 2 * (t.val / 4 % 2) + 1) (h2 : ¬t.val % 4 = 3) : outsAt1 V c t.val t.isLt = stepB V c t h0 h1 h2 (prevAt V c t) := by
  obtain ⟨n, hn⟩ := t
  cases n with
  | zero => exact absurd (Nat.zero_mod _) h0
  | succ n => exact (dif_neg h0).trans ((dif_pos h1).trans (dif_neg h2))
theorem outsAt1_C (c : Dev nD) (t : Fin cfg1.N) (h0 : ¬t.val % 4 = 0) (h1 : ¬t.val % 4 ≤ 2 * (t.val / 4 % 2) + 1) (h2 : ¬t.val % 4 = 3) : outsAt1 V c t.val t.isLt = stepC c t h0 h1 h2 (prevAt V c t) := by
  obtain ⟨n, hn⟩ := t
  cases n with
  | zero => exact absurd (Nat.zero_mod _) h0
  | succ n => exact (dif_neg h0).trans ((dif_neg h1).trans (dif_neg h2))
theorem outsAt1_D (c : Dev nD) (t : Fin cfg1.N) (h0 : ¬t.val % 4 = 0) (h1 : ¬t.val % 4 ≤ 2 * (t.val / 4 % 2) + 1) (h2 : t.val % 4 = 3) : outsAt1 V c t.val t.isLt = stepD V c t h0 h1 h2 (prevAt V c t) := by
  obtain ⟨n, hn⟩ := t
  cases n with
  | zero => exact absurd (Nat.zero_mod _) h0
  | succ n => exact (dif_neg h0).trans ((dif_neg h1).trans (dif_pos h2))
theorem outsAt1_E (c : Dev nD) (t : Fin cfg1.N) (h0 : ¬t.val % 4 = 0) (h1 : t.val % 4 ≤ 2 * (t.val / 4 % 2) + 1) (h2 : t.val % 4 = 3) : outsAt1 V c t.val t.isLt = stepE V c t h0 h1 h2 (prevAt V c t) := by
  obtain ⟨n, hn⟩ := t
  cases n with
  | zero => exact absurd (Nat.zero_mod _) h0
  | succ n => exact (dif_neg h0).trans ((dif_pos h1).trans (dif_pos h2))

/-! ## The region's invariant, point by point -/

/-- Before the first point the region's resting invariant (every scratch buffer at anything); afterwards the same
    with the three scratch buffers at what the point before left in them. -/
def PhiS (c : Dev nD) : (n : ℕ) → n ≤ cfg1.N → sProp 𝕄
  | 0, _ => Pipeline.ΦA spec1 c
  | n + 1, hn => iprop(iprop(heldAny c cc0_stg0_0 ∗ heldAny c cc0_stg0_1 ∗ heldAny c cc0_stg1_0 ∗ heldAny c cc0_stg1_1 ∗ heldAny c cc0_stg2_0 ∗ heldAny c cc0_stg2_1 ∗ owns (c : Thread nD τ) scM1_0 fullShare (outsAt1 V c n hn).s0 ∗ owns (c : Thread nD τ) scM1_1 fullShare (outsAt1 V c n hn).s1 ∗ owns (c : Thread nD τ) scM1_2 fullShare (outsAt1 V c n hn).s2 ∗ heldAny c cc2_stg0_0 ∗ heldAny c cc2_stg0_1 ∗ heldAny c cc2_stg1_0 ∗ heldAny c cc2_stg2_0 ∗ heldAny c cc2_stg2_1) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(heldAny c cc0_stg0_0 ∗ heldAny c cc0_stg0_1 ∗ heldAny c cc0_stg1_0 ∗ heldAny c cc0_stg1_1 ∗ heldAny c cc0_stg2_0 ∗ heldAny c cc0_stg2_1 ∗ owns (c : Thread nD τ) scM1_0 fullShare (outsAt1 V c n hn).s0 ∗ owns (c : Thread nD τ) scM1_1 fullShare (outsAt1 V c n hn).s1 ∗ owns (c : Thread nD τ) scM1_2 fullShare (outsAt1 V c n hn).s2 ∗ heldAny c cc2_stg0_0 ∗ heldAny c cc2_stg0_1 ∗ heldAny c cc2_stg1_0 ∗ heldAny c cc2_stg2_0 ∗ heldAny c cc2_stg2_1) ∗ (∃ r, prngReg c r)) := rfl

theorem PhiS_pos (c : Dev nD) (n : ℕ) (h : n ≤ cfg1.N) (hz : n ≠ 0) :
    PhiS V c n h = iprop(iprop(heldAny c cc0_stg0_0 ∗ heldAny c cc0_stg0_1 ∗ heldAny c cc0_stg1_0 ∗ heldAny c cc0_stg1_1 ∗ heldAny c cc0_stg2_0 ∗ heldAny c cc0_stg2_1 ∗ owns (c : Thread nD τ) scM1_0 fullShare (outsAt1 V c (n - 1) (by omega)).s0 ∗ owns (c : Thread nD τ) scM1_1 fullShare (outsAt1 V c (n - 1) (by omega)).s1 ∗ owns (c : Thread nD τ) scM1_2 fullShare (outsAt1 V c (n - 1) (by omega)).s2 ∗ heldAny c cc2_stg0_0 ∗ heldAny c cc2_stg0_1 ∗ heldAny c cc2_stg1_0 ∗ heldAny c cc2_stg2_0 ∗ heldAny c cc2_stg2_1) ∗ (∃ r, prngReg c r)) := by
  cases n with
  | zero => exact absurd rfl hz
  | succ n => rfl

/-! ## The proof data -/

/-- The arrays as the region finds them; after the body at a point each input's buffer at its block and the
    output's at the state's output component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).out
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).out := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' buffers hold their blocks; the closed forms say which of the five cases the
    point is in; the invariant hands the body the scratch at what the point before left (at anything at the very
    first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · -- key block 0: reset and fold
      rw [Dat.leavesExact_idle (dat1 V c) 3 t (idleAt1_3 t (fun h => by have := (hcond1_2 t).mp h; omega)) (noFlush1_3 t (fun h => by have := (hcond1_2 t).mp h; omega))]
      rw [outsAt1_A V c t h0]
      unfold stepA; (try dsimp only)
      by_cases hz : t.val = 0
      · rw [PhiS_castSucc V c t, PhiS_zero V c _ _ hz, PhiA1_eq]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) ((hcond1_1 t).mpr (by omega)) (fun h => by have := (hcond1_2 t).mp h; omega) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · (unfold owns; iexists _; isplitr; swap; (· iexact HS0); ipureintro; exact View.read_writes_of_cover _ _ _ _ _ (scoverA_0 V c t h0))
            isplitl [HS1]; · (unfold owns; iexists _; isplitr; swap; (· iexact HS1); ipureintro; exact View.read_writes_of_cover _ _ _ _ _ (scoverA_1 V c t h0))
            isplitl [HS2]; · (unfold owns; iexists _; isplitr; swap; (· iexact HS2); ipureintro; exact View.read_writes_of_cover _ _ _ _ _ (scoverA_2 V c t h0))
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) ((hcond1_1 t).mpr (by omega)) (fun h => by have := (hcond1_2 t).mp h; omega) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%e0, HS0⟩, ⟨%e1, HS1⟩, ⟨%e2, HS2⟩⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · (unfold owns; iexists _; isplitr; swap; (· iexact HS0); ipureintro; exact View.read_writes_of_cover _ _ _ _ _ (scoverA_0 V c t h0))
            isplitl [HS1]; · (unfold owns; iexists _; isplitr; swap; (· iexact HS1); ipureintro; exact View.read_writes_of_cover _ _ _ _ _ (scoverA_1 V c t h0))
            isplitl [HS2]; · (unfold owns; iexists _; isplitr; swap; (· iexact HS2); ipureintro; exact View.read_writes_of_cover _ _ _ _ _ (scoverA_2 V c t h0))
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        iexists _; iexact H3
  · by_cases h1 : t.val % 4 ≤ 2 * (t.val / 4 % 2) + 1
    · by_cases h2 : t.val % 4 = 3
      · -- the last key block, folded in, then the quotient stored
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_E V c t h0 h1 h2]
        unfold stepE; (try dsimp only)
        have hz : t.val ≠ 0 := by omega
        rw [PhiS_castSucc V c t, PhiS_pos V c _ _ hz]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_E c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%e0, HS0⟩, ⟨%e1, HS1⟩, ⟨%e2, HS2⟩⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · (unfold owns; iexists _; isplitr; swap; (· iexact HS0); ipureintro; exact View.read_writes_of_cover _ _ _ _ _ (scoverE_0 V c t h0 h1 h2 _))
            isplitl [HS1]; · (unfold owns; iexists _; isplitr; swap; (· iexact HS1); ipureintro; exact View.read_writes_of_cover _ _ _ _ _ (scoverE_1 V c t h0 h1 h2 _))
            isplitl [HS2]; · (unfold owns; iexists _; isplitr; swap; (· iexact HS2); ipureintro; exact View.read_writes_of_cover _ _ _ _ _ (scoverE_2 V c t h0 h1 h2 _))
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverE_3 V c t h0 h1 h2 _)
      · -- a later key block folded in
        rw [Dat.leavesExact_idle (dat1 V c) 3 t (idleAt1_3 t (fun h => h2 ((hcond1_2 t).mp h))) (noFlush1_3 t (fun h => h2 ((hcond1_2 t).mp h)))]
        rw [outsAt1_B V c t h0 h1 h2]
        unfold stepB; (try dsimp only)
        have hz : t.val ≠ 0 := by omega
        rw [PhiS_castSucc V c t, PhiS_pos V c _ _ hz]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%e0, HS0⟩, ⟨%e1, HS1⟩, ⟨%e2, HS2⟩⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · (unfold owns; iexists _; isplitr; swap; (· iexact HS0); ipureintro; exact View.read_writes_of_cover _ _ _ _ _ (scoverB_0 V c t h0 h1 h2 _))
            isplitl [HS1]; · (unfold owns; iexists _; isplitr; swap; (· iexact HS1); ipureintro; exact View.read_writes_of_cover _ _ _ _ _ (scoverB_1 V c t h0 h1 h2 _))
            isplitl [HS2]; · (unfold owns; iexists _; isplitr; swap; (· iexact HS2); ipureintro; exact View.read_writes_of_cover _ _ _ _ _ (scoverB_2 V c t h0 h1 h2 _))
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        iexists _; iexact H3
    · by_cases h2 : t.val % 4 = 3
      · -- the last key block, wholly above the diagonal: only the quotient is stored
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_D V c t h0 h1 h2]
        unfold stepD; (try dsimp only)
        have hz : t.val ≠ 0 := by omega
        rw [PhiS_castSucc V c t, PhiS_pos V c _ _ hz]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_D c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _ _ _).2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, HS0, HS1, HS2⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · iexact HS0
            isplitl [HS1]; · iexact HS1
            isplitl [HS2]; · iexact HS2
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverD_3 V c t h0 h1 h2 _)
      · -- a key block wholly above the diagonal: nothing happens
        rw [Dat.leavesExact_idle (dat1 V c) 3 t (idleAt1_3 t (fun h => h2 ((hcond1_2 t).mp h))) (noFlush1_3 t (fun h => h2 ((hcond1_2 t).mp h)))]
        rw [outsAt1_C V c t h0 h1 h2]
        unfold stepC; (try dsimp only)
        have hz : t.val ≠ 0 := by omega
        rw [PhiS_castSucc V c t, PhiS_pos V c _ _ hz]
        iintro ⟨⟨⟨O1, O2, O3, O4, O5, O6, HS0, HS1, HS2, P1, P2, P3, P4, P5⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _ _ _).down _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [O1 O2 O3 O4 O5 O6 HS0 HS1 HS2 P1 P2 P3 P4 P5 Hg]
        · isplitl [O1 O2 O3 O4 O5 O6 HS0 HS1 HS2 P1 P2 P3 P4 P5]
          · isplitl [O1]; · iexact O1
            isplitl [O2]; · iexact O2
            isplitl [O3]; · iexact O3
            isplitl [O4]; · iexact O4
            isplitl [O5]; · iexact O5
            isplitl [O6]; · iexact O6
            isplitl [HS0]; · iexact HS0
            isplitl [HS1]; · iexact HS1
            isplitl [HS2]; · iexact HS2
            isplitl [P1]; · iexact P1
            isplitl [P2]; · iexact P2
            isplitl [P3]; · iexact P3
            isplitl [P4]; · iexact P4
            iexact P5
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the resting invariant back: the scratch contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS V c (Fin.last cfg1.N).val (Nat.le_of_lt_succ (Fin.last cfg1.N).isLt) from rfl,
    PhiS_pos V c _ _ ht, PhiA1_eq]
  iintro ⟨⟨O1, O2, O3, O4, O5, O6, HS0, HS1, HS2, P1, P2, P3, P4, P5⟩, Hg⟩
  isplitl [O1 O2 O3 O4 O5 O6 HS0 HS1 HS2 P1 P2 P3 P4 P5]
  · isplitl [O1]; · iexact O1
    isplitl [O2]; · iexact O2
    isplitl [O3]; · iexact O3
    isplitl [O4]; · iexact O4
    isplitl [O5]; · iexact O5
    isplitl [O6]; · iexact O6
    isplitl [HS0]; · (iexists _; iexact HS0)
    isplitl [HS1]; · (iexists _; iexact HS1)
    isplitl [HS2]; · (iexists _; iexact HS2)
    isplitl [P1]; · iexact P1
    isplitl [P2]; · iexact P2
    isplitl [P3]; · iexact P3
    isplitl [P4]; · iexact P4
    iexact P5
  iexact Hg

end Cert.KernelIdeal.Hand

end
-- ==== Proof.KernelIdealRun.lean ====
/-
  The whole program as a run of thirteen segments: eight stretches of host operations and the three kernel
  regions (the fused projection, the attention kernel, the output projection), each entered from the buffer
  contents the segment before left. The contents at each boundary are a fold from the launch memory: a host stretch
  applies its operations; a region leaves its windows' arrays at what its write-backs make of them and every other
  buffer as it found it. Nothing writes an argument array, so each argument is read back at its launch contents;
  every unscoped buffer, the result among them, is read at the last boundary's contents.
-/
import proofs.«155122_j66666482368602_2_alg».proof.Proof.MatmulRegion0
import proofs.«155122_j66666482368602_2_alg».proof.Proof.MatmulRegion2
import proofs.«155122_j66666482368602_2_alg».proof.Proof.AttnRegion
import proofs.«155122_j66666482368602_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
/-- The same read at the TensorCore's references: what region 0 is entered from. -/
abbrev En1 : (c : Dev nD) → (b : Ref sig .tc) → Buf (Elt F) ((c : Thread nD τ).loc b) := fun c b => W1 m ρ c b
/-- At region 0's exit: its windows' arrays at what the pipeline leaves, every other buffer as entered. -/
def W2 (c : Dev nD) : Valuation τ sig (Elt F) :=
  Pipeline.withArrays spec0 c (W1 m ρ c) fun w => (dat0 (En1 m ρ) c).arrAt w cfg0.N
theorem W2_arr (c : Dev nD) (w : Fin cfg0.W) :
    W2 m ρ c (Proc.devRef .tc (Pipeline.arrRef spec0 w)) = (dat0 (En1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev En2 : (c : Dev nD) → (b : Ref sig .tc) → Buf (Elt F) ((c : Thread nD τ).loc b) := fun c b => W2 m ρ c b
theorem hF0 (c : Dev nD) (w : Fin cfg0.W) : (dat0 (En1 m ρ) c).arrAt w cfg0.N = En2 m ρ c (Pipeline.arrRef spec0 w) :=
  (W2_arr m ρ c w).symm
theorem hrest0 (c : Dev nD) : ∀ b, b ∉ Finset.univ.image (Pipeline.arrRef spec0) → En2 m ρ c b = En1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
/-- After the host stretch `hostOps1_1`. -/
abbrev W4 : Dev nD → Valuation τ sig (Elt F) := fun c => StableHlo.after hostOps1_1 (W3 m ρ c)
/-- After the host stretch `hostOps1_2`. -/
abbrev W5 : Dev nD → Valuation τ sig (Elt F) := fun c => StableHlo.after hostOps1_2 (W4 m ρ c)
/-- After the host stretch `hostOps1_3`. -/
abbrev W6 : Dev nD → Valuation τ sig (Elt F) := fun c => StableHlo.after hostOps1_3 (W5 m ρ c)
/-- After the host stretch `hostOps1_4`. -/
abbrev W7 : Dev nD → Valuation τ sig (Elt F) := fun c => StableHlo.after hostOps1_4 (W6 m ρ c)
/-- After the host stretch `hostOps1_5`. -/
abbrev W8 : Dev nD → Valuation τ sig (Elt F) := fun c => StableHlo.after hostOps1_5 (W7 m ρ c)
/-- After the host stretch `hostOps1_6`. -/
abbrev W9 : Dev nD → Valuation τ sig (Elt F) := fun c => StableHlo.after hostOps1_6 (W8 m ρ c)
/-- The same read at the TensorCore's references: what region 1 is entered from. -/
abbrev En9 : (c : Dev nD) → (b : Ref sig .tc) → Buf (Elt F) ((c : Thread nD τ).loc b) := fun c b => W9 m ρ c b
/-- At region 1's exit: its windows' arrays at what the pipeline leaves, every other buffer as entered. -/
def W10 (c : Dev nD) : Valuation τ sig (Elt F) :=
  Pipeline.withArrays spec1 c (W9 m ρ c) fun w => (dat1 (En9 m ρ) c).arrAt w cfg1.N
theorem W10_arr (c : Dev nD) (w : Fin cfg1.W) :
    W10 m ρ c (Proc.devRef .tc (Pipeline.arrRef spec1 w)) = (dat1 (En9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
abbrev En10 : (c : Dev nD) → (b : Ref sig .tc) → Buf (Elt F) ((c : Thread nD τ).loc b) := fun c b => W10 m ρ c b
theorem hF1 (c : Dev nD) (w : Fin cfg1.W) : (dat1 (En9 m ρ) c).arrAt w cfg1.N = En10 m ρ c (Pipeline.arrRef spec1 w) :=
  (W10_arr m ρ c w).symm
theorem hrest1 (c : Dev nD) : ∀ b, b ∉ Finset.univ.image (Pipeline.arrRef spec1) → En10 m ρ c b = En9 m ρ c b :=
  fun b hb => W10_of_ne m ρ c b fun w e => hb (Finset.mem_image.mpr ⟨w, Finset.mem_univ _, e⟩)
/-- After the host stretch `hostOps2`. -/
abbrev W11 : Dev nD → Valuation τ sig (Elt F) := fun c => StableHlo.after hostOps2 (W10 m ρ c)
/-- The same read at the TensorCore's references: what region 2 is entered from. -/
abbrev En11 : (c : Dev nD) → (b : Ref sig .tc) → Buf (Elt F) ((c : Thread nD τ).loc b) := fun c b => W11 m ρ c b
/-- At region 2's exit: its windows' arrays at what the pipeline leaves, every other buffer as entered. -/
def W12 (c : Dev nD) : Valuation τ sig (Elt F) :=
  Pipeline.withArrays spec2 c (W11 m ρ c) fun w => (dat2 (En11 m ρ) c).arrAt w cfg2.N
theorem W12_arr (c : Dev nD) (w : Fin cfg2.W) :
    W12 m ρ c (Proc.devRef .tc (Pipeline.arrRef spec2 w)) = (dat2 (En11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
abbrev En12 : (c : Dev nD) → (b : Ref sig .tc) → Buf (Elt F) ((c : Thread nD τ).loc b) := fun c b => W12 m ρ c b
theorem hF2 (c : Dev nD) (w : Fin cfg2.W) : (dat2 (En11 m ρ) c).arrAt w cfg2.N = En12 m ρ c (Pipeline.arrRef spec2 w) :=
  (W12_arr m ρ c w).symm
theorem hrest2 (c : Dev nD) : ∀ b, b ∉ Finset.univ.image (Pipeline.arrRef spec2) → En12 m ρ c b = En11 m ρ c b :=
  fun b hb => W12_of_ne m ρ c b fun w e => hb (Finset.mem_image.mpr ⟨w, Finset.mem_univ _, e⟩)
/-- After the host stretch `hostOps3`. -/
abbrev W13 : Dev nD → Valuation τ sig (Elt F) := fun c => StableHlo.after hostOps3 (W12 m ρ c)

/-! ## No segment writes an argument -/
theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_writes_sub hostOps3 _ hostOps3_writes (by decide)
    _ = W11 m ρ c (Proc.devRef .tc main_arg0) := W12_of_ne m ρ c main_arg0 (by decide)
    _ = W10 m ρ c (Proc.devRef .tc main_arg0) := StableHlo.after_of_writes_sub hostOps2 _ hostOps2_writes (by decide)
    _ = W9 m ρ c (Proc.devRef .tc main_arg0) := W10_of_ne m ρ c main_arg0 (by decide)
    _ = W8 m ρ c (Proc.devRef .tc main_arg0) := StableHlo.after_of_writes_sub hostOps1_6 _ hostOps1_6_writes (by decide)
    _ = W7 m ρ c (Proc.devRef .tc main_arg0) := StableHlo.after_of_writes_sub hostOps1_5 _ hostOps1_5_writes (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_writes_sub hostOps3 _ hostOps3_writes (by decide)
    _ = W11 m ρ c (Proc.devRef .tc main_arg1) := W12_of_ne m ρ c main_arg1 (by decide)
    _ = W10 m ρ c (Proc.devRef .tc main_arg1) := StableHlo.after_of_writes_sub hostOps2 _ hostOps2_writes (by decide)
    _ = W9 m ρ c (Proc.devRef .tc main_arg1) := W10_of_ne m ρ c main_arg1 (by decide)
    _ = W8 m ρ c (Proc.devRef .tc main_arg1) := StableHlo.after_of_writes_sub hostOps1_6 _ hostOps1_6_writes (by decide)
    _ = W7 m ρ c (Proc.devRef .tc main_arg1) := StableHlo.after_of_writes_sub hostOps1_5 _ hostOps1_5_writes (by decide)
    _ = W6 m ρ c (Proc.devRef .tc main_arg1) := StableHlo.after_of_writes_sub hostOps1_4 _ hostOps1_4_writes (by decide)
    _ = W5 m ρ c (Proc.devRef .tc main_arg1) := StableHlo.after_of_writes_sub hostOps1_3 _ hostOps1_3_writes (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := StableHlo.after_of_writes_sub hostOps3 _ hostOps3_writes (by decide)
    _ = W11 m ρ c (Proc.devRef .tc main_arg2) := W12_of_ne m ρ c main_arg2 (by decide)
    _ = W10 m ρ c (Proc.devRef .tc main_arg2) := StableHlo.after_of_writes_sub hostOps2 _ hostOps2_writes (by decide)
    _ = W9 m ρ c (Proc.devRef .tc main_arg2) := W10_of_ne m ρ c main_arg2 (by decide)
    _ = W8 m ρ c (Proc.devRef .tc main_arg2) := StableHlo.after_of_writes_sub hostOps1_6 _ hostOps1_6_writes (by decide)
    _ = W7 m ρ c (Proc.devRef .tc main_arg2) := StableHlo.after_of_writes_sub hostOps1_5 _ hostOps1_5_writes (by decide)
    _ = W6 m ρ c (Proc.devRef .tc main_arg2) := StableHlo.after_of_writes_sub hostOps1_4 _ hostOps1_4_writes (by decide)
    _ = W5 m ρ c (Proc.devRef .tc main_arg2) := StableHlo.after_of_writes_sub hostOps1_3 _ hostOps1_3_writes (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := StableHlo.after_of_writes_sub hostOps3 _ hostOps3_writes (by decide)
    _ = W11 m ρ c (Proc.devRef .tc main_arg3) := W12_of_ne m ρ c main_arg3 (by decide)
    _ = W10 m ρ c (Proc.devRef .tc main_arg3) := StableHlo.after_of_writes_sub hostOps2 _ hostOps2_writes (by decide)
    _ = W9 m ρ c (Proc.devRef .tc main_arg3) := W10_of_ne m ρ c main_arg3 (by decide)
    _ = W8 m ρ c (Proc.devRef .tc main_arg3) := StableHlo.after_of_writes_sub hostOps1_6 _ hostOps1_6_writes (by decide)
    _ = W7 m ρ c (Proc.devRef .tc main_arg3) := StableHlo.after_of_writes_sub hostOps1_5 _ hostOps1_5_writes (by decide)
    _ = W6 m ρ c (Proc.devRef .tc main_arg3) := StableHlo.after_of_writes_sub hostOps1_4 _ hostOps1_4_writes (by decide)
    _ = W5 m ρ c (Proc.devRef .tc main_arg3) := StableHlo.after_of_writes_sub hostOps1_3 _ hostOps1_3_writes (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := StableHlo.after_of_writes_sub hostOps3 _ hostOps3_writes (by decide)
    _ = W11 m ρ c (Proc.devRef .tc main_arg4) := W12_of_ne m ρ c main_arg4 (by decide)
    _ = W10 m ρ c (Proc.devRef .tc main_arg4) := StableHlo.after_of_writes_sub hostOps2 _ hostOps2_writes (by decide)
    _ = W9 m ρ c (Proc.devRef .tc main_arg4) := W10_of_ne m ρ c main_arg4 (by decide)
    _ = W8 m ρ c (Proc.devRef .tc main_arg4) := StableHlo.after_of_writes_sub hostOps1_6 _ hostOps1_6_writes (by decide)
    _ = W7 m ρ c (Proc.devRef .tc main_arg4) := StableHlo.after_of_writes_sub hostOps1_5 _ hostOps1_5_writes (by decide)
    _ = W6 m ρ c (Proc.devRef .tc main_arg4) := StableHlo.after_of_writes_sub hostOps1_4 _ hostOps1_4_writes (by decide)
    _ = W5 m ρ c (Proc.devRef .tc main_arg4) := StableHlo.after_of_writes_sub hostOps1_3 _ hostOps1_3_writes (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := StableHlo.after_of_writes_sub hostOps3 _ hostOps3_writes (by decide)
    _ = W11 m ρ c (Proc.devRef .tc main_arg5) := W12_of_ne m ρ c main_arg5 (by decide)
    _ = W10 m ρ c (Proc.devRef .tc main_arg5) := StableHlo.after_of_writes_sub hostOps2 _ hostOps2_writes (by decide)
    _ = W9 m ρ c (Proc.devRef .tc main_arg5) := W10_of_ne m ρ c main_arg5 (by decide)
    _ = W8 m ρ c (Proc.devRef .tc main_arg5) := StableHlo.after_of_writes_sub hostOps1_6 _ hostOps1_6_writes (by decide)
    _ = W7 m ρ c (Proc.devRef .tc main_arg5) := StableHlo.after_of_writes_sub hostOps1_5 _ hostOps1_5_writes (by decide)
    _ = W6 m ρ c (Proc.devRef .tc main_arg5) := StableHlo.after_of_writes_sub hostOps1_4 _ hostOps1_4_writes (by decide)
    _ = W5 m ρ c (Proc.devRef .tc main_arg5) := StableHlo.after_of_writes_sub hostOps1_3 _ hostOps1_3_writes (by decide)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data family and the thread state -/

abbrev adm' : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm' p) c
  | ⟨0, _⟩ => fun c => dat0 (En1 m ρ) c
  | ⟨1, _⟩ => fun c => dat1 (En9 m ρ) c
  | ⟨2, _⟩ => fun c => dat2 (En11 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's
    debts, which are none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

/-! ## The regions as segments -/

set_option backward.isDefEq.respectTransparency.types false in
/-- Region 0: entered from every unscoped buffer at the boundary before it, left at the boundary after it. Its arrays
    are split out of the unscoped buffers and put back at the exit contents; the generator register goes into the
    region's invariant and comes back; nothing is owed; the kernel has no semaphore of its own. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (En1 m ρ c) (En2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the boundary before it, left at the boundary after it. Its arrays
    are split out of the unscoped buffers and put back at the exit contents; the generator register goes into the
    region's invariant and comes back; nothing is owed; the kernel has no semaphore of its own. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (En9 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (En9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (En9 m ρ) c); unfold Pipeline.ΦA
    iintro ⟨Hp, -, Hr⟩
    isplitl [Hr]; · iexact Hr
    iexact Hp
  hout c := by
    rw [Pipeline.ownSems0_none]
    refine BIBase.Entails.trans (hout1 (En9 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (En9 m ρ c) (En10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the boundary before it, left at the boundary after it. Its arrays
    are split out of the unscoped buffers and put back at the exit contents; the generator register goes into the
    region's invariant and comes back; nothing is owed; the kernel has no semaphore of its own. -/
def reg2 : Pipeline.RegionSeg (pcfgs (F := F)) adm' (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (En11 m ρ c)
  hentry c := by
    rw [Pipeline.ownSems0_none]
    have hsplit := Pipeline.arrays_of_unscopedBufs (p := 2) (pcfgs (F := F)) adm' (pdats m ρ) launch2.win launch2.arr_whole c
      ((pdats m ρ 2 c).share_full fun _ => rfl) (En11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm' (Ix := Unit) (Name := ℕ) (U := UR sig nD τ) (Lvl := ℕ)
      launch2.win launch2.arr_whole c (pdats m ρ) ((pdats m ρ 2 c).share_full fun _ => rfl)
      (En11 m ρ c) (En12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .region (reg1 m ρ),
    .host (hseg hostOps2 hostOps2_sub hostOps2_fresh (W10 m ρ)),
    .region (reg2 m ρ),
    .host (hseg hostOps3 hostOps3_sub hostOps3_fresh (W12 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program on the TensorCores
    terminates, nothing faulting, and every final state has every unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W13 m ρ c (Proc.devRef .tc b)) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c b hb => h c _ (mem_uc b hb))

/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_arg0 (by decide)).trans (W13_main_arg0 m ρ c),
      (h c main_arg1 (by decide)).trans (W13_main_arg1 m ρ c), (h c main_arg2 (by decide)).trans (W13_main_arg2 m ρ c),
      (h c main_arg3 (by decide)).trans (W13_main_arg3 m ρ c), (h c main_arg4 (by decide)).trans (W13_main_arg4 m ρ c),
      (h c main_arg5 (by decide)).trans (W13_main_arg5 m ρ c)⟩) (run_all m ρ)

end Cert.KernelIdeal.Hand

end
-- ==== Proof.RefRun.lean ====
/- The reference program's run. @main of the reference is a straight line of host operations with twelve calls of
   outlined functions (two `floor_divide`, four `remainder`, two of each of two `where`s on 64-vectors, `tril`, the
   mask's `where`), and no kernel launch. Here its operations are listed in order — each callee's operations at its call
   site, over the buffers that call names —, @main is shown to be that line, and the line is run: every weakly fair
   execution terminates with each buffer at the operations' fold over the launch contents. No operation writes an
   argument, so the arguments end unchanged: the reference's frame claim. -/
import proofs.«155122_j66666482368602_2_alg».proof.Defs
import proofs.«155122_j66666482368602_2_alg».proof.Proof.Gen.ReferenceIdeal
import proofs.«155122_j66666482368602_2_alg».proof.Proof.Gen.Pre_finite_inputs
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in the three consecutive windows @main is stated in -/

/-- Statements 1–60: the three input projections and their split into heads; the query's rotation tables (the
    frequency exponent `2·⌊i/2⌋/64` through `floor_divide`, the angles `t / 10000^e`, their cosine, and their sine signed
    `-1` at even `i` through `remainder` and a `where`); the start of the pair-swap index `i + (1 if i even else -1)`. -/
abbrev ops0 : List (HloOp τ sig (Elt F)) :=
  [
    StableHlo.binary main_arg0 main_arg2 main_v0 ((fun l r => Host.dotGeneral dot_S2x2048x1024_S1024x1024_S2x2048x1024_2_1_01_0_n_n none l r) : (⟨S2x2048x1024, .f32⟩ : BufTy).Contents (Elt F) → (⟨S1024x1024, .f32⟩ : BufTy).Contents (Elt F) → (⟨S2x2048x1024, .f32⟩ : BufTy).Contents (Elt F)),
    StableHlo.binary main_arg0 main_arg3 main_v1 ((fun l r => Host.dotGeneral dot_S2x2048x1024_S1024x1024_S2x2048x1024_2_1_01_0_n_n none l r) : (⟨S2x2048x1024, .f32⟩ : BufTy).Contents (Elt F) → (⟨S1024x1024, .f32⟩ : BufTy).Contents (Elt F) → (⟨S2x2048x1024, .f32⟩ : BufTy).Contents (Elt F)),
    StableHlo.binary main_arg0 main_arg4 main_v2 ((fun l r => Host.dotGeneral dot_S2x2048x1024_S1024x1024_S2x2048x1024_2_1_01_0_n_n none l r) : (⟨S2x2048x1024, .f32⟩ : BufTy).Contents (Elt F) → (⟨S1024x1024, .f32⟩ : BufTy).Contents (Elt F) → (⟨S2x2048x1024, .f32⟩ : BufTy).Contents (Elt F)),
    StableHlo.reshape main_v0 main_v3 rfl shapeCasts_S2x2048x1024_S2x2048x16x64,
    StableHlo.unary main_v3 main_v4 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    StableHlo.reshape main_v1 main_v5 rfl shapeCasts_S2x2048x1024_S2x2048x16x64,
    StableHlo.unary main_v5 main_v6 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    StableHlo.reshape main_v2 main_v7 rfl shapeCasts_S2x2048x1024_S2x2048x16x64,
    StableHlo.unary main_v7 main_v8 ((transpose S2x16x2048x64 [0, 2, 1, 3] · transposes_S2x2048x16x64_S2x16x2048x64_0_2_1_3) : (⟨S2x2048x16x64, .f32⟩ : BufTy).Contents (Elt F) → (⟨S2x16x2048x64, .f32⟩ : BufTy).Contents (Elt F)),
    StableHlo.nullary main_v9 (iotaInDim S64 32 0),
    StableHlo.nullary main_c (constantI S_ 32 2#32),
    StableHlo.TRef.unary (.of main_c : StableHlo.TRef sig ⟨S_, .i32⟩) main_call0.v0 id,
    StableHlo.TRef.unary main_call0.v0 main_call0.v1 (broadcastInDim S64 ![] bcast_S_S64),
    StableHlo.TRef.binary (.of main_v9 : StableHlo.TRef sig ⟨S64, .i32⟩) main_call0.v1 main_call0.v2 Host.divsi,
    StableHlo.TRef.unary (.of main_v9 : StableHlo.TRef sig ⟨S64, .i32⟩) main_call0.v3 signi,
    StableHlo.TRef.unary main_call0.v0 main_call0.v4 signi,
    StableHlo.TRef.unary main_call0.v4 main_call0.v5 (broadcastInDim S64 ![] bcast_S_S64),
    StableHlo.TRef.binary main_call0.v3 main_call0.v5 main_call0.v6 (cmpi .ne),
    StableHlo.TRef.unary main_call0.v0 main_call0.v7 (broadcastInDim S64 ![] bcast_S_S64),
    StableHlo.TRef.binary (.of main_v9 : StableHlo.TRef sig ⟨S64, .i32⟩) main_call0.v7 main_call0.v8 Host.remsi,
    StableHlo.TRef.nullary main_call0.c (constantI S_ 32 0#32),
    StableHlo.TRef.unary main_call0.c main_call0.v9 (broadcastInDim S64 ![] bcast_S_S64),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S64 ![] bcast_S_S64),
    StableHlo.TRef.binary main_call0.v2 main_call0.v12 main_call0.v13 subi,
    StableHlo.TRef.ternary main_call0.v11 main_call0.v13 main_call0.v2 main_call0.call0.v0 select,
    StableHlo.unary main_arg1 main_v11 (broadcastInDim S2048x1 ![0] bcast_S2048_S2048x1_0 : (⟨S2048, .i32⟩ : BufTy).Contents (Elt F) → (⟨S2048x1, .i32⟩ : BufTy).Contents (Elt F)),
    StableHlo.unary main_v11 main_v12 (sitofp .f32 : (⟨S2048x1, .i32⟩ : BufTy).Contents (Elt F) → (⟨S2048x1, .f32⟩ : BufTy).Contents (Elt F)),
    StableHlo.unary main_v10 main_v13 (sitofp .f32 : (⟨S64, .i32⟩ : BufTy).Contents (Elt F) → (⟨S64, .f32⟩ : BufTy).Contents (Elt F)),
    StableHlo.nullary main_cst (constant S_ .f32 0x40000000#32),
    StableHlo.unary main_cst main_v14 (broadcastInDim S64 ![] bcast_S_S64 : (⟨S_, .f32⟩ : BufTy).Contents (Elt F) → (⟨S64, .f32⟩ : BufTy).Contents (Elt F)),
    StableHlo.binary main_v14 main_v13 main_v15 (mulf : (⟨S64, .f32⟩ : BufTy).Contents (Elt F) → (⟨S64, .f32⟩ : BufTy).Contents (Elt F) → (⟨S64, .f32⟩ : BufTy).Contents (Elt F)),
    StableHlo.nullary main_cst_0 (constant S_ .f32 0x42800000#32),
    StableHlo.unary main_cst_0 main_v16 (broadcastInDim S64 ![] bcast_S_S64 : (⟨S_, .f32⟩ : BufTy).Contents (Elt F) → (⟨S64, .f32⟩ : BufTy).Contents (Elt F)),
    StableHlo.binary main_v15 main_v16 main_v17 (Host.divf : (⟨S64, .f32⟩ : BufTy).Contents (Elt F) → (⟨S64, .f32⟩ : BufTy).Contents (Elt F) → (⟨S64, .f32⟩ : BufTy).Contents (Elt F)),
    StableHlo.nullary main_cst_1 (constant S_ .f32 0x461C4000#32),
    StableHlo.unary main_cst_1 main_v18 (broadcastInDim S64 ![] bcast_S_S64 : (⟨S_, .f32⟩ : BufTy).Contents (Elt F) → (⟨S64, .f32⟩ : BufTy).Contents (Elt F)),
    StableHlo.binary main_v18 main_v17 main_v19 (Host.powf : (⟨S64, .f32⟩ : BufTy).Contents (Elt F) → (⟨S64, .f32⟩ : BufTy).Contents (Elt F) → (⟨S64, .f32⟩ : BufTy).Contents (Elt F)),
    StableHlo.unary main_v19 main_v20 (broadcastInDim S1x64 ![1] bcast_S64_S1x64_1 : (⟨S64, .f32⟩ : BufTy).Contents (Elt F) → (⟨S1x64, .f32⟩ : BufTy).Contents (Elt F)),
    StableHlo.unary main_v12 main_v21 (broadcastInDim S2048x64 ![0, 1] bcast_S2048x1_S2048x64_0_1 : (⟨S2048x1, .f32⟩ : BufTy).Contents (Elt F) → (⟨S2048x64, .f32⟩ : BufTy).Contents (Elt F)),
    StableHlo.unary main_v20 main_v22 (broadcastInDim S2048x64 ![0, 1] bcast_S1x64_S2048x64_0_1 : (⟨S1x64, .f32⟩ : BufTy).Contents (Elt F) → (⟨S2048x64, .f32⟩ : BufTy).Contents (Elt F)),
    StableHlo.binary main_v21 main_v22 main_v23 (Host.divf : (⟨S2048x64, .f32⟩ : BufTy).Contents (Elt F) → (⟨S2048x64, .f32⟩ : BufTy).Contents (Elt F) → (⟨S2048x64, .f32⟩ : BufTy).Contents (Elt F)),
    StableHlo.unary main_v23 main_v24 (Host.cos : (⟨S2048x64, .f32⟩ : BufTy).Contents (Elt F) → (⟨S2048x64, .f32⟩ : BufTy).Contents (Elt F)),
    StableHlo.unary main_v23 main_v25 (Host.sin : (⟨S2048x64, .f32⟩ : BufTy).Contents (Elt F) → (⟨S2048x64, .f32⟩ : BufTy).Contents (Elt F)),
    StableHlo.nullary main_c_2 (constantI S_ 32 2#32),
    StableHlo.TRef.unary (.of main_c_2 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S64 ![] bcast_S_S64),
    StableHlo.TRef.binary (.of main_v9 : StableHlo.TRef sig ⟨S64, .i32⟩) main_call1.v3 main_call1.v4 Host.remsi,
    StableHlo.TRef.nullary main_call1.c_1 (constantI S_ 32 0#32),
    StableHlo.TRef.unary main_call1.c_1 main_call1.v5 (broadcastInDim S64 ![] bcast_S_S64),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S64 ![] bcast_S_S64),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S64 ![] bcast_S_S64),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S64 ![] bcast_S_S64),
    StableHlo.TRef.binary main_call1.v4 main_call1.v13 main_call1.v14 addi,
    StableHlo.TRef.ternary main_call1.v12 main_call1.v14 main_call1.v4 main_call1.v15 select,
    StableHlo.nullary main_c_3 (constantI S_ 32 0#32),
    StableHlo.unary main_c_3 main_v27 (broadcastInDim S64 ![] bcast_S_S64 : (⟨S_, .i32⟩ : BufTy).Contents (Elt F) → (⟨S64, .i32⟩ : BufTy).Contents (Elt F)),
    StableHlo.binary main_v26 main_v27 main_v28 (cmpi .eq : (⟨S64, .i32⟩ : BufTy).Contents (Elt F) → (⟨S64, .i32⟩ : BufTy).Contents (Elt F) → (⟨S64, .i1⟩ : BufTy).Contents (Elt F)),
    StableHlo.nullary main_cst_4 (constant S_ .f32 0xBF800000#32),
    StableHlo.nullary main_cst_5 (constant S_ .f32 0x3F800000#32),
    StableHlo.TRef.unary (.of main_cst_4 : StableHlo.TRef sig ⟨S_, .f32⟩) main_call2.v0 (broadcastInDim S64 ![] bcast_S_S64),
    StableHlo.TRef.unary (.of main_cst_5 : StableHlo.TRef sig ⟨S_, .f32⟩) main_call2.v1 (broadcastInDim S64 ![] bcast_S_S64),
    StableHlo.TRef.ternary (.of main_v28 : StableHlo.TRef sig ⟨S64, .i1⟩) main_call2.v0 main_call2.v1 main_call2.v2 select,
    StableHlo.unary main_v29 main_v30 (id : (⟨S64, .f32⟩ : BufTy).Contents (Elt F) → (⟨S64, .f32⟩ : BufTy).Contents (Elt F)),
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S2048x64 ![0, 1] bcast_S1x64_S2048x64_0_1 : (⟨S1x64, .f32⟩ : BufTy).Contents (Elt F) → (⟨S2048x64, .f32⟩ : BufTy).Contents (Elt F)),
    StableHlo.binary main_v25 main_v32 main_v33 (mulf : (⟨S2048x64, .f32⟩ : BufTy).Contents (Elt F) → (⟨S2048x64, .f32⟩ : BufTy).Contents (Elt F) → (⟨S2048x64, .f32⟩ : BufTy).Contents (Elt F)),
    StableHlo.nullary main_c_6 (constantI S_ 32 2#32),
    StableHlo.TRef.unary (.of main_c_6 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S64 ![] bcast_S_S64),
    StableHlo.TRef.binary (.of main_v9 : StableHlo.TRef sig ⟨S64, .i32⟩) main_call3.v3 main_call3.v4 Host.remsi,
    StableHlo.TRef.nullary main_call3.c_1 (constantI S_ 32 0#32),
    StableHlo.TRef.unary main_call3.c_1 main_call3.v5 (broadcastInDim S64 ![] bcast_S_S64),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S64 ![] bcast_S_S64),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S64 ![] bcast_S_S64),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S64 ![] bcast_S_S64),
    StableHlo.TRef.binary main_call3.v4 main_call3.v13 main_call3.v14 addi,
    StableHlo.TRef.ternary main_call3.v12 main_call3.v14 main_call3.v4 main_call3.v15 select,
    StableHlo.nullary main_c_7 (constantI S_ 32 0#32),
    StableHlo.unary main_c_7 main_v35 (broadcastInDim S64 ![] bcast_S_S64 : (⟨S_, .i32⟩ : BufTy).Contents (Elt F) → (⟨S64, .i32⟩ : BufTy).Contents (Elt F)),
    StableHlo.binary main_v34 main_v35 main_v36 (cmpi .eq : (⟨S64, .i32⟩ : BufTy).Contents (Elt F) → (⟨S64, .i32⟩ : BufTy).Contents (Elt F) → (⟨S64, .i1⟩ : BufTy).Contents (Elt F)),
    StableHlo.nullary main_c_8 (constantI S_ 32 1#32),
    StableHlo.nullary main_c_9 (constantI S_ 32 4294967295#32),
    StableHlo.TRef.unary (.of main_c_8 : StableHlo.TRef sig ⟨S_, .i32⟩) main_call4.v0 (broadcastInDim S64 ![] bcast_S_S64),
    StableHlo.TRef.unary (.of main_c_9 : StableHlo.TRef sig ⟨S_, .i32⟩) main_call4.v1 (broadcastInDim S64 ![] bcast_S_S64),
    StableHlo.TRef.ternary (.of main_v36 : StableHlo.TRef sig ⟨S64, .i1⟩) main_call4.v0 main_call4.v1 main_call4.v2 select,
    StableHlo.unary main_v37 main_v38 (id : (⟨S64, .i32⟩ : BufTy).Contents (Elt F) → (⟨S64, .i32⟩ : BufTy).Contents (Elt F)),
    StableHlo.binary main_v9 main_v38 main_v39 (addi : (⟨S64, .i32⟩ : BufTy).Contents (Elt F) → (⟨S64, .i32⟩ : BufTy).Contents (Elt F) → (⟨S64, .i32⟩ : BufTy).Contents (Elt F)),
    StableHlo.unary main_v24 main_v40 (broadcastInDim S1x1x2048x64 ![2, 3] bcast_S2048x64_S1x1x2048x64_2_3 : (⟨S2048x64, .f32⟩ : BufTy).Contents (Elt F) → (⟨S1x1x2048x64, .f32⟩ : BufTy).Contents (Elt F)),
    StableHlo.unary main_v40 main_v41 (broadcastInDim S2x16x2048x64 ![0, 1, 2, 3] bcast_S1x1x2048x64_S2x16x2048x64_0_1_2_3 : (⟨S1x1x2048x64, .f32⟩ : BufTy).Contents (Elt F) → (⟨S2x16x2048x64, .f32⟩ : BufTy).Contents (Elt F)),
    StableHlo.binary main_v4 main_v41 main_v42 (mulf : (⟨S2x16x2048x64, .f32⟩ : BufTy).Contents (Elt F) → (⟨S2x16x2048x64, .f32⟩ : BufTy).Contents (Elt F) → (⟨S2x16x2048x64, .f32⟩ : BufTy).Contents (Elt F)),
    StableHlo.nullary main_c_10 (constantI S_ 32 0#32),
    StableHlo.unary main_c_10 main_v43 (broadcastInDim S64 ![] bcast_S_S64 : (⟨S_, .i32⟩ : BufTy).Contents (Elt F) → (⟨S64, .i32⟩ : BufTy).Contents (Elt F)),
    StableHlo.binary main_v39 main_v43 main_v44 (cmpi .slt : (⟨S64, .i32⟩ : BufTy).Contents (Elt F) → (⟨S64, .i32⟩ : BufTy).Contents (Elt F) → (⟨S64, .i1⟩ : BufTy).Contents (Elt F)),
    StableHlo.nullary main_c_11 (constantI S_ 32 64#32),
    StableHlo.unary main_c_11 main_v45 (broadcastInDim S64 ![] bcast_S_S64 : (⟨S_, .i32⟩ : BufTy).Contents (Elt F) → (⟨S64, .i32⟩ : BufTy).Contents (Elt F)) ]

/-- Statements 61–120: the pair-swap index wrapped into `[0, 64)`, the query rotated (`q·cos + q[swap]·sin`), and the same
    tables and index computed again for the key. -/
abbrev ops1 : List (HloOp τ sig (Elt F)) :=
  [
    StableHlo.binary main_v39 main_v45 main_v46 (addi : (⟨S64, .i32⟩ : BufTy).Contents (Elt F) → (⟨S64, .i32⟩ : BufTy).Contents (Elt F) → (⟨S64, .i32⟩ : BufTy).Contents (Elt F)),
    StableHlo.ternary main_v44 main_v46 main_v39 main_v47 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v47 main_v48 (broadcastInDim S64x1 ![0] bcast_S64_S64x1_0 : (⟨S64, .i32⟩ : BufTy).Contents (Elt F) → (⟨S64x1, .i32⟩ : BufTy).Contents (Elt F)),
    StableHlo.binary main_v4 main_v48 main_v49 ((fun x i => Host.gather gather_S2x16x2048x64_S64x1_S2x16x2048x64_012_3_n_n_3_1_21620481 x i) : (⟨S2x16x2048x64, .f32⟩ : BufTy).Contents (Elt F) → (⟨S64x1, .i32⟩ : BufTy).Contents (Elt F) → (⟨S2x16x2048x64, .f32⟩ : BufTy).Contents (Elt F)),
    StableHlo.unary main_v33 main_v50 (broadcastInDim S1x1x2048x64 ![2, 3] bcast_S2048x64_S1x1x2048x64_2_3 : (⟨S2048x64, .f32⟩ : BufTy).Contents (Elt F) → (⟨S1x1x2048x64, .f32⟩ : BufTy).Contents (Elt F)),
    StableHlo.unary main_v50 main_v51 (broadcastInDim S2x16x2048x64 ![0, 1, 2, 3] bcast_S1x1x2048x64_S2x16x2048x64_0_1_2_3 : (⟨S1x1x2048x64, .f32⟩ : BufTy).Contents (Elt F) → (⟨S2x16x2048x64, .f32⟩ : BufTy).Contents (Elt F)),
    StableHlo.binary main_v49 main_v51 main_v52 (mulf : (⟨S2x16x2048x64, .f32⟩ : BufTy).Contents (Elt F) → (⟨S2x16x2048x64, .f32⟩ : BufTy).Contents (Elt F) → (⟨S2x16x2048x64, .f32⟩ : BufTy).Contents (Elt F)),
    StableHlo.binary main_v42 main_v52 main_v53 (addf : (⟨S2x16x2048x64, .f32⟩ : BufTy).Contents (Elt F) → (⟨S2x16x2048x64, .f32⟩ : BufTy).Contents (Elt F) → (⟨S2x16x2048x64, .f32⟩ : BufTy).Contents (Elt F)),
    StableHlo.nullary main_v54 (iotaInDim S64 32 0),
    StableHlo.nullary main_c_12 (constantI S_ 32 2#32),
    StableHlo.TRef.unary (.of main_c_12 : StableHlo.TRef sig ⟨S_, .i32⟩) main_call5.v0 id,
    StableHlo.TRef.unary main_call5.v0 main_call5.v1 (broadcastInDim S64 ![] bcast_S_S64),
    StableHlo.TRef.binary (.of main_v54 : StableHlo.TRef sig ⟨S64, .i32⟩) main_call5.v1 main_call5.v2 Host.divsi,
    StableHlo.TRef.unary (.of main_v54 : StableHlo.TRef sig ⟨S64, .i32⟩) main_call5.v3 signi,
    StableHlo.TRef.unary main_call5.v0 main_call5.v4 signi,
    StableHlo.TRef.unary main_call5.v4 main_call5.v5 (broadcastInDim S64 ![] bcast_S_S64),
    StableHlo.TRef.binary main_call5.v3 main_call5.v5 main_call5.v6 (cmpi .ne),
    StableHlo.TRef.unary main_call5.v0 main_call5.v7 (broadcastInDim S64 ![] bcast_S_S64),
    StableHlo.TRef.binary (.of main_v54 : StableHlo.TRef sig ⟨S64, .i32⟩) main_call5.v7 main_call5.v8 Host.remsi,
    StableHlo.TRef.nullary main_call5.c (constantI S_ 32 0#32),
    StableHlo.TRef.unary main_call5.c main_call5.v9 (broadcastInDim S64 ![] bcast_S_S64),
    StableHlo.TRef.binary main_call5.v8 main_call5.v9 main_call5.v10 (cmpi .ne),
    StableHlo.TRef.binary main_call5.v6 main_call5.v10 main_call5.v11 andi,
    StableHlo.TRef.nullary main_call5.c_0 (constantI S_ 32 1#32),
    StableHlo.TRef.unary main_call5.c_0 main_call5.v12 (broadcastInDim S64 ![] bcast_S_S64),
    StableHlo.TRef.binary main_call5.v2 main_call5.v12 main_call5.v13 subi,
    StableHlo.TRef.ternary main_call5.v11 main_call5.v13 main_call5.v2 main_call5.call0.v0 select,
    StableHlo.unary main_arg1 main_v56 (broadcastInDim S2048x1 ![0] bcast_S2048_S2048x1_0 : (⟨S2048, .i32⟩ : BufTy).Contents (Elt F) → (⟨S2048x1, .i32⟩ : BufTy).Contents (Elt F)),
    StableHlo.unary main_v56 main_v57 (sitofp .f32 : (⟨S2048x1, .i32⟩ : BufTy).Contents (Elt F) → (⟨S2048x1, .f32⟩ : BufTy).Contents (Elt F)),
    StableHlo.unary main_v55 main_v58 (sitofp .f32 : (⟨S64, .i32⟩ : BufTy).Contents (Elt F) → (⟨S64, .f32⟩ : BufTy).Contents (Elt F)),
    StableHlo.nullary main_cst_13 (constant S_ .f32 0x40000000#32),
    StableHlo.unary main_cst_13 main_v59 (broadcastInDim S64 ![] bcast_S_S64 : (⟨S_, .f32⟩ : BufTy).Contents (Elt F) → (⟨S64, .f32⟩ : BufTy).Contents (Elt F)),
    StableHlo.binary main_v59 main_v58 main_v60 (mulf : (⟨S64, .f32⟩ : BufTy).Contents (Elt F) → (⟨S64, .f32⟩ : BufTy).Contents (Elt F) → (⟨S64, .f32⟩ : BufTy).Contents (Elt F)),
    StableHlo.nullary main_cst_14 (constant S_ .f32 0x42800000#32),
    StableHlo.unary main_cst_14 main_v61 (broadcastInDim S64 ![] bcast_S_S64 : (⟨S_, .f32⟩ : BufTy).Contents (Elt F) → (⟨S64, .f32⟩ : BufTy).Contents (Elt F)),
    StableHlo.binary main_v60 main_v61 main_v62 (Host.divf : (⟨S64, .f32⟩ : BufTy).Contents (Elt F) → (⟨S64, .f32⟩ : BufTy).Contents (Elt F) → (⟨S64, .f32⟩ : BufTy).Contents (Elt F)),
    StableHlo.nullary main_cst_15 (constant S_ .f32 0x461C4000#32),
    StableHlo.unary main_cst_15 main_v63 (broadcastInDim S64 ![] bcast_S_S64 : (⟨S_, .f32⟩ : BufTy).Contents (Elt F) → (⟨S64, .f32⟩ : BufTy).Contents (Elt F)),
    StableHlo.binary main_v63 main_v62 main_v64 (Host.powf : (⟨S64, .f32⟩ : BufTy).Contents (Elt F) → (⟨S64, .f32⟩ : BufTy).Contents (Elt F) → (⟨S64, .f32⟩ : BufTy).Contents (Elt F)),
    StableHlo.unary main_v64 main_v65 (broadcastInDim S1x64 ![1] bcast_S64_S1x64_1 : (⟨S64, .f32⟩ : BufTy).Contents (Elt F) → (⟨S1x64, .f32⟩ : BufTy).Contents (Elt F)),
    StableHlo.unary main_v57 main_v66 (broadcastInDim S2048x64 ![0, 1] bcast_S2048x1_S2048x64_0_1 : (⟨S2048x1, .f32⟩ : BufTy).Contents (Elt F) → (⟨S2048x64, .f32⟩ : BufTy).Contents (Elt F)),
    StableHlo.unary main_v65 main_v67 (broadcastInDim S2048x64 ![0, 1] bcast_S1x64_S2048x64_0_1 : (⟨S1x64, .f32⟩ : BufTy).Contents (Elt F) → (⟨S2048x64, .f32⟩ : BufTy).Contents (Elt F)),
    StableHlo.binary main_v66 main_v67 main_v68 (Host.divf : (⟨S2048x64, .f32⟩ : BufTy).Contents (Elt F) → (⟨S2048x64, .f32⟩ : BufTy).Contents (Elt F) → (⟨S2048x64, .f32⟩ : BufTy).Contents (Elt F)),
    StableHlo.unary main_v68 main_v69 (Host.cos : (⟨S2048x64, .f32⟩ : BufTy).Contents (Elt F) → (⟨S2048x64, .f32⟩ : BufTy).Contents (Elt F)),
    StableHlo.unary main_v68 main_v70 (Host.sin : (⟨S2048x64, .f32⟩ : BufTy).Contents (Elt F) → (⟨S2048x64, .f32⟩ : BufTy).Contents (Elt F)),
    StableHlo.nullary main_c_16 (constantI S_ 32 2#32),
    StableHlo.TRef.unary (.of main_c_16 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S64 ![] bcast_S_S64),
    StableHlo.TRef.binary (.of main_v54 : StableHlo.TRef sig ⟨S64, .i32⟩) main_call6.v3 main_call6.v4 Host.remsi,
    StableHlo.TRef.nullary main_call6.c_1 (constantI S_ 32 0#32),
    StableHlo.TRef.unary main_call6.c_1 main_call6.v5 (broadcastInDim S64 ![] bcast_S_S64),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S64 ![] bcast_S_S64),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S64 ![] bcast_S_S64),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S64 ![] bcast_S_S64),
    StableHlo.TRef.binary main_call6.v4 main_call6.v13 main_call6.v14 addi,
    StableHlo.TRef.ternary main_call6.v12 main_call6.v14 main_call6.v4 main_call6.v15 select,
    StableHlo.nullary main_c_17 (constantI S_ 32 0#32),
    StableHlo.unary main_c_17 main_v72 (broadcastInDim S64 ![] bcast_S_S64 : (⟨S_, .i32⟩ : BufTy).Contents (Elt F) → (⟨S64, .i32⟩ : BufTy).Contents (Elt F)),
    StableHlo.binary main_v71 main_v72 main_v73 (cmpi .eq : (⟨S64, .i32⟩ : BufTy).Contents (Elt F) → (⟨S64, .i32⟩ : BufTy).Contents (Elt F) → (⟨S64, .i1⟩ : BufTy).Contents (Elt F)),
    StableHlo.nullary main_cst_18 (constant S_ .f32 0xBF800000#32),
    StableHlo.nullary main_cst_19 (constant S_ .f32 0x3F800000#32),
    StableHlo.TRef.unary (.of main_cst_18 : StableHlo.TRef sig ⟨S_, .f32⟩) main_call7.v0 (broadcastInDim S64 ![] bcast_S_S64),
    StableHlo.TRef.unary (.of main_cst_19 : StableHlo.TRef sig ⟨S_, .f32⟩) main_call7.v1 (broadcastInDim S64 ![] bcast_S_S64),
    StableHlo.TRef.ternary (.of main_v73 : StableHlo.TRef sig ⟨S64, .i1⟩) main_call7.v0 main_call7.v1 main_call7.v2 select,
    StableHlo.unary main_v74 main_v75 (id : (⟨S64, .f32⟩ : BufTy).Contents (Elt F) → (⟨S64, .f32⟩ : BufTy).Contents (Elt F)),
    StableHlo.unary main_v75 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S2048x64 ![0, 1] bcast_S1x64_S2048x64_0_1 : (⟨S1x64, .f32⟩ : BufTy).Contents (Elt F) → (⟨S2048x64, .f32⟩ : BufTy).Contents (Elt F)),
    StableHlo.binary main_v70 main_v77 main_v78 (mulf : (⟨S2048x64, .f32⟩ : BufTy).Contents (Elt F) → (⟨S2048x64, .f32⟩ : BufTy).Contents (Elt F) → (⟨S2048x64, .f32⟩ : BufTy).Contents (Elt F)),
    StableHlo.nullary main_c_20 (constantI S_ 32 2#32),
    StableHlo.TRef.unary (.of main_c_20 : StableHlo.TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S64 ![] bcast_S_S64),
    StableHlo.TRef.binary (.of main_v54 : StableHlo.TRef sig ⟨S64, .i32⟩) main_call8.v3 main_call8.v4 Host.remsi,
    StableHlo.TRef.nullary main_call8.c_1 (constantI S_ 32 0#32),
    StableHlo.TRef.unary main_call8.c_1 main_call8.v5 (broadcastInDim S64 ![] bcast_S_S64),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S64 ![] bcast_S_S64),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S64 ![] bcast_S_S64),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S64 ![] bcast_S_S64),
    StableHlo.TRef.binary main_call8.v4 main_call8.v13 main_call8.v14 addi,
    StableHlo.TRef.ternary main_call8.v12 main_call8.v14 main_call8.v4 main_call8.v15 select,
    StableHlo.nullary main_c_21 (constantI S_ 32 0#32),
    StableHlo.unary main_c_21 main_v80 (broadcastInDim S64 ![] bcast_S_S64 : (⟨S_, .i32⟩ : BufTy).Contents (Elt F) → (⟨S64, .i32⟩ : BufTy).Contents (Elt F)),
    StableHlo.binary main_v79 main_v80 main_v81 (cmpi .eq : (⟨S64, .i32⟩ : BufTy).Contents (Elt F) → (⟨S64, .i32⟩ : BufTy).Contents (Elt F) → (⟨S64, .i1⟩ : BufTy).Contents (Elt F)),
    StableHlo.nullary main_c_22 (constantI S_ 32 1#32),
    StableHlo.nullary main_c_23 (constantI S_ 32 4294967295#32),
    StableHlo.TRef.unary (.of main_c_22 : StableHlo.TRef sig ⟨S_, .i32⟩) main_call9.v0 (broadcastInDim S64 ![] bcast_S_S64),
    StableHlo.TRef.unary (.of main_c_23 : StableHlo.TRef sig ⟨S_, .i32⟩) main_call9.v1 (broadcastInDim S64 ![] bcast_S_S64),
    StableHlo.TRef.ternary (.of main_v81 : StableHlo.TRef sig ⟨S64, .i1⟩) main_call9.v0 main_call9.v1 main_call9.v2 select,
    StableHlo.unary main_v82 main_v83 (id : (⟨S64, .i32⟩ : BufTy).Contents (Elt F) → (⟨S64, .i32⟩ : BufTy).Contents (Elt F)),
    StableHlo.binary main_v54 main_v83 main_v84 (addi : (⟨S64, .i32⟩ : BufTy).Contents (Elt F) → (⟨S64, .i32⟩ : BufTy).Contents (Elt F) → (⟨S64, .i32⟩ : BufTy).Contents (Elt F)),
    StableHlo.unary main_v69 main_v85 (broadcastInDim S1x1x2048x64 ![2, 3] bcast_S2048x64_S1x1x2048x64_2_3 : (⟨S2048x64, .f32⟩ : BufTy).Contents (Elt F) → (⟨S1x1x2048x64, .f32⟩ : BufTy).Contents (Elt F)),
    StableHlo.unary main_v85 main_v86 (broadcastInDim S2x16x2048x64 ![0, 1, 2, 3] bcast_S1x1x2048x64_S2x16x2048x64_0_1_2_3 : (⟨S1x1x2048x64, .f32⟩ : BufTy).Contents (Elt F) → (⟨S2x16x2048x64, .f32⟩ : BufTy).Contents (Elt F)),
    StableHlo.binary main_v6 main_v86 main_v87 (mulf : (⟨S2x16x2048x64, .f32⟩ : BufTy).Contents (Elt F) → (⟨S2x16x2048x64, .f32⟩ : BufTy).Contents (Elt F) → (⟨S2x16x2048x64, .f32⟩ : BufTy).Contents (Elt F)),
    StableHlo.nullary main_c_24 (constantI S_ 32 0#32),
    StableHlo.unary main_c_24 main_v88 (broadcastInDim S64 ![] bcast_S_S64 : (⟨S_, .i32⟩ : BufTy).Contents (Elt F) → (⟨S64, .i32⟩ : BufTy).Contents (Elt F)),
    StableHlo.binary main_v84 main_v88 main_v89 (cmpi .slt : (⟨S64, .i32⟩ : BufTy).Contents (Elt F) → (⟨S64, .i32⟩ : BufTy).Contents (Elt F) → (⟨S64, .i1⟩ : BufTy).Contents (Elt F)),
    StableHlo.nullary main_c_25 (constantI S_ 32 64#32),
    StableHlo.unary main_c_25 main_v90 (broadcastInDim S64 ![] bcast_S_S64 : (⟨S_, .i32⟩ : BufTy).Contents (Elt F) → (⟨S64, .i32⟩ : BufTy).Contents (Elt F)),
    StableHlo.binary main_v84 main_v90 main_v91 (addi : (⟨S64, .i32⟩ : BufTy).Contents (Elt F) → (⟨S64, .i32⟩ : BufTy).Contents (Elt F) → (⟨S64, .i32⟩ : BufTy).Contents (Elt F)) ]

/-- Statements 121–156: the key rotated, the scores `q·kᵀ / √64`, the causal mask (`tril` of all-ones, `-∞` elsewhere),
    the row softmax (maximum, exponential of the difference, sum, quotient), the weighted values, the heads merged and
    the output projection. -/
abbrev ops2 : List (HloOp τ sig (Elt F)) :=
  [
    StableHlo.ternary main_v89 main_v91 main_v84 main_v92 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v92 main_v93 (broadcastInDim S64x1 ![0] bcast_S64_S64x1_0 : (⟨S64, .i32⟩ : BufTy).Contents (Elt F) → (⟨S64x1, .i32⟩ : BufTy).Contents (Elt F)),
    StableHlo.binary main_v6 main_v93 main_v94 ((fun x i => Host.gather gather_S2x16x2048x64_S64x1_S2x16x2048x64_012_3_n_n_3_1_21620481 x i) : (⟨S2x16x2048x64, .f32⟩ : BufTy).Contents (Elt F) → (⟨S64x1, .i32⟩ : BufTy).Contents (Elt F) → (⟨S2x16x2048x64, .f32⟩ : BufTy).Contents (Elt F)),
    StableHlo.unary main_v78 main_v95 (broadcastInDim S1x1x2048x64 ![2, 3] bcast_S2048x64_S1x1x2048x64_2_3 : (⟨S2048x64, .f32⟩ : BufTy).Contents (Elt F) → (⟨S1x1x2048x64, .f32⟩ : BufTy).Contents (Elt F)),
    StableHlo.unary main_v95 main_v96 (broadcastInDim S2x16x2048x64 ![0, 1, 2, 3] bcast_S1x1x2048x64_S2x16x2048x64_0_1_2_3 : (⟨S1x1x2048x64, .f32⟩ : BufTy).Contents (Elt F) → (⟨S2x16x2048x64, .f32⟩ : BufTy).Contents (Elt F)),
    StableHlo.binary main_v94 main_v96 main_v97 (mulf : (⟨S2x16x2048x64, .f32⟩ : BufTy).Contents (Elt F) → (⟨S2x16x2048x64, .f32⟩ : BufTy).Contents (Elt F) → (⟨S2x16x2048x64, .f32⟩ : BufTy).Contents (Elt F)),
    StableHlo.binary main_v87 main_v97 main_v98 (addf : (⟨S2x16x2048x64, .f32⟩ : BufTy).Contents (Elt F) → (⟨S2x16x2048x64, .f32⟩ : BufTy).Contents (Elt F) → (⟨S2x16x2048x64, .f32⟩ : BufTy).Contents (Elt F)),
    StableHlo.binary main_v53 main_v98 main_v99 ((fun l r => Host.dotGeneral dot_S2x16x2048x64_S2x16x2048x64_S2x16x2048x2048_3_3_2_2_01_01 none l r) : (⟨S2x16x2048x64, .f32⟩ : BufTy).Contents (Elt F) → (⟨S2x16x2048x64, .f32⟩ : BufTy).Contents (Elt F) → (⟨S2x16x2048x2048, .f32⟩ : BufTy).Contents (Elt F)),
    StableHlo.nullary main_cst_26 (constant S_ .f32 0x42800000#32),
    StableHlo.unary main_cst_26 main_v100 (Host.sqrt : (⟨S_, .f32⟩ : BufTy).Contents (Elt F) → (⟨S_, .f32⟩ : BufTy).Contents (Elt F)),
    StableHlo.unary main_v100 main_v101 (broadcastInDim S2x16x2048x2048 ![] bcast_S_S2x16x2048x2048 : (⟨S_, .f32⟩ : BufTy).Contents (Elt F) → (⟨S2x16x2048x2048, .f32⟩ : BufTy).Contents (Elt F)),
    StableHlo.binary main_v99 main_v101 main_v102 (Host.divf : (⟨S2x16x2048x2048, .f32⟩ : BufTy).Contents (Elt F) → (⟨S2x16x2048x2048, .f32⟩ : BufTy).Contents (Elt F) → (⟨S2x16x2048x2048, .f32⟩ : BufTy).Contents (Elt F)),
    StableHlo.nullary main_c_27 (constantI S_ 1 1#1),
    StableHlo.unary main_c_27 main_v103 (broadcastInDim S2048x2048 ![] bcast_S_S2048x2048 : (⟨S_, .i1⟩ : BufTy).Contents (Elt F) → (⟨S2048x2048, .i1⟩ : BufTy).Contents (Elt F)),
    StableHlo.TRef.nullary main_call10.v0 (iotaInDim S2048x2048 32 0),
    StableHlo.TRef.nullary main_call10.c (constantI S_ 32 0#32),
    StableHlo.TRef.unary main_call10.c main_call10.v1 (broadcastInDim S2048x2048 ![] bcast_S_S2048x2048),
    StableHlo.TRef.binary main_call10.v0 main_call10.v1 main_call10.v2 addi,
    StableHlo.TRef.nullary main_call10.v3 (iotaInDim S2048x2048 32 1),
    StableHlo.TRef.binary main_call10.v2 main_call10.v3 main_call10.v4 (cmpi .sge),
    StableHlo.TRef.nullary main_call10.c_0 (constantI S_ 1 0#1),
    StableHlo.TRef.unary main_call10.c_0 main_call10.v5 (broadcastInDim S2048x2048 ![] bcast_S_S2048x2048),
    StableHlo.TRef.ternary main_call10.v4 (.of main_v103 : StableHlo.TRef sig ⟨S2048x2048, .i1⟩) main_call10.v5 main_call10.v6 select,
    StableHlo.nullary main_cst_28 (constant S_ .f32 0xFF800000#32),
    StableHlo.TRef.unary (.of main_cst_28 : StableHlo.TRef sig ⟨S_, .f32⟩) main_call11.v0 id,
    StableHlo.TRef.unary (.of main_v104 : StableHlo.TRef sig ⟨S2048x2048, .i1⟩) main_call11.v1 (broadcastInDim S2x16x2048x2048 ![2, 3] bcast_S2048x2048_S2x16x2048x2048_2_3),
    StableHlo.TRef.unary main_call11.v0 main_call11.v2 (broadcastInDim S2x16x2048x2048 ![] bcast_S_S2x16x2048x2048),
    StableHlo.TRef.ternary main_call11.v1 (.of main_v102 : StableHlo.TRef sig ⟨S2x16x2048x2048, .f32⟩) main_call11.v2 main_call11.v3 select,
    StableHlo.nullary main_cst_29 (constant S_ .f32 0xFF800000#32),
    StableHlo.binary main_v105 main_cst_29 main_v106 ((fun x v => Host.reduce FloatOps.maximumf x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    StableHlo.nullary main_cst_30 (constant S_ .f32 0xFF800000#32),
    StableHlo.unary main_cst_30 main_v107 (broadcastInDim S2x16x2048 ![] bcast_S_S2x16x2048 : (⟨S_, .f32⟩ : BufTy).Contents (Elt F) → (⟨S2x16x2048, .f32⟩ : BufTy).Contents (Elt F)),
    StableHlo.binary main_v107 main_v106 main_v108 (maximumf : (⟨S2x16x2048, .f32⟩ : BufTy).Contents (Elt F) → (⟨S2x16x2048, .f32⟩ : BufTy).Contents (Elt F) → (⟨S2x16x2048, .f32⟩ : BufTy).Contents (Elt F)),
    StableHlo.unary main_v108 main_v109 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    StableHlo.unary main_v109 main_v110 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    StableHlo.binary main_v105 main_v110 main_v111 (subf : (⟨S2x16x2048x2048, .f32⟩ : BufTy).Contents (Elt F) → (⟨S2x16x2048x2048, .f32⟩ : BufTy).Contents (Elt F) → (⟨S2x16x2048x2048, .f32⟩ : BufTy).Contents (Elt F)),
    StableHlo.unary main_v111 main_v112 (Host.exp : (⟨S2x16x2048x2048, .f32⟩ : BufTy).Contents (Elt F) → (⟨S2x16x2048x2048, .f32⟩ : BufTy).Contents (Elt F)),
    StableHlo.nullary main_cst_31 (constant S_ .f32 0x00000000#32),
    StableHlo.binary main_v112 main_cst_31 main_v113 ((fun x v => Host.reduceAdd x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    StableHlo.unary main_v113 main_v114 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    StableHlo.unary main_v114 main_v115 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    StableHlo.binary main_v112 main_v115 main_v116 (Host.divf : (⟨S2x16x2048x2048, .f32⟩ : BufTy).Contents (Elt F) → (⟨S2x16x2048x2048, .f32⟩ : BufTy).Contents (Elt F) → (⟨S2x16x2048x2048, .f32⟩ : BufTy).Contents (Elt F)),
    StableHlo.binary main_v116 main_v8 main_v117 ((fun l r => Host.dotGeneral dot_S2x16x2048x2048_S2x16x2048x64_S2x16x2048x64_3_2_2_3_01_01 none l r) : (⟨S2x16x2048x2048, .f32⟩ : BufTy).Contents (Elt F) → (⟨S2x16x2048x64, .f32⟩ : BufTy).Contents (Elt F) → (⟨S2x16x2048x64, .f32⟩ : BufTy).Contents (Elt F)),
    StableHlo.unary main_v117 main_v118 ((transpose S2x2048x16x64 [0, 2, 1, 3] · transposes_S2x16x2048x64_S2x2048x16x64_0_2_1_3) : (⟨S2x16x2048x64, .f32⟩ : BufTy).Contents (Elt F) → (⟨S2x2048x16x64, .f32⟩ : BufTy).Contents (Elt F)),
    StableHlo.reshape main_v118 main_v119 rfl shapeCasts_S2x2048x16x64_S2x2048x1024,
    StableHlo.binary main_v119 main_arg5 main_v120 ((fun l r => Host.dotGeneral dot_S2x2048x1024_S1024x1024_S2x2048x1024_2_1_01_0_n_n none l r) : (⟨S2x2048x1024, .f32⟩ : BufTy).Contents (Elt F) → (⟨S1024x1024, .f32⟩ : BufTy).Contents (Elt F) → (⟨S2x2048x1024, .f32⟩ : BufTy).Contents (Elt F)) ]

/-- @main's operations in order, each callee's operations listed at its call site. -/
abbrev ops : List (HloOp τ sig (Elt F)) := ops0 ++ (ops1 ++ ops2)

/-! ## @main is that line -/

-- a hundred and twenty binds re-associated: the rewrite under the chain recurses once per statement
set_option maxRecDepth 8192 in
/-- The first window: the callees' definitions unfolded at their calls, sequencing re-associated. -/
theorem main_part0_eq (c : Dev nD) : main_part0 (F := F) c = seq ops0 := by
  simp only [main_part0, fn_floor_divide.body, fn_where.body, fn_remainder.body, fn_where_0.body, fn_where_1.body, fn_where_2.body, seq, bind_assoc,
    pure_bind] <;> rfl

set_option maxRecDepth 8192 in
/-- The second window, likewise. -/
theorem main_part1_eq (c : Dev nD) : main_part1 (F := F) c = seq ops1 := by
  simp only [main_part1, fn_floor_divide.body, fn_where.body, fn_remainder.body, fn_where_0.body, fn_where_1.body, fn_where_2.body, seq, bind_assoc,
    pure_bind] <;> rfl

set_option maxRecDepth 8192 in
/-- The third window, likewise. -/
theorem main_part2_eq (c : Dev nD) : main_part2 (F := F) c = seq ops2 := by
  simp only [main_part2, fn_tril.body, fn_where_3.body, seq, bind_assoc, pure_bind] <;> rfl

/-- @main runs its three windows in order; a line run after a line is their concatenation run as one. -/
theorem main_eq (c : Dev nD) : main (F := F) c = seq ops := by
  rw [show (ops : List (HloOp τ sig (Elt F))) = ops0 ++ (ops1 ++ ops2) from rfl, seq_append, seq_append,
    ← main_part0_eq c, ← main_part1_eq c, ← main_part2_eq c]
  rfl

/-! ## Side conditions of the run -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨binary_bufs_sub .., binary_bufs_sub .., binary_bufs_sub .., reshape_bufs_sub .., unary_bufs_sub ..,
    reshape_bufs_sub .., unary_bufs_sub .., reshape_bufs_sub .., unary_bufs_sub .., nullary_bufs_sub ..,
    nullary_bufs_sub .., unary_bufs_sub .., unary_bufs_sub .., binary_bufs_sub .., unary_bufs_sub ..,
    unary_bufs_sub .., unary_bufs_sub .., binary_bufs_sub .., unary_bufs_sub .., binary_bufs_sub ..,
    nullary_bufs_sub .., unary_bufs_sub .., binary_bufs_sub .., binary_bufs_sub .., nullary_bufs_sub ..,
    unary_bufs_sub .., binary_bufs_sub .., ternary_bufs_sub .., unary_bufs_sub .., unary_bufs_sub ..,
    unary_bufs_sub .., nullary_bufs_sub .., unary_bufs_sub .., binary_bufs_sub .., nullary_bufs_sub ..,
    unary_bufs_sub .., binary_bufs_sub .., nullary_bufs_sub .., unary_bufs_sub .., binary_bufs_sub ..,
    unary_bufs_sub .., unary_bufs_sub .., unary_bufs_sub .., binary_bufs_sub .., unary_bufs_sub ..,
    unary_bufs_sub .., nullary_bufs_sub .., unary_bufs_sub .., nullary_bufs_sub .., binary_bufs_sub ..,
    nullary_bufs_sub .., ternary_bufs_sub .., unary_bufs_sub .., binary_bufs_sub .., nullary_bufs_sub ..,
    unary_bufs_sub .., binary_bufs_sub .., nullary_bufs_sub .., unary_bufs_sub .., binary_bufs_sub ..,
    nullary_bufs_sub .., binary_bufs_sub .., unary_bufs_sub .., binary_bufs_sub .., binary_bufs_sub ..,
    unary_bufs_sub .., binary_bufs_sub .., ternary_bufs_sub .., nullary_bufs_sub .., unary_bufs_sub ..,
    binary_bufs_sub .., nullary_bufs_sub .., nullary_bufs_sub .., unary_bufs_sub .., unary_bufs_sub ..,
    ternary_bufs_sub .., unary_bufs_sub .., unary_bufs_sub .., unary_bufs_sub .., binary_bufs_sub ..,
    nullary_bufs_sub .., unary_bufs_sub .., nullary_bufs_sub .., binary_bufs_sub .., nullary_bufs_sub ..,
    ternary_bufs_sub .., unary_bufs_sub .., binary_bufs_sub .., nullary_bufs_sub .., unary_bufs_sub ..,
    binary_bufs_sub .., nullary_bufs_sub .., unary_bufs_sub .., binary_bufs_sub .., nullary_bufs_sub ..,
    binary_bufs_sub .., unary_bufs_sub .., binary_bufs_sub .., binary_bufs_sub .., unary_bufs_sub ..,
    binary_bufs_sub .., ternary_bufs_sub .., nullary_bufs_sub .., unary_bufs_sub .., binary_bufs_sub ..,
    nullary_bufs_sub .., nullary_bufs_sub .., unary_bufs_sub .., unary_bufs_sub .., ternary_bufs_sub ..,
    unary_bufs_sub .., binary_bufs_sub .., unary_bufs_sub .., unary_bufs_sub .., binary_bufs_sub ..,
    nullary_bufs_sub .., unary_bufs_sub .., binary_bufs_sub .., nullary_bufs_sub .., unary_bufs_sub ..⟩

theorem ops1_sub : (ops1 : List (HloOp τ sig (Elt F))).Forall fun op => op.bufs ⊆ tcRefs τ sig :=
  ⟨binary_bufs_sub .., ternary_bufs_sub .., unary_bufs_sub .., binary_bufs_sub .., unary_bufs_sub ..,
    unary_bufs_sub .., binary_bufs_sub .., binary_bufs_sub .., nullary_bufs_sub .., nullary_bufs_sub ..,
    unary_bufs_sub .., unary_bufs_sub .., binary_bufs_sub .., unary_bufs_sub .., unary_bufs_sub ..,
    unary_bufs_sub .., binary_bufs_sub .., unary_bufs_sub .., binary_bufs_sub .., nullary_bufs_sub ..,
    unary_bufs_sub .., binary_bufs_sub .., binary_bufs_sub .., nullary_bufs_sub .., unary_bufs_sub ..,
    binary_bufs_sub .., ternary_bufs_sub .., unary_bufs_sub .., unary_bufs_sub .., unary_bufs_sub ..,
    nullary_bufs_sub .., unary_bufs_sub .., binary_bufs_sub .., nullary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub ..,
    nullary_bufs_sub .., unary_bufs_sub .., nullary_bufs_sub .., binary_bufs_sub .., nullary_bufs_sub ..,
    ternary_bufs_sub .., unary_bufs_sub .., binary_bufs_sub .., nullary_bufs_sub .., unary_bufs_sub ..,
    binary_bufs_sub .., nullary_bufs_sub .., unary_bufs_sub .., binary_bufs_sub .., nullary_bufs_sub ..,
    binary_bufs_sub .., unary_bufs_sub .., binary_bufs_sub .., binary_bufs_sub .., unary_bufs_sub ..,
    binary_bufs_sub .., ternary_bufs_sub .., nullary_bufs_sub .., unary_bufs_sub .., binary_bufs_sub ..,
    nullary_bufs_sub .., nullary_bufs_sub .., unary_bufs_sub .., unary_bufs_sub .., ternary_bufs_sub ..,
    unary_bufs_sub .., unary_bufs_sub .., unary_bufs_sub .., binary_bufs_sub .., nullary_bufs_sub ..,
    unary_bufs_sub .., nullary_bufs_sub .., binary_bufs_sub .., nullary_bufs_sub .., ternary_bufs_sub ..,
    unary_bufs_sub .., binary_bufs_sub .., nullary_bufs_sub .., unary_bufs_sub .., binary_bufs_sub ..,
    nullary_bufs_sub .., unary_bufs_sub .., binary_bufs_sub .., nullary_bufs_sub .., binary_bufs_sub ..,
    unary_bufs_sub .., binary_bufs_sub .., binary_bufs_sub .., unary_bufs_sub .., binary_bufs_sub ..,
    ternary_bufs_sub .., nullary_bufs_sub .., unary_bufs_sub .., binary_bufs_sub .., nullary_bufs_sub ..,
    nullary_bufs_sub .., unary_bufs_sub .., unary_bufs_sub .., ternary_bufs_sub .., unary_bufs_sub ..,
    binary_bufs_sub .., unary_bufs_sub .., unary_bufs_sub .., binary_bufs_sub .., nullary_bufs_sub ..,
    unary_bufs_sub .., binary_bufs_sub .., nullary_bufs_sub .., unary_bufs_sub .., binary_bufs_sub ..⟩

theorem ops2_sub : (ops2 : List (HloOp τ sig (Elt F))).Forall fun op => op.bufs ⊆ tcRefs τ sig :=
  ⟨ternary_bufs_sub .., unary_bufs_sub .., binary_bufs_sub .., unary_bufs_sub .., unary_bufs_sub ..,
    binary_bufs_sub .., binary_bufs_sub .., binary_bufs_sub .., nullary_bufs_sub .., unary_bufs_sub ..,
    unary_bufs_sub .., binary_bufs_sub .., nullary_bufs_sub .., unary_bufs_sub .., nullary_bufs_sub ..,
    nullary_bufs_sub .., unary_bufs_sub .., binary_bufs_sub .., nullary_bufs_sub .., binary_bufs_sub ..,
    nullary_bufs_sub .., unary_bufs_sub .., ternary_bufs_sub .., nullary_bufs_sub .., unary_bufs_sub ..,
    unary_bufs_sub .., unary_bufs_sub .., ternary_bufs_sub .., nullary_bufs_sub .., binary_bufs_sub ..,
    nullary_bufs_sub .., unary_bufs_sub .., binary_bufs_sub .., unary_bufs_sub .., unary_bufs_sub ..,
    binary_bufs_sub .., unary_bufs_sub .., nullary_bufs_sub .., binary_bufs_sub .., unary_bufs_sub ..,
    unary_bufs_sub .., binary_bufs_sub .., binary_bufs_sub .., unary_bufs_sub .., reshape_bufs_sub ..,
    binary_bufs_sub ..⟩

/-- Every operation touches TensorCore references only. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    · rcases List.mem_append.mp h with h | h
      · exact List.forall_iff_forall_mem.mp ops1_sub op h
      · exact List.forall_iff_forall_mem.mp ops2_sub op h

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor

/-- Every operation determines what it writes. -/
theorem ops_fresh : ∀ op ∈ (ops : List (HloOp τ sig (Elt F))), op.fresh = ∅ := fun op h => by
  rcases List.mem_append.mp h with h | h
  · exact List.forall_iff_forall_mem.mp ops0_fresh op h
  · rcases List.mem_append.mp h with h | h
    · exact List.forall_iff_forall_mem.mp ops1_fresh op h
    · exact List.forall_iff_forall_mem.mp ops2_fresh op h

/-! ## The run -/

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  run_seq scopedRefs_eq scopedSems_eq defs main (fun _ => ops) main_eq (fun _ => ops_sub) m ρ (fun _ => ops_fresh)

/-! ## What the line writes, and what it leaves -/

/-- The fold over the whole line is the fold over the third window of the fold over the second of the fold over the first. -/
theorem after_ops (V : Valuation τ sig (Elt F)) : after ops V = after ops2 (after ops1 (after ops0 V)) := by
  rw [show (ops : List (HloOp τ sig (Elt F))) = ops0 ++ (ops1 ++ ops2) from rfl, after_append, after_append]

/-- The buffers the first window's operations write. -/
abbrev W0 : List (Ref sig .tc) :=
  [main_v0, main_v1, main_v2, main_v3, main_v4, main_v5, main_v6, main_v7, main_v8, main_v9, main_c,
    main_call0.v0.ref, main_call0.v1.ref, main_call0.v2.ref, main_call0.v3.ref, main_call0.v4.ref, main_call0.v5.ref,
    main_call0.v6.ref, main_call0.v7.ref, main_call0.v8.ref, main_call0.c.ref, main_call0.v9.ref, main_call0.v10.ref,
    main_call0.v11.ref, main_call0.c_0.ref, main_call0.v12.ref, main_call0.v13.ref, main_call0.call0.v0.ref,
    main_v11, main_v12, main_v13, main_cst, main_v14, main_v15, main_cst_0, main_v16, main_v17, main_cst_1, main_v18,
    main_v19, main_v20, main_v21, main_v22, main_v23, main_v24, main_v25, main_c_2, main_call1.v0.ref,
    main_call1.c.ref, main_call1.v1.ref, main_call1.c_0.ref, main_call1.call0.v0.ref, main_call1.v3.ref,
    main_call1.v4.ref, main_call1.c_1.ref, main_call1.v5.ref, main_call1.v6.ref, main_call1.c_2.ref,
    main_call1.v7.ref, main_call1.v8.ref, main_call1.c_3.ref, main_call1.v9.ref, main_call1.v10.ref,
    main_call1.v11.ref, main_call1.v12.ref, main_call1.v13.ref, main_call1.v14.ref, main_call1.v15.ref, main_c_3,
    main_v27, main_v28, main_cst_4, main_cst_5, main_call2.v0.ref, main_call2.v1.ref, main_call2.v2.ref, main_v30,
    main_v31, main_v32, main_v33, main_c_6, main_call3.v0.ref, main_call3.c.ref, main_call3.v1.ref,
    main_call3.c_0.ref, main_call3.call0.v0.ref, main_call3.v3.ref, main_call3.v4.ref, main_call3.c_1.ref,
    main_call3.v5.ref, main_call3.v6.ref, main_call3.c_2.ref, main_call3.v7.ref, main_call3.v8.ref,
    main_call3.c_3.ref, main_call3.v9.ref, main_call3.v10.ref, main_call3.v11.ref, main_call3.v12.ref,
    main_call3.v13.ref, main_call3.v14.ref, main_call3.v15.ref, main_c_7, main_v35, main_v36, main_c_8, main_c_9,
    main_call4.v0.ref, main_call4.v1.ref, main_call4.v2.ref, main_v38, main_v39, main_v40, main_v41, main_v42,
    main_c_10, main_v43, main_v44, main_c_11, main_v45]
/-- The buffers the second window's operations write. -/
abbrev W1 : List (Ref sig .tc) :=
  [main_v46, main_v47, main_v48, main_v49, main_v50, main_v51, main_v52, main_v53, main_v54, main_c_12,
    main_call5.v0.ref, main_call5.v1.ref, main_call5.v2.ref, main_call5.v3.ref, main_call5.v4.ref, main_call5.v5.ref,
    main_call5.v6.ref, main_call5.v7.ref, main_call5.v8.ref, main_call5.c.ref, main_call5.v9.ref, main_call5.v10.ref,
    main_call5.v11.ref, main_call5.c_0.ref, main_call5.v12.ref, main_call5.v13.ref, main_call5.call0.v0.ref,
    main_v56, main_v57, main_v58, main_cst_13, main_v59, main_v60, main_cst_14, main_v61, main_v62, main_cst_15,
    main_v63, main_v64, main_v65, main_v66, main_v67, main_v68, main_v69, main_v70, main_c_16, main_call6.v0.ref,
    main_call6.c.ref, main_call6.v1.ref, main_call6.c_0.ref, main_call6.call0.v0.ref, main_call6.v3.ref,
    main_call6.v4.ref, main_call6.c_1.ref, main_call6.v5.ref, main_call6.v6.ref, main_call6.c_2.ref,
    main_call6.v7.ref, main_call6.v8.ref, main_call6.c_3.ref, main_call6.v9.ref, main_call6.v10.ref,
    main_call6.v11.ref, main_call6.v12.ref, main_call6.v13.ref, main_call6.v14.ref, main_call6.v15.ref, main_c_17,
    main_v72, main_v73, main_cst_18, main_cst_19, main_call7.v0.ref, main_call7.v1.ref, main_call7.v2.ref, main_v75,
    main_v76, main_v77, main_v78, main_c_20, main_call8.v0.ref, main_call8.c.ref, main_call8.v1.ref,
    main_call8.c_0.ref, main_call8.call0.v0.ref, main_call8.v3.ref, main_call8.v4.ref, main_call8.c_1.ref,
    main_call8.v5.ref, main_call8.v6.ref, main_call8.c_2.ref, main_call8.v7.ref, main_call8.v8.ref,
    main_call8.c_3.ref, main_call8.v9.ref, main_call8.v10.ref, main_call8.v11.ref, main_call8.v12.ref,
    main_call8.v13.ref, main_call8.v14.ref, main_call8.v15.ref, main_c_21, main_v80, main_v81, main_c_22, main_c_23,
    main_call9.v0.ref, main_call9.v1.ref, main_call9.v2.ref, main_v83, main_v84, main_v85, main_v86, main_v87,
    main_c_24, main_v88, main_v89, main_c_25, main_v90, main_v91]
/-- The buffers the third window's operations write. -/
abbrev W2 : List (Ref sig .tc) :=
  [main_v92, main_v93, main_v94, main_v95, main_v96, main_v97, main_v98, main_v99, main_cst_26, main_v100,
    main_v101, main_v102, main_c_27, main_v103, main_call10.v0.ref, main_call10.c.ref, main_call10.v1.ref,
    main_call10.v2.ref, main_call10.v3.ref, main_call10.v4.ref, main_call10.c_0.ref, main_call10.v5.ref,
    main_call10.v6.ref, main_cst_28, main_call11.v0.ref, main_call11.v1.ref, main_call11.v2.ref, main_call11.v3.ref,
    main_cst_29, main_v106, main_cst_30, main_v107, main_v108, main_v109, main_v110, main_v111, main_v112,
    main_cst_31, main_v113, main_v114, main_v115, main_v116, main_v117, main_v118, main_v119, main_v120]

theorem ops0_writes : (ops0 : List (HloOp τ sig (Elt F))).Forall fun op => op.writes ⊆ (W0.map (Proc.devRef (τ := τ) .tc)).toFinset := by
  simp only [List.Forall, TRef.nullary, TRef.unary, TRef.binary, TRef.ternary, nullary_writes, unary_writes, binary_writes,
    ternary_writes, reshape_writes, Finset.singleton_subset_iff, List.mem_toFinset]
  repeat' apply And.intro
  all_goals exact List.mem_map_of_mem (by decide)
theorem ops1_writes : (ops1 : List (HloOp τ sig (Elt F))).Forall fun op => op.writes ⊆ (W1.map (Proc.devRef (τ := τ) .tc)).toFinset := by
  simp only [List.Forall, TRef.nullary, TRef.unary, TRef.binary, TRef.ternary, nullary_writes, unary_writes, binary_writes,
    ternary_writes, reshape_writes, Finset.singleton_subset_iff, List.mem_toFinset]
  repeat' apply And.intro
  all_goals exact List.mem_map_of_mem (by decide)
theorem ops2_writes : (ops2 : List (HloOp τ sig (Elt F))).Forall fun op => op.writes ⊆ (W2.map (Proc.devRef (τ := τ) .tc)).toFinset := by
  simp only [List.Forall, TRef.nullary, TRef.unary, TRef.binary, TRef.ternary, nullary_writes, unary_writes, binary_writes,
    ternary_writes, reshape_writes, Finset.singleton_subset_iff, List.mem_toFinset]
  repeat' apply And.intro
  all_goals exact List.mem_map_of_mem (by decide)

/-- A buffer a window does not write keeps its contents through it. -/
theorem ops0_keep (V : Valuation τ sig (Elt F)) (r : Ref sig .tc) (h : r ∉ W0) :
    after ops0 V (Proc.devRef .tc r) = V (Proc.devRef .tc r) := after_of_writes_sub ops0 V ops0_writes h
theorem ops1_keep (V : Valuation τ sig (Elt F)) (r : Ref sig .tc) (h : r ∉ W1) :
    after ops1 V (Proc.devRef .tc r) = V (Proc.devRef .tc r) := after_of_writes_sub ops1 V ops1_writes h
theorem ops2_keep (V : Valuation τ sig (Elt F)) (r : Ref sig .tc) (h : r ∉ W2) :
    after ops2 V (Proc.devRef .tc r) = V (Proc.devRef .tc r) := after_of_writes_sub ops2 V ops2_writes h

/-- A buffer no operation writes keeps its contents through the whole line. -/
theorem ops_keep (V : Valuation τ sig (Elt F)) (r : Ref sig .tc) (h0 : r ∉ W0) (h1 : r ∉ W1) (h2 : r ∉ W2) :
    after ops V (Proc.devRef .tc r) = V (Proc.devRef .tc r) := by
  rw [after_ops, ops2_keep _ r h2, ops1_keep _ r h1, ops0_keep _ r h0]

/-! ## The frame claim -/

/-- The reference runs and its six argument arrays end unchanged: none is among the buffers the line writes. -/
theorem frame : Cert.frame_ReferenceIdeal (hReferenceIdeal := Cert.ReferenceIdeal.Gen.facts)
    (hPre_finite_inputs := Cert.Pre_finite_inputs.Gen.facts) := fun m g _ =>
  (θ_run defs _ _).mono (fun _ h c =>
      ⟨(h c main_arg0).trans (ops_keep _ main_arg0 (by decide) (by decide) (by decide)),
       (h c main_arg1).trans (ops_keep _ main_arg1 (by decide) (by decide) (by decide)),
       (h c main_arg2).trans (ops_keep _ main_arg2 (by decide) (by decide) (by decide)),
       (h c main_arg3).trans (ops_keep _ main_arg3 (by decide) (by decide) (by decide)),
       (h c main_arg4).trans (ops_keep _ main_arg4 (by decide) (by decide) (by decide)),
       (h c main_arg5).trans (ops_keep _ main_arg5 (by decide) (by decide) (by decide))⟩)
    (run_main (F := Ideal) m g)

end Cert.ReferenceIdeal.RefRun

end
-- ==== Proof.MatmulValue2.lean ====
/- What the write-backs of the matrix-product region leave in its result array, at the exact values: the
   whole product of the two operand arrays as the region finds them. The body's value at an entry of a
   block is the sum over the contracted coordinate of the products of the two loaded blocks' entries; a
   block's entry is the array's entry at the block's offset plus the place in the block; so what each grid
   point writes back is its block of one whole-array function, and the blocks of the grid cover the array. -/
import proofs.«155122_j66666482368602_2_alg».proof.Proof.MatmulRegion2
import Idealize.ShloMosaic.Lib.ValueIdx
import Idealize.ShloMosaic.Lib.Pipeline.Value
import Idealize.ShloMosaic.PureOps.Ideal.Laws
import Idealize.ShloMosaic.Lib.Tactic

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

/-- The product of a 512x1024 block and a 1024x1024 block as the body forms it, read at an entry. -/
theorem pay2_apply (x0 : FVec Ideal S512x1024 .bf16) (x1 : FVec Ideal S1024x1024 .bf16) (p : Fin 512) (q : Fin 1024) :
    (k2_pay1 (F := Ideal) x0 x1 (ix2 p q) : EReal) = ∑ k : Fin 1024, (x0 (ix2 p k) * x1 (ix2 k q) : EReal) := by
  unfold k2_pay1
  rw [shapeCast_self, shapeCast_self]
  show FloatOps.matmul dot_S512x1024_S1024x1024_S512x1024_1_0_0_1_n_n none x0 x1 (constant S512x1024 .f32 0x00000000#32) (ix2 p q) = _
  rw [Ideal.matmul_constant_zero_apply,
    ← Equiv.sum_comp (contrEquiv1 dot_S512x1024_S1024x1024_S512x1024_1_0_0_1_n_n 1024 rfl rfl).symm]
  refine Finset.sum_congr rfl fun k _ => ?_
  have ck := contrEquiv1_symm_val dot_S512x1024_S1024x1024_S512x1024_1_0_0_1_n_n 1024 rfl rfl k
  have l2 : dot_S512x1024_S1024x1024_S512x1024_1_0_0_1_n_n.lhsIdx (ix2 p q)
      ((contrEquiv1 dot_S512x1024_S1024x1024_S512x1024_1_0_0_1_n_n 1024 rfl rfl).symm k) = ix2 p k := by
    funext ax; apply Fin.ext
    match ax with
    | ⟨0, _⟩ => simp [DotDims.lhsIdx, dot_S512x1024_S1024x1024_S512x1024_1_0_0_1_n_n]; rfl
    | ⟨1, _⟩ => simp [DotDims.lhsIdx, dot_S512x1024_S1024x1024_S512x1024_1_0_0_1_n_n]; exact ck
  have r2 : dot_S512x1024_S1024x1024_S512x1024_1_0_0_1_n_n.rhsIdx (ix2 p q)
      ((contrEquiv1 dot_S512x1024_S1024x1024_S512x1024_1_0_0_1_n_n 1024 rfl rfl).symm k) = ix2 k q := by
    funext ax; apply Fin.ext
    match ax with
    | ⟨0, _⟩ => simp [DotDims.rhsIdx, dot_S512x1024_S1024x1024_S512x1024_1_0_0_1_n_n]; exact ck
    | ⟨1, _⟩ => simp [DotDims.rhsIdx, dot_S512x1024_S1024x1024_S512x1024_1_0_0_1_n_n]; rfl
  rw [l2, r2]

theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = win2_2.index t (1 : Fin 2)
    ∧ win2_2.index t (0 : Fin 2) ≤ 7 ∧ win2_2.index t (1 : Fin 2) ≤ 0 :=
  (by decide +kernel : ∀ t : Fin grid2.N, _)

theorem idx_onto2 : ∀ (q0 : Fin 8) (q1 : Fin 1), ∃ t : Fin cfg2.N, win2_2.index t = ![q0.val, q1.val] :=
  (by decide +kernel : ∀ (q0 : Fin 8) (q1 : Fin 1), ∃ t : Fin grid2.N, win2_2.index t = ![q0.val, q1.val])

section Region2
variable (V : (c : Dev nD) → (b : Ref sig .tc) → Buf (Elt Ideal) ((c : Thread nD τ).loc b))

/-- The whole product: entry (r, s) of the 4096x1024 result is the sum over k of X(r, k) · W(k, s). -/
def mm2 (X : S4096x1024.Idx → EReal) (W : S1024x1024.Idx → EReal) : S4096x1024.Idx → EReal :=
  fun j => ∑ k : Fin 1024, X (ix2 (⟨(j 0).val, idx2_lt0 j⟩ : Fin 4096) k) * W (ix2 k (⟨(j 1).val, idx2_lt1 j⟩ : Fin 1024))

/-- An entry of the left block at point `t` is the entry of the left array at the block's offset plus the
    entry's place in the block. -/
theorem iblk2_0_apply (c : Dev nD) (t : Fin cfg2.N) (x : S512x1024.Idx) (k : S4096x1024.Idx)
    (hk0 : (k 0).val = win2_0.index t (0 : Fin 2) * 512 + (x 0).val)
    (hk1 : (k 1).val = win2_0.index t (1 : Fin 2) * 1024 + (x 1).val) :
    (iblk2 V c 0 t : Vec Ideal S512x1024 .bf16) x = (V c (Pipeline.arrRef spec2 0) : S4096x1024.Idx → EReal) k := by
  unfold iblk2
  rw [View.read_apply]
  show (V c (Pipeline.arrRef spec2 0) : S4096x1024.Idx → EReal) _ = _
  congr 1
  funext a
  apply Fin.ext
  match a with
  | ⟨0, _⟩ => show win2_0.index t (0 : Fin 2) * 512 + 1 * (x 0).val = (k 0).val; rw [hk0]; omega
  | ⟨1, _⟩ => show win2_0.index t (1 : Fin 2) * 1024 + 1 * (x 1).val = (k 1).val; rw [hk1]; omega

theorem iblk2_1_apply (c : Dev nD) (t : Fin cfg2.N) (x : S1024x1024.Idx) (k : S1024x1024.Idx)
    (hk0 : (k 0).val = win2_1.index t (0 : Fin 2) * 1024 + (x 0).val)
    (hk1 : (k 1).val = win2_1.index t (1 : Fin 2) * 1024 + (x 1).val) :
    (iblk2 V c 1 t : Vec Ideal S1024x1024 .bf16) x = (V c (Pipeline.arrRef spec2 1) : S1024x1024.Idx → EReal) k := by
  unfold iblk2
  rw [View.read_apply]
  show (V c (Pipeline.arrRef spec2 1) : S1024x1024.Idx → EReal) _ = _
  congr 1
  funext a
  apply Fin.ext
  match a with
  | ⟨0, _⟩ => show win2_1.index t (0 : Fin 2) * 1024 + 1 * (x 0).val = (k 0).val; rw [hk0]; omega
  | ⟨1, _⟩ => show win2_1.index t (1 : Fin 2) * 1024 + 1 * (x 1).val = (k 1).val; rw [hk1]; omega

/-- What point `t` writes back is its block of the whole product of the two arrays as the region finds them. -/
theorem flushed2_eq (c : Dev nD) (t : Fin cfg2.N) :
    (dat2 (F := Ideal) V c).flushed 2 t
      = ((cfg2.win 2).blk t).view.read (Elt Ideal) (mm2 (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S512x1024) hz2, View.ld_unit_zero (S := S1024x1024) hz2]
  obtain ⟨e00, e01, e10, e11, b0, b1⟩ := idx_facts2 t
  funext j
  obtain ⟨p, q, rfl⟩ : ∃ (p : Fin 512) (q : Fin 1024), j = ix2 p q := ⟨j 0, j 1, eq_ix2 j⟩
  show k2_pay1 (iblk2 V c 0 t) (iblk2 V c 1 t) (ix2 p q)
    = mm2 (V c (Pipeline.arrRef spec2 0)) (V c (Pipeline.arrRef spec2 1)) (((cfg2.win 2).blk t).view.emb (ix2 p q))
  refine (pay2_apply _ _ p q).trans ?_
  unfold mm2
  refine Finset.sum_congr rfl fun k _ => ?_
  refine congrArg₂ (· * ·) (iblk2_0_apply V c t (ix2 p k) _ ?_ ?_) (iblk2_1_apply V c t (ix2 k q) _ ?_ ?_)
  · show win2_2.index t (0 : Fin 2) * 512 + 1 * p.val = win2_0.index t (0 : Fin 2) * 512 + p.val
    rw [e00]; omega
  · show k.val = win2_0.index t (1 : Fin 2) * 1024 + k.val
    rw [e01]; omega
  · show k.val = win2_1.index t (0 : Fin 2) * 1024 + k.val
    rw [e10]; omega
  · show win2_2.index t (1 : Fin 2) * 1024 + 1 * q.val = win2_1.index t (1 : Fin 2) * 1024 + q.val
    rw [e11]; omega

/-- An index of the result array lies in point `t`'s block iff each coordinate lies in the block's range. -/
theorem mem_blk2 (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v80).slice (win2_2.rect t)).set ↔ _
  rw [View.set_slice_whole, Rect.mem_set_unit]
  exact Iff.rfl

/-- Every index of the result array lies in some point's block: row r is in row block r / 512, column s in
    column block s / 1024. -/
theorem cover2 (i : S4096x1024.Idx) :
    ∃ t : Fin cfg2.N, (cfg2.win 2).flush t = true ∧ i ∈ ((cfg2.win 2).blk t).view.set := by
  have hi0 : (i 0).val < 4096 := idx2_lt0 i
  have hi1 : (i 1).val < 1024 := idx2_lt1 i
  obtain ⟨t, ht⟩ := idx_onto2 ⟨(i 0).val / 512, by omega⟩ ⟨(i 1).val / 1024, by omega⟩
  have q0 : win2_2.index t (0 : Fin 2) = (i 0).val / 512 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- After the last point the result array is the whole product of the two arrays as the region found them. -/
theorem final2 (c : Dev nD) :
    (dat2 (F := Ideal) V c).arrAt 2 cfg2.N = mm2 (V c (Pipeline.arrRef spec2 0)) (V c (Pipeline.arrRef spec2 1)) :=
  (dat2 (F := Ideal) V c).arrAt_eq_of_cover 2 (mm2 (V c (Pipeline.arrRef spec2 0)) (V c (Pipeline.arrRef spec2 1)))
    (fun t _ => flushed2_eq V c t) cover2

end Region2

end Cert.KernelIdeal.HandValue
end
-- ==== Proof.HostGlue2.lean ====
/- The host operations around the output projection, read entry by entry at the exact values, from any
   contents of the buffers before them: the attention result laid out as the projection's left operand
   (heads side by side along the columns, batches one under the other along the rows), the output
   weight transposed as its right operand, and the projection's result reshaped to [2, 2048, 1024]. -/
import proofs.«155122_j66666482368602_2_alg».proof.Proof.Gen.KernelIdeal.Launch
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.Tactic

noncomputable section

open scoped BigOperators

namespace Cert.KernelIdeal.HandValue

open Cert.KernelIdeal Cert.KernelIdeal.Gen
open Idealize.ShloMosaic Idealize.ShloMosaic.TcCoe Idealize.SL.Sem Idealize.ShloMosaic.ValueIdx

/-! ## Between the attention region and the output projection -/

/-- The attention result of head h of batch b at position s, coordinate d, lands in row b·2048 + s and column
    h·64 + d of the projection's left operand. -/
theorem glue2_v77 (X : Valuation τ sig (Elt Ideal)) (b : Fin 2) (s : Fin 2048) (h : Fin 16) (d : Fin 64) :
    (StableHlo.after (hostOps2 (F := Ideal)) X (Proc.devRef .tc main_v77) : S4096x1024.Idx → EReal)
        (ix2 (⟨b.val * 2048 + s.val, by omega⟩ : Fin 4096) (⟨h.val * 64 + d.val, by omega⟩ : Fin 1024))
      = (X (Proc.devRef .tc main_v74) : S32x2048x64.Idx → EReal) (ix3 (⟨b.val * 16 + h.val, by omega⟩ : Fin 32) s d) := by
  have e : (StableHlo.after (hostOps2 (F := Ideal)) X (Proc.devRef .tc main_v77) : S4096x1024.Idx → EReal)
      = shapeCast S4096x1024 (transpose S2x2048x16x64 [0, 2, 1, 3]
          (shapeCast S2x16x2048x64 (X (Proc.devRef .tc main_v74) : S32x2048x64.Idx → EReal) shapeCasts_S32x2048x64_S2x16x2048x64)
          transposes_S2x16x2048x64_S2x2048x16x64_0_2_1_3) shapeCasts_S2x2048x16x64_S4096x1024 := by
    after_results; rfl
  rw [e]
  refine (shapeCast_apply _ _ _ (ix4 b s h d) ?_).trans ?_
  · rw [Shape.rowMajor_val_two, Shape.rowMajor_val_four]
    show ((b.val * 2048 + s.val) * 16 + h.val) * 64 + d.val = (b.val * 2048 + s.val) * 1024 + (h.val * 64 + d.val)
    omega
  refine (transpose_apply _ _ _ (ix4 b s h d) (ix4 b h s d) ?_).trans ?_
  · intro a
    match a with
    | ⟨0, _⟩ => rfl
    | ⟨1, _⟩ => rfl
    | ⟨2, _⟩ => rfl
    | ⟨3, _⟩ => rfl
  refine shapeCast_apply _ _ (ix4 b h s d) (ix3 (⟨b.val * 16 + h.val, by omega⟩ : Fin 32) s d) ?_
  rw [Shape.rowMajor_val_three, Shape.rowMajor_val_four]
  show ((b.val * 16 + h.val) * 2048 + s.val) * 64 + d.val = ((b.val * 16 + h.val) * 2048 + s.val) * 64 + d.val
  rfl

/-- The projection's right operand is the output weight transposed. -/
theorem glue2_v79 (X : Valuation τ sig (Elt Ideal)) (k : Fin 1024) (o : Fin 1024) :
    (StableHlo.after (hostOps2 (F := Ideal)) X (Proc.devRef .tc main_v79) : S1024x1024.Idx → EReal) (ix2 k o)
      = (X (Proc.devRef .tc main_arg5) : S1024x1024.Idx → EReal) (ix2 o k) := by
  have e : (StableHlo.after (hostOps2 (F := Ideal)) X (Proc.devRef .tc main_v79) : S1024x1024.Idx → EReal)
      = transpose S1024x1024 [1, 0] (X (Proc.devRef .tc main_arg5) : S1024x1024.Idx → EReal) transposes_S1024x1024_S1024x1024_1_0 := by
    after_results; rfl
  rw [e]
  refine transpose_apply _ _ _ (ix2 k o) (ix2 o k) ?_
  intro a
  match a with
  | ⟨0, _⟩ => rfl
  | ⟨1, _⟩ => rfl

/-! ## The reshape of the output projection's result to [2, 2048, 1024] -/

/-- Row (b, s) of the three-axis result is row b·2048 + s of the two-axis array. -/
theorem glue3_v81 (X : Valuation τ sig (Elt Ideal)) (b : Fin 2) (s : Fin 2048) (o : Fin 1024) :
    (StableHlo.after (hostOps3 (F := Ideal)) X (Proc.devRef .tc main_v81) : S2x2048x1024.Idx → EReal) (ix3 b s o)
      = (X (Proc.devRef .tc main_v80) : S4096x1024.Idx → EReal) (ix2 (⟨b.val * 2048 + s.val, by omega⟩ : Fin 4096) o) := by
  have e : (StableHlo.after (hostOps3 (F := Ideal)) X (Proc.devRef .tc main_v81) : S2x2048x1024.Idx → EReal)
      = shapeCast S2x2048x1024 (X (Proc.devRef .tc main_v80) : S4096x1024.Idx → EReal) shapeCasts_S4096x1024_S2x2048x1024 := by
    after_results; rfl
  rw [e]
  refine shapeCast_apply _ _ (ix3 b s o) (ix2 (⟨b.val * 2048 + s.val, by omega⟩ : Fin 4096) o) ?_
  rw [Shape.rowMajor_val_two, Shape.rowMajor_val_three]
  show (b.val * 2048 + s.val) * 1024 + o.val = (b.val * 2048 + s.val) * 1024 + o.val
  rfl

end Cert.KernelIdeal.HandValue
end
-- ==== Proof.MatmulValue0.lean ====
/- What the write-backs of the matrix-product region leave in its result array, at the exact values: the
   whole product of the two operand arrays as the region finds them. The body's value at an entry of a
   block is the sum over the contracted coordinate of the products of the two loaded blocks' entries; a
   block's entry is the array's entry at the block's offset plus the place in the block; so what each grid
   point writes back is its block of one whole-array function, and the blocks of the grid cover the array. -/
import proofs.«155122_j66666482368602_2_alg».proof.Proof.MatmulRegion0
import Idealize.ShloMosaic.Lib.ValueIdx
import Idealize.ShloMosaic.Lib.Pipeline.Value
import Idealize.ShloMosaic.PureOps.Ideal.Laws
import Idealize.ShloMosaic.Lib.Tactic

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

theorem hz0 : (![0, 0] : Fin 2 → Nat) = fun _ => 0 := funext fun a => by fin_cases a <;> rfl

/-- The product of a 512x1024 block and a 1024x1024 block as the body forms it, read at an entry. -/
theorem pay0_apply (x0 : FVec Ideal S512x1024 .bf16) (x1 : FVec Ideal S1024x1024 .bf16) (p : Fin 512) (q : Fin 1024) :
    k0_pay1 x0 x1 (ix2 p q) = ∑ k : Fin 1024, x0 (ix2 p k) * x1 (ix2 k q) := by
  unfold k0_pay1
  rw [shapeCast_self, shapeCast_self]
  show FloatOps.matmul dot_S512x1024_S1024x1024_S512x1024_1_0_0_1_n_n none x0 x1 (constant S512x1024 .f32 0x00000000#32) (ix2 p q) = _
  rw [Ideal.matmul_constant_zero_apply,
    ← Equiv.sum_comp (contrEquiv1 dot_S512x1024_S1024x1024_S512x1024_1_0_0_1_n_n 1024 rfl rfl).symm]
  refine Finset.sum_congr rfl fun k _ => ?_
  have ck := contrEquiv1_symm_val dot_S512x1024_S1024x1024_S512x1024_1_0_0_1_n_n 1024 rfl rfl k
  have l2 : dot_S512x1024_S1024x1024_S512x1024_1_0_0_1_n_n.lhsIdx (ix2 p q)
      ((contrEquiv1 dot_S512x1024_S1024x1024_S512x1024_1_0_0_1_n_n 1024 rfl rfl).symm k) = ix2 p k := by
    funext ax; apply Fin.ext
    match ax with
    | ⟨0, _⟩ => simp [DotDims.lhsIdx, dot_S512x1024_S1024x1024_S512x1024_1_0_0_1_n_n]; rfl
    | ⟨1, _⟩ => simp [DotDims.lhsIdx, dot_S512x1024_S1024x1024_S512x1024_1_0_0_1_n_n]; exact ck
  have r2 : dot_S512x1024_S1024x1024_S512x1024_1_0_0_1_n_n.rhsIdx (ix2 p q)
      ((contrEquiv1 dot_S512x1024_S1024x1024_S512x1024_1_0_0_1_n_n 1024 rfl rfl).symm k) = ix2 k q := by
    funext ax; apply Fin.ext
    match ax with
    | ⟨0, _⟩ => simp [DotDims.rhsIdx, dot_S512x1024_S1024x1024_S512x1024_1_0_0_1_n_n]; exact ck
    | ⟨1, _⟩ => simp [DotDims.rhsIdx, dot_S512x1024_S1024x1024_S512x1024_1_0_0_1_n_n]; rfl
  rw [l2, r2]

theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 7 ∧ win0_2.index t (1 : Fin 2) ≤ 2 :=
  (by decide +kernel : ∀ t : Fin grid0.N, _)

theorem idx_onto0 : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

section Region0
variable (V : (c : Dev nD) → (b : Ref sig .tc) → Buf (Elt Ideal) ((c : Thread nD τ).loc b))

/-- The whole product: entry (r, s) of the 4096x3072 result is the sum over k of X(r, k) · W(k, s). -/
def mm0 (X : S4096x1024.Idx → EReal) (W : S1024x3072.Idx → EReal) : S4096x3072.Idx → EReal :=
  fun j => ∑ k : Fin 1024, X (ix2 (⟨(j 0).val, idx2_lt0 j⟩ : Fin 4096) k) * W (ix2 k (⟨(j 1).val, idx2_lt1 j⟩ : Fin 3072))

/-- An entry of the left block at point `t` is the entry of the left array at the block's offset plus the
    entry's place in the block. -/
theorem iblk0_0_apply (c : Dev nD) (t : Fin cfg0.N) (x : S512x1024.Idx) (k : S4096x1024.Idx)
    (hk0 : (k 0).val = win0_0.index t (0 : Fin 2) * 512 + (x 0).val)
    (hk1 : (k 1).val = win0_0.index t (1 : Fin 2) * 1024 + (x 1).val) :
    (iblk0 V c 0 t : Vec Ideal S512x1024 .bf16) x = (V c (Pipeline.arrRef spec0 0) : S4096x1024.Idx → EReal) k := by
  unfold iblk0
  rw [View.read_apply]
  show (V c (Pipeline.arrRef spec0 0) : S4096x1024.Idx → EReal) _ = _
  congr 1
  funext a
  apply Fin.ext
  match a with
  | ⟨0, _⟩ => show win0_0.index t (0 : Fin 2) * 512 + 1 * (x 0).val = (k 0).val; rw [hk0]; omega
  | ⟨1, _⟩ => show win0_0.index t (1 : Fin 2) * 1024 + 1 * (x 1).val = (k 1).val; rw [hk1]; omega

theorem iblk0_1_apply (c : Dev nD) (t : Fin cfg0.N) (x : S1024x1024.Idx) (k : S1024x3072.Idx)
    (hk0 : (k 0).val = win0_1.index t (0 : Fin 2) * 1024 + (x 0).val)
    (hk1 : (k 1).val = win0_1.index t (1 : Fin 2) * 1024 + (x 1).val) :
    (iblk0 V c 1 t : Vec Ideal S1024x1024 .bf16) x = (V c (Pipeline.arrRef spec0 1) : S1024x3072.Idx → EReal) k := by
  unfold iblk0
  rw [View.read_apply]
  show (V c (Pipeline.arrRef spec0 1) : S1024x3072.Idx → EReal) _ = _
  congr 1
  funext a
  apply Fin.ext
  match a with
  | ⟨0, _⟩ => show win0_1.index t (0 : Fin 2) * 1024 + 1 * (x 0).val = (k 0).val; rw [hk0]; omega
  | ⟨1, _⟩ => show win0_1.index t (1 : Fin 2) * 1024 + 1 * (x 1).val = (k 1).val; rw [hk1]; omega

/-- What point `t` writes back is its block of the whole product of the two arrays as the region finds them. -/
theorem flushed0_eq (c : Dev nD) (t : Fin cfg0.N) :
    (dat0 (F := Ideal) V c).flushed 2 t
      = ((cfg0.win 2).blk t).view.read (Elt Ideal) (mm0 (V c (Pipeline.arrRef spec0 0)) (V c (Pipeline.arrRef spec0 1))) := by
  show (cfg0.win 2).cut (grid0.coords t) ((dat0 V c).after 2 t) = _
  rw [after0_2]
  unfold out0_2
  rw [View.canon_unit_zero hz0]
  simp only [View.ld_unit_zero (S := S512x1024) hz0, View.ld_unit_zero (S := S1024x1024) hz0]
  obtain ⟨e00, e01, e10, e11, b0, b1⟩ := idx_facts0 t
  funext j
  obtain ⟨p, q, rfl⟩ : ∃ (p : Fin 512) (q : Fin 1024), j = ix2 p q := ⟨j 0, j 1, eq_ix2 j⟩
  show k0_pay1 (iblk0 V c 0 t) (iblk0 V c 1 t) (ix2 p q)
    = mm0 (V c (Pipeline.arrRef spec0 0)) (V c (Pipeline.arrRef spec0 1)) (((cfg0.win 2).blk t).view.emb (ix2 p q))
  refine (pay0_apply _ _ p q).trans ?_
  unfold mm0
  refine Finset.sum_congr rfl fun k _ => ?_
  refine congrArg₂ (· * ·) (iblk0_0_apply V c t (ix2 p k) _ ?_ ?_) (iblk0_1_apply V c t (ix2 k q) _ ?_ ?_)
  · show win0_2.index t (0 : Fin 2) * 512 + 1 * p.val = win0_0.index t (0 : Fin 2) * 512 + p.val
    rw [e00]; omega
  · show k.val = win0_0.index t (1 : Fin 2) * 1024 + k.val
    rw [e01]; omega
  · show k.val = win0_1.index t (0 : Fin 2) * 1024 + k.val
    rw [e10]; omega
  · show win0_2.index t (1 : Fin 2) * 1024 + 1 * q.val = win0_1.index t (1 : Fin 2) * 1024 + q.val
    rw [e11]; omega

/-- An index of the result array lies in point `t`'s block iff each coordinate lies in the block's range. -/
theorem mem_blk0 (t : Fin cfg0.N) (i : S4096x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v7).slice (win0_2.rect t)).set ↔ _
  rw [View.set_slice_whole, Rect.mem_set_unit]
  exact Iff.rfl

/-- Every index of the result array lies in some point's block: row r is in row block r / 512, column s in
    column block s / 1024. -/
theorem cover0 (i : S4096x3072.Idx) :
    ∃ t : Fin cfg0.N, (cfg0.win 2).flush t = true ∧ i ∈ ((cfg0.win 2).blk t).view.set := by
  have hi0 : (i 0).val < 4096 := idx2_lt0 i
  have hi1 : (i 1).val < 3072 := idx2_lt1 i
  obtain ⟨t, ht⟩ := idx_onto0 ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- After the last point the result array is the whole product of the two arrays as the region found them. -/
theorem final0 (c : Dev nD) :
    (dat0 (F := Ideal) V c).arrAt 2 cfg0.N = mm0 (V c (Pipeline.arrRef spec0 0)) (V c (Pipeline.arrRef spec0 1)) :=
  (dat0 (F := Ideal) V c).arrAt_eq_of_cover 2 (mm0 (V c (Pipeline.arrRef spec0 0)) (V c (Pipeline.arrRef spec0 1)))
    (fun t _ => flushed0_eq V c t) cover0

end Region0

end Cert.KernelIdeal.HandValue
end
-- ==== Proof.HostGlue0.lean ====
/- The host operations in front of the fused projection, read entry by entry at the exact values, from
   any contents of the buffers before them: the input with its batch and position axes merged as the
   projection's left operand, and the query, key and value weights, each transposed and laid side by side
   along the columns, as its right operand. Narrowing to bf16 changes nothing at the exact values. -/
import proofs.«155122_j66666482368602_2_alg».proof.Proof.Gen.KernelIdeal.Launch
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.Tactic

noncomputable section

open scoped BigOperators

namespace Cert.KernelIdeal.HandValue

open Cert.KernelIdeal Cert.KernelIdeal.Gen
open Idealize.ShloMosaic Idealize.ShloMosaic.TcCoe Idealize.SL.Sem Idealize.ShloMosaic.ValueIdx

/-! ## Before the fused projection -/

/-- Row b·2048 + s of the projection's left operand is row (b, s) of the input. -/
theorem glue0_v5 (X : Valuation τ sig (Elt Ideal)) (b : Fin 2) (s : Fin 2048) (e : Fin 1024) :
    (StableHlo.after (hostOps0 (F := Ideal)) X (Proc.devRef .tc main_v5) : S4096x1024.Idx → EReal)
        (ix2 (⟨b.val * 2048 + s.val, by omega⟩ : Fin 4096) e)
      = (X (Proc.devRef .tc main_arg0) : S2x2048x1024.Idx → EReal) (ix3 b s e) := by
  have h : (StableHlo.after (hostOps0 (F := Ideal)) X (Proc.devRef .tc main_v5) : S4096x1024.Idx → EReal)
      = shapeCast S4096x1024 (X (Proc.devRef .tc main_arg0) : S2x2048x1024.Idx → EReal) shapeCasts_S2x2048x1024_S4096x1024 := by
    after_results; rfl
  rw [h]
  refine shapeCast_apply _ _ _ (ix3 b s e) ?_
  rw [Shape.rowMajor_val_two, Shape.rowMajor_val_three]
  show (b.val * 2048 + s.val) * 1024 + e.val = (b.val * 2048 + s.val) * 1024 + e.val
  rfl

/-- The three projection weights, each transposed, in the order query, key, value. -/
abbrev wcat (X : Valuation τ sig (Elt Ideal)) : List ((s : Shape) × (s.Idx → EReal)) :=
  [⟨S1024x1024, transpose S1024x1024 [1, 0] (X (Proc.devRef .tc main_arg2) : S1024x1024.Idx → EReal) transposes_S1024x1024_S1024x1024_1_0⟩,
   ⟨S1024x1024, transpose S1024x1024 [1, 0] (X (Proc.devRef .tc main_arg3) : S1024x1024.Idx → EReal) transposes_S1024x1024_S1024x1024_1_0⟩,
   ⟨S1024x1024, transpose S1024x1024 [1, 0] (X (Proc.devRef .tc main_arg4) : S1024x1024.Idx → EReal) transposes_S1024x1024_S1024x1024_1_0⟩]

/-- The projection's right operand: the three transposed weights side by side along the columns. -/
theorem glue0_v6_eq (X : Valuation τ sig (Elt Ideal)) :
    (StableHlo.after (hostOps0 (F := Ideal)) X (Proc.devRef .tc main_v6) : S1024x3072.Idx → EReal)
      = concatenate S1024x3072 1 (wcat X) concatenates_S1024x1024_S1024x1024_S1024x1024_S1024x3072_d1 := by
  after_results; rfl

/-- Columns 0 … 1023 of the fused weight are the query weight transposed. -/
theorem glue0_v6_0 (X : Valuation τ sig (Elt Ideal)) (e : Fin 1024) (o : Fin 1024) :
    (StableHlo.after (hostOps0 (F := Ideal)) X (Proc.devRef .tc main_v6) : S1024x3072.Idx → EReal)
        (ix2 e (⟨0 + o.val, by omega⟩ : Fin 3072))
      = (X (Proc.devRef .tc main_arg2) : S1024x1024.Idx → EReal) (ix2 o e) := by
  rw [glue0_v6_eq X]
  refine (concatenate_apply_piece (t := S1024x3072) (1 : Fin 2) (wcat X) concatenates_S1024x1024_S1024x1024_S1024x1024_S1024x3072_d1
    (ix2 e (⟨0 + o.val, by omega⟩ : Fin 3072)) 0 (by simp [wcat]) S1024x1024 _ rfl rfl 0 rfl (ix2 e o) ?_ ?_).trans ?_
  · intro b hb
    match b with
    | ⟨0, _⟩ => rfl
    | ⟨1, _⟩ => exact absurd rfl hb
  · rfl
  refine transpose_apply _ _ _ (ix2 e o) (ix2 o e) ?_
  intro a
  match a with
  | ⟨0, _⟩ => rfl
  | ⟨1, _⟩ => rfl

/-- Columns 1024 … 2047 of the fused weight are the key weight transposed. -/
theorem glue0_v6_1 (X : Valuation τ sig (Elt Ideal)) (e : Fin 1024) (o : Fin 1024) :
    (StableHlo.after (hostOps0 (F := Ideal)) X (Proc.devRef .tc main_v6) : S1024x3072.Idx → EReal)
        (ix2 e (⟨1024 + o.val, by omega⟩ : Fin 3072))
      = (X (Proc.devRef .tc main_arg3) : S1024x1024.Idx → EReal) (ix2 o e) := by
  rw [glue0_v6_eq X]
  refine (concatenate_apply_piece (t := S1024x3072) (1 : Fin 2) (wcat X) concatenates_S1024x1024_S1024x1024_S1024x1024_S1024x3072_d1
    (ix2 e (⟨1024 + o.val, by omega⟩ : Fin 3072)) 1 (by simp [wcat]) S1024x1024 _ rfl rfl 1024 rfl (ix2 e o) ?_ ?_).trans ?_
  · intro b hb
    match b with
    | ⟨0, _⟩ => rfl
    | ⟨1, _⟩ => exact absurd rfl hb
  · rfl
  refine transpose_apply _ _ _ (ix2 e o) (ix2 o e) ?_
  intro a
  match a with
  | ⟨0, _⟩ => rfl
  | ⟨1, _⟩ => rfl

/-- Columns 2048 … 3071 of the fused weight are the value weight transposed. -/
theorem glue0_v6_2 (X : Valuation τ sig (Elt Ideal)) (e : Fin 1024) (o : Fin 1024) :
    (StableHlo.after (hostOps0 (F := Ideal)) X (Proc.devRef .tc main_v6) : S1024x3072.Idx → EReal)
        (ix2 e (⟨2048 + o.val, by omega⟩ : Fin 3072))
      = (X (Proc.devRef .tc main_arg4) : S1024x1024.Idx → EReal) (ix2 o e) := by
  rw [glue0_v6_eq X]
  refine (concatenate_apply_piece (t := S1024x3072) (1 : Fin 2) (wcat X) concatenates_S1024x1024_S1024x1024_S1024x1024_S1024x3072_d1
    (ix2 e (⟨2048 + o.val, by omega⟩ : Fin 3072)) 2 (by simp [wcat]) S1024x1024 _ rfl rfl 2048 rfl (ix2 e o) ?_ ?_).trans ?_
  · intro b hb
    match b with
    | ⟨0, _⟩ => rfl
    | ⟨1, _⟩ => exact absurd rfl hb
  · rfl
  refine transpose_apply _ _ _ (ix2 e o) (ix2 o e) ?_
  intro a
  match a with
  | ⟨0, _⟩ => rfl
  | ⟨1, _⟩ => rfl

/-! ## The constants of the lane exchange, written before the fused projection -/

/-- The constant table 1, 0, 3, 2, …, 63, 62. -/
theorem glue0_c (X : Valuation τ sig (Elt Ideal)) :
    (StableHlo.after (hostOps0 (F := Ideal)) X (Proc.devRef .tc main_c) : IVec S64 32) = fun i => lit0 (S64.rowMajor i) := by
  after_results
  rfl

/-- The two masks of the lane exchange are clear. -/
theorem glue0_c_0 (X : Valuation τ sig (Elt Ideal)) :
    (StableHlo.after (hostOps0 (F := Ideal)) X (Proc.devRef .tc main_c_0) : IVec S64 1) = constantI S64 1 0#1 := by
  after_results
theorem glue0_c_1 (X : Valuation τ sig (Elt Ideal)) :
    (StableHlo.after (hostOps0 (F := Ideal)) X (Proc.devRef .tc main_c_1) : IVec S64 1) = constantI S64 1 0#1 := by
  after_results

end Cert.KernelIdeal.HandValue
end
-- ==== Proof.HostGlue1.lean ====
/- The host operations between the fused projection and the attention region, at the exact values, from any
   contents of the buffers before them. The fused projection's result is cut into its query, key and value
   thirds, each laid out head by head; the rotation tables (a cosine table and a signed sine table over
   positions and lanes) are computed from the positions; queries and keys are rotated,
   y·cos + y[lanes exchanged in pairs]·sin, and the rotated keys transposed. This file names each of those
   stages as one function and shows that the buffers the attention region reads hold them. -/
import proofs.«155122_j66666482368602_2_alg».proof.Proof.Gen.KernelIdeal.Launch
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.Tactic

noncomputable section

open scoped BigOperators

namespace Cert.KernelIdeal.HandValue

open Cert.KernelIdeal Cert.KernelIdeal.Gen
open Idealize.ShloMosaic Idealize.ShloMosaic.TcCoe Idealize.SL.Sem Idealize.ShloMosaic.ValueIdx

/-- The buffers after the seven stretches of host operations between the fused projection and the attention
    region, from contents `X` before them. -/
abbrev glueY (X : Valuation τ sig (Elt Ideal)) : Valuation τ sig (Elt Ideal) :=
  StableHlo.after (hostOps1_6 (F := Ideal)) (StableHlo.after (hostOps1_5 (F := Ideal)) (StableHlo.after (hostOps1_4 (F := Ideal))
    (StableHlo.after (hostOps1_3 (F := Ideal)) (StableHlo.after (hostOps1_2 (F := Ideal)) (StableHlo.after (hostOps1_1 (F := Ideal))
      (StableHlo.after (hostOps1 (F := Ideal)) X))))))

namespace Rope

section Tables
variable {F : FTy → Type} [FloatOps F]

/-- A scalar repeated over the 64 lanes of a head. -/
def splat {α : Type} (c : S_.Idx → α) : S64.Idx → α := broadcastInDim S64 ![] bcast_S_S64 c

/-- The lane index 0, …, 63. -/
def lane : IVec S64 32 := iotaInDim S64 32 0

/-- The floor quotient of a lane vector by a scalar, from the truncating one: one less where the signs differ
    and the remainder is not zero. -/
def floorDiv (n : IVec S64 32) (d : IVec S_ 32) : IVec S64 32 :=
  select
    (andi (cmpi .ne (signi n) (splat (signi d)))
      (cmpi .ne (Host.remsi n (splat d)) (splat (constantI S_ 32 0#32))))
    (subi (Host.divsi n (splat d)) (splat (constantI S_ 32 1#32)))
    (Host.divsi n (splat d))

/-- The divisor a floor remainder divides by: 1 in place of 0. -/
def safeDivisor (d : IVec S_ 32) : IVec S_ 32 :=
  select (cmpi .eq d (constantI S_ 32 0#32)) (constantI S_ 32 1#32) d

/-- The floor remainder of a lane vector by a scalar, from the truncating one: the divisor added where the
    remainder is not zero and its sign differs from the divisor's. -/
def floorRem (n : IVec S64 32) (d : IVec S_ 32) : IVec S64 32 :=
  select
    (andi
      (cmpi .ne (cmpi .slt (Host.remsi n (splat (safeDivisor d))) (splat (constantI S_ 32 0#32)))
        (splat (cmpi .slt (safeDivisor d) (constantI S_ 32 0#32))))
      (cmpi .ne (Host.remsi n (splat (safeDivisor d))) (splat (constantI S_ 32 0#32))))
    (addi (Host.remsi n (splat (safeDivisor d))) (splat (safeDivisor d)))
    (Host.remsi n (splat (safeDivisor d)))

/-- Which lanes are even. -/
def evenLane : IVec S64 1 :=
  cmpi .eq (floorRem lane (constantI S_ 32 2#32)) (splat (constantI S_ 32 0#32))

/-- −1 at the even lanes and +1 at the odd ones: the sign of the sine term of a rotation of the pairs (2j, 2j+1). -/
def sinSign : FVec F S64 .f32 :=
  select evenLane (splat (constant (F := F) S_ .f32 0xBF800000#32)) (splat (constant (F := F) S_ .f32 0x3F800000#32))

/-- The rotation frequencies' divisors 10000 ^ (2·⌊i/2⌋ / 64), one per lane. -/
def freq : FVec F S64 .f32 :=
  Host.powf (splat (constant (F := F) S_ .f32 0x461C4000#32))
    (Host.divf
      (mulf (splat (constant (F := F) S_ .f32 0x40000000#32)) (sitofp .f32 (floorDiv lane (constantI S_ 32 2#32))))
      (splat (constant (F := F) S_ .f32 0x42800000#32)))

/-- A lane vector repeated over the 2048 positions. -/
def overPos (v : FVec F S64 .f32) : FVec F S2048x64 .f32 :=
  broadcastInDim S2048x64 ![0, 1] bcast_S1x64_S2048x64_0_1 (broadcastInDim S1x64 ![1] bcast_S64_S1x64_1 v)

/-- The rotation angles: position over frequency divisor, per position and lane. -/
def angle (tp : IVec S2048 32) : FVec F S2048x64 .f32 :=
  Host.divf
    (broadcastInDim S2048x64 ![0, 1] bcast_S2048x1_S2048x64_0_1
      (sitofp .f32 (broadcastInDim S2048x1 ![0] bcast_S2048_S2048x1_0 tp)))
    (overPos freq)

/-- The cosine table. -/
def cosT (tp : IVec S2048 32) : FVec F S2048x64 .f32 := Host.cos (angle tp)

/-- The signed sine table. -/
def sinT (tp : IVec S2048 32) : FVec F S2048x64 .f32 := mulf (Host.sin (angle tp)) (overPos sinSign)

end Tables

end Rope
open Rope

set_option maxHeartbeats 4000000 in
/-- The cosine table the host computes is `cosT` of the positions. -/
theorem glue1_v35 (X : Valuation τ sig (Elt Ideal)) :
    (glueY X (Proc.devRef .tc main_v35) : S2048x64.Idx → EReal) = cosT (F := Ideal) (X (Proc.devRef .tc main_arg1)) := by
  after_results_simp
  rfl

set_option maxHeartbeats 4000000 in
/-- The signed sine table the host computes is `sinT` of the positions. -/
theorem glue1_v44 (X : Valuation τ sig (Elt Ideal)) :
    (glueY X (Proc.devRef .tc main_v44) : S2048x64.Idx → EReal) = sinT (F := Ideal) (X (Proc.devRef .tc main_arg1)) := by
  after_results_simp
  rfl

/-- A table over positions and lanes repeated over the 32 batch-head pairs. -/
def spread3 (t : S2048x64.Idx → EReal) : S32x2048x64.Idx → EReal :=
  broadcastInDim S32x2048x64 ![0, 1, 2] bcast_S1x2048x64_S32x2048x64_0_1_2
    (broadcastInDim S1x2048x64 ![1, 2] bcast_S2048x64_S1x2048x64_1_2 t)

/-- One third of the fused projection's result in head layout: columns off … off + 1023, split into 16 heads of
    64 lanes, the head axis moved in front of the positions and merged with the batch. -/
def headsQ (A : S4096x3072.Idx → EReal) : S32x2048x64.Idx → EReal :=
  shapeCast S32x2048x64 (transpose S2x16x2048x64 [0, 2, 1, 3]
    (shapeCast S2x2048x16x64 (extractStridedSlice S4096x1024 ![0, 0] A slices_S4096x3072_S4096x1024_0_0)
      shapeCasts_S4096x1024_S2x2048x16x64) transposes_S2x2048x16x64_S2x16x2048x64_0_2_1_3) shapeCasts_S2x16x2048x64_S32x2048x64
def headsK (A : S4096x3072.Idx → EReal) : S32x2048x64.Idx → EReal :=
  shapeCast S32x2048x64 (transpose S2x16x2048x64 [0, 2, 1, 3]
    (shapeCast S2x2048x16x64 (extractStridedSlice S4096x1024 ![0, 1024] A slices_S4096x3072_S4096x1024_0_1024)
      shapeCasts_S4096x1024_S2x2048x16x64) transposes_S2x2048x16x64_S2x16x2048x64_0_2_1_3) shapeCasts_S2x16x2048x64_S32x2048x64
def headsV (A : S4096x3072.Idx → EReal) : S32x2048x64.Idx → EReal :=
  shapeCast S32x2048x64 (transpose S2x16x2048x64 [0, 2, 1, 3]
    (shapeCast S2x2048x16x64 (extractStridedSlice S4096x1024 ![0, 2048] A slices_S4096x3072_S4096x1024_0_2048)
      shapeCasts_S4096x1024_S2x2048x16x64) transposes_S2x2048x16x64_S2x16x2048x64_0_2_1_3) shapeCasts_S2x16x2048x64_S32x2048x64

/-- The index vector of the lane exchange as the host forms it from the constant table `c` and the mask `m`:
    the table where the mask is clear. -/
def swapVec (m : IVec S64 1) (c : IVec S64 32) : IVec S64x1 32 :=
  broadcastInDim S64x1 ![0] bcast_S64_S64x1_0 (select m (addi c (Rope.splat (constantI S_ 32 64#32))) c)

/-- The rotation of a head-layout array as the host computes it: y·cos + y[exchanged lanes]·sin. -/
def ropeOf (y : S32x2048x64.Idx → EReal) (iv : IVec S64x1 32) (ct st : S2048x64.Idx → EReal) : S32x2048x64.Idx → EReal :=
  addf (F := Ideal) (φ := .f32) (mulf (F := Ideal) (φ := .f32) y (spread3 ct))
    (mulf (F := Ideal) (φ := .f32) (Host.gather gather_S32x2048x64_S64x1_S32x2048x64_01_2_n_n_2_1_3220481 y iv) (spread3 st))

set_option maxHeartbeats 4000000 in
/-- The rotated queries. -/
theorem glue1_v59_eq (X : Valuation τ sig (Elt Ideal)) :
    (glueY X (Proc.devRef .tc main_v59) : S32x2048x64.Idx → EReal)
      = ropeOf (headsQ (X (Proc.devRef .tc main_v7))) (swapVec (X (Proc.devRef .tc main_c_0)) (X (Proc.devRef .tc main_c)))
          (cosT (F := Ideal) (X (Proc.devRef .tc main_arg1))) (sinT (F := Ideal) (X (Proc.devRef .tc main_arg1))) := by
  after_results_simp
  rfl

set_option maxHeartbeats 4000000 in
/-- The rotated keys, transposed so that the lanes come before the positions. -/
theorem glue1_v73_eq (X : Valuation τ sig (Elt Ideal)) :
    (glueY X (Proc.devRef .tc main_v73) : S32x64x2048.Idx → EReal)
      = transpose S32x64x2048 [0, 2, 1]
          (ropeOf (headsK (X (Proc.devRef .tc main_v7))) (swapVec (X (Proc.devRef .tc main_c_1)) (X (Proc.devRef .tc main_c)))
            (cosT (F := Ideal) (X (Proc.devRef .tc main_arg1))) (sinT (F := Ideal) (X (Proc.devRef .tc main_arg1))))
          transposes_S32x2048x64_S32x64x2048_0_2_1 := by
  after_results_simp
  rfl

set_option maxHeartbeats 4000000 in
/-- The value heads: written by the first stretch and not touched afterwards. -/
theorem glue1_v19_eq (X : Valuation τ sig (Elt Ideal)) :
    (glueY X (Proc.devRef .tc main_v19) : S32x2048x64.Idx → EReal) = headsV (X (Proc.devRef .tc main_v7)) := by
  after_results_simp
  rfl

end Cert.KernelIdeal.HandValue
end
-- ==== Proof.HostGlue1Idx.lean ====
/- The buffers the attention region reads, entry by entry at the exact values: the value heads, the rotated
   queries and the rotated, transposed keys as entries of the fused projection's result and of the two
   rotation tables. The gather that exchanges the lanes of each pair reads, with the mask clear, the
   constant table 1, 0, 3, 2, …, 63, 62, whose entry for lane d is d's partner in the pair (2j, 2j + 1). -/
import proofs.«155122_j66666482368602_2_alg».proof.Proof.HostGlue1
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.Tactic

noncomputable section

open scoped BigOperators

namespace Cert.KernelIdeal.HandValue

open Cert.KernelIdeal Cert.KernelIdeal.Gen
open Idealize.ShloMosaic Idealize.ShloMosaic.TcCoe Idealize.SL.Sem Idealize.ShloMosaic.ValueIdx

open Rope

/-- The gather of the lane exchange read at an entry: batch-head pair and position kept, the lane taken from the
    index vector's entry for the lane, read signed and clamped into 0 … 63. -/
theorem gather_lane_apply {α : Type} (x : S32x2048x64.Idx → α) (idx : IVec S64x1 32) (g : Fin 32) (s : Fin 2048) (d : Fin 64) :
    Host.gather gather_S32x2048x64_S64x1_S32x2048x64_01_2_n_n_2_1_3220481 x idx (ix3 g s d)
      = x (ix3 g s (⟨min (idx (ix2 d (0 : Fin 1))).toInt.toNat 63, by omega⟩ : Fin 64)) := by
  unfold Host.gather
  congr 1
  funext a
  refine Fin.ext ?_
  show gather_S32x2048x64_S64x1_S32x2048x64_01_2_n_n_2_1_3220481.start (ix3 g s d) idx a
      + gather_S32x2048x64_S64x1_S32x2048x64_01_2_n_n_2_1_3220481.batchCoord (ix3 g s d) a
      + gather_S32x2048x64_S64x1_S32x2048x64_01_2_n_n_2_1_3220481.offCoord (ix3 g s d) a = _
  rw [GatherDims.batchCoord_eq_zero _ _ _ List.not_mem_nil]
  match a with
  | ⟨0, _⟩ =>
    have h0 : (⟨0, by decide⟩ : Fin 3) ∉ gather_S32x2048x64_S64x1_S32x2048x64_01_2_n_n_2_1_3220481.startIndexMap := by decide
    unfold GatherDims.start
    rw [dif_neg h0]
    have k0 : (⟨0, by decide⟩ : Fin 3) ∈ gather_S32x2048x64_S64x1_S32x2048x64_01_2_n_n_2_1_3220481.sKept := by decide
    unfold GatherDims.offCoord
    rw [dif_pos k0]
    show 0 + 0 + g.val = g.val
    omega
  | ⟨1, _⟩ =>
    have h1 : (⟨1, by decide⟩ : Fin 3) ∉ gather_S32x2048x64_S64x1_S32x2048x64_01_2_n_n_2_1_3220481.startIndexMap := by decide
    unfold GatherDims.start
    rw [dif_neg h1]
    have k1 : (⟨1, by decide⟩ : Fin 3) ∈ gather_S32x2048x64_S64x1_S32x2048x64_01_2_n_n_2_1_3220481.sKept := by decide
    unfold GatherDims.offCoord
    rw [dif_pos k1]
    show 0 + 0 + s.val = s.val
    omega
  | ⟨2, _⟩ =>
    have h2 : (⟨2, by decide⟩ : Fin 3) ∈ gather_S32x2048x64_S64x1_S32x2048x64_01_2_n_n_2_1_3220481.startIndexMap := by decide
    have k2 : (⟨2, by decide⟩ : Fin 3) ∉ gather_S32x2048x64_S64x1_S32x2048x64_01_2_n_n_2_1_3220481.sKept := by decide
    rw [GatherDims.offCoord_eq_zero _ _ _ k2]
    unfold GatherDims.start
    rw [dif_pos h2]
    have hsi : gather_S32x2048x64_S64x1_S32x2048x64_01_2_n_n_2_1_3220481.siIdx (ix3 g s d)
        ⟨List.idxOf (⟨2, by decide⟩ : Fin 3) gather_S32x2048x64_S64x1_S32x2048x64_01_2_n_n_2_1_3220481.startIndexMap,
          List.idxOf_lt_length_iff.2 h2⟩ = ix2 d (0 : Fin 1) := by
      funext b; refine Fin.ext ?_
      match b with
      | ⟨0, _⟩ => rfl
      | ⟨1, _⟩ => rfl
    rw [hsi]
    rfl

/-! ## The head layouts read at an entry -/

/-- Entry (b·16 + h, s, d) of the query heads is row b·2048 + s, column h·64 + d of the fused result. -/
theorem headsQ_apply (A : S4096x3072.Idx → EReal) (b : Fin 2) (h : Fin 16) (s : Fin 2048) (d : Fin 64) :
    headsQ A (ix3 (⟨b.val * 16 + h.val, by omega⟩ : Fin 32) s d)
      = A (ix2 (⟨b.val * 2048 + s.val, by omega⟩ : Fin 4096) (⟨h.val * 64 + d.val, by omega⟩ : Fin 3072)) := by
  unfold headsQ
  refine (shapeCast_apply _ _ _ (ix4 b h s d) ?_).trans ?_
  · rw [Shape.rowMajor_val_three, Shape.rowMajor_val_four]
    show ((b.val * 16 + h.val) * 2048 + s.val) * 64 + d.val = ((b.val * 16 + h.val) * 2048 + s.val) * 64 + d.val
    rfl
  refine (transpose_apply _ _ _ (ix4 b h s d) (ix4 b s h d) ?_).trans ?_
  · intro a
    match a with
    | ⟨0, _⟩ => rfl
    | ⟨1, _⟩ => rfl
    | ⟨2, _⟩ => rfl
    | ⟨3, _⟩ => rfl
  refine (shapeCast_apply _ _ (ix4 b s h d)
    (ix2 (⟨b.val * 2048 + s.val, by omega⟩ : Fin 4096) (⟨h.val * 64 + d.val, by omega⟩ : Fin 1024)) ?_).trans ?_
  · rw [Shape.rowMajor_val_two, Shape.rowMajor_val_four]
    show (b.val * 2048 + s.val) * 1024 + (h.val * 64 + d.val) = ((b.val * 2048 + s.val) * 16 + h.val) * 64 + d.val
    omega
  refine extractStridedSlice_apply _ _ slices_S4096x3072_S4096x1024_0_0 _ _ ?_
  intro a
  match a with
  | ⟨0, _⟩ => show b.val * 2048 + s.val = 0 + (b.val * 2048 + s.val); omega
  | ⟨1, _⟩ => show h.val * 64 + d.val = 0 + (h.val * 64 + d.val); omega

/-- Entry (b·16 + h, s, d) of the key heads is row b·2048 + s, column 1024 + h·64 + d of the fused result. -/
theorem headsK_apply (A : S4096x3072.Idx → EReal) (b : Fin 2) (h : Fin 16) (s : Fin 2048) (d : Fin 64) :
    headsK A (ix3 (⟨b.val * 16 + h.val, by omega⟩ : Fin 32) s d)
      = A (ix2 (⟨b.val * 2048 + s.val, by omega⟩ : Fin 4096) (⟨1024 + h.val * 64 + d.val, by omega⟩ : Fin 3072)) := by
  unfold headsK
  refine (shapeCast_apply _ _ _ (ix4 b h s d) ?_).trans ?_
  · rw [Shape.rowMajor_val_three, Shape.rowMajor_val_four]
    show ((b.val * 16 + h.val) * 2048 + s.val) * 64 + d.val = ((b.val * 16 + h.val) * 2048 + s.val) * 64 + d.val
    rfl
  refine (transpose_apply _ _ _ (ix4 b h s d) (ix4 b s h d) ?_).trans ?_
  · intro a
    match a with
    | ⟨0, _⟩ => rfl
    | ⟨1, _⟩ => rfl
    | ⟨2, _⟩ => rfl
    | ⟨3, _⟩ => rfl
  refine (shapeCast_apply _ _ (ix4 b s h d)
    (ix2 (⟨b.val * 2048 + s.val, by omega⟩ : Fin 4096) (⟨h.val * 64 + d.val, by omega⟩ : Fin 1024)) ?_).trans ?_
  · rw [Shape.rowMajor_val_two, Shape.rowMajor_val_four]
    show (b.val * 2048 + s.val) * 1024 + (h.val * 64 + d.val) = ((b.val * 2048 + s.val) * 16 + h.val) * 64 + d.val
    omega
  refine extractStridedSlice_apply _ _ slices_S4096x3072_S4096x1024_0_1024 _ _ ?_
  intro a
  match a with
  | ⟨0, _⟩ => show b.val * 2048 + s.val = 0 + (b.val * 2048 + s.val); omega
  | ⟨1, _⟩ => show 1024 + h.val * 64 + d.val = 1024 + (h.val * 64 + d.val); omega

/-- Entry (b·16 + h, s, d) of the value heads is row b·2048 + s, column 2048 + h·64 + d of the fused result. -/
theorem headsV_apply (A : S4096x3072.Idx → EReal) (b : Fin 2) (h : Fin 16) (s : Fin 2048) (d : Fin 64) :
    headsV A (ix3 (⟨b.val * 16 + h.val, by omega⟩ : Fin 32) s d)
      = A (ix2 (⟨b.val * 2048 + s.val, by omega⟩ : Fin 4096) (⟨2048 + h.val * 64 + d.val, by omega⟩ : Fin 3072)) := by
  unfold headsV
  refine (shapeCast_apply _ _ _ (ix4 b h s d) ?_).trans ?_
  · rw [Shape.rowMajor_val_three, Shape.rowMajor_val_four]
    show ((b.val * 16 + h.val) * 2048 + s.val) * 64 + d.val = ((b.val * 16 + h.val) * 2048 + s.val) * 64 + d.val
    rfl
  refine (transpose_apply _ _ _ (ix4 b h s d) (ix4 b s h d) ?_).trans ?_
  · intro a
    match a with
    | ⟨0, _⟩ => rfl
    | ⟨1, _⟩ => rfl
    | ⟨2, _⟩ => rfl
    | ⟨3, _⟩ => rfl
  refine (shapeCast_apply _ _ (ix4 b s h d)
    (ix2 (⟨b.val * 2048 + s.val, by omega⟩ : Fin 4096) (⟨h.val * 64 + d.val, by omega⟩ : Fin 1024)) ?_).trans ?_
  · rw [Shape.rowMajor_val_two, Shape.rowMajor_val_four]
    show (b.val * 2048 + s.val) * 1024 + (h.val * 64 + d.val) = ((b.val * 2048 + s.val) * 16 + h.val) * 64 + d.val
    omega
  refine extractStridedSlice_apply _ _ slices_S4096x3072_S4096x1024_0_2048 _ _ ?_
  intro a
  match a with
  | ⟨0, _⟩ => show b.val * 2048 + s.val = 0 + (b.val * 2048 + s.val); omega
  | ⟨1, _⟩ => show 2048 + h.val * 64 + d.val = 2048 + (h.val * 64 + d.val); omega

/-! ## The tables repeated over the batch-head pairs -/

theorem spread3_apply (t : S2048x64.Idx → EReal) (g : Fin 32) (s : Fin 2048) (d : Fin 64) :
    spread3 t (ix3 g s d) = t (ix2 s d) := by
  unfold spread3
  refine (broadcastInDim_apply _ _ _ (ix3 g s d) (ix3 (0 : Fin 1) s d) ?_).trans ?_
  · intro a
    match a with
    | ⟨0, _⟩ => rfl
    | ⟨1, _⟩ => rfl
    | ⟨2, _⟩ => rfl
  refine broadcastInDim_apply _ _ _ (ix3 (0 : Fin 1) s d) (ix2 s d) ?_
  intro a
  match a with
  | ⟨0, _⟩ => rfl
  | ⟨1, _⟩ => rfl

/-! ## The exchange of the lanes of each pair -/

/-- A lane's partner in its pair (2j, 2j + 1). -/
def swapLane (d : Fin 64) : Fin 64 := ⟨if d.val % 2 = 0 then d.val + 1 else d.val - 1, by split <;> omega⟩

/-- The constant table, read as the gather reads a start index (signed, clamped into 0 … 63), is the partner. -/
theorem lit0_swap : ∀ d : Fin 64, min (lit0 d).toInt.toNat 63 = (swapLane d).val := by decide

/-- With the mask clear the index vector's entry for lane d is the constant table's. -/
theorem swapVec_apply (m : IVec S64 1) (c : IVec S64 32) (hm : m = constantI S64 1 0#1)
    (hc : c = fun i => lit0 (S64.rowMajor i)) (d : Fin 64) :
    swapVec m c (ix2 d (0 : Fin 1)) = lit0 d := by
  unfold swapVec
  refine (broadcastInDim_apply _ _ _ (ix2 d (0 : Fin 1)) (ix1 d) ?_).trans ?_
  · intro a
    match a with
    | ⟨0, _⟩ => rfl
  subst hm hc
  show Scalar.select (0#1) _ (lit0 (S64.rowMajor (ix1 d))) = lit0 d
  rw [select_zero]
  congr 1
  apply Fin.ext
  rw [Shape.rowMajor_val_one]

/-- The rotation read at an entry. -/
theorem ropeOf_apply (y : S32x2048x64.Idx → EReal) (iv : IVec S64x1 32) (ct st : S2048x64.Idx → EReal)
    (g : Fin 32) (s : Fin 2048) (d : Fin 64) :
    ropeOf y iv ct st (ix3 g s d)
      = y (ix3 g s d) * ct (ix2 s d)
        + y (ix3 g s (⟨min (iv (ix2 d (0 : Fin 1))).toInt.toNat 63, by omega⟩ : Fin 64)) * st (ix2 s d) := by
  unfold ropeOf
  show y (ix3 g s d) * spread3 ct (ix3 g s d)
      + Host.gather gather_S32x2048x64_S64x1_S32x2048x64_01_2_n_n_2_1_3220481 y iv (ix3 g s d) * spread3 st (ix3 g s d) = _
  rw [spread3_apply, spread3_apply, gather_lane_apply]

/-- The rotation read at an entry, the exchanged lane named by the caller. -/
theorem ropeOf_apply_of (y : S32x2048x64.Idx → EReal) (iv : IVec S64x1 32) (ct st : S2048x64.Idx → EReal)
    (g : Fin 32) (s : Fin 2048) (d d' : Fin 64) (hd' : d'.val = min (iv (ix2 d (0 : Fin 1))).toInt.toNat 63) :
    ropeOf y iv ct st (ix3 g s d) = y (ix3 g s d) * ct (ix2 s d) + y (ix3 g s d') * st (ix2 s d) := by
  rw [ropeOf_apply]
  have e : (⟨min (iv (ix2 d (0 : Fin 1))).toInt.toNat 63, by omega⟩ : Fin 64) = d' := Fin.ext hd'.symm
  rw [e]

/-! ## The buffers the attention region reads, entry by entry -/

/-- The fused projection's result as the stretches find it. -/
abbrev fusedOf (X : Valuation τ sig (Elt Ideal)) : S4096x3072.Idx → EReal := X (Proc.devRef .tc main_v7)

/-- The value heads: head h of batch b at position s, lane d, is row b·2048 + s, column 2048 + h·64 + d of the
    fused projection's result. -/
theorem glue1_v19 (X : Valuation τ sig (Elt Ideal)) (b : Fin 2) (h : Fin 16) (s : Fin 2048) (d : Fin 64) :
    (glueY X (Proc.devRef .tc main_v19) : S32x2048x64.Idx → EReal) (ix3 (⟨b.val * 16 + h.val, by omega⟩ : Fin 32) s d)
      = (X (Proc.devRef .tc main_v7) : S4096x3072.Idx → EReal)
          (ix2 (⟨b.val * 2048 + s.val, by omega⟩ : Fin 4096) (⟨2048 + h.val * 64 + d.val, by omega⟩ : Fin 3072)) := by
  rw [glue1_v19_eq]
  exact headsV_apply _ b h s d

/-- The rotated queries: q·cos + q[partner lane]·sin, the tables those of the positions. -/
theorem glue1_v59 (X : Valuation τ sig (Elt Ideal))
    (hc : (X (Proc.devRef .tc main_c) : IVec S64 32) = fun i => lit0 (S64.rowMajor i))
    (hm : (X (Proc.devRef .tc main_c_0) : IVec S64 1) = constantI S64 1 0#1)
    (b : Fin 2) (h : Fin 16) (s : Fin 2048) (d : Fin 64) :
    (glueY X (Proc.devRef .tc main_v59) : S32x2048x64.Idx → EReal) (ix3 (⟨b.val * 16 + h.val, by omega⟩ : Fin 32) s d)
      = fusedOf X
            (ix2 (⟨b.val * 2048 + s.val, by omega⟩ : Fin 4096) (⟨h.val * 64 + d.val, by omega⟩ : Fin 3072))
          * cosT (F := Ideal) (X (Proc.devRef .tc main_arg1)) (ix2 s d)
        + fusedOf X
            (ix2 (⟨b.val * 2048 + s.val, by omega⟩ : Fin 4096) (⟨h.val * 64 + (swapLane d).val, by have := (swapLane d).isLt; omega⟩ : Fin 3072))
          * sinT (F := Ideal) (X (Proc.devRef .tc main_arg1)) (ix2 s d) := by
  rw [glue1_v59_eq]
  refine (ropeOf_apply_of _ _ _ _ _ s d (swapLane d) ?_).trans ?_
  · rw [swapVec_apply _ _ hm hc]; exact (lit0_swap d).symm
  rw [headsQ_apply, headsQ_apply]

/-- The rotated keys, lanes before positions: k·cos + k[partner lane]·sin. -/
theorem glue1_v73 (X : Valuation τ sig (Elt Ideal))
    (hc : (X (Proc.devRef .tc main_c) : IVec S64 32) = fun i => lit0 (S64.rowMajor i))
    (hm : (X (Proc.devRef .tc main_c_1) : IVec S64 1) = constantI S64 1 0#1)
    (b : Fin 2) (h : Fin 16) (s : Fin 2048) (d : Fin 64) :
    (glueY X (Proc.devRef .tc main_v73) : S32x64x2048.Idx → EReal) (ix3 (⟨b.val * 16 + h.val, by omega⟩ : Fin 32) d s)
      = fusedOf X
            (ix2 (⟨b.val * 2048 + s.val, by omega⟩ : Fin 4096) (⟨1024 + h.val * 64 + d.val, by omega⟩ : Fin 3072))
          * cosT (F := Ideal) (X (Proc.devRef .tc main_arg1)) (ix2 s d)
        + fusedOf X
            (ix2 (⟨b.val * 2048 + s.val, by omega⟩ : Fin 4096) (⟨1024 + h.val * 64 + (swapLane d).val, by have := (swapLane d).isLt; omega⟩ : Fin 3072))
          * sinT (F := Ideal) (X (Proc.devRef .tc main_arg1)) (ix2 s d) := by
  rw [glue1_v73_eq]
  refine (transpose_apply _ _ _ (ix3 (⟨b.val * 16 + h.val, by omega⟩ : Fin 32) d s)
    (ix3 (⟨b.val * 16 + h.val, by omega⟩ : Fin 32) s d) ?_).trans ?_
  · intro a
    match a with
    | ⟨0, _⟩ => rfl
    | ⟨1, _⟩ => rfl
    | ⟨2, _⟩ => rfl
  refine (ropeOf_apply_of _ _ _ _ _ s d (swapLane d) ?_).trans ?_
  · rw [swapVec_apply _ _ hm hc]; exact (lit0_swap d).symm
  rw [headsK_apply, headsK_apply]

end Cert.KernelIdeal.HandValue
end
-- ==== Proof.KernelBefore.lean ====
/- What the attention region is entered with, as functions of the six arguments at launch, at the exact
   values. The fused projection's result is, third by third, the projection of the input by the query, key
   and value weights (entry (b, s, o): the sum over the model coordinate e of x(b, s, e) · w(o, e)); the
   positions, the constant table of the lane exchange and its masks reach the host stretches unchanged; so
   the three arrays the region reads are the value projection head by head, and the query and key
   projections rotated by the cosine and signed sine tables of the positions. -/
import proofs.«155122_j66666482368602_2_alg».proof.Proof.KernelIdealRun
import proofs.«155122_j66666482368602_2_alg».proof.Proof.MatmulValue0
import proofs.«155122_j66666482368602_2_alg».proof.Proof.HostGlue0
import proofs.«155122_j66666482368602_2_alg».proof.Proof.HostGlue1Idx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

open Rope

/-! ## The arguments at launch -/

/-- The input [2, 2048, 1024], the positions [2048] and the four weights [1024, 1024] as core `c` holds them at launch. -/
abbrev inputOf (c : Dev nD) : S2x2048x1024.Idx → EReal := m ((c : Thread nD τ).loc main_arg0)
abbrev positionsOf (c : Dev nD) : IVec S2048 32 := m ((c : Thread nD τ).loc main_arg1)
abbrev queryWeightOf (c : Dev nD) : S1024x1024.Idx → EReal := m ((c : Thread nD τ).loc main_arg2)
abbrev keyWeightOf (c : Dev nD) : S1024x1024.Idx → EReal := m ((c : Thread nD τ).loc main_arg3)
abbrev valueWeightOf (c : Dev nD) : S1024x1024.Idx → EReal := m ((c : Thread nD τ).loc main_arg4)
abbrev outputWeightOf (c : Dev nD) : S1024x1024.Idx → EReal := m ((c : Thread nD τ).loc main_arg5)

/-- The projection of the input by a weight: entry (b, s, o) is the sum over the model coordinate e of
    x(b, s, e) · w(o, e). -/
def projBy (x : S2x2048x1024.Idx → EReal) (w : S1024x1024.Idx → EReal) (b : Fin 2) (s : Fin 2048) (o : Fin 1024) : EReal :=
  ∑ e : Fin 1024, x (ix3 b s e) * w (ix2 o e)

/-! ## The fused projection's result, entry by entry -/

/-- The fused result after region 0 is the whole product of the two operand arrays the region was entered with. -/
theorem fused_eq (c : Dev nD) :
    (W2 m ρ c (Proc.devRef .tc main_v7) : S4096x3072.Idx → EReal)
      = mm0 (En1 m ρ c (Pipeline.arrRef spec0 0)) (En1 m ρ c (Pipeline.arrRef spec0 1)) :=
  (W2_arr m ρ c 2).trans (final0 (En1 m ρ) c)

/-- An entry of the fused result in the third that starts at column `pre` (0, 1024 or 2048) is the projection by
    that third's weight. -/
theorem fused_entry (c : Dev nD) (b : Fin 2) (s : Fin 2048) (col : Fin 3072) (o : Fin 1024)
    (w : S1024x1024.Idx → EReal)
    (hw : ∀ e : Fin 1024, (En1 m ρ c (Pipeline.arrRef spec0 1) : S1024x3072.Idx → EReal) (ix2 e col) = w (ix2 o e)) :
    (W2 m ρ c (Proc.devRef .tc main_v7) : S4096x3072.Idx → EReal) (ix2 (⟨b.val * 2048 + s.val, by omega⟩ : Fin 4096) col)
      = projBy (inputOf m c) w b s o := by
  rw [fused_eq]
  show @Eq EReal _ _
  unfold mm0 projBy
  refine Finset.sum_congr rfl fun e _ => ?_
  refine congrArg₂ (· * ·) ?_ ?_
  · exact glue0_v5 (W0 m ρ c) b s e
  · exact hw e

/-! ## The fused projection's right operand, third by third -/

theorem weightCol_query (c : Dev nD) (e o : Fin 1024) (col : Fin 3072) (hcol : col.val = 0 + o.val) :
    (En1 m ρ c (Pipeline.arrRef spec0 1) : S1024x3072.Idx → EReal) (ix2 e col) = queryWeightOf m c (ix2 o e) := by
  have hlt : 0 + o.val < 3072 := by have := o.isLt; omega
  have hc : col = (⟨0 + o.val, hlt⟩ : Fin 3072) := Fin.ext hcol
  rw [hc]
  exact glue0_v6_0 (W0 m ρ c) e o

theorem weightCol_key (c : Dev nD) (e o : Fin 1024) (col : Fin 3072) (hcol : col.val = 1024 + o.val) :
    (En1 m ρ c (Pipeline.arrRef spec0 1) : S1024x3072.Idx → EReal) (ix2 e col) = keyWeightOf m c (ix2 o e) := by
  have hlt : 1024 + o.val < 3072 := by have := o.isLt; omega
  have hc : col = (⟨1024 + o.val, hlt⟩ : Fin 3072) := Fin.ext hcol
  rw [hc]
  exact glue0_v6_1 (W0 m ρ c) e o

theorem weightCol_value (c : Dev nD) (e o : Fin 1024) (col : Fin 3072) (hcol : col.val = 2048 + o.val) :
    (En1 m ρ c (Pipeline.arrRef spec0 1) : S1024x3072.Idx → EReal) (ix2 e col) = valueWeightOf m c (ix2 o e) := by
  have hlt : 2048 + o.val < 3072 := by have := o.isLt; omega
  have hc : col = (⟨2048 + o.val, hlt⟩ : Fin 3072) := Fin.ext hcol
  rw [hc]
  exact glue0_v6_2 (W0 m ρ c) e o

/-! ## What the seven host stretches find unchanged -/

theorem positions_W2 (c : Dev nD) : (W2 m ρ c (Proc.devRef .tc main_arg1) : IVec S2048 32) = positionsOf m c :=
  (W2_of_ne m ρ c main_arg1 (by decide)).trans
    ((StableHlo.after_of_writes_sub hostOps0 _ hostOps0_writes (by decide)).trans rfl)

theorem table_W2 (c : Dev nD) : (W2 m ρ c (Proc.devRef .tc main_c) : IVec S64 32) = fun i => lit0 (S64.rowMajor i) :=
  (W2_of_ne m ρ c main_c (by decide)).trans (glue0_c (W0 m ρ c))

theorem mask0_W2 (c : Dev nD) : (W2 m ρ c (Proc.devRef .tc main_c_0) : IVec S64 1) = constantI S64 1 0#1 :=
  (W2_of_ne m ρ c main_c_0 (by decide)).trans (glue0_c_0 (W0 m ρ c))

theorem mask1_W2 (c : Dev nD) : (W2 m ρ c (Proc.devRef .tc main_c_1) : IVec S64 1) = constantI S64 1 0#1 :=
  (W2_of_ne m ρ c main_c_1 (by decide)).trans (glue0_c_1 (W0 m ρ c))

/-! ## What the attention region is entered with -/

/-- The value heads are the value projection, head by head. -/
theorem entered_values (c : Dev nD) (b : Fin 2) (h : Fin 16) (s : Fin 2048) (d : Fin 64) :
    (En9 m ρ c main_v19 : S32x2048x64.Idx → EReal) (ix3 (⟨b.val * 16 + h.val, by omega⟩ : Fin 32) s d)
      = projBy (inputOf m c) (valueWeightOf m c) b s (⟨h.val * 64 + d.val, by omega⟩ : Fin 1024) := by
  refine (glue1_v19 (W2 m ρ c) b h s d).trans ?_
  exact fused_entry m ρ c b s _ (⟨h.val * 64 + d.val, by omega⟩ : Fin 1024) (valueWeightOf m c)
    (fun e => weightCol_value m ρ c e _ _ (by show 2048 + h.val * 64 + d.val = 2048 + (h.val * 64 + d.val); omega))

/-- The queries the region reads: the query projection rotated by the tables of the positions. -/
theorem entered_queries (c : Dev nD) (b : Fin 2) (h : Fin 16) (s : Fin 2048) (d : Fin 64) :
    (En9 m ρ c main_v59 : S32x2048x64.Idx → EReal) (ix3 (⟨b.val * 16 + h.val, by omega⟩ : Fin 32) s d)
      = projBy (inputOf m c) (queryWeightOf m c) b s (⟨h.val * 64 + d.val, by omega⟩ : Fin 1024)
          * Rope.cosT (F := Ideal) (positionsOf m c) (ix2 s d)
        + projBy (inputOf m c) (queryWeightOf m c) b s (⟨h.val * 64 + (swapLane d).val, by have := (swapLane d).isLt; omega⟩ : Fin 1024)
          * Rope.sinT (F := Ideal) (positionsOf m c) (ix2 s d) := by
  have hg := glue1_v59 (W2 m ρ c) (table_W2 m ρ c) (mask0_W2 m ρ c) b h s d
  rw [positions_W2] at hg
  refine hg.trans ?_
  refine congrArg₂ (· + ·) (congrArg₂ (· * ·) ?_ rfl) (congrArg₂ (· * ·) ?_ rfl)
  · exact fused_entry m ρ c b s _ (⟨h.val * 64 + d.val, by omega⟩ : Fin 1024) (queryWeightOf m c)
      (fun e => weightCol_query m ρ c e _ _ (by show h.val * 64 + d.val = 0 + (h.val * 64 + d.val); omega))
  · exact fused_entry m ρ c b s _ (⟨h.val * 64 + (swapLane d).val, by have := (swapLane d).isLt; omega⟩ : Fin 1024) (queryWeightOf m c)
      (fun e => weightCol_query m ρ c e _ _ (by show h.val * 64 + (swapLane d).val = 0 + (h.val * 64 + (swapLane d).val); omega))

/-- The keys the region reads, lanes before positions: the key projection rotated by the same tables. -/
theorem entered_keys (c : Dev nD) (b : Fin 2) (h : Fin 16) (s : Fin 2048) (d : Fin 64) :
    (En9 m ρ c main_v73 : S32x64x2048.Idx → EReal) (ix3 (⟨b.val * 16 + h.val, by omega⟩ : Fin 32) d s)
      = projBy (inputOf m c) (keyWeightOf m c) b s (⟨h.val * 64 + d.val, by omega⟩ : Fin 1024)
          * Rope.cosT (F := Ideal) (positionsOf m c) (ix2 s d)
        + projBy (inputOf m c) (keyWeightOf m c) b s (⟨h.val * 64 + (swapLane d).val, by have := (swapLane d).isLt; omega⟩ : Fin 1024)
          * Rope.sinT (F := Ideal) (positionsOf m c) (ix2 s d) := by
  have hg := glue1_v73 (W2 m ρ c) (table_W2 m ρ c) (mask1_W2 m ρ c) b h s d
  rw [positions_W2] at hg
  refine hg.trans ?_
  refine congrArg₂ (· + ·) (congrArg₂ (· * ·) ?_ rfl) (congrArg₂ (· * ·) ?_ rfl)
  · exact fused_entry m ρ c b s _ (⟨h.val * 64 + d.val, by omega⟩ : Fin 1024) (keyWeightOf m c)
      (fun e => weightCol_key m ρ c e _ _ (by show 1024 + h.val * 64 + d.val = 1024 + (h.val * 64 + d.val); omega))
  · exact fused_entry m ρ c b s _ (⟨h.val * 64 + (swapLane d).val, by have := (swapLane d).isLt; omega⟩ : Fin 1024) (keyWeightOf m c)
      (fun e => weightCol_key m ρ c e _ _ (by show 1024 + h.val * 64 + (swapLane d).val = 1024 + (h.val * 64 + (swapLane d).val); omega))

end Cert.KernelIdeal.HandValue
end
-- ==== Proof.KernelAfter.lean ====
/- From the attention region's result to the program's result, at the exact values: the heads are laid side by
   side (column mm of the output projection's left operand is lane mm mod 64 of head mm / 64), the output weight
   reaches the last stretches unchanged and is transposed, region 2 leaves the whole product, and the last
   reshape splits the rows into batch and position. So entry (b, s, o) of the result is the sum over mm of the
   attention result at (b·16 + mm / 64, s, mm mod 64) times the output weight at (o, mm). -/
import proofs.«155122_j66666482368602_2_alg».proof.Proof.KernelIdealRun
import proofs.«155122_j66666482368602_2_alg».proof.Proof.MatmulValue2
import proofs.«155122_j66666482368602_2_alg».proof.Proof.HostGlue2
import proofs.«155122_j66666482368602_2_alg».proof.Proof.KernelBefore

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## From the attention region's result to the program's result -/

/-- The attention region's output array, as the region leaves it. -/
abbrev attendedOf (c : Dev nD) : S32x2048x64.Idx → EReal := W10 m ρ c (Proc.devRef .tc main_v74)

/-- The output weight reaches the last host stretches unchanged. -/
theorem outputWeight_W10 (c : Dev nD) :
    (W10 m ρ c (Proc.devRef .tc main_arg5) : S1024x1024.Idx → EReal) = outputWeightOf m c :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_writes_sub hostOps1_6 _ hostOps1_6_writes (by decide)
    _ = W7 m ρ c (Proc.devRef .tc main_arg5) := StableHlo.after_of_writes_sub hostOps1_5 _ hostOps1_5_writes (by decide)
    _ = W6 m ρ c (Proc.devRef .tc main_arg5) := StableHlo.after_of_writes_sub hostOps1_4 _ hostOps1_4_writes (by decide)
    _ = W5 m ρ c (Proc.devRef .tc main_arg5) := StableHlo.after_of_writes_sub hostOps1_3 _ hostOps1_3_writes (by decide)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-- The output projection's result is the whole product of the two operand arrays region 2 was entered with. -/
theorem projected_eq (c : Dev nD) :
    (W12 m ρ c (Proc.devRef .tc main_v80) : S4096x1024.Idx → EReal)
      = mm2 (En11 m ρ c (Pipeline.arrRef spec2 0)) (En11 m ρ c (Pipeline.arrRef spec2 1)) :=
  (W12_arr m ρ c 2).trans (final2 (En11 m ρ) c)

/-- Column mm of the projection's left operand is lane mm mod 64 of head mm / 64. -/
theorem merged_entry (c : Dev nD) (b : Fin 2) (s : Fin 2048) (mm : Fin 1024) :
    (En11 m ρ c (Pipeline.arrRef spec2 0) : S4096x1024.Idx → EReal) (ix2 (⟨b.val * 2048 + s.val, by omega⟩ : Fin 4096) mm)
      = attendedOf m ρ c (ix3 (⟨b.val * 16 + mm.val / 64, by have := mm.isLt; omega⟩ : Fin 32) s (⟨mm.val % 64, by omega⟩ : Fin 64)) := by
  have hlt : mm.val / 64 < 16 := by have := mm.isLt; omega
  have hmm : mm = (⟨(⟨mm.val / 64, hlt⟩ : Fin 16).val * 64 + (⟨mm.val % 64, by omega⟩ : Fin 64).val, by omega⟩ : Fin 1024) :=
    Fin.ext (by show mm.val = mm.val / 64 * 64 + mm.val % 64; omega)
  have hg := glue2_v77 (W10 m ρ c) b s (⟨mm.val / 64, hlt⟩ : Fin 16) (⟨mm.val % 64, by omega⟩ : Fin 64)
  rw [← hmm] at hg
  exact hg

/-- THE RESULT: entry (b, s, o) is the sum over the merged head-lane coordinate mm of the attention result at
    head mm / 64, lane mm mod 64, times the output weight's entry (o, mm). -/
theorem result_entry (c : Dev nD) (b : Fin 2) (s : Fin 2048) (o : Fin 1024) :
    (W13 m ρ c (Proc.devRef .tc main_v81) : S2x2048x1024.Idx → EReal) (ix3 b s o)
      = ∑ mm : Fin 1024,
          attendedOf m ρ c (ix3 (⟨b.val * 16 + mm.val / 64, by have := mm.isLt; omega⟩ : Fin 32) s (⟨mm.val % 64, by omega⟩ : Fin 64))
            * outputWeightOf m c (ix2 o mm) := by
  refine (glue3_v81 (W12 m ρ c) b s o).trans ?_
  rw [projected_eq]
  show @Eq EReal _ _
  unfold mm2
  refine Finset.sum_congr rfl fun mm _ => ?_
  refine congrArg₂ (· * ·) ?_ ?_
  · exact merged_entry m ρ c b s mm
  · refine (glue2_v79 (W10 m ρ c) mm o).trans ?_
    rw [outputWeight_W10]

end Cert.KernelIdeal.HandValue
end
-- ==== Proof.RefValue.lean ====
/- The reference program's result as a term of its six arguments. The fold of the reference's operations (RefRun) at
   the result buffer is a composition of the stages of rotary multi-head attention: the three projections split into
   heads, the rotation tables computed from the positions, the rotation `y·cos + y[swap]·sin`, the scaled scores, the
   causal mask, the row softmax, the weighted values, the heads merged, the output projection. Each stage is one named
   function, kept folded; the equation is read off the operation list window by window. -/
import proofs.«155122_j66666482368602_2_alg».proof.Proof.RefRun

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The stages -/

/-- A projection: `x · wᵀ`, contracting the model dimension of `x` with the second axis of `w`. -/
def proj (x : FVec F S2x2048x1024 .f32) (w : FVec F S1024x1024 .f32) : FVec F S2x2048x1024 .f32 :=
  Host.dotGeneral dot_S2x2048x1024_S1024x1024_S2x2048x1024_2_1_01_0_n_n none x w

/-- The model dimension split into 16 heads of 64 lanes, the head axis moved before the sequence axis. -/
def heads (y : FVec F S2x2048x1024 .f32) : FVec F S2x16x2048x64 .f32 :=
  transpose S2x16x2048x64 [0, 2, 1, 3] (shapeCast S2x2048x16x64 y shapeCasts_S2x2048x1024_S2x2048x16x64)
    transposes_S2x2048x16x64_S2x16x2048x64_0_2_1_3

/-- A scalar repeated over the 64 lanes of a head. -/
def splat {α : Type} (c : S_.Idx → α) : S64.Idx → α := broadcastInDim S64 ![] bcast_S_S64 c

/-- The lane index `0, …, 63`. -/
def lane : IVec S64 32 := iotaInDim S64 32 0

/-- The floor quotient of a lane vector by a scalar, as it is computed from the truncating one: one less where the
    signs differ and the remainder is not zero. -/
def floorDiv (n : IVec S64 32) (d : IVec S_ 32) : IVec S64 32 :=
  select
    (andi (cmpi .ne (signi n) (splat (signi d)))
      (cmpi .ne (Host.remsi n (splat d)) (splat (constantI S_ 32 0#32))))
    (subi (Host.divsi n (splat d)) (splat (constantI S_ 32 1#32)))
    (Host.divsi n (splat d))

/-- The divisor a floor remainder divides by: `1` in place of `0`. -/
def safeDivisor (d : IVec S_ 32) : IVec S_ 32 :=
  select (cmpi .eq d (constantI S_ 32 0#32)) (constantI S_ 32 1#32) d

/-- The floor remainder of a lane vector by a scalar, as it is computed from the truncating one: the divisor added
    where the remainder is not zero and its sign differs from the divisor's. -/
def floorRem (n : IVec S64 32) (d : IVec S_ 32) : IVec S64 32 :=
  select
    (andi
      (cmpi .ne (cmpi .slt (Host.remsi n (splat (safeDivisor d))) (splat (constantI S_ 32 0#32)))
        (splat (cmpi .slt (safeDivisor d) (constantI S_ 32 0#32))))
      (cmpi .ne (Host.remsi n (splat (safeDivisor d))) (splat (constantI S_ 32 0#32))))
    (addi (Host.remsi n (splat (safeDivisor d))) (splat (safeDivisor d)))
    (Host.remsi n (splat (safeDivisor d)))

/-- Which lanes are even. -/
def evenLane : IVec S64 1 :=
  cmpi .eq (floorRem lane (constantI S_ 32 2#32)) (splat (constantI S_ 32 0#32))

/-- `-1` at the even lanes and `+1` at the odd ones: the sign of the sine term of a rotation of the pairs `(2j, 2j+1)`. -/
def sinSign : FVec F S64 .f32 :=
  select evenLane (splat (constant (F := F) S_ .f32 0xBF800000#32)) (splat (constant (F := F) S_ .f32 0x3F800000#32))

/-- Each lane's partner in its pair before wrapping: `i + 1` at an even lane, `i - 1` at an odd one. -/
def partner : IVec S64 32 :=
  addi lane (select evenLane (splat (constantI S_ 32 1#32)) (splat (constantI S_ 32 4294967295#32)))

/-- The pair-swap index vector: the partner, a negative one wrapped by 64 as an index into the lanes is. -/
def swapIdx : IVec S64 32 :=
  select (cmpi .slt partner (splat (constantI S_ 32 0#32))) (addi partner (splat (constantI S_ 32 64#32))) partner

/-- The rotation frequencies' divisors `10000 ^ (2·⌊i/2⌋ / 64)`, one per lane. -/
def freq : FVec F S64 .f32 :=
  Host.powf (splat (constant (F := F) S_ .f32 0x461C4000#32))
    (Host.divf
      (mulf (splat (constant (F := F) S_ .f32 0x40000000#32)) (sitofp .f32 (floorDiv lane (constantI S_ 32 2#32))))
      (splat (constant (F := F) S_ .f32 0x42800000#32)))

/-- A lane vector repeated over the 2048 positions. -/
def overPos (v : FVec F S64 .f32) : FVec F S2048x64 .f32 :=
  broadcastInDim S2048x64 ![0, 1] bcast_S1x64_S2048x64_0_1 (broadcastInDim S1x64 ![1] bcast_S64_S1x64_1 v)

/-- The rotation angles: position over frequency divisor, per position and lane. -/
def angle (tp : IVec S2048 32) : FVec F S2048x64 .f32 :=
  Host.divf
    (broadcastInDim S2048x64 ![0, 1] bcast_S2048x1_S2048x64_0_1
      (sitofp .f32 (broadcastInDim S2048x1 ![0] bcast_S2048_S2048x1_0 tp)))
    (overPos freq)

/-- The cosine table. -/
def cosTab (tp : IVec S2048 32) : FVec F S2048x64 .f32 := Host.cos (angle tp)

/-- The signed sine table. -/
def sinTab (tp : IVec S2048 32) : FVec F S2048x64 .f32 := mulf (Host.sin (angle tp)) (overPos sinSign)

/-- A table over positions and lanes repeated over the batch and the heads. -/
def spread (t : FVec F S2048x64 .f32) : FVec F S2x16x2048x64 .f32 :=
  broadcastInDim S2x16x2048x64 ![0, 1, 2, 3] bcast_S1x1x2048x64_S2x16x2048x64_0_1_2_3
    (broadcastInDim S1x1x2048x64 ![2, 3] bcast_S2048x64_S1x1x2048x64_2_3 t)

/-- The lanes of each pair exchanged: a gather along the lane axis at the pair-swap indices. -/
def swapLanes (y : FVec F S2x16x2048x64 .f32) : FVec F S2x16x2048x64 .f32 :=
  Host.gather gather_S2x16x2048x64_S64x1_S2x16x2048x64_012_3_n_n_3_1_21620481 y
    (broadcastInDim S64x1 ![0] bcast_S64_S64x1_0 swapIdx)

/-- The rotary position embedding: `y·cos + y[swap]·sin`. -/
def rope (y : FVec F S2x16x2048x64 .f32) (tp : IVec S2048 32) : FVec F S2x16x2048x64 .f32 :=
  addf (mulf y (spread (cosTab tp))) (mulf (swapLanes y) (spread (sinTab tp)))

/-- The scores: `q · kᵀ` per batch and head, over `√64`. -/
def scores (q k : FVec F S2x16x2048x64 .f32) : FVec F S2x16x2048x2048 .f32 :=
  Host.divf (Host.dotGeneral dot_S2x16x2048x64_S2x16x2048x64_S2x16x2048x2048_3_3_2_2_01_01 none q k)
    (broadcastInDim S2x16x2048x2048 ![] bcast_S_S2x16x2048x2048 (Host.sqrt (constant (F := F) S_ .f32 0x42800000#32)))

/-- The causal mask: one where the query position is at least the key position. -/
def causal : IVec S2048x2048 1 :=
  select
    (cmpi .sge
      (addi (iotaInDim S2048x2048 32 0) (broadcastInDim S2048x2048 ![] bcast_S_S2048x2048 (constantI S_ 32 0#32)))
      (iotaInDim S2048x2048 32 1))
    (broadcastInDim S2048x2048 ![] bcast_S_S2048x2048 (constantI S_ 1 1#1))
    (broadcastInDim S2048x2048 ![] bcast_S_S2048x2048 (constantI S_ 1 0#1))

/-- The scores with `-∞` outside the causal mask. -/
def masked (s : FVec F S2x16x2048x2048 .f32) : FVec F S2x16x2048x2048 .f32 :=
  select (broadcastInDim S2x16x2048x2048 ![2, 3] bcast_S2048x2048_S2x16x2048x2048_2_3 causal) s
    (broadcastInDim S2x16x2048x2048 ![] bcast_S_S2x16x2048x2048 (constant (F := F) S_ .f32 0xFF800000#32))

/-- A value per row repeated along the row. -/
def overRow (r : FVec F S2x16x2048 .f32) : FVec F S2x16x2048x2048 .f32 :=
  broadcastInDim S2x16x2048x2048 ![0, 1, 2, 3] bcast_S2x16x2048x1_S2x16x2048x2048_0_1_2_3
    (broadcastInDim S2x16x2048x1 ![0, 1, 2] bcast_S2x16x2048_S2x16x2048x1_0_1_2 r)

/-- Each row's maximum (the fold from `-∞`, and the maximum with `-∞` again). -/
def rowMax (s : FVec F S2x16x2048x2048 .f32) : FVec F S2x16x2048 .f32 :=
  maximumf (broadcastInDim S2x16x2048 ![] bcast_S_S2x16x2048 (constant (F := F) S_ .f32 0xFF800000#32))
    (Host.reduce FloatOps.maximumf s (constant (F := F) S_ .f32 0xFF800000#32) reducesTo_S2x16x2048x2048_S2x16x2048_d3 h_S_)

/-- The exponential of each entry less its row's maximum. -/
def expShift (s : FVec F S2x16x2048x2048 .f32) : FVec F S2x16x2048x2048 .f32 :=
  Host.exp (subf s (overRow (rowMax s)))

/-- Each row's sum. -/
def rowSum (e : FVec F S2x16x2048x2048 .f32) : FVec F S2x16x2048 .f32 :=
  Host.reduceAdd e (constant (F := F) S_ .f32 0x00000000#32) reducesTo_S2x16x2048x2048_S2x16x2048_d3 h_S_

/-- The softmax of each row. -/
def softmaxRow (s : FVec F S2x16x2048x2048 .f32) : FVec F S2x16x2048x2048 .f32 :=
  Host.divf (expShift s) (overRow (rowSum (expShift s)))

/-- The values weighted by the probabilities, per batch and head. -/
def ctx (p : FVec F S2x16x2048x2048 .f32) (v : FVec F S2x16x2048x64 .f32) : FVec F S2x16x2048x64 .f32 :=
  Host.dotGeneral dot_S2x16x2048x2048_S2x16x2048x64_S2x16x2048x64_3_2_2_3_01_01 none p v

/-- The heads merged back into the model dimension. -/
def merge (y : FVec F S2x16x2048x64 .f32) : FVec F S2x2048x1024 .f32 :=
  shapeCast S2x2048x1024 (transpose S2x2048x16x64 [0, 2, 1, 3] y transposes_S2x16x2048x64_S2x2048x16x64_0_2_1_3)
    shapeCasts_S2x2048x16x64_S2x2048x1024

/-- The reference's result from its arguments: the input `x`, the positions `tp`, the four weight matrices. -/
def refOut (x : FVec F S2x2048x1024 .f32) (tp : IVec S2048 32) (wq wk wv wo : FVec F S1024x1024 .f32) :
    FVec F S2x2048x1024 .f32 :=
  proj
    (merge
      (ctx (softmaxRow (masked (scores (rope (heads (proj x wq)) tp) (rope (heads (proj x wk)) tp))))
        (heads (proj x wv))))
    wo

/-! ## The first window

What the later windows read of the first: the three projections as heads, the query's signed sine table, its cosine
product, the unwrapped partner index with its sign test and the splat of 64, and the arguments, which it leaves. -/

/-- The buffers' contents after the first window. -/
def val1 (V : Valuation τ sig (Elt F)) : Valuation τ sig (Elt F) := after ops0 V

attribute [local irreducible] Host.reduce Host.reduceAdd Host.gather

set_option maxHeartbeats 4000000 in
theorem val1_v4 (V : Valuation τ sig (Elt F)) : val1 V (no_index (Proc.devRef .tc main_v4))
    = heads (proj (V (main_arg0 : DevRef τ sig)) (V (main_arg2 : DevRef τ sig))) := by
  unfold val1
  simp only [ops0]
  after_results_simp
  all_goals rfl

set_option maxHeartbeats 4000000 in
theorem val1_v6 (V : Valuation τ sig (Elt F)) : val1 V (no_index (Proc.devRef .tc main_v6))
    = heads (proj (V (main_arg0 : DevRef τ sig)) (V (main_arg3 : DevRef τ sig))) := by
  unfold val1
  simp only [ops0]
  after_results_simp
  all_goals rfl

set_option maxHeartbeats 4000000 in
theorem val1_v8 (V : Valuation τ sig (Elt F)) : val1 V (no_index (Proc.devRef .tc main_v8))
    = heads (proj (V (main_arg0 : DevRef τ sig)) (V (main_arg4 : DevRef τ sig))) := by
  unfold val1
  simp only [ops0]
  after_results_simp
  all_goals rfl

set_option maxHeartbeats 4000000 in
theorem val1_v33 (V : Valuation τ sig (Elt F)) : val1 V (no_index (Proc.devRef .tc main_v33))
    = sinTab (V (main_arg1 : DevRef τ sig)) := by
  unfold val1
  simp only [ops0]
  after_results_simp
  all_goals rfl

set_option maxHeartbeats 4000000 in
theorem val1_v39 (V : Valuation τ sig (Elt F)) : val1 V (no_index (Proc.devRef .tc main_v39))
    = partner := by
  unfold val1
  simp only [ops0]
  after_results_simp
  all_goals rfl

set_option maxHeartbeats 4000000 in
theorem val1_v42 (V : Valuation τ sig (Elt F)) : val1 V (no_index (Proc.devRef .tc main_v42))
    = mulf (heads (proj (V (main_arg0 : DevRef τ sig)) (V (main_arg2 : DevRef τ sig)))) (spread (cosTab (V (main_arg1 : DevRef τ sig)))) := by
  unfold val1
  simp only [ops0]
  after_results_simp
  all_goals rfl

set_option maxHeartbeats 4000000 in
theorem val1_v44 (V : Valuation τ sig (Elt F)) : val1 V (no_index (Proc.devRef .tc main_v44))
    = cmpi .slt partner (splat (constantI S_ 32 0#32)) := by
  unfold val1
  simp only [ops0]
  after_results_simp
  all_goals rfl

set_option maxHeartbeats 4000000 in
theorem val1_v45 (V : Valuation τ sig (Elt F)) : val1 V (no_index (Proc.devRef .tc main_v45))
    = (splat (constantI S_ 32 64#32) : IVec S64 32) := by
  unfold val1
  simp only [ops0]
  after_results_simp
  all_goals rfl

theorem val1_arg0 (V : Valuation τ sig (Elt F)) : val1 V (no_index (Proc.devRef .tc main_arg0))
    = V (main_arg0 : DevRef τ sig) :=
  (ops0_keep _ main_arg0 (by decide)).trans rfl

theorem val1_arg1 (V : Valuation τ sig (Elt F)) : val1 V (no_index (Proc.devRef .tc main_arg1))
    = V (main_arg1 : DevRef τ sig) :=
  (ops0_keep _ main_arg1 (by decide)).trans rfl

theorem val1_arg3 (V : Valuation τ sig (Elt F)) : val1 V (no_index (Proc.devRef .tc main_arg3))
    = V (main_arg3 : DevRef τ sig) :=
  (ops0_keep _ main_arg3 (by decide)).trans rfl

theorem val1_arg5 (V : Valuation τ sig (Elt F)) : val1 V (no_index (Proc.devRef .tc main_arg5))
    = V (main_arg5 : DevRef τ sig) :=
  (ops0_keep _ main_arg5 (by decide)).trans rfl

/-! ## The second window

The query's rotation is completed here (the wrap of the partner index, the gather, the sine product, the sum), and the
key's tables, partner index and cosine product are computed as the query's were. -/

/-- The buffers' contents after the second window. -/
def val2 (V : Valuation τ sig (Elt F)) : Valuation τ sig (Elt F) := after ops1 (val1 V)

theorem val2_v6 (V : Valuation τ sig (Elt F)) : val2 V (no_index (Proc.devRef .tc main_v6))
    = heads (proj (V (main_arg0 : DevRef τ sig)) (V (main_arg3 : DevRef τ sig))) :=
  (ops1_keep _ main_v6 (by decide)).trans (val1_v6 V)

theorem val2_v8 (V : Valuation τ sig (Elt F)) : val2 V (no_index (Proc.devRef .tc main_v8))
    = heads (proj (V (main_arg0 : DevRef τ sig)) (V (main_arg4 : DevRef τ sig))) :=
  (ops1_keep _ main_v8 (by decide)).trans (val1_v8 V)

theorem val2_arg5 (V : Valuation τ sig (Elt F)) : val2 V (no_index (Proc.devRef .tc main_arg5))
    = V (main_arg5 : DevRef τ sig) :=
  (ops1_keep _ main_arg5 (by decide)).trans (val1_arg5 V)

set_option maxHeartbeats 4000000 in
theorem val2_v53 (V : Valuation τ sig (Elt F)) : val2 V (no_index (Proc.devRef .tc main_v53))
    = rope (heads (proj (V (main_arg0 : DevRef τ sig)) (V (main_arg2 : DevRef τ sig)))) (V (main_arg1 : DevRef τ sig)) := by
  unfold val2
  simp only [ops1]
  after_results_simp
  simp only [val1_v42, val1_v4, val1_v33, val1_v39, val1_v44, val1_v45] <;> rfl

set_option maxHeartbeats 4000000 in
theorem val2_v78 (V : Valuation τ sig (Elt F)) : val2 V (no_index (Proc.devRef .tc main_v78))
    = sinTab (V (main_arg1 : DevRef τ sig)) := by
  unfold val2
  simp only [ops1]
  after_results_simp
  simp only [val1_arg1] <;> rfl

set_option maxHeartbeats 4000000 in
theorem val2_v84 (V : Valuation τ sig (Elt F)) : val2 V (no_index (Proc.devRef .tc main_v84))
    = partner := by
  unfold val2
  simp only [ops1]
  after_results_simp
  all_goals rfl

set_option maxHeartbeats 4000000 in
theorem val2_v87 (V : Valuation τ sig (Elt F)) : val2 V (no_index (Proc.devRef .tc main_v87))
    = mulf (heads (proj (V (main_arg0 : DevRef τ sig)) (V (main_arg3 : DevRef τ sig)))) (spread (cosTab (V (main_arg1 : DevRef τ sig)))) := by
  unfold val2
  simp only [ops1]
  after_results_simp
  simp only [val1_v6, val1_arg1] <;> rfl

set_option maxHeartbeats 4000000 in
theorem val2_v89 (V : Valuation τ sig (Elt F)) : val2 V (no_index (Proc.devRef .tc main_v89))
    = cmpi .slt partner (splat (constantI S_ 32 0#32)) := by
  unfold val2
  simp only [ops1]
  after_results_simp
  all_goals rfl

set_option maxHeartbeats 4000000 in
theorem val2_v91 (V : Valuation τ sig (Elt F)) : val2 V (no_index (Proc.devRef .tc main_v91))
    = addi partner (splat (constantI S_ 32 64#32)) := by
  unfold val2
  simp only [ops1]
  after_results_simp
  all_goals rfl

/-! ## The third window, and the whole line

The key's rotation is completed; scores, mask, softmax, weighted values, merge and output projection follow. -/

/-- The buffers' contents after the third window. -/
def val3 (V : Valuation τ sig (Elt F)) : Valuation τ sig (Elt F) := after ops2 (val2 V)

set_option maxHeartbeats 4000000 in
theorem val3_v120 (V : Valuation τ sig (Elt F)) : val3 V (no_index (Proc.devRef .tc main_v120))
    = refOut (V (main_arg0 : DevRef τ sig)) (V (main_arg1 : DevRef τ sig)) (V (main_arg2 : DevRef τ sig)) (V (main_arg3 : DevRef τ sig)) (V (main_arg4 : DevRef τ sig)) (V (main_arg5 : DevRef τ sig)) := by
  unfold val3
  simp only [ops2]
  after_results_simp
  simp only [val2_v89, val2_v91, val2_v84, val2_v6, val2_v78, val2_v87, val2_v53, val2_v8, val2_arg5] <;> rfl

/-- The reference's result buffer after the whole line is `refOut` of the six arguments' contents before it. -/
theorem out_eq (V : Valuation τ sig (Elt F)) :
    StableHlo.after ops V (main_v120 : DevRef τ sig)
      = refOut (V main_arg0) (V main_arg1) (V main_arg2) (V main_arg3) (V main_arg4) (V main_arg5) := by
  rw [after_ops]
  exact val3_v120 V

end Cert.ReferenceIdeal.RefValue

end
-- ==== Proof.RefRead.lean ====
/- The stages of the reference's result read at an index, at the ideal values: each named stage of `refOut` at explicit
   coordinates (batch `b`, head `h`, positions `s i j`, lane `d`, model coordinates `e o m`), a contraction as a sum over
   a literal `Fin`, a layout stage as the operand at the rearranged coordinates, the mask as a comparison of positions,
   the softmax as the quotient of an exponential by the row's sum of exponentials. -/
import proofs.«155122_j66666482368602_2_alg».proof.Proof.RefValue
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## Literals and words -/

/-- The word `0x42800000` is 64. -/
theorem ofBits_64 : Ideal.ofBits .f32 0x42800000#32 = (((64 : ℝ)) : EReal) := by
  simp [Ideal.ofBits, Ideal.ieee, -EReal.coe_mul]; norm_num

/-- The word `0xFF800000` is `-∞`. -/
theorem ofBits_neg_inf : Ideal.ofBits .f32 0xFF800000#32 = ⊥ := by
  simp [Ideal.ofBits, Ideal.ieee]

/-- The square root of 64 is 8. -/
theorem sqrt_64 : Ideal.sqrt (((64 : ℝ)) : EReal) = (((8 : ℝ)) : EReal) := by
  show (if (64 : ℝ) < 0 then ⊥ else ((Real.sqrt 64 : ℝ) : EReal)) = _
  rw [if_neg (by norm_num)]
  congr 1
  rw [show (64 : ℝ) = 8 ^ 2 by norm_num]
  exact Real.sqrt_sq (by norm_num)

/-- Positions below 2048 compare as 32-bit signed words the way they compare as numbers. -/
theorem sle_ofNat (i j : Nat) (hi : i < 2048) (hj : j < 2048) :
    (BitVec.ofNat 32 j).sle (BitVec.ofNat 32 i + 0#32) = decide (j ≤ i) := by
  rw [BitVec.add_zero]
  have n1 : (BitVec.ofNat 32 j).toNat = j := by rw [BitVec.toNat_ofNat]; omega
  have n2 : (BitVec.ofNat 32 i).toNat = i := by rw [BitVec.toNat_ofNat]; omega
  have h1 : (BitVec.ofNat 32 j).toInt = (j : Int) := by
    rw [BitVec.toInt_eq_toNat_cond, n1]; split <;> omega
  have h2 : (BitVec.ofNat 32 i).toInt = (i : Int) := by
    rw [BitVec.toInt_eq_toNat_cond, n2]; split <;> omega
  rw [BitVec.sle, h1, h2]
  simp

/-! ## The projections, the head split and merge -/

theorem proj_l0 (i : S2x2048x1024.Idx) (q : dot_S2x2048x1024_S1024x1024_S2x2048x1024_2_1_01_0_n_n.contr.Idx) :
    (dot_S2x2048x1024_S1024x1024_S2x2048x1024_2_1_01_0_n_n.lhsIdx i q 0).val = (i 0).val := by
  unfold DotDims.lhsIdx
  rw [dif_neg (show ¬(0 : Fin S2x2048x1024.rank) ∈ dot_S2x2048x1024_S1024x1024_S2x2048x1024_2_1_01_0_n_n.lhsBatch by decide), dif_pos (show (0 : Fin S2x2048x1024.rank) ∈ dot_S2x2048x1024_S1024x1024_S2x2048x1024_2_1_01_0_n_n.lhsNonContracting by decide)]
  rfl
theorem proj_l1 (i : S2x2048x1024.Idx) (q : dot_S2x2048x1024_S1024x1024_S2x2048x1024_2_1_01_0_n_n.contr.Idx) :
    (dot_S2x2048x1024_S1024x1024_S2x2048x1024_2_1_01_0_n_n.lhsIdx i q 1).val = (i 1).val := by
  unfold DotDims.lhsIdx
  rw [dif_neg (show ¬(1 : Fin S2x2048x1024.rank) ∈ dot_S2x2048x1024_S1024x1024_S2x2048x1024_2_1_01_0_n_n.lhsBatch by decide), dif_pos (show (1 : Fin S2x2048x1024.rank) ∈ dot_S2x2048x1024_S1024x1024_S2x2048x1024_2_1_01_0_n_n.lhsNonContracting by decide)]
  rfl
theorem proj_l2 (i : S2x2048x1024.Idx) (q : dot_S2x2048x1024_S1024x1024_S2x2048x1024_2_1_01_0_n_n.contr.Idx) :
    (dot_S2x2048x1024_S1024x1024_S2x2048x1024_2_1_01_0_n_n.lhsIdx i q 2).val = (q ⟨0, by decide⟩).val :=
  dot_S2x2048x1024_S1024x1024_S2x2048x1024_2_1_01_0_n_n.lhsIdx_val_of_single rfl i q
theorem proj_r0 (i : S2x2048x1024.Idx) (q : dot_S2x2048x1024_S1024x1024_S2x2048x1024_2_1_01_0_n_n.contr.Idx) :
    (dot_S2x2048x1024_S1024x1024_S2x2048x1024_2_1_01_0_n_n.rhsIdx i q 0).val = (i 2).val := by
  unfold DotDims.rhsIdx
  rw [dif_neg (show ¬(0 : Fin S1024x1024.rank) ∈ dot_S2x2048x1024_S1024x1024_S2x2048x1024_2_1_01_0_n_n.rhsBatch by decide), dif_pos (show (0 : Fin S1024x1024.rank) ∈ dot_S2x2048x1024_S1024x1024_S2x2048x1024_2_1_01_0_n_n.rhsNonContracting by decide)]
  rfl
theorem proj_r1 (i : S2x2048x1024.Idx) (q : dot_S2x2048x1024_S1024x1024_S2x2048x1024_2_1_01_0_n_n.contr.Idx) :
    (dot_S2x2048x1024_S1024x1024_S2x2048x1024_2_1_01_0_n_n.rhsIdx i q 1).val = (q ⟨0, by decide⟩).val :=
  dot_S2x2048x1024_S1024x1024_S2x2048x1024_2_1_01_0_n_n.rhsIdx_val_of_single rfl i q

/-- A projection at an index: the sum over the model dimension. -/
theorem proj_apply (x : FVec Ideal S2x2048x1024 .f32) (w : FVec Ideal S1024x1024 .f32) (b : Fin 2) (s : Fin 2048) (o : Fin 1024) :
    proj x w (ix3 b s o) = ∑ e : Fin 1024, x (ix3 b s e) * w (ix2 o e) := by
  unfold proj
  simp only [Host.dotGeneral]
  rw [Ideal.dotGeneral_apply, ← Equiv.sum_comp (contrEquiv1 dot_S2x2048x1024_S1024x1024_S2x2048x1024_2_1_01_0_n_n 1024 rfl rfl).symm]
  refine Finset.sum_congr rfl fun k _ => ?_
  have hk := contrEquiv1_symm_val dot_S2x2048x1024_S1024x1024_S2x2048x1024_2_1_01_0_n_n 1024 rfl rfl k
  have el : dot_S2x2048x1024_S1024x1024_S2x2048x1024_2_1_01_0_n_n.lhsIdx (ix3 b s o) ((contrEquiv1 dot_S2x2048x1024_S1024x1024_S2x2048x1024_2_1_01_0_n_n 1024 rfl rfl).symm k) = ix3 b s k :=
    funext fun a => Fin.ext (by
      match a with
      | ⟨0, _⟩ => exact proj_l0 _ _
      | ⟨1, _⟩ => exact proj_l1 _ _
      | ⟨2, _⟩ => exact (proj_l2 _ _).trans hk)
  have er : dot_S2x2048x1024_S1024x1024_S2x2048x1024_2_1_01_0_n_n.rhsIdx (ix3 b s o) ((contrEquiv1 dot_S2x2048x1024_S1024x1024_S2x2048x1024_2_1_01_0_n_n 1024 rfl rfl).symm k) = ix2 o k :=
    funext fun a => Fin.ext (by
      match a with
      | ⟨0, _⟩ => exact proj_r0 _ _
      | ⟨1, _⟩ => exact (proj_r1 _ _).trans hk)
  rw [el, er]

/-- The head split at an index: head `h`, lane `d` is model coordinate `64 h + d`. -/
theorem heads_apply (y : FVec Ideal S2x2048x1024 .f32) (b : Fin 2) (h : Fin 16) (s : Fin 2048) (d : Fin 64) :
    heads y (ix4 b h s d) = y (ix3 b s ⟨h.val * 64 + d.val, by omega⟩) := by
  unfold heads
  refine (transpose_apply [0, 2, 1, 3] _ transposes_S2x2048x16x64_S2x16x2048x64_0_2_1_3 (ix4 b h s d) (ix4 b s h d)
    (fun a => match a with | ⟨0, _⟩ => rfl | ⟨1, _⟩ => rfl | ⟨2, _⟩ => rfl | ⟨3, _⟩ => rfl)).trans ?_
  refine shapeCast_apply y shapeCasts_S2x2048x1024_S2x2048x16x64 (ix4 b s h d) (ix3 b s ⟨h.val * 64 + d.val, by omega⟩) ?_
  rw [Shape.rowMajor_val_three, Shape.rowMajor_val_four]
  show (b.val * 2048 + s.val) * 1024 + (h.val * 64 + d.val) = ((b.val * 2048 + s.val) * 16 + h.val) * 64 + d.val
  omega

/-- The merge at an index: the inverse arrangement. -/
theorem merge_apply (y : FVec Ideal S2x16x2048x64 .f32) (b : Fin 2) (h : Fin 16) (s : Fin 2048) (d : Fin 64) :
    merge y (ix3 b s ⟨h.val * 64 + d.val, by omega⟩) = y (ix4 b h s d) := by
  unfold merge
  refine (shapeCast_apply _ shapeCasts_S2x2048x16x64_S2x2048x1024 (ix3 b s ⟨h.val * 64 + d.val, by omega⟩) (ix4 b s h d) ?_).trans ?_
  · rw [Shape.rowMajor_val_three, Shape.rowMajor_val_four]
    show ((b.val * 2048 + s.val) * 16 + h.val) * 64 + d.val = (b.val * 2048 + s.val) * 1024 + (h.val * 64 + d.val)
    omega
  · exact transpose_apply [0, 2, 1, 3] y transposes_S2x16x2048x64_S2x2048x16x64_0_2_1_3 (ix4 b s h d) (ix4 b h s d)
      (fun a => match a with | ⟨0, _⟩ => rfl | ⟨1, _⟩ => rfl | ⟨2, _⟩ => rfl | ⟨3, _⟩ => rfl)

/-! ## The scores and the weighted values -/

theorem scores_l0 (i : S2x16x2048x2048.Idx) (q : dot_S2x16x2048x64_S2x16x2048x64_S2x16x2048x2048_3_3_2_2_01_01.contr.Idx) :
    (dot_S2x16x2048x64_S2x16x2048x64_S2x16x2048x2048_3_3_2_2_01_01.lhsIdx i q 0).val = (i 0).val := by
  unfold DotDims.lhsIdx
  rw [dif_pos (show (0 : Fin S2x16x2048x64.rank) ∈ dot_S2x16x2048x64_S2x16x2048x64_S2x16x2048x2048_3_3_2_2_01_01.lhsBatch by decide)]
  rfl
theorem scores_l1 (i : S2x16x2048x2048.Idx) (q : dot_S2x16x2048x64_S2x16x2048x64_S2x16x2048x2048_3_3_2_2_01_01.contr.Idx) :
    (dot_S2x16x2048x64_S2x16x2048x64_S2x16x2048x2048_3_3_2_2_01_01.lhsIdx i q 1).val = (i 1).val := by
  unfold DotDims.lhsIdx
  rw [dif_pos (show (1 : Fin S2x16x2048x64.rank) ∈ dot_S2x16x2048x64_S2x16x2048x64_S2x16x2048x2048_3_3_2_2_01_01.lhsBatch by decide)]
  rfl
theorem scores_l2 (i : S2x16x2048x2048.Idx) (q : dot_S2x16x2048x64_S2x16x2048x64_S2x16x2048x2048_3_3_2_2_01_01.contr.Idx) :
    (dot_S2x16x2048x64_S2x16x2048x64_S2x16x2048x2048_3_3_2_2_01_01.lhsIdx i q 2).val = (i 2).val := by
  unfold DotDims.lhsIdx
  rw [dif_neg (show ¬(2 : Fin S2x16x2048x64.rank) ∈ dot_S2x16x2048x64_S2x16x2048x64_S2x16x2048x2048_3_3_2_2_01_01.lhsBatch by decide), dif_pos (show (2 : Fin S2x16x2048x64.rank) ∈ dot_S2x16x2048x64_S2x16x2048x64_S2x16x2048x2048_3_3_2_2_01_01.lhsNonContracting by decide)]
  rfl
theorem scores_l3 (i : S2x16x2048x2048.Idx) (q : dot_S2x16x2048x64_S2x16x2048x64_S2x16x2048x2048_3_3_2_2_01_01.contr.Idx) :
    (dot_S2x16x2048x64_S2x16x2048x64_S2x16x2048x2048_3_3_2_2_01_01.lhsIdx i q 3).val = (q ⟨0, by decide⟩).val :=
  dot_S2x16x2048x64_S2x16x2048x64_S2x16x2048x2048_3_3_2_2_01_01.lhsIdx_val_of_single rfl i q
theorem scores_r0 (i : S2x16x2048x2048.Idx) (q : dot_S2x16x2048x64_S2x16x2048x64_S2x16x2048x2048_3_3_2_2_01_01.contr.Idx) :
    (dot_S2x16x2048x64_S2x16x2048x64_S2x16x2048x2048_3_3_2_2_01_01.rhsIdx i q 0).val = (i 0).val := by
  unfold DotDims.rhsIdx
  rw [dif_pos (show (0 : Fin S2x16x2048x64.rank) ∈ dot_S2x16x2048x64_S2x16x2048x64_S2x16x2048x2048_3_3_2_2_01_01.rhsBatch by decide)]
  rfl
theorem scores_r1 (i : S2x16x2048x2048.Idx) (q : dot_S2x16x2048x64_S2x16x2048x64_S2x16x2048x2048_3_3_2_2_01_01.contr.Idx) :
    (dot_S2x16x2048x64_S2x16x2048x64_S2x16x2048x2048_3_3_2_2_01_01.rhsIdx i q 1).val = (i 1).val := by
  unfold DotDims.rhsIdx
  rw [dif_pos (show (1 : Fin S2x16x2048x64.rank) ∈ dot_S2x16x2048x64_S2x16x2048x64_S2x16x2048x2048_3_3_2_2_01_01.rhsBatch by decide)]
  rfl
theorem scores_r2 (i : S2x16x2048x2048.Idx) (q : dot_S2x16x2048x64_S2x16x2048x64_S2x16x2048x2048_3_3_2_2_01_01.contr.Idx) :
    (dot_S2x16x2048x64_S2x16x2048x64_S2x16x2048x2048_3_3_2_2_01_01.rhsIdx i q 2).val = (i 3).val := by
  unfold DotDims.rhsIdx
  rw [dif_neg (show ¬(2 : Fin S2x16x2048x64.rank) ∈ dot_S2x16x2048x64_S2x16x2048x64_S2x16x2048x2048_3_3_2_2_01_01.rhsBatch by decide), dif_pos (show (2 : Fin S2x16x2048x64.rank) ∈ dot_S2x16x2048x64_S2x16x2048x64_S2x16x2048x2048_3_3_2_2_01_01.rhsNonContracting by decide)]
  rfl
theorem scores_r3 (i : S2x16x2048x2048.Idx) (q : dot_S2x16x2048x64_S2x16x2048x64_S2x16x2048x2048_3_3_2_2_01_01.contr.Idx) :
    (dot_S2x16x2048x64_S2x16x2048x64_S2x16x2048x2048_3_3_2_2_01_01.rhsIdx i q 3).val = (q ⟨0, by decide⟩).val :=
  dot_S2x16x2048x64_S2x16x2048x64_S2x16x2048x2048_3_3_2_2_01_01.rhsIdx_val_of_single rfl i q

/-- The scaled scores at an index: the sum over the lanes of query times key, over 8. -/
theorem scores_apply (q k : FVec Ideal S2x16x2048x64 .f32) (b : Fin 2) (h : Fin 16) (i j : Fin 2048) :
    scores q k (ix4 b h i j) = Ideal.div (∑ d : Fin 64, q (ix4 b h i d) * k (ix4 b h j d)) (((8 : ℝ)) : EReal) := by
  unfold scores
  rw [hostDivf_apply, broadcastInDim_scalar_apply]
  have hs : (Host.sqrt (constant (F := Ideal) S_ .f32 0x42800000#32) : FVec Ideal S_ .f32) ix0 = (((8 : ℝ)) : EReal) := by
    show Ideal.sqrt (Ideal.ofBits .f32 0x42800000#32) = _
    rw [ofBits_64, sqrt_64]
  rw [hs]
  refine congrArg (Ideal.div · _) ?_
  simp only [Host.dotGeneral]
  rw [Ideal.dotGeneral_apply, ← Equiv.sum_comp (contrEquiv1 dot_S2x16x2048x64_S2x16x2048x64_S2x16x2048x2048_3_3_2_2_01_01 64 rfl rfl).symm]
  refine Finset.sum_congr rfl fun k _ => ?_
  have hk := contrEquiv1_symm_val dot_S2x16x2048x64_S2x16x2048x64_S2x16x2048x2048_3_3_2_2_01_01 64 rfl rfl k
  have el : dot_S2x16x2048x64_S2x16x2048x64_S2x16x2048x2048_3_3_2_2_01_01.lhsIdx (ix4 b h i j) ((contrEquiv1 dot_S2x16x2048x64_S2x16x2048x64_S2x16x2048x2048_3_3_2_2_01_01 64 rfl rfl).symm k) = ix4 b h i k :=
    funext fun a => Fin.ext (by
      match a with
      | ⟨0, _⟩ => exact scores_l0 _ _
      | ⟨1, _⟩ => exact scores_l1 _ _
      | ⟨2, _⟩ => exact scores_l2 _ _
      | ⟨3, _⟩ => exact (scores_l3 _ _).trans hk)
  have er : dot_S2x16x2048x64_S2x16x2048x64_S2x16x2048x2048_3_3_2_2_01_01.rhsIdx (ix4 b h i j) ((contrEquiv1 dot_S2x16x2048x64_S2x16x2048x64_S2x16x2048x2048_3_3_2_2_01_01 64 rfl rfl).symm k) = ix4 b h j k :=
    funext fun a => Fin.ext (by
      match a with
      | ⟨0, _⟩ => exact scores_r0 _ _
      | ⟨1, _⟩ => exact scores_r1 _ _
      | ⟨2, _⟩ => exact scores_r2 _ _
      | ⟨3, _⟩ => exact (scores_r3 _ _).trans hk)
  rw [el, er]

theorem ctx_l0 (i : S2x16x2048x64.Idx) (q : dot_S2x16x2048x2048_S2x16x2048x64_S2x16x2048x64_3_2_2_3_01_01.contr.Idx) :
    (dot_S2x16x2048x2048_S2x16x2048x64_S2x16x2048x64_3_2_2_3_01_01.lhsIdx i q 0).val = (i 0).val := by
  unfold DotDims.lhsIdx
  rw [dif_pos (show (0 : Fin S2x16x2048x2048.rank) ∈ dot_S2x16x2048x2048_S2x16x2048x64_S2x16x2048x64_3_2_2_3_01_01.lhsBatch by decide)]
  rfl
theorem ctx_l1 (i : S2x16x2048x64.Idx) (q : dot_S2x16x2048x2048_S2x16x2048x64_S2x16x2048x64_3_2_2_3_01_01.contr.Idx) :
    (dot_S2x16x2048x2048_S2x16x2048x64_S2x16x2048x64_3_2_2_3_01_01.lhsIdx i q 1).val = (i 1).val := by
  unfold DotDims.lhsIdx
  rw [dif_pos (show (1 : Fin S2x16x2048x2048.rank) ∈ dot_S2x16x2048x2048_S2x16x2048x64_S2x16x2048x64_3_2_2_3_01_01.lhsBatch by decide)]
  rfl
theorem ctx_l2 (i : S2x16x2048x64.Idx) (q : dot_S2x16x2048x2048_S2x16x2048x64_S2x16x2048x64_3_2_2_3_01_01.contr.Idx) :
    (dot_S2x16x2048x2048_S2x16x2048x64_S2x16x2048x64_3_2_2_3_01_01.lhsIdx i q 2).val = (i 2).val := by
  unfold DotDims.lhsIdx
  rw [dif_neg (show ¬(2 : Fin S2x16x2048x2048.rank) ∈ dot_S2x16x2048x2048_S2x16x2048x64_S2x16x2048x64_3_2_2_3_01_01.lhsBatch by decide), dif_pos (show (2 : Fin S2x16x2048x2048.rank) ∈ dot_S2x16x2048x2048_S2x16x2048x64_S2x16x2048x64_3_2_2_3_01_01.lhsNonContracting by decide)]
  rfl
theorem ctx_l3 (i : S2x16x2048x64.Idx) (q : dot_S2x16x2048x2048_S2x16x2048x64_S2x16x2048x64_3_2_2_3_01_01.contr.Idx) :
    (dot_S2x16x2048x2048_S2x16x2048x64_S2x16x2048x64_3_2_2_3_01_01.lhsIdx i q 3).val = (q ⟨0, by decide⟩).val :=
  dot_S2x16x2048x2048_S2x16x2048x64_S2x16x2048x64_3_2_2_3_01_01.lhsIdx_val_of_single rfl i q
theorem ctx_r0 (i : S2x16x2048x64.Idx) (q : dot_S2x16x2048x2048_S2x16x2048x64_S2x16x2048x64_3_2_2_3_01_01.contr.Idx) :
    (dot_S2x16x2048x2048_S2x16x2048x64_S2x16x2048x64_3_2_2_3_01_01.rhsIdx i q 0).val = (i 0).val := by
  unfold DotDims.rhsIdx
  rw [dif_pos (show (0 : Fin S2x16x2048x64.rank) ∈ dot_S2x16x2048x2048_S2x16x2048x64_S2x16x2048x64_3_2_2_3_01_01.rhsBatch by decide)]
  rfl
theorem ctx_r1 (i : S2x16x2048x64.Idx) (q : dot_S2x16x2048x2048_S2x16x2048x64_S2x16x2048x64_3_2_2_3_01_01.contr.Idx) :
    (dot_S2x16x2048x2048_S2x16x2048x64_S2x16x2048x64_3_2_2_3_01_01.rhsIdx i q 1).val = (i 1).val := by
  unfold DotDims.rhsIdx
  rw [dif_pos (show (1 : Fin S2x16x2048x64.rank) ∈ dot_S2x16x2048x2048_S2x16x2048x64_S2x16x2048x64_3_2_2_3_01_01.rhsBatch by decide)]
  rfl
theorem ctx_r2 (i : S2x16x2048x64.Idx) (q : dot_S2x16x2048x2048_S2x16x2048x64_S2x16x2048x64_3_2_2_3_01_01.contr.Idx) :
    (dot_S2x16x2048x2048_S2x16x2048x64_S2x16x2048x64_3_2_2_3_01_01.rhsIdx i q 2).val = (q ⟨0, by decide⟩).val :=
  dot_S2x16x2048x2048_S2x16x2048x64_S2x16x2048x64_3_2_2_3_01_01.rhsIdx_val_of_single rfl i q
theorem ctx_r3 (i : S2x16x2048x64.Idx) (q : dot_S2x16x2048x2048_S2x16x2048x64_S2x16x2048x64_3_2_2_3_01_01.contr.Idx) :
    (dot_S2x16x2048x2048_S2x16x2048x64_S2x16x2048x64_3_2_2_3_01_01.rhsIdx i q 3).val = (i 3).val := by
  unfold DotDims.rhsIdx
  rw [dif_neg (show ¬(3 : Fin S2x16x2048x64.rank) ∈ dot_S2x16x2048x2048_S2x16x2048x64_S2x16x2048x64_3_2_2_3_01_01.rhsBatch by decide), dif_pos (show (3 : Fin S2x16x2048x64.rank) ∈ dot_S2x16x2048x2048_S2x16x2048x64_S2x16x2048x64_3_2_2_3_01_01.rhsNonContracting by decide)]
  rfl

/-- The weighted values at an index: the sum over the key positions. -/
theorem ctx_apply (p : FVec Ideal S2x16x2048x2048 .f32) (v : FVec Ideal S2x16x2048x64 .f32) (b : Fin 2) (h : Fin 16)
    (i : Fin 2048) (d : Fin 64) :
    ctx p v (ix4 b h i d) = ∑ j : Fin 2048, p (ix4 b h i j) * v (ix4 b h j d) := by
  unfold ctx
  simp only [Host.dotGeneral]
  rw [Ideal.dotGeneral_apply, ← Equiv.sum_comp (contrEquiv1 dot_S2x16x2048x2048_S2x16x2048x64_S2x16x2048x64_3_2_2_3_01_01 2048 rfl rfl).symm]
  refine Finset.sum_congr rfl fun k _ => ?_
  have hk := contrEquiv1_symm_val dot_S2x16x2048x2048_S2x16x2048x64_S2x16x2048x64_3_2_2_3_01_01 2048 rfl rfl k
  have el : dot_S2x16x2048x2048_S2x16x2048x64_S2x16x2048x64_3_2_2_3_01_01.lhsIdx (ix4 b h i d) ((contrEquiv1 dot_S2x16x2048x2048_S2x16x2048x64_S2x16x2048x64_3_2_2_3_01_01 2048 rfl rfl).symm k) = ix4 b h i k :=
    funext fun a => Fin.ext (by
      match a with
      | ⟨0, _⟩ => exact ctx_l0 _ _
      | ⟨1, _⟩ => exact ctx_l1 _ _
      | ⟨2, _⟩ => exact ctx_l2 _ _
      | ⟨3, _⟩ => exact (ctx_l3 _ _).trans hk)
  have er : dot_S2x16x2048x2048_S2x16x2048x64_S2x16x2048x64_3_2_2_3_01_01.rhsIdx (ix4 b h i d) ((contrEquiv1 dot_S2x16x2048x2048_S2x16x2048x64_S2x16x2048x64_3_2_2_3_01_01 2048 rfl rfl).symm k) = ix4 b h k d :=
    funext fun a => Fin.ext (by
      match a with
      | ⟨0, _⟩ => exact ctx_r0 _ _
      | ⟨1, _⟩ => exact ctx_r1 _ _
      | ⟨2, _⟩ => exact (ctx_r2 _ _).trans hk
      | ⟨3, _⟩ => exact ctx_r3 _ _)
  rw [el, er]

/-! ## The causal mask -/

/-- The mask at an index: one where the key position is at most the query position. -/
theorem causal_apply (i j : Fin 2048) : causal (ix2 i j) = if j.val ≤ i.val then 1#1 else 0#1 := by
  unfold causal
  rw [select_apply, broadcastInDim_scalar_apply, broadcastInDim_scalar_apply]
  show Scalar.select (BitVec.ofBool ((BitVec.ofNat 32 j.val).sle (BitVec.ofNat 32 i.val + 0#32))) 1#1 0#1 = _
  rw [sle_ofNat i.val j.val i.isLt j.isLt]
  by_cases hji : j.val ≤ i.val
  · rw [if_pos hji, decide_eq_true hji]; rfl
  · rw [if_neg hji, decide_eq_false hji]; rfl

/-- The masked scores at an index: the score where the key position is at most the query position, `-∞` elsewhere. -/
theorem masked_apply (sc : FVec Ideal S2x16x2048x2048 .f32) (b : Fin 2) (h : Fin 16) (i j : Fin 2048) :
    masked sc (ix4 b h i j) = if j.val ≤ i.val then sc (ix4 b h i j) else ⊥ := by
  unfold masked
  rw [select_apply, broadcastInDim_scalar_apply,
    broadcastInDim_apply ![2, 3] bcast_S2048x2048_S2x16x2048x2048_2_3 causal (ix4 b h i j) (ix2 i j)
      (fun a => match a with | ⟨0, _⟩ => rfl | ⟨1, _⟩ => rfl),
    causal_apply]
  show Scalar.select _ _ (Ideal.ofBits .f32 0xFF800000#32) = _
  rw [ofBits_neg_inf]
  by_cases hji : j.val ≤ i.val
  · rw [if_pos hji, if_pos hji]; rfl
  · rw [if_neg hji, if_neg hji]; rfl

/-! ## The row softmax -/

/-- A per-row value repeated along its row, at an index. -/
theorem overRow_apply (r : FVec Ideal S2x16x2048 .f32) (b : Fin 2) (h : Fin 16) (i j : Fin 2048) :
    overRow r (ix4 b h i j) = r (ix3 b h i) := by
  unfold overRow
  refine (broadcastInDim_apply ![0, 1, 2, 3] bcast_S2x16x2048x1_S2x16x2048x2048_0_1_2_3 _ (ix4 b h i j) (ix4 b h i (0 : Fin 1))
    (fun a => match a with | ⟨0, _⟩ => rfl | ⟨1, _⟩ => rfl | ⟨2, _⟩ => rfl | ⟨3, _⟩ => rfl)).trans ?_
  exact broadcastInDim_apply ![0, 1, 2] bcast_S2x16x2048_S2x16x2048x1_0_1_2 r (ix4 b h i (0 : Fin 1)) (ix3 b h i)
    (fun a => match a with | ⟨0, _⟩ => rfl | ⟨1, _⟩ => rfl | ⟨2, _⟩ => rfl)

/-- A row index with the key position put back. -/
theorem lift_row (hr : S2x16x2048x2048.Reduces [3] S2x16x2048) (b : Fin 2) (h : Fin 16) (i : Fin 2048)
    (k : Fin (S2x16x2048x2048.size 3)) : hr.lift (ix3 b h i) k = ix4 b h i (⟨k.val, k.isLt⟩ : Fin 2048) := by
  funext c; apply Fin.ext
  fin_cases c <;> rfl

/-- Each row's maximum is the supremum of the row. -/
theorem rowMax_apply (sc : FVec Ideal S2x16x2048x2048 .f32) (b : Fin 2) (h : Fin 16) (i : Fin 2048) :
    rowMax sc (ix3 b h i) = Finset.univ.sup fun j : Fin 2048 => sc (ix4 b h i j) := by
  unfold rowMax
  rw [maximumf_apply, broadcastInDim_scalar_apply, constant_apply, ofBits_neg_inf,
    Host.reduce_eq_fold_single FloatOps.maximumf sc _ reducesTo_S2x16x2048x2048_S2x16x2048_d3 (by decide) h_S_]
  show max ⊥ (Finset.fold max (Ideal.ofBits .f32 0xFF800000#32) _ _) = _
  rw [ofBits_neg_inf, max_eq_right bot_le]
  have hf : (sc ∘ (by decide : S2x16x2048x2048.Reduces [3] S2x16x2048).lift (ix3 b h i))
      = fun j : Fin 2048 => sc (ix4 b h i j) := funext fun k => congrArg sc (lift_row _ b h i k)
  rw [hf]
  rfl

/-- Every entry of a row is at most the row's maximum. -/
theorem rowMax_ge (sc : FVec Ideal S2x16x2048x2048 .f32) (b : Fin 2) (h : Fin 16) (i j : Fin 2048) :
    sc (ix4 b h i j) ≤ rowMax sc (ix3 b h i) := by
  rw [rowMax_apply]
  exact Finset.le_sup (f := fun j : Fin 2048 => sc (ix4 b h i j)) (Finset.mem_univ j)

/-- The row's maximum is one of its entries. -/
theorem rowMax_attained (sc : FVec Ideal S2x16x2048x2048 .f32) (b : Fin 2) (h : Fin 16) (i : Fin 2048) :
    ∃ j : Fin 2048, rowMax sc (ix3 b h i) = sc (ix4 b h i j) := by
  rw [rowMax_apply]
  obtain ⟨j, _, hj⟩ := Finset.exists_mem_eq_sup (Finset.univ : Finset (Fin 2048)) ⟨0, Finset.mem_univ _⟩
    (fun j : Fin 2048 => sc (ix4 b h i j))
  exact ⟨j, hj⟩

/-- The shifted exponential at an index. -/
theorem expShift_apply (sc : FVec Ideal S2x16x2048x2048 .f32) (b : Fin 2) (h : Fin 16) (i j : Fin 2048) :
    expShift sc (ix4 b h i j) = Ideal.exp (sc (ix4 b h i j) - rowMax sc (ix3 b h i)) := by
  unfold expShift
  show Ideal.exp (sc (ix4 b h i j) - overRow (rowMax sc) (ix4 b h i j)) = _
  rw [overRow_apply]

/-- Each row's sum at an index. -/
theorem rowSum_apply (e : FVec Ideal S2x16x2048x2048 .f32) (b : Fin 2) (h : Fin 16) (i : Fin 2048) :
    rowSum e (ix3 b h i) = ∑ j : Fin 2048, e (ix4 b h i j) := by
  unfold rowSum
  rw [hostReduceAdd_apply, Ideal.hostReduceAdd_single reducesTo_S2x16x2048x2048_S2x16x2048_d3 (by decide), constant_apply,
    Ideal.ofBits_zero_f32, zero_add]
  exact Finset.sum_congr rfl fun k _ => congrArg e (lift_row _ b h i k)

/-- The softmax at an index: the shifted exponential over the row's sum of shifted exponentials. -/
theorem softmaxRow_apply (sc : FVec Ideal S2x16x2048x2048 .f32) (b : Fin 2) (h : Fin 16) (i j : Fin 2048) :
    softmaxRow sc (ix4 b h i j)
      = Ideal.div (Ideal.exp (sc (ix4 b h i j) - rowMax sc (ix3 b h i)))
          (∑ j' : Fin 2048, Ideal.exp (sc (ix4 b h i j') - rowMax sc (ix3 b h i))) := by
  unfold softmaxRow
  rw [hostDivf_apply, overRow_apply, rowSum_apply, expShift_apply]
  exact congrArg (Ideal.div _) (Finset.sum_congr rfl fun j' _ => expShift_apply sc b h i j')

/-! ## The rotation -/

/-- A lane's partner in its pair `(2j, 2j+1)`: the lane index with its lowest bit flipped. -/
def swap (d : Fin 64) : Fin 64 :=
  if h : d.val % 2 = 0 then ⟨d.val + 1, by omega⟩ else ⟨d.val - 1, by omega⟩

/-- The pair-swap index vector at a lane is the partner's index as a 32-bit word: the integer chain evaluated at
    each of the 64 lanes. -/
theorem swapIdx_apply : ∀ d : Fin 64, swapIdx (ix1 d) = BitVec.ofNat 32 (swap d).val := by
  decide +kernel

/-- Read signed and clamped into the lanes, the pair-swap index is the partner. -/
theorem swapIdx_clamped : ∀ d : Fin 64, min (swapIdx (ix1 d)).toInt.toNat 63 = (swap d).val := by
  decide +kernel

-- from here on the index vector is only cited through the two facts above
attribute [local irreducible] swapIdx

/-- A table over positions and lanes repeated over batch and heads, at an index. -/
theorem spread_apply (t : FVec Ideal S2048x64 .f32) (b : Fin 2) (h : Fin 16) (s : Fin 2048) (d : Fin 64) :
    spread t (ix4 b h s d) = t (ix2 s d) := by
  unfold spread
  refine (broadcastInDim_apply ![0, 1, 2, 3] bcast_S1x1x2048x64_S2x16x2048x64_0_1_2_3 _ (ix4 b h s d)
    (ix4 (0 : Fin 1) (0 : Fin 1) s d)
    (fun a => match a with | ⟨0, _⟩ => rfl | ⟨1, _⟩ => rfl | ⟨2, _⟩ => rfl | ⟨3, _⟩ => rfl)).trans ?_
  exact broadcastInDim_apply ![2, 3] bcast_S2048x64_S1x1x2048x64_2_3 t (ix4 (0 : Fin 1) (0 : Fin 1) s d) (ix2 s d)
    (fun a => match a with | ⟨0, _⟩ => rfl | ⟨1, _⟩ => rfl)

theorem gather_si0 (b : Fin 2) (h : Fin 16) (s : Fin 2048) (d : Fin 64) :
    (gather_S2x16x2048x64_S64x1_S2x16x2048x64_012_3_n_n_3_1_21620481.siIdx (ix4 b h s d)
      ⟨List.idxOf (3 : Fin S2x16x2048x64.rank) gather_S2x16x2048x64_S64x1_S2x16x2048x64_012_3_n_n_3_1_21620481.startIndexMap,
        List.idxOf_lt_length_iff.2 (show (3 : Fin S2x16x2048x64.rank) ∈ gather_S2x16x2048x64_S64x1_S2x16x2048x64_012_3_n_n_3_1_21620481.startIndexMap by decide)⟩ 0).val = d.val := by
  unfold GatherDims.siIdx
  rw [dif_neg (show ¬((0 : Fin S64x1.rank).val = gather_S2x16x2048x64_S64x1_S2x16x2048x64_012_3_n_n_3_1_21620481.indexVectorDim) by decide)]
  unfold GatherDims.siCoord
  rfl

theorem gather_0 (b : Fin 2) (h : Fin 16) (s : Fin 2048) (d : Fin 64) (idx : IVec S64x1 32) :
    (gather_S2x16x2048x64_S64x1_S2x16x2048x64_012_3_n_n_3_1_21620481.operandIdx (ix4 b h s d) idx 0).val = b.val := by
  show gather_S2x16x2048x64_S64x1_S2x16x2048x64_012_3_n_n_3_1_21620481.start (ix4 b h s d) idx 0 + gather_S2x16x2048x64_S64x1_S2x16x2048x64_012_3_n_n_3_1_21620481.batchCoord (ix4 b h s d) 0 + gather_S2x16x2048x64_S64x1_S2x16x2048x64_012_3_n_n_3_1_21620481.offCoord (ix4 b h s d) 0 = _
  rw [GatherDims.batchCoord_eq_zero _ _ _ (by decide)]
  unfold GatherDims.start GatherDims.offCoord
  rw [dif_neg (show ¬(0 : Fin S2x16x2048x64.rank) ∈ gather_S2x16x2048x64_S64x1_S2x16x2048x64_012_3_n_n_3_1_21620481.startIndexMap by decide),
    dif_pos (show (0 : Fin S2x16x2048x64.rank) ∈ gather_S2x16x2048x64_S64x1_S2x16x2048x64_012_3_n_n_3_1_21620481.sKept by decide)]
  rw [Nat.add_zero, Nat.zero_add]
  rfl

theorem gather_1 (b : Fin 2) (h : Fin 16) (s : Fin 2048) (d : Fin 64) (idx : IVec S64x1 32) :
    (gather_S2x16x2048x64_S64x1_S2x16x2048x64_012_3_n_n_3_1_21620481.operandIdx (ix4 b h s d) idx 1).val = h.val := by
  show gather_S2x16x2048x64_S64x1_S2x16x2048x64_012_3_n_n_3_1_21620481.start (ix4 b h s d) idx 1 + gather_S2x16x2048x64_S64x1_S2x16x2048x64_012_3_n_n_3_1_21620481.batchCoord (ix4 b h s d) 1 + gather_S2x16x2048x64_S64x1_S2x16x2048x64_012_3_n_n_3_1_21620481.offCoord (ix4 b h s d) 1 = _
  rw [GatherDims.batchCoord_eq_zero _ _ _ (by decide)]
  unfold GatherDims.start GatherDims.offCoord
  rw [dif_neg (show ¬(1 : Fin S2x16x2048x64.rank) ∈ gather_S2x16x2048x64_S64x1_S2x16x2048x64_012_3_n_n_3_1_21620481.startIndexMap by decide),
    dif_pos (show (1 : Fin S2x16x2048x64.rank) ∈ gather_S2x16x2048x64_S64x1_S2x16x2048x64_012_3_n_n_3_1_21620481.sKept by decide)]
  rw [Nat.add_zero, Nat.zero_add]
  rfl

theorem gather_2 (b : Fin 2) (h : Fin 16) (s : Fin 2048) (d : Fin 64) (idx : IVec S64x1 32) :
    (gather_S2x16x2048x64_S64x1_S2x16x2048x64_012_3_n_n_3_1_21620481.operandIdx (ix4 b h s d) idx 2).val = s.val := by
  show gather_S2x16x2048x64_S64x1_S2x16x2048x64_012_3_n_n_3_1_21620481.start (ix4 b h s d) idx 2 + gather_S2x16x2048x64_S64x1_S2x16x2048x64_012_3_n_n_3_1_21620481.batchCoord (ix4 b h s d) 2 + gather_S2x16x2048x64_S64x1_S2x16x2048x64_012_3_n_n_3_1_21620481.offCoord (ix4 b h s d) 2 = _
  rw [GatherDims.batchCoord_eq_zero _ _ _ (by decide)]
  unfold GatherDims.start GatherDims.offCoord
  rw [dif_neg (show ¬(2 : Fin S2x16x2048x64.rank) ∈ gather_S2x16x2048x64_S64x1_S2x16x2048x64_012_3_n_n_3_1_21620481.startIndexMap by decide),
    dif_pos (show (2 : Fin S2x16x2048x64.rank) ∈ gather_S2x16x2048x64_S64x1_S2x16x2048x64_012_3_n_n_3_1_21620481.sKept by decide)]
  rw [Nat.add_zero, Nat.zero_add]
  rfl

theorem gather_3 (b : Fin 2) (h : Fin 16) (s : Fin 2048) (d : Fin 64) (idx : IVec S64x1 32) :
    (gather_S2x16x2048x64_S64x1_S2x16x2048x64_012_3_n_n_3_1_21620481.operandIdx (ix4 b h s d) idx 3).val = min (idx (ix2 d (0 : Fin 1))).toInt.toNat 63 := by
  show gather_S2x16x2048x64_S64x1_S2x16x2048x64_012_3_n_n_3_1_21620481.start (ix4 b h s d) idx 3 + gather_S2x16x2048x64_S64x1_S2x16x2048x64_012_3_n_n_3_1_21620481.batchCoord (ix4 b h s d) 3 + gather_S2x16x2048x64_S64x1_S2x16x2048x64_012_3_n_n_3_1_21620481.offCoord (ix4 b h s d) 3 = _
  rw [GatherDims.batchCoord_eq_zero _ _ _ (by decide), GatherDims.offCoord_eq_zero _ _ _ (by decide)]
  simp only [Nat.add_zero]
  unfold GatherDims.start
  rw [dif_pos (show (3 : Fin S2x16x2048x64.rank) ∈ gather_S2x16x2048x64_S64x1_S2x16x2048x64_012_3_n_n_3_1_21620481.startIndexMap by decide)]
  have hsi : gather_S2x16x2048x64_S64x1_S2x16x2048x64_012_3_n_n_3_1_21620481.siIdx (ix4 b h s d)
      ⟨List.idxOf (3 : Fin S2x16x2048x64.rank) gather_S2x16x2048x64_S64x1_S2x16x2048x64_012_3_n_n_3_1_21620481.startIndexMap,
        List.idxOf_lt_length_iff.2 (show (3 : Fin S2x16x2048x64.rank) ∈ gather_S2x16x2048x64_S64x1_S2x16x2048x64_012_3_n_n_3_1_21620481.startIndexMap by decide)⟩
      = ix2 d (0 : Fin 1) := by
    funext c; refine Fin.ext ?_
    match c with
    | ⟨0, _⟩ => exact gather_si0 b h s d
    | ⟨1, _⟩ => rfl
  rw [hsi]
  rfl
/-- The lane gather at an index: the operand at the same batch, head and position, at the lane the index vector names
    there, read signed and clamped into the lanes. -/
theorem gather_lane_apply (y : FVec Ideal S2x16x2048x64 .f32) (idx : IVec S64x1 32) (b : Fin 2) (h : Fin 16) (s : Fin 2048)
    (d : Fin 64) (hlt : min (idx (ix2 d (0 : Fin 1))).toInt.toNat 63 < 64) :
    Host.gather gather_S2x16x2048x64_S64x1_S2x16x2048x64_012_3_n_n_3_1_21620481 y idx (ix4 b h s d) = y (ix4 b h s ⟨min (idx (ix2 d (0 : Fin 1))).toInt.toNat 63, hlt⟩) := by
  unfold Host.gather
  refine congrArg y (funext fun a => Fin.ext ?_)
  match a with
  | ⟨0, _⟩ => exact gather_0 b h s d idx
  | ⟨1, _⟩ => exact gather_1 b h s d idx
  | ⟨2, _⟩ => exact gather_2 b h s d idx
  | ⟨3, _⟩ => exact gather_3 b h s d idx

/-- The lanes of each pair exchanged, at an index. -/
theorem swapLanes_apply (y : FVec Ideal S2x16x2048x64 .f32) (b : Fin 2) (h : Fin 16) (s : Fin 2048) (d : Fin 64) :
    swapLanes y (ix4 b h s d) = y (ix4 b h s (swap d)) := by
  unfold swapLanes
  have hi := broadcastInDim_apply ![0] bcast_S64_S64x1_0 swapIdx (ix2 d (0 : Fin 1)) (ix1 d)
    (fun a => match a with | ⟨0, _⟩ => rfl)
  have hc : min ((broadcastInDim S64x1 ![0] bcast_S64_S64x1_0 swapIdx : IVec S64x1 32) (ix2 d (0 : Fin 1))).toInt.toNat 63
      = (swap d).val := by rw [hi]; exact swapIdx_clamped d
  rw [gather_lane_apply y _ b h s d (by rw [hc]; exact (swap d).isLt)]
  exact congrArg y (congrArg (ix4 b h s) (Fin.ext hc))

/-- The rotation at an index: the entry times the cosine, plus the pair partner times the signed sine, the tables
    kept folded. -/
theorem rope_apply (y : FVec Ideal S2x16x2048x64 .f32) (tp : IVec S2048 32) (b : Fin 2) (h : Fin 16) (s : Fin 2048) (d : Fin 64) :
    rope y tp (ix4 b h s d)
      = y (ix4 b h s d) * cosTab (F := Ideal) tp (ix2 s d) + y (ix4 b h s (swap d)) * sinTab (F := Ideal) tp (ix2 s d) := by
  unfold rope
  rw [addf_apply, mulf_apply, mulf_apply, spread_apply, spread_apply, swapLanes_apply]

/-! ## The whole result -/

/-- The reference's result at an index: the merged attention output against the output weights, summed over the
    model dimension. -/
theorem refOut_apply (x : FVec Ideal S2x2048x1024 .f32) (tp : IVec S2048 32) (wq wk wv wo : FVec Ideal S1024x1024 .f32)
    (b : Fin 2) (s : Fin 2048) (o : Fin 1024) :
    refOut x tp wq wk wv wo (ix3 b s o)
      = ∑ m : Fin 1024,
          merge (ctx (softmaxRow (masked (scores (rope (heads (proj x wq)) tp) (rope (heads (proj x wk)) tp))))
            (heads (proj x wv))) (ix3 b s m) * wo (ix2 o m) := by
  unfold refOut
  exact proj_apply _ wo b s o

end Cert.ReferenceIdeal.RefValue

end
-- ==== Proof.Finite.lean ====
/- Finiteness facts: the float arguments are real entry by entry under the precondition, and the rotation tables
   are real at every position and lane. -/
import proofs.«155122_j66666482368602_2_alg».proof.Defs
import proofs.«155122_j66666482368602_2_alg».proof.Proof.RefValue
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx

/-! ## From the precondition to real entries -/

/-- The scalar shape has one index. -/
instance subsingleton_scalar_idx : Subsingleton Cert.Pre_finite_inputs.S_.Idx :=
  ⟨fun a b => funext fun d => d.elim0⟩

/-- An extended real whose absolute value is below `+∞` is a real. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- `jnp.all (|a| < +∞)` that came out one says every entry of `a` is a real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf a)
          (broadcastInDim s ![] hb (constant (F := Ideal) Cert.Pre_finite_inputs.S_ .f32 0x7F800000#32)))
        (constantI Cert.Pre_finite_inputs.S_ 1 1#1) hr hu ix0 = 1#1) (i : s.Idx) : ∃ r : ℝ, a i = (r : EReal) :=
  real_of_abs_lt_inf (a i) (Host.reduce_andi_all _ _ hr hu ix0 h i)

/-- Under the precondition every entry of the five float arguments is a real. -/
theorem real_of_pre [hP : Cert.Pre_finite_inputs.Facts] (x : FVec Ideal Cert.Pre_finite_inputs.S2x2048x1024 .f32)
    (tp : IVec Cert.Pre_finite_inputs.S2048 32)
    (wq wk wv wo : FVec Ideal Cert.Pre_finite_inputs.S1024x1024 .f32)
    (h : Cert.Pre_finite_inputs.fn (F := Ideal) x tp wq wk wv wo = fun _ => 1#1) :
    (∀ i, ∃ r : ℝ, x i = (r : EReal)) ∧ (∀ i, ∃ r : ℝ, wq i = (r : EReal)) ∧ (∀ i, ∃ r : ℝ, wk i = (r : EReal))
      ∧ (∀ i, ∃ r : ℝ, wv i = (r : EReal)) ∧ (∀ i, ∃ r : ℝ, wo i = (r : EReal)) := by
  have h0 := congrFun h ix0
  dsimp only [Cert.Pre_finite_inputs.fn, Cert.Pre_finite_inputs.fn_part1] at h0
  obtain ⟨h1, ho⟩ := IntOp.andi_eq_one.1 h0
  obtain ⟨h2, hv⟩ := IntOp.andi_eq_one.1 h1
  obtain ⟨h3, hk⟩ := IntOp.andi_eq_one.1 h2
  obtain ⟨hx, hq⟩ := IntOp.andi_eq_one.1 h3
  exact ⟨real_of_all x _ _ _ hx, real_of_all wq _ _ _ hq, real_of_all wk _ _ _ hk, real_of_all wv _ _ _ hv,
    real_of_all wo _ _ _ ho⟩

/-! ## The rotation tables are real

Each stage of the tables is pointwise, so the facts are read stage by stage: a positive real to a real power is a
positive real, a real over a positive real is a real, the cosine and the sine of a real are reals, and so is a product
of reals. A broadcast only repeats entries. -/

/-- Every entry is a real. -/
def AllReal {s : Shape} (v : FVec Ideal s .f32) : Prop := ∀ i, ∃ r : ℝ, v i = (r : EReal)

/-- Every entry is a positive real. -/
def AllPos {s : Shape} (v : FVec Ideal s .f32) : Prop := ∀ i, ∃ r : ℝ, 0 < r ∧ v i = (r : EReal)

theorem AllPos.real {s : Shape} {v : FVec Ideal s .f32} (h : AllPos v) : AllReal v :=
  fun i => let ⟨r, _, hr⟩ := h i; ⟨r, hr⟩

/-- A broadcast repeats entries: reals stay reals. -/
theorem AllReal.bcast {s t : Shape} {dims : Fin s.rank → Fin t.rank} (h : s.BroadcastsInDim t dims)
    {v : FVec Ideal s .f32} (hv : AllReal v) : AllReal (broadcastInDim t dims h v) :=
  fun _ => hv _

/-- A broadcast repeats entries: positive reals stay positive reals. -/
theorem AllPos.bcast {s t : Shape} {dims : Fin s.rank → Fin t.rank} (h : s.BroadcastsInDim t dims)
    {v : FVec Ideal s .f32} (hv : AllPos v) : AllPos (broadcastInDim t dims h v) :=
  fun _ => hv _

/-- A splat constant whose word denotes a real is real everywhere. -/
theorem AllReal.const {s : Shape} {b : BitVec 32} {r : ℝ} (h : Ideal.ofBits .f32 b = (r : EReal)) :
    AllReal (constant (F := Ideal) s .f32 b) :=
  fun _ => ⟨r, h⟩

/-- A splat constant whose word denotes a positive real is a positive real everywhere. -/
theorem AllPos.const {s : Shape} {b : BitVec 32} {r : ℝ} (h : Ideal.ofBits .f32 b = (r : EReal)) (hr : 0 < r) :
    AllPos (constant (F := Ideal) s .f32 b) :=
  fun _ => ⟨r, hr, h⟩

/-- An integer read as a float is a real. -/
theorem AllReal.sitofp {s : Shape} {w : Nat} (n : IVec s w) : AllReal (sitofp (F := Ideal) .f32 n) :=
  fun i => ⟨((n i).toInt : ℝ), rfl⟩

/-- A product of reals is a real. -/
theorem AllReal.mulf {s : Shape} {a b : FVec Ideal s .f32} (ha : AllReal a) (hb : AllReal b) : AllReal (mulf a b) :=
  fun i => by
    obtain ⟨x, hx⟩ := ha i
    obtain ⟨y, hy⟩ := hb i
    refine ⟨x * y, ?_⟩
    show a i * b i = _
    rw [hx, hy, EReal.coe_mul]

/-- A choice between reals is a real. -/
theorem AllReal.select {s : Shape} (c : IVec s 1) {a b : FVec Ideal s .f32} (ha : AllReal a) (hb : AllReal b) :
    AllReal (select c a b) :=
  fun i => by
    show ∃ r : ℝ, Scalar.select (c i) (a i) (b i) = (r : EReal)
    unfold Scalar.select
    split
    exacts [ha i, hb i]

/-- A real over a positive real is a real. -/
theorem AllReal.hostDivf {s : Shape} {a b : FVec Ideal s .f32} (ha : AllReal a) (hb : AllPos b) :
    AllReal (Host.divf a b) :=
  fun i => by
    obtain ⟨x, hx⟩ := ha i
    obtain ⟨y, hy, hye⟩ := hb i
    refine ⟨x * (1 / y), ?_⟩
    show Ideal.div (a i) (b i) = _
    rw [hx, hye, Ideal.div_coe hy.ne', EReal.coe_mul]

/-- A positive real to a real power is a positive real. -/
theorem AllPos.hostPowf {s : Shape} {a b : FVec Ideal s .f32} (ha : AllPos a) (hb : AllReal b) :
    AllPos (Host.powf a b) :=
  fun i => by
    obtain ⟨x, hx, hxe⟩ := ha i
    obtain ⟨y, hy⟩ := hb i
    refine ⟨Real.rpow x y, Real.rpow_pos_of_pos hx y, ?_⟩
    show Ideal.pow (a i) (b i) = _
    rw [hxe, hy, Ideal.pow_coe_coe]

/-- The cosine of a real is a real. -/
theorem AllReal.hostCos {s : Shape} {a : FVec Ideal s .f32} (ha : AllReal a) : AllReal (Host.cos a) :=
  fun i => by
    obtain ⟨x, hx⟩ := ha i
    refine ⟨Real.cos x, ?_⟩
    show Ideal.cos (a i) = _
    rw [hx, Ideal.cos_coe]

/-- The sine of a real is a real. -/
theorem AllReal.hostSin {s : Shape} {a : FVec Ideal s .f32} (ha : AllReal a) : AllReal (Host.sin a) :=
  fun i => by
    obtain ⟨x, hx⟩ := ha i
    refine ⟨Real.sin x, ?_⟩
    show Ideal.sin (a i) = _
    rw [hx, Ideal.sin_coe]

/-! The five float literals of the tables. -/

theorem ofBits_10000 : Ideal.ofBits .f32 0x461C4000#32 = ((10000 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_neg1 : Ideal.ofBits .f32 0xBF800000#32 = ((-1 : ℝ) : EReal) := by
  simp [Ideal.ofBits, Ideal.ieee, -EReal.coe_mul]; norm_num
theorem ofBits_1 : Ideal.ofBits .f32 0x3F800000#32 = ((1 : ℝ) : EReal) := by
  simp [Ideal.ofBits, Ideal.ieee, -EReal.coe_mul]; norm_num

open Cert.ReferenceIdeal Cert.ReferenceIdeal.RefValue

/-- The frequency divisors `10000 ^ (2·⌊i/2⌋/64)` are positive reals: only that the exponent is a real is used. -/
theorem freq_pos : AllPos (freq (F := Ideal)) :=
  AllPos.hostPowf (AllPos.bcast _ (AllPos.const ofBits_10000 (by norm_num)))
    (AllReal.hostDivf (AllReal.mulf (AllReal.bcast _ (AllReal.const ofBits_2)) (AllReal.sitofp _))
      (AllPos.bcast _ (AllPos.const ofBits_64 (by norm_num))))

/-- The rotation angles, a position over a positive divisor, are reals. -/
theorem angle_real (tp : IVec S2048 32) : AllReal (angle (F := Ideal) tp) :=
  AllReal.hostDivf (AllReal.bcast _ (AllReal.sitofp _)) (AllPos.bcast _ (AllPos.bcast _ freq_pos))

/-- The sign vector of the sine term, `-1` or `+1` at each lane, is real. -/
theorem sinSign_real : AllReal (sinSign (F := Ideal)) :=
  AllReal.select _ (AllReal.bcast _ (AllReal.const ofBits_neg1)) (AllReal.bcast _ (AllReal.const ofBits_1))

/-- Every entry of the cosine table is a real. -/
theorem cosTab_real (tp : IVec S2048 32) (s : Fin 2048) (d : Fin 64) :
    ∃ r : ℝ, (cosTab (F := Ideal) tp) (ValueIdx.ix2 s d) = (r : EReal) :=
  AllReal.hostCos (angle_real tp) (ix2 s d)

/-- Every entry of the signed sine table is a real. -/
theorem sinTab_real (tp : IVec S2048 32) (s : Fin 2048) (d : Fin 64) :
    ∃ r : ℝ, (sinTab (F := Ideal) tp) (ValueIdx.ix2 s d) = (r : EReal) :=
  AllReal.mulf (AllReal.hostSin (angle_real tp)) (AllReal.bcast _ (AllReal.bcast _ sinSign_real)) (ix2 s d)

end Cert.Finite

end
-- ==== Proof.LibOnlineSoftmax.lean ====
/-
  The online form of a softmax-weighted sum, on the extended reals.

  A row of scores `s k` (each a real or `-∞`) and real values `v k` are visited block by block. The running
  state is a triple: the running maximum `m`, the running normaliser `l` and the running weighted sum `a`. A
  visit of a block `K` replaces the maximum by `m' = max m (sup_K s)`, rescales the two sums by
  `exp (m - m')`, and adds the block's terms `exp (s k - m')` and `exp (s k - m') * v k`.

  The point of the rescaling is that `exp (M - M') * exp (x - M) = exp (x - M')`, so after any number of visits
  the two sums are the sums of `exp (s k - M)` and `exp (s k - M) * v k` over all visited keys at the CURRENT
  real maximum `M` (a score `-∞` contributes `exp (-∞) = 0`). Their quotient does not depend on `M` at all
  (numerator and denominator carry the same factor `exp (-M)`), so it equals the softmax-weighted sum computed
  at any other real shift `R`, as long as some score is real (the normaliser is then positive).
-/
import Idealize.ShloMosaic.PureOps.Ideal

noncomputable section

namespace OnlineSoftmax

open Idealize.ShloMosaic

variable {ι : Type} [DecidableEq ι]

/-- The weight of a score `x` at the real shift `M`: `exp (x - M)`, with `exp (-∞) = 0`. -/
def wt (M : ℝ) (x : EReal) : ℝ := if x = ⊥ then 0 else Real.exp (x.toReal - M)

theorem wt_nonneg (M : ℝ) (x : EReal) : 0 ≤ wt M x := by
  unfold wt; split_ifs
  · exact le_rfl
  · exact (Real.exp_pos _).le

theorem wt_pos (M : ℝ) {x : EReal} (hx : x ≠ ⊥) : 0 < wt M x := by
  unfold wt; rw [if_neg hx]; exact Real.exp_pos _

theorem wt_bot (M : ℝ) : wt M ⊥ = 0 := by unfold wt; rw [if_pos rfl]

/-- Changing the shift multiplies every weight by the same factor. -/
theorem wt_shift (M M' : ℝ) (x : EReal) : Real.exp (M - M') * wt M x = wt M' x := by
  unfold wt; split_ifs
  · exact mul_zero _
  · rw [← Real.exp_add]; congr 1; ring

/-- The exponential of a shifted score is the weight, as an extended real. -/
theorem exp_sub_coe {x : EReal} (hx : x ≠ ⊤) (M : ℝ) : Ideal.exp (x - (M : EReal)) = ((wt M x : ℝ) : EReal) := by
  induction x using EReal.rec with
  | bot => rw [wt_bot, EReal.bot_sub, Ideal.exp_bot, EReal.coe_zero]
  | top => exact absurd rfl hx
  | coe r =>
    rw [← EReal.coe_sub, Ideal.exp_coe]
    unfold wt; rw [if_neg (EReal.coe_ne_bot r), EReal.toReal_coe]

/-- The coercion of a finite real sum is the sum of the coercions. -/
theorem coe_sum (K : Finset ι) (f : ι → ℝ) : ((∑ k ∈ K, f k : ℝ) : EReal) = ∑ k ∈ K, ((f k : ℝ) : EReal) := by
  induction K using Finset.induction_on with
  | empty => simp
  | insert a K ha ih => rw [Finset.sum_insert ha, Finset.sum_insert ha, EReal.coe_add, ih]

/-- One visit of the block `K`: the new maximum, the rescaled normaliser plus the block's weights, the rescaled
    weighted sum plus the block's weighted values. -/
def visit (s v : ι → EReal) (K : Finset ι) (st : EReal × EReal × EReal) : EReal × EReal × EReal :=
  (max st.1 (K.sup s),
   Ideal.exp (st.1 - max st.1 (K.sup s)) * st.2.1 + ∑ k ∈ K, Ideal.exp (s k - max st.1 (K.sup s)),
   Ideal.exp (st.1 - max st.1 (K.sup s)) * st.2.2 + ∑ k ∈ K, Ideal.exp (s k - max st.1 (K.sup s)) * v k)

/-- A visit of the image of a block under an embedding of key indices is the visit of the block itself for the
    composed scores and values. -/
theorem visit_map {κ : Type} (e : κ ↪ ι) (s v : ι → EReal) (K : Finset κ) (st : EReal × EReal × EReal) :
    visit s v (K.map e) st = visit (fun k => s (e k)) (fun k => v (e k)) K st := by
  unfold visit
  simp only [Finset.sup_map, Finset.sum_map, Function.comp_def]

/-- The state after the keys `P` have been visited: a real maximum `M` and the two sums at that shift. -/
def Inv (s : ι → EReal) (v' : ι → ℝ) (P : Finset ι) (st : EReal × EReal × EReal) : Prop :=
  ∃ M : ℝ, st.1 = (M : EReal) ∧ st.2.1 = ((∑ k ∈ P, wt M (s k) : ℝ) : EReal)
    ∧ st.2.2 = ((∑ k ∈ P, wt M (s k) * v' k : ℝ) : EReal)

theorem sup_ne_top (s : ι → EReal) (hs : ∀ k, s k ≠ ⊤) (K : Finset ι) : K.sup s ≠ ⊤ :=
  ne_of_lt ((Finset.sup_lt_iff (by exact bot_lt_top)).mpr fun k _ => lt_top_iff_ne_top.mpr (hs k))

theorem sup_ne_bot (s : ι → EReal) (K : Finset ι) {k0 : ι} (hk0 : k0 ∈ K) (h0 : s k0 ≠ ⊥) : K.sup s ≠ ⊥ := fun h =>
  h0 (le_bot_iff.mp (h ▸ Finset.le_sup hk0))

/-- The block's terms, read as reals at the new shift. -/
theorem block_sums (s : ι → EReal) (hs : ∀ k, s k ≠ ⊤) (v' : ι → ℝ) (K : Finset ι) (M' : ℝ) :
    (∑ k ∈ K, Ideal.exp (s k - (M' : EReal))) = ((∑ k ∈ K, wt M' (s k) : ℝ) : EReal)
    ∧ (∑ k ∈ K, Ideal.exp (s k - (M' : EReal)) * ((v' k : ℝ) : EReal)) = ((∑ k ∈ K, wt M' (s k) * v' k : ℝ) : EReal) := by
  refine ⟨?_, ?_⟩
  · rw [coe_sum]; exact Finset.sum_congr rfl fun k _ => exp_sub_coe (hs k) M'
  · rw [coe_sum]; exact Finset.sum_congr rfl fun k _ => by rw [exp_sub_coe (hs k) M', EReal.coe_mul]

/-- The first visit, from the empty state `(-∞, 0, 0)`, of a block that holds a real score. -/
theorem visit_first (s : ι → EReal) (hs : ∀ k, s k ≠ ⊤) (v' : ι → ℝ) (K : Finset ι) {k0 : ι} (hk0 : k0 ∈ K)
    (h0 : s k0 ≠ ⊥) : Inv s v' K (visit s (fun k => ((v' k : ℝ) : EReal)) K (⊥, 0, 0)) := by
  obtain ⟨M, hM⟩ : ∃ M : ℝ, K.sup s = (M : EReal) := by
    induction h : K.sup s using EReal.rec with
    | bot => exact absurd h (sup_ne_bot s K hk0 h0)
    | top => exact absurd h (sup_ne_top s hs K)
    | coe r => exact ⟨r, rfl⟩
  refine ⟨M, ?_, ?_, ?_⟩
  · show max ⊥ (K.sup s) = _
    rw [bot_sup_eq, hM]
  · show Ideal.exp (⊥ - max ⊥ (K.sup s)) * 0 + ∑ k ∈ K, Ideal.exp (s k - max ⊥ (K.sup s)) = _
    rw [bot_sup_eq, hM, mul_zero, zero_add]; exact (block_sums s hs v' K M).1
  · show Ideal.exp (⊥ - max ⊥ (K.sup s)) * 0 + ∑ k ∈ K, Ideal.exp (s k - max ⊥ (K.sup s)) * ((v' k : ℝ) : EReal) = _
    rw [bot_sup_eq, hM, mul_zero, zero_add]; exact (block_sums s hs v' K M).2

/-- A later visit of a block disjoint from the keys seen so far. -/
theorem visit_next (s : ι → EReal) (hs : ∀ k, s k ≠ ⊤) (v' : ι → ℝ) (P K : Finset ι) (hPK : Disjoint P K)
    (st : EReal × EReal × EReal) (h : Inv s v' P st) :
    Inv s v' (P ∪ K) (visit s (fun k => ((v' k : ℝ) : EReal)) K st) := by
  obtain ⟨M, hm, hl, ha⟩ := h
  obtain ⟨M', hM'⟩ : ∃ M' : ℝ, max (M : EReal) (K.sup s) = (M' : EReal) := by
    induction h : K.sup s using EReal.rec with
    | bot => exact ⟨M, by rw [max_eq_left bot_le]⟩
    | top => exact absurd h (sup_ne_top s hs K)
    | coe r => exact ⟨max M r, (EReal.coe_strictMono.monotone.map_max).symm⟩
  have hexp : Ideal.exp ((M : EReal) - (M' : EReal)) = ((Real.exp (M - M') : ℝ) : EReal) := by
    rw [← EReal.coe_sub, Ideal.exp_coe]
  refine ⟨M', ?_, ?_, ?_⟩
  · show max st.1 (K.sup s) = _
    rw [hm, hM']
  · show Ideal.exp (st.1 - max st.1 (K.sup s)) * st.2.1 + ∑ k ∈ K, Ideal.exp (s k - max st.1 (K.sup s)) = _
    rw [hm, hM', hexp, hl, (block_sums s hs v' K M').1, ← EReal.coe_mul, ← EReal.coe_add, Finset.sum_union hPK,
      Finset.mul_sum]
    congr 2
    exact Finset.sum_congr rfl fun k _ => wt_shift M M' (s k)
  · show Ideal.exp (st.1 - max st.1 (K.sup s)) * st.2.2
        + ∑ k ∈ K, Ideal.exp (s k - max st.1 (K.sup s)) * ((v' k : ℝ) : EReal) = _
    rw [hm, hM', hexp, ha, (block_sums s hs v' K M').2, ← EReal.coe_mul, ← EReal.coe_add, Finset.sum_union hPK,
      Finset.mul_sum]
    congr 2
    exact Finset.sum_congr rfl fun k _ => by rw [← mul_assoc, wt_shift M M' (s k)]

/-- Visiting, in order, a list of blocks that are disjoint from the keys seen so far and from one another. -/
theorem visits_inv (s : ι → EReal) (hs : ∀ k, s k ≠ ⊤) (v' : ι → ℝ) :
    ∀ (Ks : List (Finset ι)) (P : Finset ι) (st : EReal × EReal × EReal), Inv s v' P st →
      (∀ K ∈ Ks, Disjoint P K) → Ks.Pairwise Disjoint →
      Inv s v' (Ks.foldl (· ∪ ·) P) (Ks.foldl (fun st K => visit s (fun k => ((v' k : ℝ) : EReal)) K st) st)
  | [], _, _, h, _, _ => h
  | K :: Ks, P, st, h, hP, hpw => by
    rw [List.foldl_cons, List.foldl_cons]
    refine visits_inv s hs v' Ks (P ∪ K) _ (visit_next s hs v' P K (hP K (List.mem_cons_self ..)) st h) ?_
      (List.pairwise_cons.mp hpw).2
    intro K' hK'
    exact Finset.disjoint_union_left.mpr ⟨hP K' (List.mem_cons_of_mem _ hK'), (List.pairwise_cons.mp hpw).1 K' hK'⟩

/-- THE IDENTITY. Once every key that carries a real score has been visited, the running weighted sum divided
    by the running normaliser is the softmax-weighted sum of the values: each weight `exp (s k - R)` over the
    sum of all of them, at ANY real shift `R` (a reference takes the row's maximum). -/
theorem div_eq_softmax [Fintype ι] (s : ι → EReal) (hs : ∀ k, s k ≠ ⊤) (v' : ι → ℝ) (U : Finset ι)
    (hU : ∀ k, k ∉ U → s k = ⊥) {k0 : ι} (h0 : s k0 ≠ ⊥) (st : EReal × EReal × EReal) (h : Inv s v' U st) (R : ℝ) :
    Ideal.div st.2.2 st.2.1
      = ∑ k, Ideal.div (Ideal.exp (s k - (R : EReal))) (∑ j, Ideal.exp (s j - (R : EReal))) * ((v' k : ℝ) : EReal) := by
  obtain ⟨M, -, hl, ha⟩ := h
  have huniv : ∀ (N : ℝ) (g : ι → ℝ), (∑ k ∈ U, wt N (s k) * g k) = ∑ k, wt N (s k) * g k := fun N g =>
    Finset.sum_subset (Finset.subset_univ U) fun k _ hk => by rw [hU k hk, wt_bot, zero_mul]
  have hZpos : ∀ N : ℝ, 0 < ∑ k, wt N (s k) := fun N =>
    Finset.sum_pos' (fun k _ => wt_nonneg N (s k)) ⟨k0, Finset.mem_univ k0, wt_pos N h0⟩
  have hl' : st.2.1 = ((∑ k, wt M (s k) : ℝ) : EReal) := by
    rw [hl]; congr 1
    simpa using huniv M fun _ => (1 : ℝ)
  have ha' : st.2.2 = ((∑ k, wt M (s k) * v' k : ℝ) : EReal) := by rw [ha, huniv M v']
  have hsumR : (∑ j, Ideal.exp (s j - (R : EReal))) = ((∑ j, wt R (s j) : ℝ) : EReal) :=
    (block_sums s hs v' Finset.univ R).1
  -- the two shifts differ by one common factor, which cancels in the quotient
  have hA : (∑ k, wt M (s k) * v' k) = Real.exp (R - M) * ∑ k, wt R (s k) * v' k := by
    rw [Finset.mul_sum]; exact Finset.sum_congr rfl fun k _ => by rw [← wt_shift R M (s k), mul_assoc]
  have hZ : (∑ k, wt M (s k)) = Real.exp (R - M) * ∑ k, wt R (s k) := by
    rw [Finset.mul_sum]; exact Finset.sum_congr rfl fun k _ => (wt_shift R M (s k)).symm
  have hS : (∑ k, wt R (s k) * (1 / ∑ j, wt R (s j)) * v' k) = (∑ k, wt R (s k) * v' k) * (1 / ∑ j, wt R (s j)) := by
    rw [Finset.sum_mul]; exact Finset.sum_congr rfl fun k _ => by ring
  have hreal : (∑ k, wt M (s k) * v' k) * (1 / ∑ k, wt M (s k))
      = ∑ k, wt R (s k) * (1 / ∑ j, wt R (s j)) * v' k := by
    rw [hS, hA, hZ]
    have hE : Real.exp (R - M) ≠ 0 := (Real.exp_pos _).ne'
    have hZR : (∑ k, wt R (s k)) ≠ 0 := (hZpos R).ne'
    field_simp
  have hterm : ∀ k, Ideal.div (Ideal.exp (s k - (R : EReal))) ((∑ j, wt R (s j) : ℝ) : EReal) * ((v' k : ℝ) : EReal)
      = ((wt R (s k) * (1 / ∑ j, wt R (s j)) * v' k : ℝ) : EReal) := fun k => by
    rw [Ideal.div_coe (hZpos R).ne', exp_sub_coe (hs k) R, ← EReal.coe_mul, ← EReal.coe_mul]
  rw [hl', ha', Ideal.div_coe (hZpos M).ne', ← EReal.coe_mul, hsumR, Finset.sum_congr rfl fun k _ => hterm k,
    ← coe_sum, hreal]

end OnlineSoftmax

end
-- ==== Proof.RefSide.lean ====
/- The reference's attention output entry as a softmax-weighted sum of the values over the masked scaled scores, and the
   facts that keep the computation on the reals: under real queries and keys a masked score is a real on or below the
   diagonal and `-∞` above it, each row's maximum is a real, and the projections, the head split and the rotation send
   arrays of reals to arrays of reals. -/
import proofs.«155122_j66666482368602_2_alg».proof.Proof.RefRead
import proofs.«155122_j66666482368602_2_alg».proof.Proof.Finite
import proofs.«155122_j66666482368602_2_alg».proof.Proof.LibOnlineSoftmax

noncomputable section

namespace Cert.ReferenceIdeal.RefValue

open Cert.ReferenceIdeal Cert.ReferenceIdeal.Gen Idealize.ShloMosaic Idealize.ShloMosaic.ValueIdx
open scoped BigOperators

/-! ## The masked scaled score -/

/-- The masked scaled score of query position `i` against key position `j`: the lane sum of query times key, times one
    eighth, on or below the diagonal; `-∞` above it. -/
def mscore (q k : FVec Ideal S2x16x2048x64 .f32) (b : Fin 2) (h : Fin 16) (i j : Fin 2048) : EReal :=
  if j.val ≤ i.val then (∑ dd : Fin 64, q (ix4 b h i dd) * k (ix4 b h j dd)) * (((1 / 8 : ℝ) : ℝ) : EReal) else ⊥

/-- The masked scores at an index are that. -/
theorem masked_scores_apply (q k : FVec Ideal S2x16x2048x64 .f32) (b : Fin 2) (h : Fin 16) (i j : Fin 2048) :
    masked (scores q k) (ix4 b h i j) = mscore q k b h i j := by
  rw [masked_apply, scores_apply, Ideal.div_coe (by norm_num : (8 : ℝ) ≠ 0)]
  rfl

/-- The reference's attention output entry: the values weighted by the softmax of the row of masked scores, the
    softmax taken at the row's maximum. -/
theorem ref_ctx_entry (q k v : FVec Ideal S2x16x2048x64 .f32) (b : Fin 2) (h : Fin 16) (i : Fin 2048) (d : Fin 64) :
    ctx (softmaxRow (masked (scores q k))) v (ix4 b h i d)
      = ∑ j : Fin 2048, Ideal.div (Ideal.exp (mscore q k b h i j - rowMax (masked (scores q k)) (ix3 b h i)))
          (∑ j' : Fin 2048, Ideal.exp (mscore q k b h i j' - rowMax (masked (scores q k)) (ix3 b h i)))
          * v (ix4 b h j d) := by
  rw [ctx_apply]
  refine Finset.sum_congr rfl fun j _ => ?_
  rw [softmaxRow_apply]
  simp only [masked_scores_apply]

/-! ## Reals stay reals -/

/-- A finite sum of products of reals is a real. -/
theorem sum_mul_real {n : Nat} (f g : Fin n → EReal) (hf : ∀ e, ∃ r : ℝ, f e = (r : EReal))
    (hg : ∀ e, ∃ r : ℝ, g e = (r : EReal)) : ∃ r : ℝ, ∑ e : Fin n, f e * g e = (r : EReal) := by
  choose F hF using hf
  choose G hG using hg
  refine ⟨∑ e : Fin n, F e * G e, ?_⟩
  rw [OnlineSoftmax.coe_sum]
  exact Finset.sum_congr rfl fun e _ => by rw [hF e, hG e, EReal.coe_mul]

/-- On or below the diagonal a masked score of real queries and keys is a real. -/
theorem mscore_real_of_le {q k : FVec Ideal S2x16x2048x64 .f32} (hq : ∀ idx, ∃ r : ℝ, q idx = (r : EReal))
    (hk : ∀ idx, ∃ r : ℝ, k idx = (r : EReal)) (b : Fin 2) (h : Fin 16) {i j : Fin 2048} (hji : j.val ≤ i.val) :
    ∃ r : ℝ, mscore q k b h i j = (r : EReal) := by
  obtain ⟨r, hr⟩ := sum_mul_real (fun dd : Fin 64 => q (ix4 b h i dd)) (fun dd => k (ix4 b h j dd)) (fun _ => hq _)
    (fun _ => hk _)
  refine ⟨r * (1 / 8), ?_⟩
  unfold mscore
  rw [if_pos hji, hr, EReal.coe_mul]

/-- A masked score of real queries and keys is never `+∞`. -/
theorem mscore_ne_top {q k : FVec Ideal S2x16x2048x64 .f32} (hq : ∀ idx, ∃ r : ℝ, q idx = (r : EReal))
    (hk : ∀ idx, ∃ r : ℝ, k idx = (r : EReal)) (b : Fin 2) (h : Fin 16) (i j : Fin 2048) : mscore q k b h i j ≠ ⊤ := by
  by_cases hji : j.val ≤ i.val
  · obtain ⟨r, hr⟩ := mscore_real_of_le hq hk b h hji
    rw [hr]; exact EReal.coe_ne_top r
  · unfold mscore; rw [if_neg hji]; exact bot_ne_top

/-- Against the first key position, which is on or below every diagonal, it is not `-∞` either. -/
theorem mscore_diag_ne_bot {q k : FVec Ideal S2x16x2048x64 .f32} (hq : ∀ idx, ∃ r : ℝ, q idx = (r : EReal))
    (hk : ∀ idx, ∃ r : ℝ, k idx = (r : EReal)) (b : Fin 2) (h : Fin 16) (i : Fin 2048) :
    mscore q k b h i ⟨0, by decide⟩ ≠ ⊥ := by
  obtain ⟨r, hr⟩ := mscore_real_of_le hq hk b h (i := i) (j := ⟨0, by decide⟩) (Nat.zero_le _)
  rw [hr]; exact EReal.coe_ne_bot r

/-- Each row's maximum of the masked scores is a real: it is one of the row's entries, none of which is `+∞`, and it
    is at least the entry against the first key position, which is a real. -/
theorem rowMax_real {q k : FVec Ideal S2x16x2048x64 .f32} (hq : ∀ idx, ∃ r : ℝ, q idx = (r : EReal))
    (hk : ∀ idx, ∃ r : ℝ, k idx = (r : EReal)) (b : Fin 2) (h : Fin 16) (i : Fin 2048) :
    ∃ R : ℝ, rowMax (masked (scores q k)) (ix3 b h i) = (R : EReal) := by
  obtain ⟨j, hj⟩ := rowMax_attained (masked (scores q k)) b h i
  have htop : rowMax (masked (scores q k)) (ix3 b h i) ≠ ⊤ := by
    rw [hj, masked_scores_apply]; exact mscore_ne_top hq hk b h i j
  have hbot : rowMax (masked (scores q k)) (ix3 b h i) ≠ ⊥ := by
    have hge := rowMax_ge (masked (scores q k)) b h i ⟨0, by decide⟩
    rw [masked_scores_apply] at hge
    intro hb
    rw [hb] at hge
    exact mscore_diag_ne_bot hq hk b h i (le_bot_iff.mp hge)
  induction hR : rowMax (masked (scores q k)) (ix3 b h i) using EReal.rec with
  | bot => exact absurd hR hbot
  | top => exact absurd hR htop
  | coe r => exact ⟨r, rfl⟩

/-- A projection of reals by reals is real at every index. -/
theorem proj_real {x : FVec Ideal S2x2048x1024 .f32} {w : FVec Ideal S1024x1024 .f32}
    (hx : ∀ idx, ∃ r : ℝ, x idx = (r : EReal)) (hw : ∀ idx, ∃ r : ℝ, w idx = (r : EReal)) :
    ∀ idx, ∃ r : ℝ, proj x w idx = (r : EReal) := by
  intro idx
  obtain ⟨b, s, o, rfl⟩ : ∃ (b : Fin 2) (s : Fin 2048) (o : Fin 1024), idx = ix3 b s o := ⟨idx 0, idx 1, idx 2, eq_ix3 idx⟩
  rw [proj_apply]
  exact sum_mul_real (fun e : Fin 1024 => x (ix3 b s e)) (fun e => w (ix2 o e)) (fun _ => hx _) (fun _ => hw _)

/-- The head split only rearranges entries. -/
theorem heads_real {y : FVec Ideal S2x2048x1024 .f32} (hy : ∀ idx, ∃ r : ℝ, y idx = (r : EReal)) :
    ∀ idx, ∃ r : ℝ, heads y idx = (r : EReal) := by
  intro idx
  obtain ⟨b, h, s, d, rfl⟩ : ∃ (b : Fin 2) (h : Fin 16) (s : Fin 2048) (d : Fin 64), idx = ix4 b h s d :=
    ⟨idx 0, idx 1, idx 2, idx 3, eq_ix4 idx⟩
  rw [heads_apply]
  exact hy _

/-- The rotation of reals is real: a real times a real cosine plus a real times a real sine. -/
theorem rope_real {y : FVec Ideal S2x16x2048x64 .f32} (hy : ∀ idx, ∃ r : ℝ, y idx = (r : EReal)) (tp : IVec S2048 32) :
    ∀ idx, ∃ r : ℝ, rope y tp idx = (r : EReal) := by
  intro idx
  obtain ⟨b, h, s, d, rfl⟩ : ∃ (b : Fin 2) (h : Fin 16) (s : Fin 2048) (d : Fin 64), idx = ix4 b h s d :=
    ⟨idx 0, idx 1, idx 2, idx 3, eq_ix4 idx⟩
  obtain ⟨a, ha⟩ := hy (ix4 b h s d)
  obtain ⟨a', ha'⟩ := hy (ix4 b h s (swap d))
  obtain ⟨c, hc⟩ := Cert.Finite.cosTab_real tp s d
  obtain ⟨z, hz⟩ := Cert.Finite.sinTab_real tp s d
  refine ⟨a * c + a' * z, ?_⟩
  rw [rope_apply, ha, ha', hc, hz, EReal.coe_add, EReal.coe_mul, EReal.coe_mul]

end Cert.ReferenceIdeal.RefValue

end
-- ==== Proof.AttnPieces.lean ====
/-
  What each case of the attention body leaves in the three scratch buffers and the output block, as the body's
  arithmetic applied to the point's input blocks and to what the scratch held before.

  One fold of a key block takes the running maximum `m`, normaliser `l` and weighted sum `a` to
  `m' = max m (row maxima of the masked scores)`, `l' = exp (m - m') · l + (row sums of exp (scores - m'))` and
  `a' = exp (m - m') · a + exp (scores - m') · values`. At key block 0 the fold starts from the reset state
  `(-∞, 0, 0)`; the output block receives `a / l` of the state as it stands after the last key block.
-/
import proofs.«155122_j66666482368602_2_alg».proof.Proof.AttnRegion
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := by funext a; fin_cases a <;> rfl
theorem hz3 : (![0, 0, 0] : Fin 3 → Nat) = fun _ => 0 := by funext a; fin_cases a <;> rfl

/-- The query-block and key-block coordinates of a point, as the 32-bit words the body computes with. -/
abbrev qw (t : Fin cfg1.N) : BitVec 32 := BitVec.ofNat 32 ((grid1.coords t) 1).val
abbrev kw (t : Fin cfg1.N) : BitVec 32 := BitVec.ofNat 32 ((grid1.coords t) 2).val

/-- One fold: the new running maximum, normaliser and weighted sum. -/
def foldM (t : Fin cfg1.N) (x0 : Vec F S1x1024x64 .bf16) (x1 : Vec F S1x64x512 .bf16) (m : Vec F S1024x1 .f32) : Vec F S1024x1 .f32 :=
  k1_pay5 (k1_pay8 (qw t) (kw t) x0 x1 m)
def foldL (t : Fin cfg1.N) (x0 : Vec F S1x1024x64 .bf16) (x1 : Vec F S1x64x512 .bf16) (m l : Vec F S1024x1 .f32) : Vec F S1024x1 .f32 :=
  k1_pay11 (qw t) (kw t) x0 x1 m m l
def foldA (t : Fin cfg1.N) (x0 : Vec F S1x1024x64 .bf16) (x1 : Vec F S1x64x512 .bf16) (x2 : Vec F S1x512x64 .bf16)
    (m : Vec F S1024x1 .f32) (a : Vec F S1024x64 .f32) : Vec F S1024x64 .f32 :=
  k1_pay4 (k1_pay9 (qw t) (kw t) x0 x1 m m) (k1_pay10 (qw t) (kw t) x0 x1 m) a x2

/-- A whole scratch buffer read back at contents written into it whole. -/
theorem read_unread_sc0 (X : Vec F S1024x1 .f32) :
    View.read (Elt F) (View.whole cc1_scratch0) ((Memref.isWhole_whole cc1_scratch0).unread X) = X :=
  Memref.IsWhole.read_unread (Memref.isWhole_whole cc1_scratch0) X
theorem read_unread_sc1 (X : Vec F S1024x1 .f32) :
    View.read (Elt F) (View.whole cc1_scratch1) ((Memref.isWhole_whole cc1_scratch1).unread X) = X :=
  Memref.IsWhole.read_unread (Memref.isWhole_whole cc1_scratch1) X
theorem read_unread_sc2 (X : Vec F S1024x64 .f32) :
    View.read (Elt F) (View.whole cc1_scratch2) ((Memref.isWhole_whole cc1_scratch2).unread X) = X :=
  Memref.IsWhole.read_unread (Memref.isWhole_whole cc1_scratch2) X

/-! ## Key block 0: one fold from the reset state -/

theorem stepA_s0 (c : Dev nD) (t : Fin cfg1.N) (h0 : t.val % 4 = 0) :
    (stepA V c t h0).s0 = foldM t (iblk1 V c 0 t) (iblk1 V c 1 t) k1_pay1 := by
  unfold stepA
  dsimp only
  rw [View.read_writes_eq_canon _ _ _ (scoverA_0 V c t h0)]
  unfold kernelRun1_A
  dsimp only
  sl_unfold_words
  rw [View.canon_cons_unit_zero hz2]
  simp only [View.readAt_eq_ld, Memref.IsWhole.read_unread, View.ld_unit_zero (S := S1x1024x64) hz3, View.ld_unit_zero (S := S1x64x512) hz3,
    View.ld_unit_zero (S := S1x512x64) hz3, View.ld_unit_zero (S := S1024x1) hz2, View.ld_unit_zero (S := S1024x64) hz2,
    View.readCov_unit_zero (S := S1024x1) _ hz2, View.readCov_unit_zero (S := S1024x64) _ hz2,
    read_unread_sc0, read_unread_sc1, read_unread_sc2]
  try simp only [foldM, foldL, foldA, qw, kw]

theorem stepA_s1 (c : Dev nD) (t : Fin cfg1.N) (h0 : t.val % 4 = 0) :
    (stepA V c t h0).s1 = foldL t (iblk1 V c 0 t) (iblk1 V c 1 t) k1_pay1 k1_pay2 := by
  unfold stepA
  dsimp only
  rw [View.read_writes_eq_canon _ _ _ (scoverA_1 V c t h0)]
  unfold kernelRun1_A
  dsimp only
  sl_unfold_words
  rw [View.canon_cons_unit_zero hz2]
  simp only [View.readAt_eq_ld, Memref.IsWhole.read_unread, View.ld_unit_zero (S := S1x1024x64) hz3, View.ld_unit_zero (S := S1x64x512) hz3,
    View.ld_unit_zero (S := S1x512x64) hz3, View.ld_unit_zero (S := S1024x1) hz2, View.ld_unit_zero (S := S1024x64) hz2,
    View.readCov_unit_zero (S := S1024x1) _ hz2, View.readCov_unit_zero (S := S1024x64) _ hz2,
    read_unread_sc0, read_unread_sc1, read_unread_sc2]
  try simp only [foldM, foldL, foldA, qw, kw]

theorem stepA_s2 (c : Dev nD) (t : Fin cfg1.N) (h0 : t.val % 4 = 0) :
    (stepA V c t h0).s2 = foldA t (iblk1 V c 0 t) (iblk1 V c 1 t) (iblk1 V c 2 t) k1_pay1 k1_pay3 := by
  unfold stepA
  dsimp only
  rw [View.read_writes_eq_canon _ _ _ (scoverA_2 V c t h0)]
  unfold kernelRun1_A
  dsimp only
  sl_unfold_words
  rw [View.canon_cons_unit_zero hz2]
  simp only [View.readAt_eq_ld, Memref.IsWhole.read_unread, View.ld_unit_zero (S := S1x1024x64) hz3, View.ld_unit_zero (S := S1x64x512) hz3,
    View.ld_unit_zero (S := S1x512x64) hz3, View.ld_unit_zero (S := S1024x1) hz2, View.ld_unit_zero (S := S1024x64) hz2,
    View.readCov_unit_zero (S := S1024x1) _ hz2, View.readCov_unit_zero (S := S1024x64) _ hz2,
    read_unread_sc0, read_unread_sc1, read_unread_sc2]
  try simp only [foldM, foldL, foldA, qw, kw]

/-! ## A later folded key block: one fold from what the point before left -/

theorem stepB_s0 (c : Dev nD) (t : Fin cfg1.N) (h0 : ¬t.val % 4 = 0) (h1 : t.val % 4 ≤ 2 * (t.val / 4 % 2) + 1) (h2 : ¬t.val % 4 = 3) (p : AttnSt F) :
    (stepB V c t h0 h1 h2 p).s0 = foldM t (iblk1 V c 0 t) (iblk1 V c 1 t) p.s0 := by
  unfold stepB
  dsimp only
  rw [View.read_writes_eq_canon _ _ _ (scoverB_0 V c t h0 h1 h2 p)]
  unfold kernelRun1_B
  dsimp only
  sl_unfold_words
  rw [View.canon_unit_zero hz2]
  simp only [View.readAt_eq_ld, Memref.IsWhole.read_unread, View.ld_unit_zero (S := S1x1024x64) hz3, View.ld_unit_zero (S := S1x64x512) hz3,
    View.ld_unit_zero (S := S1x512x64) hz3, View.ld_unit_zero (S := S1024x1) hz2, View.ld_unit_zero (S := S1024x64) hz2,
    View.readCov_unit_zero (S := S1024x1) _ hz2, View.readCov_unit_zero (S := S1024x64) _ hz2,
    read_unread_sc0, read_unread_sc1, read_unread_sc2]
  try simp only [foldM, foldL, foldA, qw, kw]

theorem stepB_s1 (c : Dev nD) (t : Fin cfg1.N) (h0 : ¬t.val % 4 = 0) (h1 : t.val % 4 ≤ 2 * (t.val / 4 % 2) + 1) (h2 : ¬t.val % 4 = 3) (p : AttnSt F) :
    (stepB V c t h0 h1 h2 p).s1 = foldL t (iblk1 V c 0 t) (iblk1 V c 1 t) p.s0 p.s1 := by
  unfold stepB
  dsimp only
  rw [View.read_writes_eq_canon _ _ _ (scoverB_1 V c t h0 h1 h2 p)]
  unfold kernelRun1_B
  dsimp only
  sl_unfold_words
  rw [View.canon_unit_zero hz2]
  simp only [View.readAt_eq_ld, Memref.IsWhole.read_unread, View.ld_unit_zero (S := S1x1024x64) hz3, View.ld_unit_zero (S := S1x64x512) hz3,
    View.ld_unit_zero (S := S1x512x64) hz3, View.ld_unit_zero (S := S1024x1) hz2, View.ld_unit_zero (S := S1024x64) hz2,
    View.readCov_unit_zero (S := S1024x1) _ hz2, View.readCov_unit_zero (S := S1024x64) _ hz2,
    read_unread_sc0, read_unread_sc1, read_unread_sc2]
  try simp only [foldM, foldL, foldA, qw, kw]

theorem stepB_s2 (c : Dev nD) (t : Fin cfg1.N) (h0 : ¬t.val % 4 = 0) (h1 : t.val % 4 ≤ 2 * (t.val / 4 % 2) + 1) (h2 : ¬t.val % 4 = 3) (p : AttnSt F) :
    (stepB V c t h0 h1 h2 p).s2 = foldA t (iblk1 V c 0 t) (iblk1 V c 1 t) (iblk1 V c 2 t) p.s0 p.s2 := by
  unfold stepB
  dsimp only
  rw [View.read_writes_eq_canon _ _ _ (scoverB_2 V c t h0 h1 h2 p)]
  unfold kernelRun1_B
  dsimp only
  sl_unfold_words
  rw [View.canon_unit_zero hz2]
  simp only [View.readAt_eq_ld, Memref.IsWhole.read_unread, View.ld_unit_zero (S := S1x1024x64) hz3, View.ld_unit_zero (S := S1x64x512) hz3,
    View.ld_unit_zero (S := S1x512x64) hz3, View.ld_unit_zero (S := S1024x1) hz2, View.ld_unit_zero (S := S1024x64) hz2,
    View.readCov_unit_zero (S := S1024x1) _ hz2, View.readCov_unit_zero (S := S1024x64) _ hz2,
    read_unread_sc0, read_unread_sc1, read_unread_sc2]
  try simp only [foldM, foldL, foldA, qw, kw]

/-! ## The last key block -/

theorem stepD_out (c : Dev nD) (t : Fin cfg1.N) (h0 : ¬t.val % 4 = 0) (h1 : ¬t.val % 4 ≤ 2 * (t.val / 4 % 2) + 1) (h2 : t.val % 4 = 3) (p : AttnSt F) :
    (stepD V c t h0 h1 h2 p).out = k1_pay6 p.s2 p.s1 := by
  unfold stepD
  dsimp only
  rw [View.read_writes_eq_canon _ _ _ (coverD_3 V c t h0 h1 h2 p)]
  unfold kernelRun1_D
  dsimp only
  sl_unfold_words
  rw [View.canon_unit_zero hz3]
  simp only [View.readAt_eq_ld, Memref.IsWhole.read_unread, View.ld_unit_zero (S := S1x1024x64) hz3, View.ld_unit_zero (S := S1x64x512) hz3,
    View.ld_unit_zero (S := S1x512x64) hz3, View.ld_unit_zero (S := S1024x1) hz2, View.ld_unit_zero (S := S1024x64) hz2,
    View.readCov_unit_zero (S := S1024x1) _ hz2, View.readCov_unit_zero (S := S1024x64) _ hz2,
    read_unread_sc0, read_unread_sc1, read_unread_sc2]
  try simp only [foldM, foldL, foldA, qw, kw]

theorem stepE_s0 (c : Dev nD) (t : Fin cfg1.N) (h0 : ¬t.val % 4 = 0) (h1 : t.val % 4 ≤ 2 * (t.val / 4 % 2) + 1) (h2 : t.val % 4 = 3) (p : AttnSt F) :
    (stepE V c t h0 h1 h2 p).s0 = foldM t (iblk1 V c 0 t) (iblk1 V c 1 t) p.s0 := by
  unfold stepE
  dsimp only
  rw [View.read_writes_eq_canon _ _ _ (scoverE_0 V c t h0 h1 h2 p)]
  unfold kernelRun1_E
  dsimp only
  sl_unfold_words
  rw [View.canon_unit_zero hz2]
  simp only [View.readAt_eq_ld, Memref.IsWhole.read_unread, View.ld_unit_zero (S := S1x1024x64) hz3, View.ld_unit_zero (S := S1x64x512) hz3,
    View.ld_unit_zero (S := S1x512x64) hz3, View.ld_unit_zero (S := S1024x1) hz2, View.ld_unit_zero (S := S1024x64) hz2,
    View.readCov_unit_zero (S := S1024x1) _ hz2, View.readCov_unit_zero (S := S1024x64) _ hz2,
    read_unread_sc0, read_unread_sc1, read_unread_sc2]
  try simp only [foldM, foldL, foldA, qw, kw]

theorem stepE_s1 (c : Dev nD) (t : Fin cfg1.N) (h0 : ¬t.val % 4 = 0) (h1 : t.val % 4 ≤ 2 * (t.val / 4 % 2) + 1) (h2 : t.val % 4 = 3) (p : AttnSt F) :
    (stepE V c t h0 h1 h2 p).s1 = foldL t (iblk1 V c 0 t) (iblk1 V c 1 t) p.s0 p.s1 := by
  unfold stepE
  dsimp only
  rw [View.read_writes_eq_canon _ _ _ (scoverE_1 V c t h0 h1 h2 p)]
  unfold kernelRun1_E
  dsimp only
  sl_unfold_words
  rw [View.canon_unit_zero hz2]
  simp only [View.readAt_eq_ld, Memref.IsWhole.read_unread, View.ld_unit_zero (S := S1x1024x64) hz3, View.ld_unit_zero (S := S1x64x512) hz3,
    View.ld_unit_zero (S := S1x512x64) hz3, View.ld_unit_zero (S := S1024x1) hz2, View.ld_unit_zero (S := S1024x64) hz2,
    View.readCov_unit_zero (S := S1024x1) _ hz2, View.readCov_unit_zero (S := S1024x64) _ hz2,
    read_unread_sc0, read_unread_sc1, read_unread_sc2]
  try simp only [foldM, foldL, foldA, qw, kw]

theorem stepE_s2 (c : Dev nD) (t : Fin cfg1.N) (h0 : ¬t.val % 4 = 0) (h1 : t.val % 4 ≤ 2 * (t.val / 4 % 2) + 1) (h2 : t.val % 4 = 3) (p : AttnSt F) :
    (stepE V c t h0 h1 h2 p).s2 = foldA t (iblk1 V c 0 t) (iblk1 V c 1 t) (iblk1 V c 2 t) p.s0 p.s2 := by
  unfold stepE
  dsimp only
  rw [View.read_writes_eq_canon _ _ _ (scoverE_2 V c t h0 h1 h2 p)]
  unfold kernelRun1_E
  dsimp only
  sl_unfold_words
  rw [View.canon_unit_zero hz2]
  simp only [View.readAt_eq_ld, Memref.IsWhole.read_unread, View.ld_unit_zero (S := S1x1024x64) hz3, View.ld_unit_zero (S := S1x64x512) hz3,
    View.ld_unit_zero (S := S1x512x64) hz3, View.ld_unit_zero (S := S1024x1) hz2, View.ld_unit_zero (S := S1024x64) hz2,
    View.readCov_unit_zero (S := S1024x1) _ hz2, View.readCov_unit_zero (S := S1024x64) _ hz2,
    read_unread_sc0, read_unread_sc1, read_unread_sc2]
  try simp only [foldM, foldL, foldA, qw, kw]

theorem stepE_out (c : Dev nD) (t : Fin cfg1.N) (h0 : ¬t.val % 4 = 0) (h1 : t.val % 4 ≤ 2 * (t.val / 4 % 2) + 1) (h2 : t.val % 4 = 3) (p : AttnSt F) :
    (stepE V c t h0 h1 h2 p).out = k1_pay6 (foldA t (iblk1 V c 0 t) (iblk1 V c 1 t) (iblk1 V c 2 t) p.s0 p.s2) (foldL t (iblk1 V c 0 t) (iblk1 V c 1 t) p.s0 p.s1) := by
  unfold stepE
  dsimp only
  rw [View.read_writes_eq_canon _ _ _ (coverE_3 V c t h0 h1 h2 p)]
  unfold kernelRun1_E
  dsimp only
  sl_unfold_words
  rw [View.canon_unit_zero hz3]
  simp only [View.readAt_eq_ld, Memref.IsWhole.read_unread, View.ld_unit_zero (S := S1x1024x64) hz3, View.ld_unit_zero (S := S1x64x512) hz3,
    View.ld_unit_zero (S := S1x512x64) hz3, View.ld_unit_zero (S := S1024x1) hz2, View.ld_unit_zero (S := S1024x64) hz2,
    View.readCov_unit_zero (S := S1024x1) _ hz2, View.readCov_unit_zero (S := S1024x64) _ hz2,
    read_unread_sc0, read_unread_sc1, read_unread_sc2]
  try simp only [foldM, foldL, foldA, qw, kw]

end Cert.KernelIdeal.Hand
end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.AttnFold.lean ====
/-
  One fold of a key block, read at the ideal values row by row: for a row `r` of the query block and a feature
  column `d`, the new maximum, normaliser and weighted-sum entry are one visit (LibOnlineSoftmax) of the block's
  512 keys, with the row's masked scores as scores and the value block's column `d` as values.
-/
import proofs.«155122_j66666482368602_2_alg».proof.Proof.AttnPieces
import proofs.«155122_j66666482368602_2_alg».proof.Proof.LibKeepdims
import proofs.«155122_j66666482368602_2_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.ValueIdx

/-- The row's masked score against local key `c`. -/
abbrev sc (a1 a2 : BitVec 32) (x0 : Vec Ideal S1x1024x64 .bf16) (x1 : Vec Ideal S1x64x512 .bf16) (r : Fin 1024) (c : Fin 512) : EReal :=
  k1_pay7 (F := Ideal) a1 a2 x0 x1 (ix2 r c)

/-- The fold of `max` from −∞ over a finite type is the supremum. -/
theorem fold_max_eq_sup {ι : Type} [Fintype ι] (g : ι → EReal) : (Finset.univ : Finset ι).fold max (⊥ : EReal) g = Finset.univ.sup g := rfl

theorem ofBits_ninf : Ideal.ofBits .f32 0xFF800000#32 = ⊥ := by simp [Ideal.ofBits, Ideal.ieee]

/-- The index a lane reduction over the key axis reads: row `r`, key `c`. -/
theorem lift_row (r : Fin 1024) (c : Fin 512) : reduces_S1024x512_S1024.lift (ix1 r) c = ix2 r c :=
  funext fun ax => Fin.ext (by
    match ax with
    | ⟨0, _⟩ => rfl
    | ⟨1, _⟩ => rfl)

/-- The new running maximum of row `r`: the old one against the supremum of the row's masked scores. -/
theorem pay8_apply (a1 a2 : BitVec 32) (x0 : Vec Ideal S1x1024x64 .bf16) (x1 : Vec Ideal S1x64x512 .bf16) (m : Vec Ideal S1024x1 .f32) (r : Fin 1024) :
    k1_pay8 (F := Ideal) a1 a2 x0 x1 m (ix2 r (0 : Fin 1)) = max (m (ix2 r (0 : Fin 1))) (Finset.univ.sup fun c : Fin 512 => sc a1 a2 x0 x1 r c) := by
  have e1 : ∀ (v : FVec Ideal S1024 .f32), shapeCast S1024x1 v shapeCasts_S1024_S1024x1 (ix2 r (0 : Fin 1)) = v (ix1 r) :=
    fun v => shapeCast_a_a1_apply v _ r 0
  have e2 := Ideal.multiReduction_maximumf_single (k1_pay7 (F := Ideal) a1 a2 x0 x1) 0xFF800000#32 reduces_S1024x512_S1024 (.inl rfl) rfl (ix1 r)
  unfold k1_pay8
  refine (congrArg (max (m (ix2 r (0 : Fin 1)))) ((e1 _).trans e2)).trans ?_
  congr 1

/-- The rescaling factor of row `r`: `exp (old - new)`. -/
theorem pay9_apply (a1 a2 : BitVec 32) (x0 : Vec Ideal S1x1024x64 .bf16) (x1 : Vec Ideal S1x64x512 .bf16) (m v35 : Vec Ideal S1024x1 .f32) (r : Fin 1024) :
    k1_pay9 (F := Ideal) a1 a2 x0 x1 m v35 (ix2 r (0 : Fin 1))
      = Ideal.exp (v35 (ix2 r (0 : Fin 1)) - k1_pay8 (F := Ideal) a1 a2 x0 x1 m (ix2 r (0 : Fin 1))) := by
  unfold k1_pay9; rfl

/-- The weight of key `c` in row `r`: `exp (score - new maximum)`. -/
theorem pay10_apply (a1 a2 : BitVec 32) (x0 : Vec Ideal S1x1024x64 .bf16) (x1 : Vec Ideal S1x64x512 .bf16) (m : Vec Ideal S1024x1 .f32) (r : Fin 1024) (c : Fin 512) :
    k1_pay10 (F := Ideal) a1 a2 x0 x1 m (ix2 r c)
      = Ideal.exp (sc a1 a2 x0 x1 r c - k1_pay8 (F := Ideal) a1 a2 x0 x1 m (ix2 r (0 : Fin 1))) := by
  unfold k1_pay10
  show Ideal.exp (k1_pay7 (F := Ideal) a1 a2 x0 x1 (ix2 r c)
    - broadcastTo S1024x512 (k1_pay8 (F := Ideal) a1 a2 x0 x1 m) broadcasts_S1024x1_S1024x512 (ix2 r c)) = _
  rw [broadcastTo_a1_ab_apply]

/-- The new normaliser of row `r`. -/
theorem pay11_apply (a1 a2 : BitVec 32) (x0 : Vec Ideal S1x1024x64 .bf16) (x1 : Vec Ideal S1x64x512 .bf16) (m v35 l : Vec Ideal S1024x1 .f32) (r : Fin 1024) :
    k1_pay11 (F := Ideal) a1 a2 x0 x1 m v35 l (ix2 r (0 : Fin 1))
      = k1_pay9 (F := Ideal) a1 a2 x0 x1 m v35 (ix2 r (0 : Fin 1)) * l (ix2 r (0 : Fin 1))
        + ∑ c : Fin 512, k1_pay10 (F := Ideal) a1 a2 x0 x1 m (ix2 r c) := by
  unfold k1_pay11
  rw [shapeCast_self]
  show k1_pay9 (F := Ideal) a1 a2 x0 x1 m v35 (ix2 r (0 : Fin 1)) * l (ix2 r (0 : Fin 1))
    + shapeCast S1024x1 (multiReduction .add [1] S1024 (k1_pay10 (F := Ideal) a1 a2 x0 x1 m) 0x00000000#32 reduces_S1024x512_S1024 (.inl rfl) rfl)
        shapeCasts_S1024_S1024x1 (ix2 r (0 : Fin 1)) = _
  rw [shapeCast_a_a1_apply]
  congr 1
  exact laneSum_ab_apply _ _ _ _ _ r

/-- The new weighted sum at `(r, d)`. -/
theorem pay4_apply (v37 : FVec Ideal S1024x1 .f32) (v40 : FVec Ideal S1024x512 .f32) (v49 : Vec Ideal S1024x64 .f32) (v53 : Vec Ideal S1x512x64 .bf16)
    (r : Fin 1024) (d : Fin 64) :
    k1_pay4 (F := Ideal) v37 v40 v49 v53 (ix2 r d)
      = v37 (ix2 r (0 : Fin 1)) * v49 (ix2 r d) + ∑ c : Fin 512, v40 (ix2 r c) * v53 (ix3 (0 : Fin 1) c d) := by
  unfold k1_pay4
  rw [shapeCast_self]
  show broadcastTo S1024x64 v37 broadcasts_S1024x1_S1024x64 (ix2 r d) * v49 (ix2 r d)
    + FloatOps.matmul dot_S1024x512_S512x64_S1024x64_1_0_0_1_n_n none v40 (shapeCast S512x64 v53 shapeCasts_S1x512x64_S512x64)
        (constant S1024x64 .f32 0x00000000#32) (ix2 r d) = _
  rw [broadcastTo_a1_ab_apply, Ideal.matmul_constant_zero_apply,
    ← Equiv.sum_comp (contrEquiv1 dot_S1024x512_S512x64_S1024x64_1_0_0_1_n_n 512 rfl rfl).symm]
  congr 1
  refine Finset.sum_congr rfl fun k _ => ?_
  have ck := contrEquiv1_symm_val dot_S1024x512_S512x64_S1024x64_1_0_0_1_n_n 512 rfl rfl k
  have l2 : dot_S1024x512_S512x64_S1024x64_1_0_0_1_n_n.lhsIdx (ix2 r d) ((contrEquiv1 dot_S1024x512_S512x64_S1024x64_1_0_0_1_n_n 512 rfl rfl).symm k) = ix2 r k := by
    funext ax; apply Fin.ext
    match ax with
    | ⟨0, _⟩ => simp [DotDims.lhsIdx, dot_S1024x512_S512x64_S1024x64_1_0_0_1_n_n]; rfl
    | ⟨1, _⟩ => simp [DotDims.lhsIdx, dot_S1024x512_S512x64_S1024x64_1_0_0_1_n_n]; exact ck
  have r2 : dot_S1024x512_S512x64_S1024x64_1_0_0_1_n_n.rhsIdx (ix2 r d) ((contrEquiv1 dot_S1024x512_S512x64_S1024x64_1_0_0_1_n_n 512 rfl rfl).symm k) = ix2 k d := by
    funext ax; apply Fin.ext
    match ax with
    | ⟨0, _⟩ => simp [DotDims.rhsIdx, dot_S1024x512_S512x64_S1024x64_1_0_0_1_n_n]; exact ck
    | ⟨1, _⟩ => simp [DotDims.rhsIdx, dot_S1024x512_S512x64_S1024x64_1_0_0_1_n_n]; rfl
  rw [l2, r2, shapeCast_1ab_ab_apply]

/-- The stored quotient at `(r, d)`. -/
theorem pay6_apply (v13 : Vec Ideal S1024x64 .f32) (v14 : Vec Ideal S1024x1 .f32) (r : Fin 1024) (d : Fin 64) :
    k1_pay6 (F := Ideal) v13 v14 (ix3 (0 : Fin 1) r d) = Ideal.div (v13 (ix2 r d)) (v14 (ix2 r (0 : Fin 1))) := by
  unfold k1_pay6
  rw [shapeCast_ab_1ab_apply]
  show Ideal.div (v13 (ix2 r d)) (broadcastTo S1024x64 v14 broadcasts_S1024x1_S1024x64 (ix2 r d)) = _
  rw [broadcastTo_a1_ab_apply]

/-- ONE FOLD IS ONE VISIT: for row `r` and feature `d` the new maximum, normaliser and weighted-sum entry are the
    visit of the block's 512 keys from the old ones. -/
theorem fold_visit (t : Fin cfg1.N) (x0 : Vec Ideal S1x1024x64 .bf16) (x1 : Vec Ideal S1x64x512 .bf16) (x2 : Vec Ideal S1x512x64 .bf16)
    (m l : Vec Ideal S1024x1 .f32) (a : Vec Ideal S1024x64 .f32) (r : Fin 1024) (d : Fin 64) :
    (foldM t x0 x1 m (ix2 r (0 : Fin 1)), foldL t x0 x1 m l (ix2 r (0 : Fin 1)), foldA t x0 x1 x2 m a (ix2 r d))
      = OnlineSoftmax.visit (fun c : Fin 512 => sc (qw t) (kw t) x0 x1 r c) (fun c : Fin 512 => x2 (ix3 (0 : Fin 1) c d)) Finset.univ
          (m (ix2 r (0 : Fin 1)), l (ix2 r (0 : Fin 1)), a (ix2 r d)) := by
  have hM : foldM t x0 x1 m (ix2 r (0 : Fin 1)) = max (m (ix2 r (0 : Fin 1))) (Finset.univ.sup fun c : Fin 512 => sc (qw t) (kw t) x0 x1 r c) := by
    unfold foldM k1_pay5; rw [shapeCast_self]; exact pay8_apply _ _ _ _ _ _
  refine Prod.ext hM (Prod.ext ?_ ?_)
  · show foldL t x0 x1 m l (ix2 r (0 : Fin 1)) = _
    unfold foldL
    rw [pay11_apply, pay9_apply, pay8_apply]
    unfold OnlineSoftmax.visit
    dsimp only
    congr 1
    exact Finset.sum_congr rfl fun c _ => by rw [pay10_apply, pay8_apply]
  · show foldA t x0 x1 x2 m a (ix2 r d) = _
    unfold foldA
    rw [pay4_apply, pay9_apply, pay8_apply]
    unfold OnlineSoftmax.visit
    dsimp only
    congr 1
    exact Finset.sum_congr rfl fun c _ => by rw [pay10_apply, pay8_apply]

end Cert.KernelIdeal.HandValue
end
-- ==== Proof.AttnScore.lean ====
/- The masked score of the attention body read at an entry: the scaled product of a query row and a key column where
   the key position does not exceed the query position, and the bottom element elsewhere. -/
import proofs.«155122_j66666482368602_2_alg».proof.Proof.Gen.KernelIdeal.Skeleton
import proofs.«155122_j66666482368602_2_alg».proof.Proof.Gen.KernelIdeal.Launch
import proofs.«155122_j66666482368602_2_alg».proof.Proof.Gen.KernelIdeal.Points
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.HandValue

open Cert.KernelIdeal Cert.KernelIdeal.Gen Idealize.ShloMosaic Idealize.ShloMosaic.ValueIdx

/-! ## Words -/

/-- A natural below `2^31` as a 32-bit word reads back, signed, as itself. -/
theorem toInt_ofNat_small (n : Nat) (h : n < 2147483648) : (BitVec.ofNat 32 n).toInt = (n : Int) := by
  have h2 : (BitVec.ofNat 32 n).toNat = n := by
    rw [BitVec.toNat_ofNat]; exact Nat.mod_eq_of_lt (by omega)
  rw [BitVec.toInt_eq_toNat_of_lt (by rw [h2]; omega), h2]

/-- The position word `a·k + r` as the body computes it, for small naturals, is that natural. -/
theorem pos_word (a k r : Nat) :
    IntOp.addi (Scalar.muli (BitVec.ofNat 32 a) (BitVec.ofNat 32 k)) (BitVec.ofNat 32 r) = BitVec.ofNat 32 (a * k + r) := by
  show BitVec.ofNat 32 a * BitVec.ofNat 32 k + BitVec.ofNat 32 r = _
  rw [← BitVec.ofNat_mul, ← BitVec.ofNat_add]

/-- The signed comparison of two position words is the comparison of the positions. -/
theorem sge_words (a b r c : Nat) (ha : a < 2) (hb : b < 4) (hr : r < 1024) (hc : c < 512) :
    IntOp.cmpi .sge (IntOp.addi (Scalar.muli (BitVec.ofNat 32 a) 1024#32) (BitVec.ofNat 32 r))
        (IntOp.addi (Scalar.muli (BitVec.ofNat 32 b) 512#32) (BitVec.ofNat 32 c)) = 1#1
      ↔ b * 512 + c ≤ a * 1024 + r := by
  rw [IntOp.cmpi_sge, pos_word a 1024 r, pos_word b 512 c, toInt_ofNat_small _ (by omega), toInt_ofNat_small _ (by omega)]
  omega

/-! ## The grid -/

/-- The query-block and key-block coordinates of a grid point. -/
theorem coords1 : ∀ t : Fin cfg1.N, ((grid1.coords t) 1).val = t.val / 4 % 2 ∧ ((grid1.coords t) 2).val = t.val % 4 :=
  (by decide +kernel : ∀ t : Fin grid1.N, ((grid1.coords t) 1).val = t.val / 4 % 2 ∧ ((grid1.coords t) 2).val = t.val % 4)

/-! ## The constants -/

/-- The scale of the scores, `1/√64`. -/
theorem ofBits_eighth : Ideal.ofBits .f32 0x3E000000#32 = ((1 / 8 : ℝ) : EReal) := by
  simp [Ideal.ofBits, Ideal.ieee, -EReal.coe_mul]; norm_num

/-- The mask value is named the bottom element. -/
theorem neg_big : Named.named (F := Ideal) Cert.KernelIdeal.κ "neg_big" (φ := .f32) 0xFF333332#32 = ⊥ :=
  IdealRules.named_const.ideal_named_scalar _ _ _ _ rfl

/-! ## The score -/

/-- The product of the query block and the key block as the body forms it, read at an entry: the sum over the 64
    lanes of the products of the query row's and the key column's entries. -/
theorem score_apply (x0 : FVec Ideal S1x1024x64 .bf16) (x1 : FVec Ideal S1x64x512 .bf16) (r : Fin 1024) (c : Fin 512) :
    FloatOps.matmul dot_S1024x64_S64x512_S1024x512_1_0_0_1_n_n none
        (shapeCast S1024x64 x0 shapeCasts_S1x1024x64_S1024x64) (shapeCast S64x512 x1 shapeCasts_S1x64x512_S64x512)
        (constant S1024x512 .f32 0x00000000#32) (ix2 r c)
      = ∑ dd : Fin 64, x0 (ix3 (0 : Fin 1) r dd) * x1 (ix3 (0 : Fin 1) dd c) := by
  rw [Ideal.matmul_constant_zero_apply,
    ← Equiv.sum_comp (contrEquiv1 dot_S1024x64_S64x512_S1024x512_1_0_0_1_n_n 64 rfl rfl).symm]
  refine Finset.sum_congr rfl fun k _ => ?_
  have ck := contrEquiv1_symm_val dot_S1024x64_S64x512_S1024x512_1_0_0_1_n_n 64 rfl rfl k
  have l2 : dot_S1024x64_S64x512_S1024x512_1_0_0_1_n_n.lhsIdx (ix2 r c)
      ((contrEquiv1 dot_S1024x64_S64x512_S1024x512_1_0_0_1_n_n 64 rfl rfl).symm k) = ix2 r k := by
    funext ax; apply Fin.ext
    match ax with
    | ⟨0, _⟩ => simp [DotDims.lhsIdx, dot_S1024x64_S64x512_S1024x512_1_0_0_1_n_n]; rfl
    | ⟨1, _⟩ => simp [DotDims.lhsIdx, dot_S1024x64_S64x512_S1024x512_1_0_0_1_n_n]; exact ck
  have r2 : dot_S1024x64_S64x512_S1024x512_1_0_0_1_n_n.rhsIdx (ix2 r c)
      ((contrEquiv1 dot_S1024x64_S64x512_S1024x512_1_0_0_1_n_n 64 rfl rfl).symm k) = ix2 k c := by
    funext ax; apply Fin.ext
    match ax with
    | ⟨0, _⟩ => simp [DotDims.rhsIdx, dot_S1024x64_S64x512_S1024x512_1_0_0_1_n_n]; exact ck
    | ⟨1, _⟩ => simp [DotDims.rhsIdx, dot_S1024x64_S64x512_S1024x512_1_0_0_1_n_n]; rfl
  rw [l2, r2, shapeCast_1ab_ab_apply, shapeCast_1ab_ab_apply]

/-- The masked score at an entry, over the two block coordinates as words: the scaled product where the comparison of
    the two position words holds, the bottom element elsewhere. -/
theorem pay7_words (a1 a2 : BitVec 32) (x0 : Vec Ideal S1x1024x64 .bf16) (x1 : Vec Ideal S1x64x512 .bf16)
    (r : Fin 1024) (c : Fin 512) :
    k1_pay7 (F := Ideal) a1 a2 x0 x1 (ix2 r c)
      = Scalar.select
          (IntOp.cmpi .sge (IntOp.addi (Scalar.muli a1 1024#32) (BitVec.ofNat 32 r.val))
            (IntOp.addi (Scalar.muli a2 512#32) (BitVec.ofNat 32 c.val)))
          ((∑ dd : Fin 64, x0 (ix3 (0 : Fin 1) r dd) * x1 (ix3 (0 : Fin 1) dd c)) * ((1 / 8 : ℝ) : EReal)) ⊥ := by
  unfold k1_pay7
  show Scalar.select
      (IntOp.cmpi .sge
        (IntOp.addi (Scalar.muli a1 1024#32) (iota .tc S1024x512 32 [0] iota_S1024x512_d0_w32 (ix2 r c)))
        (IntOp.addi (Scalar.muli a2 512#32) (iota .tc S1024x512 32 [1] iota_S1024x512_d1_w32 (ix2 r c))))
      (FloatOps.matmul dot_S1024x64_S64x512_S1024x512_1_0_0_1_n_n none
          (shapeCast S1024x64 x0 shapeCasts_S1x1024x64_S1024x64) (shapeCast S64x512 x1 shapeCasts_S1x64x512_S64x512)
          (constant S1024x512 .f32 0x00000000#32) (ix2 r c)
        * Ideal.ofBits .f32 0x3E000000#32)
      (Named.named (F := Ideal) Cert.KernelIdeal.κ "neg_big" (φ := .f32) 0xFF333332#32) = _
  rw [iota_single_apply, iota_single_apply, score_apply, ofBits_eighth, neg_big]

/-- THE MASKED SCORE AT AN ENTRY of the block a grid point computes: where the key position does not exceed the query
    position, the sum over the lanes of the products of the query row and the key column, over 8; elsewhere the bottom
    element. -/
theorem pay7_apply (t : Fin cfg1.N) (x0 : Vec Ideal S1x1024x64 .bf16) (x1 : Vec Ideal S1x64x512 .bf16)
    (r : Fin 1024) (c : Fin 512) :
    k1_pay7 (F := Ideal) (BitVec.ofNat 32 ((grid1.coords t) 1).val) (BitVec.ofNat 32 ((grid1.coords t) 2).val) x0 x1
        (ix2 r c)
      = if (t.val % 4) * 512 + c.val ≤ (t.val / 4 % 2) * 1024 + r.val
        then (∑ dd : Fin 64, x0 (ix3 (0 : Fin 1) r dd) * x1 (ix3 (0 : Fin 1) dd c)) * (((1 / 8 : ℝ) : ℝ) : EReal)
        else ⊥ := by
  obtain ⟨e1, e2⟩ := coords1 t
  rw [pay7_words, e1, e2]
  unfold Scalar.select
  exact if_congr (sge_words (t.val / 4 % 2) (t.val % 4) r.val c.val (by omega) (by omega) r.isLt c.isLt) rfl rfl

end Cert.KernelIdeal.HandValue
end
-- ==== Proof.AttnValue.lean ====
/-
  The attention region's output array at the ideal values.

  Point `t` of the grid works on head-batch `t / 8`, query block `t / 4 % 2` and key block `t % 4` (the key and
  value windows are held at the last block on or below the diagonal, `min (t % 4) (2 · (t / 4 % 2) + 1)`, on the points
  the body skips). For a query row `i` and feature `d` the three scratch entries after a point are the online
  softmax state (LibOnlineSoftmax) after visiting the key blocks met so far, for the row's masked scores
  `(q_i · k_j) / 8` (`-∞` above the diagonal) and the values `v_j[d]`; the output entry is the state's quotient
  after the last key block.
-/
import proofs.«155122_j66666482368602_2_alg».proof.Proof.AttnFold
import proofs.«155122_j66666482368602_2_alg».proof.Proof.AttnScore

set_option maxRecDepth 16384

noncomputable section

namespace Cert.KernelIdeal.HandValue

open Cert.KernelIdeal Cert.KernelIdeal.Gen Cert.KernelIdeal.Hand
open Idealize.ShloMosaic Idealize.ShloMosaic.ValueIdx Idealize.ShloMosaic.TcCoe Idealize.SL.Sem

/-! ## The windows' index maps over the grid -/

theorem idx_facts1 : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = 0 ∧ win1_1.index t (2 : Fin 3) = min (t.val % 4) (2 * (t.val / 4 % 2) + 1)
    ∧ win1_2.index t (0 : Fin 3) = t.val / 8 ∧ win1_2.index t (1 : Fin 3) = min (t.val % 4) (2 * (t.val / 4 % 2) + 1) ∧ win1_2.index t (2 : Fin 3) = 0
    ∧ win1_3.index t (0 : Fin 3) = t.val / 8 ∧ win1_3.index t (1 : Fin 3) = t.val / 4 % 2 ∧ win1_3.index t (2 : Fin 3) = 0 :=
  (by decide +kernel : ∀ t : Fin grid1.N, _)

section Region1
variable (V : (c : Dev nD) → (b : Ref sig .tc) → Buf (Elt Ideal) ((c : Thread nD τ).loc b))

/-! ## The input blocks as entries of the whole arrays -/

theorem iblk1_0_apply (c : Dev nD) (t : Fin cfg1.N) (x : S1x1024x64.Idx) (k : S32x2048x64.Idx)
    (hk0 : (k 0).val = win1_0.index t (0 : Fin 3) * 1 + (x 0).val)
    (hk1 : (k 1).val = win1_0.index t (1 : Fin 3) * 1024 + (x 1).val)
    (hk2 : (k 2).val = win1_0.index t (2 : Fin 3) * 64 + (x 2).val) :
    (iblk1 V c 0 t : Vec Ideal S1x1024x64 .bf16) x = (V c (Pipeline.arrRef spec1 0) : S32x2048x64.Idx → EReal) k := by
  unfold iblk1
  rw [View.read_apply]
  show (V c (Pipeline.arrRef spec1 0) : S32x2048x64.Idx → EReal) _ = _
  congr 1
  funext a
  apply Fin.ext
  match a with
  | ⟨0, _⟩ => show win1_0.index t (0 : Fin 3) * 1 + 1 * (x 0).val = (k 0).val; rw [hk0]; omega
  | ⟨1, _⟩ => show win1_0.index t (1 : Fin 3) * 1024 + 1 * (x 1).val = (k 1).val; rw [hk1]; omega
  | ⟨2, _⟩ => show win1_0.index t (2 : Fin 3) * 64 + 1 * (x 2).val = (k 2).val; rw [hk2]; omega

theorem iblk1_1_apply (c : Dev nD) (t : Fin cfg1.N) (x : S1x64x512.Idx) (k : S32x64x2048.Idx)
    (hk0 : (k 0).val = win1_1.index t (0 : Fin 3) * 1 + (x 0).val)
    (hk1 : (k 1).val = win1_1.index t (1 : Fin 3) * 64 + (x 1).val)
    (hk2 : (k 2).val = win1_1.index t (2 : Fin 3) * 512 + (x 2).val) :
    (iblk1 V c 1 t : Vec Ideal S1x64x512 .bf16) x = (V c (Pipeline.arrRef spec1 1) : S32x64x2048.Idx → EReal) k := by
  unfold iblk1
  rw [View.read_apply]
  show (V c (Pipeline.arrRef spec1 1) : S32x64x2048.Idx → EReal) _ = _
  congr 1
  funext a
  apply Fin.ext
  match a with
  | ⟨0, _⟩ => show win1_1.index t (0 : Fin 3) * 1 + 1 * (x 0).val = (k 0).val; rw [hk0]; omega
  | ⟨1, _⟩ => show win1_1.index t (1 : Fin 3) * 64 + 1 * (x 1).val = (k 1).val; rw [hk1]; omega
  | ⟨2, _⟩ => show win1_1.index t (2 : Fin 3) * 512 + 1 * (x 2).val = (k 2).val; rw [hk2]; omega

theorem iblk1_2_apply (c : Dev nD) (t : Fin cfg1.N) (x : S1x512x64.Idx) (k : S32x2048x64.Idx)
    (hk0 : (k 0).val = win1_2.index t (0 : Fin 3) * 1 + (x 0).val)
    (hk1 : (k 1).val = win1_2.index t (1 : Fin 3) * 512 + (x 1).val)
    (hk2 : (k 2).val = win1_2.index t (2 : Fin 3) * 64 + (x 2).val) :
    (iblk1 V c 2 t : Vec Ideal S1x512x64 .bf16) x = (V c (Pipeline.arrRef spec1 2) : S32x2048x64.Idx → EReal) k := by
  unfold iblk1
  rw [View.read_apply]
  show (V c (Pipeline.arrRef spec1 2) : S32x2048x64.Idx → EReal) _ = _
  congr 1
  funext a
  apply Fin.ext
  match a with
  | ⟨0, _⟩ => show win1_2.index t (0 : Fin 3) * 1 + 1 * (x 0).val = (k 0).val; rw [hk0]; omega
  | ⟨1, _⟩ => show win1_2.index t (1 : Fin 3) * 512 + 1 * (x 1).val = (k 1).val; rw [hk1]; omega
  | ⟨2, _⟩ => show win1_2.index t (2 : Fin 3) * 64 + 1 * (x 2).val = (k 2).val; rw [hk2]; omega

/-! ## The reset state -/

theorem reset_max_apply (r : Fin 1024) : k1_pay1 (F := Ideal) (ix2 r (0 : Fin 1)) = ⊥ := by
  unfold k1_pay1; rw [shapeCast_self]; exact ofBits_ninf
theorem reset_sum_apply (r : Fin 1024) : k1_pay2 (F := Ideal) (ix2 r (0 : Fin 1)) = 0 := by
  unfold k1_pay2; rw [shapeCast_self]; exact Ideal.ofBits_zero_f32
theorem reset_acc_apply (r : Fin 1024) (d : Fin 64) : k1_pay3 (F := Ideal) (ix2 r d) = 0 := by
  unfold k1_pay3; rw [shapeCast_self]; exact Ideal.ofBits_zero_f32

end Region1

/-! ## The row's masked scores and the key blocks, in absolute positions -/

/-- The masked score of query `i` against key `j` in head-batch `bh`: `(q_i · k_j) / 8` on or below the
    diagonal, `-∞` above it. -/
def score (Q : S32x2048x64.Idx → EReal) (KT : S32x64x2048.Idx → EReal) (bh : Fin 32) (i j : Fin 2048) : EReal :=
  if j.val ≤ i.val then (∑ dd : Fin 64, Q (ix3 bh i dd) * KT (ix3 bh dd j)) * (((1 / 8 : ℝ) : ℝ) : EReal) else ⊥

/-- Key block `k`: the 512 key positions from `512 · k`. -/
def keyEmb (k : Fin 4) : Fin 512 ↪ Fin 2048 :=
  ⟨fun c => ⟨k.val * 512 + c.val, by omega⟩, fun a b h => Fin.ext (by have := congrArg Fin.val h; dsimp only at this; omega)⟩
def keyBlock (k : Fin 4) : Finset (Fin 2048) := Finset.univ.map (keyEmb k)

theorem mem_keyBlock (k : Fin 4) (j : Fin 2048) : j ∈ keyBlock k ↔ k.val * 512 ≤ j.val ∧ j.val < k.val * 512 + 512 := by
  unfold keyBlock
  rw [Finset.mem_map]
  constructor
  · rintro ⟨c, -, rfl⟩
    show k.val * 512 ≤ k.val * 512 + c.val ∧ k.val * 512 + c.val < k.val * 512 + 512
    omega
  · rintro ⟨h1, h2⟩
    exact ⟨⟨j.val - k.val * 512, by omega⟩, Finset.mem_univ _, Fin.ext (by show k.val * 512 + (j.val - k.val * 512) = j.val; omega)⟩

section Region1b
variable (V : (c : Dev nD) → (b : Ref sig .tc) → Buf (Elt Ideal) ((c : Thread nD τ).loc b))

/-- The three arrays the region is entered with. -/
abbrev Qa (c : Dev nD) : S32x2048x64.Idx → EReal := V c (Pipeline.arrRef spec1 0)
abbrev Ka (c : Dev nD) : S32x64x2048.Idx → EReal := V c (Pipeline.arrRef spec1 1)
abbrev Va (c : Dev nD) : S32x2048x64.Idx → EReal := V c (Pipeline.arrRef spec1 2)

/-- The head-batch, query position and key block of a point. -/
abbrev bhOf (t : Fin cfg1.N) : Fin 32 := ⟨t.val / 8, by have := t.isLt; have : cfg1.N = 256 := N_1; omega⟩
abbrev rowOf (t : Fin cfg1.N) (r : Fin 1024) : Fin 2048 := ⟨t.val / 4 % 2 * 1024 + r.val, by omega⟩
abbrev kbOf (t : Fin cfg1.N) : Fin 4 := ⟨t.val % 4, by omega⟩

/-- At a point whose key block is folded in, the body's local masked score is the absolute one. -/
theorem sc_abs (c : Dev nD) (t : Fin cfg1.N) (hproc : t.val % 4 ≤ 2 * (t.val / 4 % 2) + 1) (r : Fin 1024) (c' : Fin 512) :
    sc (qw t) (kw t) (iblk1 V c 0 t) (iblk1 V c 1 t) r c' = score (Qa V c) (Ka V c) (bhOf t) (rowOf t r) (keyEmb (kbOf t) c') := by
  obtain ⟨a0, a1, a2, b0, b1, b2, -, -, -, -, -, -⟩ := idx_facts1 t
  unfold sc
  rw [pay7_apply]
  unfold score
  by_cases h : t.val % 4 * 512 + c'.val ≤ t.val / 4 % 2 * 1024 + r.val
  · rw [if_pos h, if_pos (show (keyEmb (kbOf t) c').val ≤ (rowOf t r).val from h)]
    congr 1
    refine Finset.sum_congr rfl fun dd _ => ?_
    refine congrArg₂ (· * ·) (iblk1_0_apply V c t (ix3 (0 : Fin 1) r dd) _ ?_ ?_ ?_) (iblk1_1_apply V c t (ix3 (0 : Fin 1) dd c') _ ?_ ?_ ?_)
    · show t.val / 8 = win1_0.index t (0 : Fin 3) * 1 + 0; rw [a0]; omega
    · show t.val / 4 % 2 * 1024 + r.val = win1_0.index t (1 : Fin 3) * 1024 + r.val; rw [a1]
    · show dd.val = win1_0.index t (2 : Fin 3) * 64 + dd.val; rw [a2]; omega
    · show t.val / 8 = win1_1.index t (0 : Fin 3) * 1 + 0; rw [b0]; omega
    · show dd.val = win1_1.index t (1 : Fin 3) * 64 + dd.val; rw [b1]; omega
    · show t.val % 4 * 512 + c'.val = win1_1.index t (2 : Fin 3) * 512 + c'.val; rw [b2, Nat.min_eq_left hproc]
  · rw [if_neg h, if_neg (show ¬(keyEmb (kbOf t) c').val ≤ (rowOf t r).val from h)]

/-- At such a point the value block's entries are the value array's at the block's keys. -/
theorem vals_abs (c : Dev nD) (t : Fin cfg1.N) (hproc : t.val % 4 ≤ 2 * (t.val / 4 % 2) + 1) (c' : Fin 512) (d : Fin 64) :
    (iblk1 V c 2 t : Vec Ideal S1x512x64 .bf16) (ix3 (0 : Fin 1) c' d) = Va V c (ix3 (bhOf t) (keyEmb (kbOf t) c') d) := by
  obtain ⟨-, -, -, -, -, -, c0, c1, c2, -, -, -⟩ := idx_facts1 t
  refine iblk1_2_apply V c t (ix3 (0 : Fin 1) c' d) _ ?_ ?_ ?_
  · show t.val / 8 = win1_2.index t (0 : Fin 3) * 1 + 0; rw [c0]; omega
  · show t.val % 4 * 512 + c'.val = win1_2.index t (1 : Fin 3) * 512 + c'.val; rw [c1, Nat.min_eq_left hproc]
  · show d.val = win1_2.index t (2 : Fin 3) * 64 + d.val; rw [c2]; omega

/-- One fold at a point, in absolute positions: the visit of the point's key block. -/
theorem fold_abs (c : Dev nD) (t : Fin cfg1.N) (hproc : t.val % 4 ≤ 2 * (t.val / 4 % 2) + 1)
    (m l : Vec Ideal S1024x1 .f32) (a : Vec Ideal S1024x64 .f32) (r : Fin 1024) (d : Fin 64) :
    (foldM t (iblk1 V c 0 t) (iblk1 V c 1 t) m (ix2 r (0 : Fin 1)), foldL t (iblk1 V c 0 t) (iblk1 V c 1 t) m l (ix2 r (0 : Fin 1)),
        foldA t (iblk1 V c 0 t) (iblk1 V c 1 t) (iblk1 V c 2 t) m a (ix2 r d))
      = OnlineSoftmax.visit (score (Qa V c) (Ka V c) (bhOf t) (rowOf t r)) (fun j => Va V c (ix3 (bhOf t) j d)) (keyBlock (kbOf t))
          (m (ix2 r (0 : Fin 1)), l (ix2 r (0 : Fin 1)), a (ix2 r d)) := by
  rw [fold_visit]
  unfold keyBlock
  rw [OnlineSoftmax.visit_map]
  congr 1
  · funext c'; exact sc_abs V c t hproc r c'
  · funext c'; exact vals_abs V c t hproc c' d

end Region1b

/-! ## The running state at a row and feature, point by point -/

section Region1c
variable (V : (c : Dev nD) → (b : Ref sig .tc) → Buf (Elt Ideal) ((c : Thread nD τ).loc b))

/-- The running maximum, normaliser and weighted-sum entry of row `r`, feature `d`, in a state. -/
def tri (p : AttnSt Ideal) (r : Fin 1024) (d : Fin 64) : EReal × EReal × EReal :=
  (p.s0 (ix2 r (0 : Fin 1)), p.s1 (ix2 r (0 : Fin 1)), p.s2 (ix2 r d))

/-- The state after point `t`. -/
abbrev stAt (c : Dev nD) (t : Fin cfg1.N) : AttnSt Ideal := outsAt1 V c t.val t.isLt

theorem outsAt1_congr (c : Dev nD) {n n' : ℕ} (h : n = n') (hn : n < cfg1.N) (hn' : n' < cfg1.N) :
    outsAt1 V c n hn = outsAt1 V c n' hn' := by subst h; rfl

theorem prev_eq (c : Dev nD) (t t' : Fin cfg1.N) (h : t'.val + 1 = t.val) : prevAt V c t = stAt V c t' :=
  outsAt1_congr V c (by omega) _ _

/-- The visit of key block `k` for query `i` of head-batch `bh`, feature `d`. -/
abbrev vis (c : Dev nD) (bh : Fin 32) (i : Fin 2048) (d : Fin 64) (k : Fin 4) (st : EReal × EReal × EReal) : EReal × EReal × EReal :=
  OnlineSoftmax.visit (score (Qa V c) (Ka V c) bh i) (fun j => Va V c (ix3 bh j d)) (keyBlock k) st

theorem tri_A (c : Dev nD) (t : Fin cfg1.N) (h0 : t.val % 4 = 0) (r : Fin 1024) (d : Fin 64) :
    tri (stAt V c t) r d = vis V c (bhOf t) (rowOf t r) d (kbOf t) (⊥, 0, 0) := by
  have h := fold_abs V c t (by omega) (k1_pay1 (F := Ideal)) (k1_pay2 (F := Ideal)) (k1_pay3 (F := Ideal)) r d
  rw [reset_max_apply, reset_sum_apply, reset_acc_apply] at h
  unfold tri
  rw [show stAt V c t = outsAt1 V c t.val t.isLt from rfl]
  rw [outsAt1_A V c t h0, stepA_s0, stepA_s1, stepA_s2]
  exact h

theorem tri_B (c : Dev nD) (t : Fin cfg1.N) (h0 : ¬t.val % 4 = 0) (h1 : t.val % 4 ≤ 2 * (t.val / 4 % 2) + 1) (h2 : ¬t.val % 4 = 3)
    (r : Fin 1024) (d : Fin 64) :
    tri (stAt V c t) r d = vis V c (bhOf t) (rowOf t r) d (kbOf t) (tri (prevAt V c t) r d) := by
  unfold tri
  rw [show stAt V c t = outsAt1 V c t.val t.isLt from rfl]
  rw [outsAt1_B V c t h0 h1 h2, stepB_s0, stepB_s1, stepB_s2]
  exact fold_abs V c t h1 _ _ _ r d

theorem tri_E (c : Dev nD) (t : Fin cfg1.N) (h0 : ¬t.val % 4 = 0) (h1 : t.val % 4 ≤ 2 * (t.val / 4 % 2) + 1) (h2 : t.val % 4 = 3)
    (r : Fin 1024) (d : Fin 64) :
    tri (stAt V c t) r d = vis V c (bhOf t) (rowOf t r) d (kbOf t) (tri (prevAt V c t) r d) := by
  unfold tri
  rw [show stAt V c t = outsAt1 V c t.val t.isLt from rfl]
  rw [outsAt1_E V c t h0 h1 h2, stepE_s0, stepE_s1, stepE_s2]
  exact fold_abs V c t h1 _ _ _ r d

theorem tri_C (c : Dev nD) (t : Fin cfg1.N) (h0 : ¬t.val % 4 = 0) (h1 : ¬t.val % 4 ≤ 2 * (t.val / 4 % 2) + 1) (h2 : ¬t.val % 4 = 3)
    (r : Fin 1024) (d : Fin 64) : tri (stAt V c t) r d = tri (prevAt V c t) r d := by
  unfold tri
  rw [show stAt V c t = outsAt1 V c t.val t.isLt from rfl]
  rw [outsAt1_C V c t h0 h1 h2]
  rfl

theorem out_D (c : Dev nD) (t : Fin cfg1.N) (h0 : ¬t.val % 4 = 0) (h1 : ¬t.val % 4 ≤ 2 * (t.val / 4 % 2) + 1) (h2 : t.val % 4 = 3)
    (r : Fin 1024) (d : Fin 64) :
    (stAt V c t).out (ix3 (0 : Fin 1) r d) = Ideal.div (tri (prevAt V c t) r d).2.2 (tri (prevAt V c t) r d).2.1 := by
  unfold tri
  rw [show stAt V c t = outsAt1 V c t.val t.isLt from rfl]
  rw [outsAt1_D V c t h0 h1 h2, stepD_out, pay6_apply]

theorem out_E (c : Dev nD) (t : Fin cfg1.N) (h0 : ¬t.val % 4 = 0) (h1 : t.val % 4 ≤ 2 * (t.val / 4 % 2) + 1) (h2 : t.val % 4 = 3)
    (r : Fin 1024) (d : Fin 64) :
    (stAt V c t).out (ix3 (0 : Fin 1) r d) = Ideal.div (tri (stAt V c t) r d).2.2 (tri (stAt V c t) r d).2.1 := by
  unfold tri
  rw [show stAt V c t = outsAt1 V c t.val t.isLt from rfl]
  rw [outsAt1_E V c t h0 h1 h2, stepE_out, pay6_apply, stepE_s1, stepE_s2]

/-! ## The state after the last key block a query row meets -/

/-- The state of query `i` (head-batch `bh`, feature `d`) after the key blocks on or below its diagonal: two blocks for
    a query in the first query block, all four for one in the second. -/
def finalSt (c : Dev nD) (bh : Fin 32) (i : Fin 2048) (d : Fin 64) : EReal × EReal × EReal :=
  if i.val < 1024 then vis V c bh i d 1 (vis V c bh i d 0 (⊥, 0, 0))
  else vis V c bh i d 3 (vis V c bh i d 2 (vis V c bh i d 1 (vis V c bh i d 0 (⊥, 0, 0))))

/-- What the point of key block 3 stores at `(r, d)` is the quotient of that state. -/
theorem out_final (c : Dev nD) (t : Fin cfg1.N) (h3 : t.val % 4 = 3) (r : Fin 1024) (d : Fin 64) :
    (stAt V c t).out (ix3 (0 : Fin 1) r d)
      = Ideal.div (finalSt V c (bhOf t) (rowOf t r) d).2.2 (finalSt V c (bhOf t) (rowOf t r) d).2.1 := by
  have hN : t.val < 256 := lt_of_lt_of_eq t.isLt (show cfg1.N = 256 from N_1)
  have hN' : cfg1.N = 256 := N_1
  let t0 : Fin cfg1.N := ⟨t.val - 3, by omega⟩
  let t1 : Fin cfg1.N := ⟨t.val - 2, by omega⟩
  let t2 : Fin cfg1.N := ⟨t.val - 1, by omega⟩
  have e0 : bhOf t0 = bhOf t ∧ rowOf t0 r = rowOf t r ∧ kbOf t0 = 0 := ⟨Fin.ext (by show (t.val - 3) / 8 = t.val / 8; omega),
    Fin.ext (by show (t.val - 3) / 4 % 2 * 1024 + r.val = t.val / 4 % 2 * 1024 + r.val; omega), Fin.ext (by show (t.val - 3) % 4 = 0; omega)⟩
  have e1 : bhOf t1 = bhOf t ∧ rowOf t1 r = rowOf t r ∧ kbOf t1 = 1 := ⟨Fin.ext (by show (t.val - 2) / 8 = t.val / 8; omega),
    Fin.ext (by show (t.val - 2) / 4 % 2 * 1024 + r.val = t.val / 4 % 2 * 1024 + r.val; omega), Fin.ext (by show (t.val - 2) % 4 = 1; omega)⟩
  have e2 : bhOf t2 = bhOf t ∧ rowOf t2 r = rowOf t r ∧ kbOf t2 = 2 := ⟨Fin.ext (by show (t.val - 1) / 8 = t.val / 8; omega),
    Fin.ext (by show (t.val - 1) / 4 % 2 * 1024 + r.val = t.val / 4 % 2 * 1024 + r.val; omega), Fin.ext (by show (t.val - 1) % 4 = 2; omega)⟩
  have e3 : kbOf t = 3 := Fin.ext (by show t.val % 4 = 3; exact h3)
  have hA : tri (stAt V c t0) r d = vis V c (bhOf t) (rowOf t r) d 0 (⊥, 0, 0) := by
    have := tri_A V c t0 (by show (t.val - 3) % 4 = 0; omega) r d
    rw [e0.1, e0.2.1, e0.2.2] at this; exact this
  have hB1 : tri (stAt V c t1) r d = vis V c (bhOf t) (rowOf t r) d 1 (tri (stAt V c t0) r d) := by
    have := tri_B V c t1 (by show ¬(t.val - 2) % 4 = 0; omega) (by show (t.val - 2) % 4 ≤ 2 * ((t.val - 2) / 4 % 2) + 1; omega)
      (by show ¬(t.val - 2) % 4 = 3; omega) r d
    rw [e1.1, e1.2.1, e1.2.2, prev_eq V c t1 t0 (by show t.val - 3 + 1 = t.val - 2; omega)] at this; exact this
  by_cases hq : t.val / 4 % 2 = 0
  · -- the first query block: key blocks 2 and 3 lie wholly above the diagonal
    have hi : (rowOf t r).val < 1024 := by show t.val / 4 % 2 * 1024 + r.val < 1024; omega
    have hC : tri (stAt V c t2) r d = tri (stAt V c t1) r d := by
      have := tri_C V c t2 (by show ¬(t.val - 1) % 4 = 0; omega) (by show ¬(t.val - 1) % 4 ≤ 2 * ((t.val - 1) / 4 % 2) + 1; omega)
        (by show ¬(t.val - 1) % 4 = 3; omega) r d
      rw [prev_eq V c t2 t1 (by show t.val - 2 + 1 = t.val - 1; omega)] at this; exact this
    rw [out_D V c t (by omega) (by omega) h3 r d, prev_eq V c t t2 (by show t.val - 1 + 1 = t.val; omega), hC, hB1, hA]
    unfold finalSt; rw [if_pos hi]
  · -- the second query block: all four key blocks are folded in
    have hi : ¬(rowOf t r).val < 1024 := by show ¬t.val / 4 % 2 * 1024 + r.val < 1024; omega
    have hB2 : tri (stAt V c t2) r d = vis V c (bhOf t) (rowOf t r) d 2 (tri (stAt V c t1) r d) := by
      have := tri_B V c t2 (by show ¬(t.val - 1) % 4 = 0; omega) (by show (t.val - 1) % 4 ≤ 2 * ((t.val - 1) / 4 % 2) + 1; omega)
        (by show ¬(t.val - 1) % 4 = 3; omega) r d
      rw [e2.1, e2.2.1, e2.2.2, prev_eq V c t2 t1 (by show t.val - 2 + 1 = t.val - 1; omega)] at this; exact this
    have hE : tri (stAt V c t) r d = vis V c (bhOf t) (rowOf t r) d 3 (tri (stAt V c t2) r d) := by
      have := tri_E V c t (by omega) (by omega) h3 r d
      rw [e3, prev_eq V c t t2 (by show t.val - 1 + 1 = t.val; omega)] at this; exact this
    rw [out_E V c t (by omega) (by omega) h3 r d, hE, hB2, hB1, hA]
    unfold finalSt; rw [if_neg hi]

end Region1c

/-! ## The output array, entry by entry -/

theorem keyBlock_disjoint (a b : Fin 4) (h : a ≠ b) : Disjoint (keyBlock a) (keyBlock b) := by
  rw [Finset.disjoint_left]
  intro x hx hx'
  rw [mem_keyBlock] at hx hx'
  have : a.val ≠ b.val := fun e => h (Fin.ext e)
  omega

section Region1d
variable (V : (c : Dev nD) → (b : Ref sig .tc) → Buf (Elt Ideal) ((c : Thread nD τ).loc b))

/-- An index of the output array lies in point `t`'s block iff each coordinate lies in the block's range. -/
theorem mem_blk1 (t : Fin cfg1.N) (i : S32x2048x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v74).slice (win1_3.rect t)).set ↔ _
  rw [View.set_slice_whole, Rect.mem_set_unit]
  exact Iff.rfl

/-- Every index of the output array lies in the block of the last key block's point of its head-batch and query block. -/
theorem cover1 (i : S32x2048x64.Idx) : ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  have hN : cfg1.N = 256 := N_1
  let t : Fin cfg1.N := ⟨8 * (i 0).val + 4 * ((i 1).val / 1024) + 3, by omega⟩
  have htv : t.val = 8 * (i 0).val + 4 * ((i 1).val / 1024) + 3 := rfl
  obtain ⟨-, -, -, -, -, -, -, -, -, d0, d1, d2⟩ := idx_facts1 t
  refine ⟨t, (flush1_3 t).mpr (by rw [htv]; omega), ?_⟩
  rw [mem_blk1]
  intro a
  match a with
  | ⟨0, _⟩ => show win1_3.index t (0 : Fin 3) * 1 ≤ (i 0).val ∧ (i 0).val < win1_3.index t (0 : Fin 3) * 1 + 1; rw [d0, htv]; omega
  | ⟨1, _⟩ => show win1_3.index t (1 : Fin 3) * 1024 ≤ (i 1).val ∧ (i 1).val < win1_3.index t (1 : Fin 3) * 1024 + 1024; rw [d1, htv]; omega
  | ⟨2, _⟩ => show win1_3.index t (2 : Fin 3) * 64 ≤ (i 2).val ∧ (i 2).val < win1_3.index t (2 : Fin 3) * 64 + 64; rw [d2]; omega

/-- What a point of key block 3 writes back, entry by entry: the final quotients of its rows. -/
theorem flushed1_apply (c : Dev nD) (t : Fin cfg1.N) (h3 : t.val % 4 = 3) (r : Fin 1024) (d : Fin 64) :
    (dat1 (F := Ideal) V c).flushed 3 t (ix3 (0 : Fin 1) r d)
      = Ideal.div (finalSt V c (bhOf t) (rowOf t r) d).2.2 (finalSt V c (bhOf t) (rowOf t r) d).2.1 := by
  show (cfg1.win 3).cut (grid1.coords t) ((dat1 V c).after 3 t) (ix3 (0 : Fin 1) r d) = _
  rw [after1_3]
  exact out_final V c t h3 r d

/-- THE OUTPUT ARRAY: entry `(bh, i, d)` is the quotient of the online-softmax state of query `i` after its key blocks. -/
theorem attn_entry (c : Dev nD) (bh : Fin 32) (i : Fin 2048) (d : Fin 64) :
    ((dat1 (F := Ideal) V c).arrAt 3 cfg1.N : S32x2048x64.Idx → EReal) (ix3 bh i d)
      = Ideal.div (finalSt V c bh i d).2.2 (finalSt V c bh i d).2.1 := by
  refine (dat1 (F := Ideal) V c).arrAt_forall_of_cover 3
    (fun (j : S32x2048x64.Idx) (x : EReal) => x = Ideal.div (finalSt V c (j 0) (j 1) (j 2)).2.2 (finalSt V c (j 0) (j 1) (j 2)).2.1)
    ?_ cover1 (ix3 bh i d)
  intro t hf y
  have h3 : t.val % 4 = 3 := (flush1_3 t).mp hf
  obtain ⟨u, r, dd, rfl⟩ : ∃ (u : Fin 1) (r : Fin 1024) (dd : Fin 64), y = ix3 u r dd := ⟨y 0, y 1, y 2, eq_ix3 y⟩
  obtain rfl : u = 0 := Subsingleton.elim _ _
  obtain ⟨-, -, -, -, -, -, -, -, -, d0, d1, d2⟩ := idx_facts1 t
  have e0 : (((cfg1.win 3).blk t).view.emb (ix3 (0 : Fin 1) r dd) : S32x2048x64.Idx) 0 = bhOf t :=
    Fin.ext (by show win1_3.index t (0 : Fin 3) * 1 + 1 * 0 = t.val / 8; rw [d0]; omega)
  have e1 : (((cfg1.win 3).blk t).view.emb (ix3 (0 : Fin 1) r dd) : S32x2048x64.Idx) 1 = rowOf t r :=
    Fin.ext (by show win1_3.index t (1 : Fin 3) * 1024 + 1 * r.val = t.val / 4 % 2 * 1024 + r.val; rw [d1]; omega)
  have e2 : (((cfg1.win 3).blk t).view.emb (ix3 (0 : Fin 1) r dd) : S32x2048x64.Idx) 2 = dd :=
    Fin.ext (by show win1_3.index t (2 : Fin 3) * 64 + 1 * dd.val = dd.val; rw [d2]; omega)
  show (dat1 (F := Ideal) V c).flushed 3 t (ix3 (0 : Fin 1) r dd) = _
  rw [e0, e1, e2]
  exact flushed1_apply V c t h3 r dd

/-- The same entry as the softmax-weighted sum of the values, at any real shift: the statement the reference's
    row softmax is matched against. It needs the row's scores below `+∞`, the diagonal's first score real and the
    values real. -/
theorem attn_entry_softmax (c : Dev nD) (bh : Fin 32) (i : Fin 2048) (d : Fin 64) (vr : Fin 2048 → ℝ)
    (hv : ∀ j, (V c (Pipeline.arrRef spec1 2) : S32x2048x64.Idx → EReal) (ix3 bh j d) = ((vr j : ℝ) : EReal))
    (hs : ∀ j, score (V c (Pipeline.arrRef spec1 0)) (V c (Pipeline.arrRef spec1 1)) bh i j ≠ ⊤)
    (h0 : score (V c (Pipeline.arrRef spec1 0)) (V c (Pipeline.arrRef spec1 1)) bh i ⟨0, by omega⟩ ≠ ⊥) (R : ℝ) :
    ((dat1 (F := Ideal) V c).arrAt 3 cfg1.N : S32x2048x64.Idx → EReal) (ix3 bh i d)
      = ∑ j : Fin 2048, Ideal.div (Ideal.exp (score (V c (Pipeline.arrRef spec1 0)) (V c (Pipeline.arrRef spec1 1)) bh i j - (R : EReal)))
          (∑ j' : Fin 2048, Ideal.exp (score (V c (Pipeline.arrRef spec1 0)) (V c (Pipeline.arrRef spec1 1)) bh i j' - (R : EReal)))
          * ((vr j : ℝ) : EReal) := by
  rw [attn_entry V c bh i d]
  have hvfun : (fun j => Va V c (ix3 bh j d)) = fun j => ((vr j : ℝ) : EReal) := funext hv
  have k0 : (⟨0, by omega⟩ : Fin 2048) ∈ keyBlock 0 := (mem_keyBlock 0 _).mpr ⟨by show 0 * 512 ≤ 0; omega, by show 0 < 0 * 512 + 512; omega⟩
  have I1 := OnlineSoftmax.visit_first (score (Qa V c) (Ka V c) bh i) hs vr (keyBlock 0) k0 h0
  have I2 := OnlineSoftmax.visit_next (score (Qa V c) (Ka V c) bh i) hs vr (keyBlock 0) (keyBlock 1) (keyBlock_disjoint 0 1 (by decide)) _ I1
  by_cases hi : i.val < 1024
  · have hfin : finalSt V c bh i d
        = OnlineSoftmax.visit (score (Qa V c) (Ka V c) bh i) (fun j => ((vr j : ℝ) : EReal)) (keyBlock 1)
            (OnlineSoftmax.visit (score (Qa V c) (Ka V c) bh i) (fun j => ((vr j : ℝ) : EReal)) (keyBlock 0) (⊥, 0, 0)) := by
      unfold finalSt vis; rw [if_pos hi, hvfun]
    rw [hfin]
    refine OnlineSoftmax.div_eq_softmax (score (Qa V c) (Ka V c) bh i) hs vr (keyBlock 0 ∪ keyBlock 1) (fun k hk => ?_) h0 _ I2 R
    have hk' : ¬k.val ≤ i.val := by
      intro hle
      apply hk
      rw [Finset.mem_union, mem_keyBlock, mem_keyBlock]
      have : k.val < 1024 := by omega
      by_cases h512 : k.val < 512
      · exact Or.inl ⟨by show 0 * 512 ≤ k.val; omega, by show k.val < 0 * 512 + 512; omega⟩
      · exact Or.inr ⟨by show 1 * 512 ≤ k.val; omega, by show k.val < 1 * 512 + 512; omega⟩
    unfold score; rw [if_neg hk']
  · have I3 := OnlineSoftmax.visit_next (score (Qa V c) (Ka V c) bh i) hs vr (keyBlock 0 ∪ keyBlock 1) (keyBlock 2)
      (Finset.disjoint_union_left.mpr ⟨keyBlock_disjoint 0 2 (by decide), keyBlock_disjoint 1 2 (by decide)⟩) _ I2
    have I4 := OnlineSoftmax.visit_next (score (Qa V c) (Ka V c) bh i) hs vr (keyBlock 0 ∪ keyBlock 1 ∪ keyBlock 2) (keyBlock 3)
      (Finset.disjoint_union_left.mpr ⟨Finset.disjoint_union_left.mpr ⟨keyBlock_disjoint 0 3 (by decide), keyBlock_disjoint 1 3 (by decide)⟩,
        keyBlock_disjoint 2 3 (by decide)⟩) _ I3
    have hfin : finalSt V c bh i d
        = OnlineSoftmax.visit (score (Qa V c) (Ka V c) bh i) (fun j => ((vr j : ℝ) : EReal)) (keyBlock 3)
            (OnlineSoftmax.visit (score (Qa V c) (Ka V c) bh i) (fun j => ((vr j : ℝ) : EReal)) (keyBlock 2)
              (OnlineSoftmax.visit (score (Qa V c) (Ka V c) bh i) (fun j => ((vr j : ℝ) : EReal)) (keyBlock 1)
                (OnlineSoftmax.visit (score (Qa V c) (Ka V c) bh i) (fun j => ((vr j : ℝ) : EReal)) (keyBlock 0) (⊥, 0, 0)))) := by
      unfold finalSt vis; rw [if_neg hi, hvfun]
    rw [hfin]
    refine OnlineSoftmax.div_eq_softmax (score (Qa V c) (Ka V c) bh i) hs vr (keyBlock 0 ∪ keyBlock 1 ∪ keyBlock 2 ∪ keyBlock 3)
      (fun k hk => ?_) h0 _ I4 R
    exfalso
    apply hk
    have hk2 : k.val < 2048 := k.isLt
    rw [Finset.mem_union, Finset.mem_union, Finset.mem_union, mem_keyBlock, mem_keyBlock, mem_keyBlock, mem_keyBlock]
    by_cases h1 : k.val < 512
    · exact Or.inl (Or.inl (Or.inl ⟨by show 0 * 512 ≤ k.val; omega, by show k.val < 0 * 512 + 512; omega⟩))
    · by_cases h2 : k.val < 1024
      · exact Or.inl (Or.inl (Or.inr ⟨by show 1 * 512 ≤ k.val; omega, by show k.val < 1 * 512 + 512; omega⟩))
      · by_cases h3 : k.val < 1536
        · exact Or.inl (Or.inr ⟨by show 2 * 512 ≤ k.val; omega, by show k.val < 2 * 512 + 512; omega⟩)
        · exact Or.inr ⟨by show 3 * 512 ≤ k.val; omega, by show k.val < 3 * 512 + 512; omega⟩

end Region1d

end Cert.KernelIdeal.HandValue
end
-- ==== Proof.Algebraic.lean ====
/- The algebraic conjunct: at the exact values the kernel's program and the reference, run from memories that agree on
   the six arguments, end with one result. The kernel's result entry is the output projection of the attention
   region's output; that output entry is the softmax-weighted sum of the values over the row's masked scaled scores;
   the arrays the region reads are the reference's rotated queries and keys and its values, entry by entry; and the
   reference's attention entry is the same weighted sum, taken at the row's maximum, which is a real because every
   argument entry is a real under the precondition. -/
import proofs.«155122_j66666482368602_2_alg».proof.Proof.KernelAfter
import proofs.«155122_j66666482368602_2_alg».proof.Proof.RefSide
import proofs.«155122_j66666482368602_2_alg».proof.Proof.AttnValue
import proofs.«155122_j66666482368602_2_alg».proof.Proof.Finite

noncomputable section

open scoped BigOperators

namespace Cert.Proof.Alg

open Idealize.ShloMosaic Idealize.ShloMosaic.TcCoe Idealize.SL.Sem Idealize.ShloMosaic.ValueIdx
open Cert.KernelIdeal Cert.KernelIdeal.Gen
open Cert.KernelIdeal.Hand (W13 W10 En9 W10_arr dat1)
open Cert.KernelIdeal.HandValue (swapLane inputOf positionsOf queryWeightOf keyWeightOf valueWeightOf outputWeightOf projBy
  entered_queries entered_keys entered_values attendedOf result_entry score attn_entry_softmax)

namespace RV
export Cert.ReferenceIdeal.RefValue (refOut proj heads rope ctx softmaxRow masked scores merge mscore rowMax swap
  refOut_apply merge_apply ref_ctx_entry rowMax_real mscore_ne_top mscore_diag_ne_bot proj_real heads_real rope_real
  rope_apply heads_apply proj_apply)
end RV

/-- The two spellings of a lane's partner in its pair are one number. -/
theorem swap_eq : ∀ d : Fin 64, RV.swap d = swapLane d := by decide

section
variable (m : (ℓ : Loc nD τ sig) → Buf (Elt Ideal) ℓ) (ρ : Dev nD → PrngReg) (c : Dev nD)

/-- The three arrays the attention region is entered with. -/
abbrev qK : S32x2048x64.Idx → EReal := En9 (F := Ideal) m ρ c (Pipeline.arrRef spec1 0)
abbrev kK : S32x64x2048.Idx → EReal := En9 (F := Ideal) m ρ c (Pipeline.arrRef spec1 1)
abbrev vK : S32x2048x64.Idx → EReal := En9 (F := Ideal) m ρ c (Pipeline.arrRef spec1 2)

/-- The reference's rotated queries, rotated keys and values of the launch arguments. -/
abbrev Qr : S2x16x2048x64.Idx → EReal :=
  RV.rope (RV.heads (RV.proj (F := Ideal) (inputOf m c) (queryWeightOf m c))) (positionsOf m c)
abbrev Kr : S2x16x2048x64.Idx → EReal :=
  RV.rope (RV.heads (RV.proj (F := Ideal) (inputOf m c) (keyWeightOf m c))) (positionsOf m c)
abbrev Vr : S2x16x2048x64.Idx → EReal := RV.heads (RV.proj (F := Ideal) (inputOf m c) (valueWeightOf m c))

/-- The head-batch index of batch `b`, head `h`. -/
abbrev bhOf (b : Fin 2) (h : Fin 16) : Fin 32 := ⟨b.val * 16 + h.val, by omega⟩

/-- The kernel's rotated queries are the reference's, entry by entry. -/
theorem q_entry (b : Fin 2) (h : Fin 16) (s : Fin 2048) (d : Fin 64) :
    qK m ρ c (ix3 (bhOf b h) s d) = Qr m c (ix4 b h s d) := by
  refine (entered_queries m ρ c b h s d).trans ?_
  unfold Qr projBy
  rw [RV.rope_apply, RV.heads_apply, RV.heads_apply, RV.proj_apply, RV.proj_apply, swap_eq]
  rfl

/-- The kernel's rotated keys, lanes before positions, are the reference's. -/
theorem k_entry (b : Fin 2) (h : Fin 16) (s : Fin 2048) (d : Fin 64) :
    kK m ρ c (ix3 (bhOf b h) d s) = Kr m c (ix4 b h s d) := by
  refine (entered_keys m ρ c b h s d).trans ?_
  unfold Kr projBy
  rw [RV.rope_apply, RV.heads_apply, RV.heads_apply, RV.proj_apply, RV.proj_apply, swap_eq]
  rfl

/-- The kernel's values are the reference's. -/
theorem v_entry (b : Fin 2) (h : Fin 16) (s : Fin 2048) (d : Fin 64) :
    vK m ρ c (ix3 (bhOf b h) s d) = Vr m c (ix4 b h s d) := by
  refine (entered_values m ρ c b h s d).trans ?_
  unfold Vr projBy
  rw [RV.heads_apply, RV.proj_apply]

/-- The masked scaled scores agree. -/
theorem score_eq (b : Fin 2) (h : Fin 16) (i j : Fin 2048) :
    score (qK m ρ c) (kK m ρ c) (bhOf b h) i j = RV.mscore (Qr m c) (Kr m c) b h i j := by
  unfold score Cert.ReferenceIdeal.RefValue.mscore
  refine if_congr Iff.rfl ?_ rfl
  refine congrArg (· * _) (Finset.sum_congr rfl fun dd _ => ?_)
  rw [q_entry, k_entry]

/-- The attention region's output entry is the reference's attention entry, under the precondition. -/
theorem attended_entry (hpre : Cert.Pre_KernelIdeal (hPre_finite_inputs := Cert.Pre_finite_inputs.Gen.facts) m)
    (b : Fin 2) (h : Fin 16) (s : Fin 2048) (d : Fin 64) :
    attendedOf m ρ c (ix3 (bhOf b h) s d)
      = RV.ctx (F := Ideal) (RV.softmaxRow (F := Ideal) (RV.masked (F := Ideal) (RV.scores (F := Ideal) (Qr m c) (Kr m c))))
          (Vr m c) (ix4 b h s d) := by
  obtain ⟨hx, hwq, hwk, hwv, -⟩ := Cert.Finite.real_of_pre (inputOf m c) (positionsOf m c) (queryWeightOf m c)
    (keyWeightOf m c) (valueWeightOf m c) (outputWeightOf m c) (hpre c)
  have hQ := RV.rope_real (RV.heads_real (RV.proj_real hx hwq)) (positionsOf m c)
  have hK := RV.rope_real (RV.heads_real (RV.proj_real hx hwk)) (positionsOf m c)
  have hV := RV.heads_real (RV.proj_real hx hwv)
  obtain ⟨R, hR⟩ := RV.rowMax_real hQ hK b h s
  choose vr hvr using fun j : Fin 2048 => hV (ix4 b h j d)
  have hv : ∀ j, vK m ρ c (ix3 (bhOf b h) j d) = (vr j : EReal) := fun j => (v_entry m ρ c b h j d).trans (hvr j)
  have hs : ∀ j, score (qK m ρ c) (kK m ρ c) (bhOf b h) s j ≠ ⊤ := fun j => by
    rw [score_eq]; exact RV.mscore_ne_top hQ hK b h s j
  have h0 : score (qK m ρ c) (kK m ρ c) (bhOf b h) s ⟨0, by omega⟩ ≠ ⊥ := by
    rw [score_eq]; exact RV.mscore_diag_ne_bot hQ hK b h s
  have e : attendedOf m ρ c = ((dat1 (F := Ideal) (En9 (F := Ideal) m ρ) c).arrAt 3 cfg1.N : S32x2048x64.Idx → EReal) :=
    W10_arr m ρ c 3
  rw [e]
  refine (attn_entry_softmax (En9 (F := Ideal) m ρ) c (bhOf b h) s d vr hv hs h0 R).trans ?_
  rw [RV.ref_ctx_entry, hR]
  show @Eq EReal _ _
  refine Finset.sum_congr rfl fun j _ => ?_
  have hsc : ∀ j', score (En9 (F := Ideal) m ρ c (Pipeline.arrRef spec1 0)) (En9 (F := Ideal) m ρ c (Pipeline.arrRef spec1 1))
      (bhOf b h) s j' = RV.mscore (Qr m c) (Kr m c) b h s j' := fun j' => score_eq m ρ c b h s j'
  refine congrArg₂ (· * ·) ?_ (hvr j).symm
  rw [hsc j]
  exact congrArg (Ideal.div _) (Finset.sum_congr rfl fun j' _ => by rw [hsc j'])

/-- THE KERNEL'S VALUE: under the precondition the kernel's result array is the reference's result term of the launch
    arguments. -/
theorem kernel_value (hpre : Cert.Pre_KernelIdeal (hPre_finite_inputs := Cert.Pre_finite_inputs.Gen.facts) m) :
    (W13 (F := Ideal) m ρ c (Proc.devRef .tc main_v81) : S2x2048x1024.Idx → EReal)
      = RV.refOut (F := Ideal) (inputOf m c) (positionsOf m c) (queryWeightOf m c) (keyWeightOf m c) (valueWeightOf m c)
          (outputWeightOf m c) := by
  funext idx
  obtain ⟨b, s, o, rfl⟩ : ∃ (b : Fin 2) (s : Fin 2048) (o : Fin 1024), idx = ix3 b s o := ⟨idx 0, idx 1, idx 2, eq_ix3 idx⟩
  rw [result_entry, RV.refOut_apply]
  show @Eq EReal _ _
  refine Finset.sum_congr rfl fun mm _ => ?_
  refine congrArg (· * _) ?_
  have hlt : mm.val / 64 < 16 := by have := mm.isLt; omega
  have hmm : mm = (⟨(⟨mm.val / 64, hlt⟩ : Fin 16).val * 64 + (⟨mm.val % 64, by omega⟩ : Fin 64).val, by omega⟩ : Fin 1024) :=
    Fin.ext (by show mm.val = mm.val / 64 * 64 + mm.val % 64; omega)
  refine (attended_entry m ρ c hpre b ⟨mm.val / 64, hlt⟩ s ⟨mm.val % 64, by omega⟩).trans ?_
  refine (RV.merge_apply _ b ⟨mm.val / 64, hlt⟩ s ⟨mm.val % 64, by omega⟩).symm.trans ?_
  rw [← hmm]

end

/-! ## The claim -/

/-- At the exact values the kernel's program and the reference, from memories agreeing on the arguments, both run and
    end with the reference's result term of the arguments, and leave the arguments as they found them. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => RV.refOut (F := Ideal) (inputOf m c) (positionsOf m c) (queryWeightOf m c) (keyWeightOf m c)
      (valueWeightOf m c) (outputWeightOf m c), ?_, ?_⟩
  · exact (θ_run Cert.KernelIdeal.defs _ _).mono (fun _ h c =>
      ⟨(h c Cert.KernelIdeal.main_v81 (by decide)).trans (kernel_value m ρ c hpre),
        (h c Cert.KernelIdeal.main_arg0 (by decide)).trans (Cert.KernelIdeal.Hand.W13_main_arg0 m ρ c),
        (h c Cert.KernelIdeal.main_arg1 (by decide)).trans (Cert.KernelIdeal.Hand.W13_main_arg1 m ρ c),
        (h c Cert.KernelIdeal.main_arg2 (by decide)).trans (Cert.KernelIdeal.Hand.W13_main_arg2 m ρ c),
        (h c Cert.KernelIdeal.main_arg3 (by decide)).trans (Cert.KernelIdeal.Hand.W13_main_arg3 m ρ c),
        (h c Cert.KernelIdeal.main_arg4 (by decide)).trans (Cert.KernelIdeal.Hand.W13_main_arg4 m ρ c),
        (h c Cert.KernelIdeal.main_arg5 (by decide)).trans (Cert.KernelIdeal.Hand.W13_main_arg5 m ρ c)⟩)
      (Cert.KernelIdeal.Hand.run_all (F := Ideal) m ρ)
  · refine (θ_run Cert.ReferenceIdeal.defs _ _).mono (fun _ h c =>
      ⟨(h c Cert.ReferenceIdeal.main_v120).trans ?_,
        (h c Cert.ReferenceIdeal.main_arg0).trans (Cert.ReferenceIdeal.RefRun.ops_keep _ Cert.ReferenceIdeal.main_arg0 (by decide) (by decide) (by decide)),
        (h c Cert.ReferenceIdeal.main_arg1).trans (Cert.ReferenceIdeal.RefRun.ops_keep _ Cert.ReferenceIdeal.main_arg1 (by decide) (by decide) (by decide)),
        (h c Cert.ReferenceIdeal.main_arg2).trans (Cert.ReferenceIdeal.RefRun.ops_keep _ Cert.ReferenceIdeal.main_arg2 (by decide) (by decide) (by decide)),
        (h c Cert.ReferenceIdeal.main_arg3).trans (Cert.ReferenceIdeal.RefRun.ops_keep _ Cert.ReferenceIdeal.main_arg3 (by decide) (by decide) (by decide)),
        (h c Cert.ReferenceIdeal.main_arg4).trans (Cert.ReferenceIdeal.RefRun.ops_keep _ Cert.ReferenceIdeal.main_arg4 (by decide) (by decide) (by decide)),
        (h c Cert.ReferenceIdeal.main_arg5).trans (Cert.ReferenceIdeal.RefRun.ops_keep _ Cert.ReferenceIdeal.main_arg5 (by decide) (by decide) (by decide))⟩)
      (Cert.ReferenceIdeal.RefRun.run_main (F := Ideal) m' ρ')
    obtain ⟨a0, a1, a2, a3, a4, a5⟩ := hagree c
    refine (Cert.ReferenceIdeal.RefValue.out_eq _).trans ?_
    show RV.refOut (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [a0, a1, a2, a3, a4, a5]

end Cert.Proof.Alg
end
-- ==== Proof.lean ====
/-
  The certificate of the causal multi-head attention layer: three pallas_calls (a fused projection, an attention
  kernel with an online softmax carried in scratch over the key blocks, an output projection) with the rotary
  embedding and the head split done on the host, against the plain jnp reference.

  The three frames: each program is a run of host stretches and kernel regions (the reference: host operations only);
  no stretch and no region writes an argument array. The idealization names one literal, the finite stand-in for
  −∞ the kernel masks with. At the ideal values both programs compute, for every batch, position and output
  feature, the same sum over heads and key positions of softmax weights times projected values: the kernel's block
  by block accumulation with rescaling is the reference's row softmax because rescaling multiplies numerator and
  denominator by one common factor.
-/
import proofs.«155122_j66666482368602_2_alg».proof.Defs
import proofs.«155122_j66666482368602_2_alg».proof.Proof.Gen.Kernel
import proofs.«155122_j66666482368602_2_alg».proof.Proof.Gen.KernelIdeal
import proofs.«155122_j66666482368602_2_alg».proof.Proof.Gen.ReferenceIdeal
import proofs.«155122_j66666482368602_2_alg».proof.Proof.Gen.Pre_finite_inputs
import proofs.«155122_j66666482368602_2_alg».proof.Proof.KernelRun
import proofs.«155122_j66666482368602_2_alg».proof.Proof.KernelIdealRun
import proofs.«155122_j66666482368602_2_alg».proof.Proof.RefRun
import proofs.«155122_j66666482368602_2_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The one rewrite of the idealization: the mask's fill value is read as −∞. -/
theorem preserves : Cert.preserves_Kernel_KernelIdeal :=
  IdealRules.named_const.statement Cert.KernelIdeal.κ "neg_big" .f32 0xFF333332#32 ⊥ rfl

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame, preserves, Cert.Proof.Alg.algebraic⟩

end Cert.Proof

end
